-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v314) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S28x64x64 : Shape := ⟨3, ![28, 64, 64]⟩
abbrev S28x64 : Shape := ⟨2, ![28, 64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S28x64x64 : S_.BroadcastsInDim S28x64x64 (![] : Fin 0 → Fin S28x64x64.rank)
  reducesTo_S28x64x64_S_d0_1_2 : S28x64x64.ReducesTo [0, 1, 2] S_
  bcast_S_S28x64 : S_.BroadcastsInDim S28x64 (![] : Fin 0 → Fin S28x64.rank)
  reducesTo_S28x64_S_d0_1 : S28x64.ReducesTo [0, 1] S_

variable [Facts]

def fn {F : FTy → Type} [FloatOps F] (main_arg0 : FVec F S262144x64 .f32) (main_arg1 : FVec F S28x64x64 .f32) (main_arg2 : FVec F S28x64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S28x64x64 .f32 := Host.absf main_arg1
  let main_cst_0 : FVec F S_ .f32 := constant S_ .f32 0x7F800000#32
  let main_v5 : FVec F S28x64x64 .f32 := broadcastInDim S28x64x64 ![] bcast_S_S28x64x64 main_cst_0
  let main_v6 : IVec S28x64x64 1 := cmpf .olt main_v4 main_v5
  let main_c_1 : IVec S_ 1 := constantI S_ 1 1#1
  let main_v7 : IVec S_ 1 := (fun x v => Host.reduce IntOp.andi x v reducesTo_S28x64x64_S_d0_1_2 h_S_) main_v6 main_c_1
  let main_v8 : IVec S_ 1 := andi main_v3 main_v7
  let main_v9 : FVec F S28x64 .f32 := Host.absf main_arg2
  let main_cst_2 : FVec F S_ .f32 := constant S_ .f32 0x7F800000#32
  let main_v10 : FVec F S28x64 .f32 := broadcastInDim S28x64 ![] bcast_S_S28x64 main_cst_2
  let main_v11 : IVec S28x64 1 := cmpf .olt main_v9 main_v10
  let main_c_3 : IVec S_ 1 := constantI S_ 1 1#1
  let main_v12 : IVec S_ 1 := (fun x v => Host.reduce IntOp.andi x v reducesTo_S28x64_S_d0_1 h_S_) main_v11 main_c_3
  let main_v13 : IVec S_ 1 := andi main_v8 main_v12
  main_v13
-- ==== Kernel.lean ====
abbrev S262144x64 : Shape := ⟨2, ![262144, 64]⟩
abbrev S28x64x64 : Shape := ⟨3, ![28, 64, 64]⟩
abbrev S28x64 : Shape := ⟨2, ![28, 64]⟩
abbrev S64x28x64 : Shape := ⟨3, ![64, 28, 64]⟩
abbrev S64x1792 : Shape := ⟨2, ![64, 1792]⟩
abbrev S1x1792 : Shape := ⟨2, ![1, 1792]⟩
abbrev S4096x64 : Shape := ⟨2, ![4096, 64]⟩
abbrev S6x4096x64 : Shape := ⟨3, ![6, 4096, 64]⟩
abbrev S1x4096x64 : Shape := ⟨3, ![1, 4096, 64]⟩
abbrev S64x448 : Shape := ⟨2, ![64, 448]⟩
abbrev S1x448 : Shape := ⟨2, ![1, 448]⟩
abbrev S4096x448 : Shape := ⟨2, ![4096, 448]⟩
abbrev S64x384 : Shape := ⟨2, ![64, 384]⟩
abbrev S1x384 : Shape := ⟨2, ![1, 384]⟩
abbrev S4096x384 : Shape := ⟨2, ![4096, 384]⟩
abbrev S64x320 : Shape := ⟨2, ![64, 320]⟩
abbrev S1x320 : Shape := ⟨2, ![1, 320]⟩
abbrev S4096x320 : Shape := ⟨2, ![4096, 320]⟩
abbrev S64x256 : Shape := ⟨2, ![64, 256]⟩
abbrev S1x256 : Shape := ⟨2, ![1, 256]⟩
abbrev S4096x256 : Shape := ⟨2, ![4096, 256]⟩
abbrev S64x192 : Shape := ⟨2, ![64, 192]⟩
abbrev S1x192 : Shape := ⟨2, ![1, 192]⟩
abbrev S4096x192 : Shape := ⟨2, ![4096, 192]⟩
abbrev S64x128 : Shape := ⟨2, ![64, 128]⟩
abbrev S1x128 : Shape := ⟨2, ![1, 128]⟩
abbrev S4096x128 : Shape := ⟨2, ![4096, 128]⟩
abbrev S64x64 : Shape := ⟨2, ![64, 64]⟩
abbrev S1x64 : Shape := ⟨2, ![1, 64]⟩

abbrev nBuf : Space → Nat
  | .hbm => 9
  | .vmem => 7
  | .smem => 0
  | _ => 0

abbrev bufTy : (tb : Table) → Fin (tcTables nBuf tb) → BufTy
  | .hbm, ⟨0, _⟩ => ⟨S262144x64, .f32⟩
  | .hbm, ⟨1, _⟩ => ⟨S28x64x64, .f32⟩
  | .hbm, ⟨2, _⟩ => ⟨S28x64, .f32⟩
  | .hbm, ⟨3, _⟩ => ⟨S28x64x64, .f32⟩
  | .hbm, ⟨4, _⟩ => ⟨S64x28x64, .f32⟩
  | .hbm, ⟨5, _⟩ => ⟨S64x1792, .f32⟩
  | .hbm, ⟨6, _⟩ => ⟨S64x1792, .bf16⟩
  | .hbm, ⟨7, _⟩ => ⟨S1x1792, .f32⟩
  | .hbm, ⟨8, _⟩ => ⟨S262144x64, .f32⟩
  | .local _ .vmem, ⟨0, _⟩ => ⟨S4096x64, .f32⟩
  | .local _ .vmem, ⟨1, _⟩ => ⟨S4096x64, .f32⟩
  | .local _ .vmem, ⟨2, _⟩ => ⟨S64x1792, .bf16⟩
  | .local _ .vmem, ⟨3, _⟩ => ⟨S1x1792, .f32⟩
  | .local _ .vmem, ⟨4, _⟩ => ⟨S4096x64, .f32⟩
  | .local _ .vmem, ⟨5, _⟩ => ⟨S4096x64, .f32⟩
  | .local _ .vmem, ⟨6, _⟩ => ⟨S6x4096x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S28x64x64_S28x64x64_0_2_1 : S28x64x64.Transposes [0, 2, 1] S28x64x64
  transposes_S28x64x64_S64x28x64_1_0_2 : S28x64x64.Transposes [1, 0, 2] S64x28x64
  shapeCasts_S64x28x64_S64x1792 : S64x28x64.ShapeCasts S64x1792
  bitsLt_bf16_f32 : FTy.bits .bf16 < FTy.bits .f32
  shapeCasts_S28x64_S1x1792 : S28x64.ShapeCasts S1x1792
  inb_S6x4096x64_S1x4096x64_0_0_0 : ∀ a, (![0, 0, 0] : Fin 3 → Nat) a + S1x4096x64.size a ≤ S6x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  inb_S6x4096x64_S1x4096x64_1_0_0 : ∀ a, (![1, 0, 0] : Fin 3 → Nat) a + S1x4096x64.size a ≤ S6x4096x64.size a
  inb_S6x4096x64_S1x4096x64_2_0_0 : ∀ a, (![2, 0, 0] : Fin 3 → Nat) a + S1x4096x64.size a ≤ S6x4096x64.size a
  inb_S6x4096x64_S1x4096x64_3_0_0 : ∀ a, (![3, 0, 0] : Fin 3 → Nat) a + S1x4096x64.size a ≤ S6x4096x64.size a
  inb_S6x4096x64_S1x4096x64_4_0_0 : ∀ a, (![4, 0, 0] : Fin 3 → Nat) a + S1x4096x64.size a ≤ S6x4096x64.size a
  inb_S6x4096x64_S1x4096x64_5_0_0 : ∀ a, (![5, 0, 0] : Fin 3 → Nat) a + S1x4096x64.size a ≤ S6x4096x64.size a
  inb_S4096x64_S4096x64_0_0 : ∀ a, (![0, 0] : Fin 2 → Nat) a + S4096x64.size a ≤ S4096x64.size a
  h_S4096x64 : 0 < S4096x64.numel
  inb_S64x1792_S64x448_0_0 : ∀ a, (![0, 0] : Fin 2 → Nat) a + S64x448.size a ≤ S64x1792.size a
  h_S64x448 : 0 < S64x448.numel
  shapeCasts_S64x448_S64x448 : S64x448.ShapeCasts S64x448
  inb_S1x1792_S1x448_0_0 : ∀ a, (![0, 0] : Fin 2 → Nat) a + S1x448.size a ≤ S1x1792.size a
  h_S1x448 : 0 < S1x448.numel
  shapeCasts_S1x448_S1x448 : S1x448.ShapeCasts S1x448
  broadcasts_S1x448_S4096x448 : S1x448.Broadcasts S4096x448
  slices_S4096x448_o0_0_S4096x64 : S4096x448.Slices ![0, 0] S4096x64
  slices_S4096x448_o0_64_S4096x64 : S4096x448.Slices ![0, 64] S4096x64
  slices_S4096x448_o0_128_S4096x64 : S4096x448.Slices ![0, 128] S4096x64
  slices_S4096x448_o0_192_S4096x64 : S4096x448.Slices ![0, 192] S4096x64
  slices_S4096x448_o0_256_S4096x64 : S4096x448.Slices ![0, 256] S4096x64
  slices_S4096x448_o0_320_S4096x64 : S4096x448.Slices ![0, 320] S4096x64
  slices_S4096x448_o0_384_S4096x64 : S4096x448.Slices ![0, 384] S4096x64
  shapeCasts_S4096x64_S4096x64 : S4096x64.ShapeCasts S4096x64
  inb_S64x1792_S64x384_0_448 : ∀ a, (![0, 448] : Fin 2 → Nat) a + S64x384.size a ≤ S64x1792.size a
  h_S64x384 : 0 < S64x384.numel
  shapeCasts_S64x384_S64x384 : S64x384.ShapeCasts S64x384
  inb_S1x1792_S1x384_0_448 : ∀ a, (![0, 448] : Fin 2 → Nat) a + S1x384.size a ≤ S1x1792.size a
  h_S1x384 : 0 < S1x384.numel
  shapeCasts_S1x384_S1x384 : S1x384.ShapeCasts S1x384
  broadcasts_S1x384_S4096x384 : S1x384.Broadcasts S4096x384
  slices_S4096x384_o0_0_S4096x64 : S4096x384.Slices ![0, 0] S4096x64
  slices_S4096x384_o0_64_S4096x64 : S4096x384.Slices ![0, 64] S4096x64
  slices_S4096x384_o0_128_S4096x64 : S4096x384.Slices ![0, 128] S4096x64
  slices_S4096x384_o0_192_S4096x64 : S4096x384.Slices ![0, 192] S4096x64
  slices_S4096x384_o0_256_S4096x64 : S4096x384.Slices ![0, 256] S4096x64
  slices_S4096x384_o0_320_S4096x64 : S4096x384.Slices ![0, 320] S4096x64
  inb_S64x1792_S64x320_0_832 : ∀ a, (![0, 832] : Fin 2 → Nat) a + S64x320.size a ≤ S64x1792.size a
  h_S64x320 : 0 < S64x320.numel
  shapeCasts_S64x320_S64x320 : S64x320.ShapeCasts S64x320
  inb_S1x1792_S1x320_0_832 : ∀ a, (![0, 832] : Fin 2 → Nat) a + S1x320.size a ≤ S1x1792.size a
  h_S1x320 : 0 < S1x320.numel
  shapeCasts_S1x320_S1x320 : S1x320.ShapeCasts S1x320
  broadcasts_S1x320_S4096x320 : S1x320.Broadcasts S4096x320
  slices_S4096x320_o0_0_S4096x64 : S4096x320.Slices ![0, 0] S4096x64
  slices_S4096x320_o0_64_S4096x64 : S4096x320.Slices ![0, 64] S4096x64
  slices_S4096x320_o0_128_S4096x64 : S4096x320.Slices ![0, 128] S4096x64
  slices_S4096x320_o0_192_S4096x64 : S4096x320.Slices ![0, 192] S4096x64
  slices_S4096x320_o0_256_S4096x64 : S4096x320.Slices ![0, 256] S4096x64
  inb_S64x1792_S64x256_0_1152 : ∀ a, (![0, 1152] : Fin 2 → Nat) a + S64x256.size a ≤ S64x1792.size a
  h_S64x256 : 0 < S64x256.numel
  shapeCasts_S64x256_S64x256 : S64x256.ShapeCasts S64x256
  inb_S1x1792_S1x256_0_1152 : ∀ a, (![0, 1152] : Fin 2 → Nat) a + S1x256.size a ≤ S1x1792.size a
  h_S1x256 : 0 < S1x256.numel
  shapeCasts_S1x256_S1x256 : S1x256.ShapeCasts S1x256
  broadcasts_S1x256_S4096x256 : S1x256.Broadcasts S4096x256
  slices_S4096x256_o0_0_S4096x64 : S4096x256.Slices ![0, 0] S4096x64
  slices_S4096x256_o0_64_S4096x64 : S4096x256.Slices ![0, 64] S4096x64
  slices_S4096x256_o0_128_S4096x64 : S4096x256.Slices ![0, 128] S4096x64
  slices_S4096x256_o0_192_S4096x64 : S4096x256.Slices ![0, 192] S4096x64
  inb_S64x1792_S64x192_0_1408 : ∀ a, (![0, 1408] : Fin 2 → Nat) a + S64x192.size a ≤ S64x1792.size a
  h_S64x192 : 0 < S64x192.numel
  shapeCasts_S64x192_S64x192 : S64x192.ShapeCasts S64x192
  inb_S1x1792_S1x192_0_1408 : ∀ a, (![0, 1408] : Fin 2 → Nat) a + S1x192.size a ≤ S1x1792.size a
  h_S1x192 : 0 < S1x192.numel
  shapeCasts_S1x192_S1x192 : S1x192.ShapeCasts S1x192
  broadcasts_S1x192_S4096x192 : S1x192.Broadcasts S4096x192
  slices_S4096x192_o0_0_S4096x64 : S4096x192.Slices ![0, 0] S4096x64
  slices_S4096x192_o0_64_S4096x64 : S4096x192.Slices ![0, 64] S4096x64
  slices_S4096x192_o0_128_S4096x64 : S4096x192.Slices ![0, 128] S4096x64
  inb_S64x1792_S64x128_0_1600 : ∀ a, (![0, 1600] : Fin 2 → Nat) a + S64x128.size a ≤ S64x1792.size a
  h_S64x128 : 0 < S64x128.numel
  shapeCasts_S64x128_S64x128 : S64x128.ShapeCasts S64x128
  inb_S1x1792_S1x128_0_1600 : ∀ a, (![0, 1600] : Fin 2 → Nat) a + S1x128.size a ≤ S1x1792.size a
  h_S1x128 : 0 < S1x128.numel
  shapeCasts_S1x128_S1x128 : S1x128.ShapeCasts S1x128
  broadcasts_S1x128_S4096x128 : S1x128.Broadcasts S4096x128
  slices_S4096x128_o0_0_S4096x64 : S4096x128.Slices ![0, 0] S4096x64
  slices_S4096x128_o0_64_S4096x64 : S4096x128.Slices ![0, 64] S4096x64
  inb_S64x1792_S64x64_0_1728 : ∀ a, (![0, 1728] : Fin 2 → Nat) a + S64x64.size a ≤ S64x1792.size a
  h_S64x64 : 0 < S64x64.numel
  shapeCasts_S64x64_S64x64 : S64x64.ShapeCasts S64x64
  inb_S1x1792_S1x64_0_1728 : ∀ a, (![0, 1728] : Fin 2 → Nat) a + S1x64.size a ≤ S1x1792.size a
  h_S1x64 : 0 < S1x64.numel
  shapeCasts_S1x64_S1x64 : S1x64.ShapeCasts S1x64
  broadcasts_S1x64_S4096x64 : S1x64.Broadcasts S4096x64
  dot_S4096x64_S64x448_S4096x448_1_0_0_1_n_n_wf : DotDims.WF S4096x64 S64x448 S4096x448 [1] [0] [0] [1] [] []
  dot_S4096x64_S64x384_S4096x384_1_0_0_1_n_n_wf : DotDims.WF S4096x64 S64x384 S4096x384 [1] [0] [0] [1] [] []
  dot_S4096x64_S64x320_S4096x320_1_0_0_1_n_n_wf : DotDims.WF S4096x64 S64x320 S4096x320 [1] [0] [0] [1] [] []
  dot_S4096x64_S64x256_S4096x256_1_0_0_1_n_n_wf : DotDims.WF S4096x64 S64x256 S4096x256 [1] [0] [0] [1] [] []
  dot_S4096x64_S64x192_S4096x192_1_0_0_1_n_n_wf : DotDims.WF S4096x64 S64x192 S4096x192 [1] [0] [0] [1] [] []
  dot_S4096x64_S64x128_S4096x128_1_0_0_1_n_n_wf : DotDims.WF S4096x64 S64x128 S4096x128 [1] [0] [0] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1792.size a ≤ S64x1792.size a
  hwx0_1 : ∀ i : grid0.Coords, EltTy.bits .bf16 = 32 ∨ (Rect.block (s := S64x1792) S64x1792.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1792.size a ≤ S1x1792.size a
  hwx0_2 : ∀ i : grid0.Coords, EltTy.bits .f32 = 32 ∨ (Rect.block (s := S1x1792) S1x1792.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S262144x64.size a
  hwx0_3 : ∀ i : grid0.Coords, EltTy.bits .f32 = 32 ∨ (Rect.block (s := S262144x64) S4096x64.size (cc0_transform_3 i) (hinb0_3 i)).WholeWords (EltTy.packing .f32)

variable [Facts₀]

def dot_S4096x64_S64x448_S4096x448_1_0_0_1_n_n : DotDims S4096x64 S64x448 S4096x448 where
  lhsContracting := [1]
  rhsContracting := [0]
  lhsNonContracting := [0]
  rhsNonContracting := [1]
  lhsBatch := []
  rhsBatch := []
  wf := dot_S4096x64_S64x448_S4096x448_1_0_0_1_n_n_wf
def dot_S4096x64_S64x384_S4096x384_1_0_0_1_n_n : DotDims S4096x64 S64x384 S4096x384 where
  lhsContracting := [1]
  rhsContracting := [0]
  lhsNonContracting := [0]
  rhsNonContracting := [1]
  lhsBatch := []
  rhsBatch := []
  wf := dot_S4096x64_S64x384_S4096x384_1_0_0_1_n_n_wf
def dot_S4096x64_S64x320_S4096x320_1_0_0_1_n_n : DotDims S4096x64 S64x320 S4096x320 where
  lhsContracting := [1]
  rhsContracting := [0]
  lhsNonContracting := [0]
  rhsNonContracting := [1]
  lhsBatch := []
  rhsBatch := []
  wf := dot_S4096x64_S64x320_S4096x320_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x64_S64x192_S4096x192_1_0_0_1_n_n : DotDims S4096x64 S64x192 S4096x192 where
  lhsContracting := [1]
  rhsContracting := [0]
  lhsNonContracting := [0]
  rhsNonContracting := [1]
  lhsBatch := []
  rhsBatch := []
  wf := dot_S4096x64_S64x192_S4096x192_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x1792.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1792.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x64 : Shape := ⟨2, ![262144, 64]⟩
abbrev S28x64x64 : Shape := ⟨3, ![28, 64, 64]⟩
abbrev S28x64 : Shape := ⟨2, ![28, 64]⟩
abbrev S_ : Shape := ⟨0, ![]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 381
  | .vmem => 0
  | .smem => 0
  | _ => 0

abbrev hbmTy0_0 (i : Nat) : BufTy := match i % 128 with
  | 0 => ⟨S262144x64, .f32⟩
  | 1 => ⟨S28x64x64, .f32⟩
  | 2 => ⟨S28x64, .f32⟩
  | 3 => ⟨S_, .f32⟩
  | 4 => ⟨S262144x64, .f32⟩
  | 5 => ⟨S_, .f32⟩
  | 6 => ⟨S262144x64, .f32⟩
  | 7 => ⟨S_, .f32⟩
  | 8 => ⟨S262144x64, .f32⟩
  | 9 => ⟨S_, .f32⟩
  | 10 => ⟨S262144x64, .f32⟩
  | 11 => ⟨S_, .f32⟩
  | 12 => ⟨S262144x64, .f32⟩
  | 13 => ⟨S_, .f32⟩
  | 14 => ⟨S262144x64, .f32⟩
  | 15 => ⟨S_, .f32⟩
  | 16 => ⟨S262144x64, .f32⟩
  | 17 => ⟨S1x64x64, .f32⟩
  | 18 => ⟨S64x64, .f32⟩
  | 19 => ⟨S64x64, .f32⟩
  | 20 => ⟨S262144x64, .f32⟩
  | 21 => ⟨S1x64, .f32⟩
  | 22 => ⟨S64, .f32⟩
  | 23 => ⟨S1x64, .f32⟩
  | 24 => ⟨S262144x64, .f32⟩
  | 25 => ⟨S262144x64, .f32⟩
  | 26 => ⟨S_, .f32⟩
  | 27 => ⟨S262144x64, .f32⟩
  | 28 => ⟨S262144x64, .f32⟩
  | 29 => ⟨S262144x64, .f32⟩
  | 30 => ⟨S1x64x64, .f32⟩
  | 31 => ⟨S64x64, .f32⟩
  | 32 => ⟨S64x64, .f32⟩
  | 33 => ⟨S262144x64, .f32⟩
  | 34 => ⟨S1x64, .f32⟩
  | 35 => ⟨S64, .f32⟩
  | 36 => ⟨S1x64, .f32⟩
  | 37 => ⟨S262144x64, .f32⟩
  | 38 => ⟨S262144x64, .f32⟩
  | 39 => ⟨S_, .f32⟩
  | 40 => ⟨S262144x64, .f32⟩
  | 41 => ⟨S262144x64, .f32⟩
  | 42 => ⟨S262144x64, .f32⟩
  | 43 => ⟨S1x64x64, .f32⟩
  | 44 => ⟨S64x64, .f32⟩
  | 45 => ⟨S64x64, .f32⟩
  | 46 => ⟨S262144x64, .f32⟩
  | 47 => ⟨S1x64, .f32⟩
  | 48 => ⟨S64, .f32⟩
  | 49 => ⟨S1x64, .f32⟩
  | 50 => ⟨S262144x64, .f32⟩
  | 51 => ⟨S262144x64, .f32⟩
  | 52 => ⟨S_, .f32⟩
  | 53 => ⟨S262144x64, .f32⟩
  | 54 => ⟨S262144x64, .f32⟩
  | 55 => ⟨S262144x64, .f32⟩
  | 56 => ⟨S1x64x64, .f32⟩
  | 57 => ⟨S64x64, .f32⟩
  | 58 => ⟨S64x64, .f32⟩
  | 59 => ⟨S262144x64, .f32⟩
  | 60 => ⟨S1x64, .f32⟩
  | 61 => ⟨S64, .f32⟩
  | 62 => ⟨S1x64, .f32⟩
  | 63 => ⟨S262144x64, .f32⟩
  | 64 => ⟨S262144x64, .f32⟩
  | 65 => ⟨S_, .f32⟩
  | 66 => ⟨S262144x64, .f32⟩
  | 67 => ⟨S262144x64, .f32⟩
  | 68 => ⟨S262144x64, .f32⟩
  | 69 => ⟨S1x64x64, .f32⟩
  | 70 => ⟨S64x64, .f32⟩
  | 71 => ⟨S64x64, .f32⟩
  | 72 => ⟨S262144x64, .f32⟩
  | 73 => ⟨S1x64, .f32⟩
  | 74 => ⟨S64, .f32⟩
  | 75 => ⟨S1x64, .f32⟩
  | 76 => ⟨S262144x64, .f32⟩
  | 77 => ⟨S262144x64, .f32⟩
  | 78 => ⟨S_, .f32⟩
  | 79 => ⟨S262144x64, .f32⟩
  | 80 => ⟨S262144x64, .f32⟩
  | 81 => ⟨S262144x64, .f32⟩
  | 82 => ⟨S1x64x64, .f32⟩
  | 83 => ⟨S64x64, .f32⟩
  | 84 => ⟨S64x64, .f32⟩
  | 85 => ⟨S262144x64, .f32⟩
  | 86 => ⟨S1x64, .f32⟩
  | 87 => ⟨S64, .f32⟩
  | 88 => ⟨S1x64, .f32⟩
  | 89 => ⟨S262144x64, .f32⟩
  | 90 => ⟨S262144x64, .f32⟩
  | 91 => ⟨S_, .f32⟩
  | 92 => ⟨S262144x64, .f32⟩
  | 93 => ⟨S262144x64, .f32⟩
  | 94 => ⟨S262144x64, .f32⟩
  | 95 => ⟨S1x64x64, .f32⟩
  | 96 => ⟨S64x64, .f32⟩
  | 97 => ⟨S64x64, .f32⟩
  | 98 => ⟨S262144x64, .f32⟩
  | 99 => ⟨S1x64, .f32⟩
  | 100 => ⟨S64, .f32⟩
  | 101 => ⟨S1x64, .f32⟩
  | 102 => ⟨S262144x64, .f32⟩
  | 103 => ⟨S262144x64, .f32⟩
  | 104 => ⟨S_, .f32⟩
  | 105 => ⟨S262144x64, .f32⟩
  | 106 => ⟨S262144x64, .f32⟩
  | 107 => ⟨S262144x64, .f32⟩
  | 108 => ⟨S1x64x64, .f32⟩
  | 109 => ⟨S64x64, .f32⟩
  | 110 => ⟨S64x64, .f32⟩
  | 111 => ⟨S262144x64, .f32⟩
  | 112 => ⟨S1x64, .f32⟩
  | 113 => ⟨S64, .f32⟩
  | 114 => ⟨S1x64, .f32⟩
  | 115 => ⟨S262144x64, .f32⟩
  | 116 => ⟨S262144x64, .f32⟩
  | 117 => ⟨S_, .f32⟩
  | 118 => ⟨S262144x64, .f32⟩
  | 119 => ⟨S262144x64, .f32⟩
  | 120 => ⟨S262144x64, .f32⟩
  | 121 => ⟨S1x64x64, .f32⟩
  | 122 => ⟨S64x64, .f32⟩
  | 123 => ⟨S64x64, .f32⟩
  | 124 => ⟨S262144x64, .f32⟩
  | 125 => ⟨S1x64, .f32⟩
  | 126 => ⟨S64, .f32⟩
  | 127 => ⟨S1x64, .f32⟩
  | _ => ⟨S262144x64, .f32⟩

abbrev hbmTy0_1 (i : Nat) : BufTy := match i % 128 with
  | 0 => ⟨S262144x64, .f32⟩
  | 1 => ⟨S262144x64, .f32⟩
  | 2 => ⟨S_, .f32⟩
  | 3 => ⟨S262144x64, .f32⟩
  | 4 => ⟨S262144x64, .f32⟩
  | 5 => ⟨S262144x64, .f32⟩
  | 6 => ⟨S1x64x64, .f32⟩
  | 7 => ⟨S64x64, .f32⟩
  | 8 => ⟨S64x64, .f32⟩
  | 9 => ⟨S262144x64, .f32⟩
  | 10 => ⟨S1x64, .f32⟩
  | 11 => ⟨S64, .f32⟩
  | 12 => ⟨S1x64, .f32⟩
  | 13 => ⟨S262144x64, .f32⟩
  | 14 => ⟨S262144x64, .f32⟩
  | 15 => ⟨S_, .f32⟩
  | 16 => ⟨S262144x64, .f32⟩
  | 17 => ⟨S262144x64, .f32⟩
  | 18 => ⟨S262144x64, .f32⟩
  | 19 => ⟨S1x64x64, .f32⟩
  | 20 => ⟨S64x64, .f32⟩
  | 21 => ⟨S64x64, .f32⟩
  | 22 => ⟨S262144x64, .f32⟩
  | 23 => ⟨S1x64, .f32⟩
  | 24 => ⟨S64, .f32⟩
  | 25 => ⟨S1x64, .f32⟩
  | 26 => ⟨S262144x64, .f32⟩
  | 27 => ⟨S262144x64, .f32⟩
  | 28 => ⟨S_, .f32⟩
  | 29 => ⟨S262144x64, .f32⟩
  | 30 => ⟨S262144x64, .f32⟩
  | 31 => ⟨S262144x64, .f32⟩
  | 32 => ⟨S1x64x64, .f32⟩
  | 33 => ⟨S64x64, .f32⟩
  | 34 => ⟨S64x64, .f32⟩
  | 35 => ⟨S262144x64, .f32⟩
  | 36 => ⟨S1x64, .f32⟩
  | 37 => ⟨S64, .f32⟩
  | 38 => ⟨S1x64, .f32⟩
  | 39 => ⟨S262144x64, .f32⟩
  | 40 => ⟨S262144x64, .f32⟩
  | 41 => ⟨S_, .f32⟩
  | 42 => ⟨S262144x64, .f32⟩
  | 43 => ⟨S262144x64, .f32⟩
  | 44 => ⟨S262144x64, .f32⟩
  | 45 => ⟨S1x64x64, .f32⟩
  | 46 => ⟨S64x64, .f32⟩
  | 47 => ⟨S64x64, .f32⟩
  | 48 => ⟨S262144x64, .f32⟩
  | 49 => ⟨S1x64, .f32⟩
  | 50 => ⟨S64, .f32⟩
  | 51 => ⟨S1x64, .f32⟩
  | 52 => ⟨S262144x64, .f32⟩
  | 53 => ⟨S262144x64, .f32⟩
  | 54 => ⟨S_, .f32⟩
  | 55 => ⟨S262144x64, .f32⟩
  | 56 => ⟨S262144x64, .f32⟩
  | 57 => ⟨S262144x64, .f32⟩
  | 58 => ⟨S1x64x64, .f32⟩
  | 59 => ⟨S64x64, .f32⟩
  | 60 => ⟨S64x64, .f32⟩
  | 61 => ⟨S262144x64, .f32⟩
  | 62 => ⟨S1x64, .f32⟩
  | 63 => ⟨S64, .f32⟩
  | 64 => ⟨S1x64, .f32⟩
  | 65 => ⟨S262144x64, .f32⟩
  | 66 => ⟨S262144x64, .f32⟩
  | 67 => ⟨S_, .f32⟩
  | 68 => ⟨S262144x64, .f32⟩
  | 69 => ⟨S262144x64, .f32⟩
  | 70 => ⟨S262144x64, .f32⟩
  | 71 => ⟨S1x64x64, .f32⟩
  | 72 => ⟨S64x64, .f32⟩
  | 73 => ⟨S64x64, .f32⟩
  | 74 => ⟨S262144x64, .f32⟩
  | 75 => ⟨S1x64, .f32⟩
  | 76 => ⟨S64, .f32⟩
  | 77 => ⟨S1x64, .f32⟩
  | 78 => ⟨S262144x64, .f32⟩
  | 79 => ⟨S262144x64, .f32⟩
  | 80 => ⟨S_, .f32⟩
  | 81 => ⟨S262144x64, .f32⟩
  | 82 => ⟨S262144x64, .f32⟩
  | 83 => ⟨S262144x64, .f32⟩
  | 84 => ⟨S1x64x64, .f32⟩
  | 85 => ⟨S64x64, .f32⟩
  | 86 => ⟨S64x64, .f32⟩
  | 87 => ⟨S262144x64, .f32⟩
  | 88 => ⟨S1x64, .f32⟩
  | 89 => ⟨S64, .f32⟩
  | 90 => ⟨S1x64, .f32⟩
  | 91 => ⟨S262144x64, .f32⟩
  | 92 => ⟨S262144x64, .f32⟩
  | 93 => ⟨S_, .f32⟩
  | 94 => ⟨S262144x64, .f32⟩
  | 95 => ⟨S262144x64, .f32⟩
  | 96 => ⟨S262144x64, .f32⟩
  | 97 => ⟨S1x64x64, .f32⟩
  | 98 => ⟨S64x64, .f32⟩
  | 99 => ⟨S64x64, .f32⟩
  | 100 => ⟨S262144x64, .f32⟩
  | 101 => ⟨S1x64, .f32⟩
  | 102 => ⟨S64, .f32⟩
  | 103 => ⟨S1x64, .f32⟩
  | 104 => ⟨S262144x64, .f32⟩
  | 105 => ⟨S262144x64, .f32⟩
  | 106 => ⟨S_, .f32⟩
  | 107 => ⟨S262144x64, .f32⟩
  | 108 => ⟨S262144x64, .f32⟩
  | 109 => ⟨S262144x64, .f32⟩
  | 110 => ⟨S1x64x64, .f32⟩
  | 111 => ⟨S64x64, .f32⟩
  | 112 => ⟨S64x64, .f32⟩
  | 113 => ⟨S262144x64, .f32⟩
  | 114 => ⟨S1x64, .f32⟩
  | 115 => ⟨S64, .f32⟩
  | 116 => ⟨S1x64, .f32⟩
  | 117 => ⟨S262144x64, .f32⟩
  | 118 => ⟨S262144x64, .f32⟩
  | 119 => ⟨S_, .f32⟩
  | 120 => ⟨S262144x64, .f32⟩
  | 121 => ⟨S262144x64, .f32⟩
  | 122 => ⟨S262144x64, .f32⟩
  | 123 => ⟨S1x64x64, .f32⟩
  | 124 => ⟨S64x64, .f32⟩
  | 125 => ⟨S64x64, .f32⟩
  | 126 => ⟨S262144x64, .f32⟩
  | 127 => ⟨S1x64, .f32⟩
  | _ => ⟨S262144x64, .f32⟩

abbrev hbmTy0_2 (i : Nat) : BufTy := match i % 128 with
  | 0 => ⟨S64, .f32⟩
  | 1 => ⟨S1x64, .f32⟩
  | 2 => ⟨S262144x64, .f32⟩
  | 3 => ⟨S262144x64, .f32⟩
  | 4 => ⟨S_, .f32⟩
  | 5 => ⟨S262144x64, .f32⟩
  | 6 => ⟨S262144x64, .f32⟩
  | 7 => ⟨S262144x64, .f32⟩
  | 8 => ⟨S1x64x64, .f32⟩
  | 9 => ⟨S64x64, .f32⟩
  | 10 => ⟨S64x64, .f32⟩
  | 11 => ⟨S262144x64, .f32⟩
  | 12 => ⟨S1x64, .f32⟩
  | 13 => ⟨S64, .f32⟩
  | 14 => ⟨S1x64, .f32⟩
  | 15 => ⟨S262144x64, .f32⟩
  | 16 => ⟨S262144x64, .f32⟩
  | 17 => ⟨S_, .f32⟩
  | 18 => ⟨S262144x64, .f32⟩
  | 19 => ⟨S262144x64, .f32⟩
  | 20 => ⟨S262144x64, .f32⟩
  | 21 => ⟨S1x64x64, .f32⟩
  | 22 => ⟨S64x64, .f32⟩
  | 23 => ⟨S64x64, .f32⟩
  | 24 => ⟨S262144x64, .f32⟩
  | 25 => ⟨S1x64, .f32⟩
  | 26 => ⟨S64, .f32⟩
  | 27 => ⟨S1x64, .f32⟩
  | 28 => ⟨S262144x64, .f32⟩
  | 29 => ⟨S262144x64, .f32⟩
  | 30 => ⟨S_, .f32⟩
  | 31 => ⟨S262144x64, .f32⟩
  | 32 => ⟨S262144x64, .f32⟩
  | 33 => ⟨S262144x64, .f32⟩
  | 34 => ⟨S1x64x64, .f32⟩
  | 35 => ⟨S64x64, .f32⟩
  | 36 => ⟨S64x64, .f32⟩
  | 37 => ⟨S262144x64, .f32⟩
  | 38 => ⟨S1x64, .f32⟩
  | 39 => ⟨S64, .f32⟩
  | 40 => ⟨S1x64, .f32⟩
  | 41 => ⟨S262144x64, .f32⟩
  | 42 => ⟨S262144x64, .f32⟩
  | 43 => ⟨S_, .f32⟩
  | 44 => ⟨S262144x64, .f32⟩
  | 45 => ⟨S262144x64, .f32⟩
  | 46 => ⟨S262144x64, .f32⟩
  | 47 => ⟨S1x64x64, .f32⟩
  | 48 => ⟨S64x64, .f32⟩
  | 49 => ⟨S64x64, .f32⟩
  | 50 => ⟨S262144x64, .f32⟩
  | 51 => ⟨S1x64, .f32⟩
  | 52 => ⟨S64, .f32⟩
  | 53 => ⟨S1x64, .f32⟩
  | 54 => ⟨S262144x64, .f32⟩
  | 55 => ⟨S262144x64, .f32⟩
  | 56 => ⟨S_, .f32⟩
  | 57 => ⟨S262144x64, .f32⟩
  | 58 => ⟨S262144x64, .f32⟩
  | 59 => ⟨S262144x64, .f32⟩
  | 60 => ⟨S1x64x64, .f32⟩
  | 61 => ⟨S64x64, .f32⟩
  | 62 => ⟨S64x64, .f32⟩
  | 63 => ⟨S262144x64, .f32⟩
  | 64 => ⟨S1x64, .f32⟩
  | 65 => ⟨S64, .f32⟩
  | 66 => ⟨S1x64, .f32⟩
  | 67 => ⟨S262144x64, .f32⟩
  | 68 => ⟨S262144x64, .f32⟩
  | 69 => ⟨S_, .f32⟩
  | 70 => ⟨S262144x64, .f32⟩
  | 71 => ⟨S262144x64, .f32⟩
  | 72 => ⟨S262144x64, .f32⟩
  | 73 => ⟨S1x64x64, .f32⟩
  | 74 => ⟨S64x64, .f32⟩
  | 75 => ⟨S64x64, .f32⟩
  | 76 => ⟨S262144x64, .f32⟩
  | 77 => ⟨S1x64, .f32⟩
  | 78 => ⟨S64, .f32⟩
  | 79 => ⟨S1x64, .f32⟩
  | 80 => ⟨S262144x64, .f32⟩
  | 81 => ⟨S262144x64, .f32⟩
  | 82 => ⟨S_, .f32⟩
  | 83 => ⟨S262144x64, .f32⟩
  | 84 => ⟨S262144x64, .f32⟩
  | 85 => ⟨S262144x64, .f32⟩
  | 86 => ⟨S1x64x64, .f32⟩
  | 87 => ⟨S64x64, .f32⟩
  | 88 => ⟨S64x64, .f32⟩
  | 89 => ⟨S262144x64, .f32⟩
  | 90 => ⟨S1x64, .f32⟩
  | 91 => ⟨S64, .f32⟩
  | 92 => ⟨S1x64, .f32⟩
  | 93 => ⟨S262144x64, .f32⟩
  | 94 => ⟨S262144x64, .f32⟩
  | 95 => ⟨S_, .f32⟩
  | 96 => ⟨S262144x64, .f32⟩
  | 97 => ⟨S262144x64, .f32⟩
  | 98 => ⟨S262144x64, .f32⟩
  | 99 => ⟨S1x64x64, .f32⟩
  | 100 => ⟨S64x64, .f32⟩
  | 101 => ⟨S64x64, .f32⟩
  | 102 => ⟨S262144x64, .f32⟩
  | 103 => ⟨S1x64, .f32⟩
  | 104 => ⟨S64, .f32⟩
  | 105 => ⟨S1x64, .f32⟩
  | 106 => ⟨S262144x64, .f32⟩
  | 107 => ⟨S262144x64, .f32⟩
  | 108 => ⟨S_, .f32⟩
  | 109 => ⟨S262144x64, .f32⟩
  | 110 => ⟨S262144x64, .f32⟩
  | 111 => ⟨S262144x64, .f32⟩
  | 112 => ⟨S1x64x64, .f32⟩
  | 113 => ⟨S64x64, .f32⟩
  | 114 => ⟨S64x64, .f32⟩
  | 115 => ⟨S262144x64, .f32⟩
  | 116 => ⟨S1x64, .f32⟩
  | 117 => ⟨S64, .f32⟩
  | 118 => ⟨S1x64, .f32⟩
  | 119 => ⟨S262144x64, .f32⟩
  | 120 => ⟨S262144x64, .f32⟩
  | 121 => ⟨S_, .f32⟩
  | 122 => ⟨S262144x64, .f32⟩
  | 123 => ⟨S262144x64, .f32⟩
  | 124 => ⟨S262144x64, .f32⟩
  | _ => ⟨S262144x64, .f32⟩

abbrev hbmTy (i : Nat) : BufTy := match i / 128 with
  | 0 => hbmTy0_0 i
  | 1 => hbmTy0_1 i
  | 2 => hbmTy0_2 i
  | _ => ⟨S262144x64, .f32⟩

abbrev bufTy : (tb : Table) → Fin (tcTables nBuf tb) → BufTy
  | .hbm, ⟨i, _⟩ => hbmTy i
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_cst_3 : Ref sig .tc := ⟨.hbm, 11, rfl⟩
abbrev main_v4 : Ref sig .tc := ⟨.hbm, 12, rfl⟩
abbrev main_cst_4 : Ref sig .tc := ⟨.hbm, 13, rfl⟩
abbrev main_v5 : Ref sig .tc := ⟨.hbm, 14, rfl⟩
abbrev main_cst_5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_cst : Ref sig .tc := ⟨.hbm, 39, rfl⟩
abbrev main_call1_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call2_cst : Ref sig .tc := ⟨.hbm, 52, rfl⟩
abbrev main_call2_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call3_cst : Ref sig .tc := ⟨.hbm, 65, rfl⟩
abbrev main_call3_v0 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_call4_cst : Ref sig .tc := ⟨.hbm, 78, rfl⟩
abbrev main_call4_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_call5_cst : Ref sig .tc := ⟨.hbm, 91, rfl⟩
abbrev main_call5_v0 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_call6_cst : Ref sig .tc := ⟨.hbm, 104, rfl⟩
abbrev main_call6_v0 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_call7_cst : Ref sig .tc := ⟨.hbm, 117, rfl⟩
abbrev main_call7_v0 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_call8_cst : Ref sig .tc := ⟨.hbm, 130, rfl⟩
abbrev main_call8_v0 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_call9_cst : Ref sig .tc := ⟨.hbm, 143, rfl⟩
abbrev main_call9_v0 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_call10_cst : Ref sig .tc := ⟨.hbm, 156, rfl⟩
abbrev main_call10_v0 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_call11_cst : Ref sig .tc := ⟨.hbm, 169, rfl⟩
abbrev main_call11_v0 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_call12_cst : Ref sig .tc := ⟨.hbm, 182, rfl⟩
abbrev main_call12_v0 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_call13_cst : Ref sig .tc := ⟨.hbm, 195, rfl⟩
abbrev main_call13_v0 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_call14_cst : Ref sig .tc := ⟨.hbm, 208, rfl⟩
abbrev main_call14_v0 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_call15_cst : Ref sig .tc := ⟨.hbm, 221, rfl⟩
abbrev main_call15_v0 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_call16_cst : Ref sig .tc := ⟨.hbm, 234, rfl⟩
abbrev main_call16_v0 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_call17_cst : Ref sig .tc := ⟨.hbm, 247, rfl⟩
abbrev main_call17_v0 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_call18_cst : Ref sig .tc := ⟨.hbm, 260, rfl⟩
abbrev main_call18_v0 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_call19_cst : Ref sig .tc := ⟨.hbm, 273, rfl⟩
abbrev main_call19_v0 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_call20_cst : Ref sig .tc := ⟨.hbm, 286, rfl⟩
abbrev main_call20_v0 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_call21_cst : Ref sig .tc := ⟨.hbm, 299, rfl⟩
abbrev main_call21_v0 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_call22_cst : Ref sig .tc := ⟨.hbm, 312, rfl⟩
abbrev main_call22_v0 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_call23_cst : Ref sig .tc := ⟨.hbm, 325, rfl⟩
abbrev main_call23_v0 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_call24_cst : Ref sig .tc := ⟨.hbm, 338, rfl⟩
abbrev main_call24_v0 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_call25_cst : Ref sig .tc := ⟨.hbm, 351, rfl⟩
abbrev main_call25_v0 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_v296 : Ref sig .tc := ⟨.hbm, 358, rfl⟩
abbrev main_v297 : Ref sig .tc := ⟨.hbm, 359, rfl⟩
abbrev main_v298 : Ref sig .tc := ⟨.hbm, 360, rfl⟩
abbrev main_v299 : Ref sig .tc := ⟨.hbm, 361, rfl⟩
abbrev main_v300 : Ref sig .tc := ⟨.hbm, 362, rfl⟩
abbrev main_v301 : Ref sig .tc := ⟨.hbm, 363, rfl⟩
abbrev main_call26_cst : Ref sig .tc := ⟨.hbm, 364, rfl⟩
abbrev main_call26_v0 : Ref sig .tc := ⟨.hbm, 365, rfl⟩
abbrev main_v302 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_v306 : Ref sig .tc := ⟨.hbm, 370, rfl⟩
abbrev main_v307 : Ref sig .tc := ⟨.hbm, 371, rfl⟩
abbrev main_v308 : Ref sig .tc := ⟨.hbm, 372, rfl⟩
abbrev main_v309 : Ref sig .tc := ⟨.hbm, 373, rfl⟩
abbrev main_v310 : Ref sig .tc := ⟨.hbm, 374, rfl⟩
abbrev main_v311 : Ref sig .tc := ⟨.hbm, 375, rfl⟩
abbrev main_v312 : Ref sig .tc := ⟨.hbm, 376, rfl⟩
abbrev main_call27_cst : Ref sig .tc := ⟨.hbm, 377, rfl⟩
abbrev main_call27_v0 : Ref sig .tc := ⟨.hbm, 378, rfl⟩
abbrev main_v313 : Ref sig .tc := ⟨.hbm, 379, rfl⟩
abbrev main_v314 : Ref sig .tc := ⟨.hbm, 380, rfl⟩

abbrev nD : Nat := 1
abbrev τ : Topo := Topo.v7x

variable {F : FTy → Type} [FloatOps F]

class Facts₀ : Prop where
  bcast_S_S262144x64 : S_.BroadcastsInDim S262144x64 (![] : Fin 0 → Fin S262144x64.rank)
  slices_S28x64x64_S1x64x64_0_0_0 : S28x64x64.Slices ![0, 0, 0] S1x64x64
  shapeCasts_S1x64x64_S64x64 : S1x64x64.ShapeCasts S64x64
  transposes_S64x64_S64x64_1_0 : S64x64.Transposes [1, 0] S64x64
  slices_S28x64_S1x64_0_0 : S28x64.Slices ![0, 0] S1x64
  shapeCasts_S1x64_S64 : S1x64.ShapeCasts S64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  slices_S28x64x64_S1x64x64_1_0_0 : S28x64x64.Slices ![1, 0, 0] S1x64x64
  slices_S28x64_S1x64_1_0 : S28x64.Slices ![1, 0] S1x64
  slices_S28x64x64_S1x64x64_2_0_0 : S28x64x64.Slices ![2, 0, 0] S1x64x64
  slices_S28x64_S1x64_2_0 : S28x64.Slices ![2, 0] S1x64
  slices_S28x64x64_S1x64x64_3_0_0 : S28x64x64.Slices ![3, 0, 0] S1x64x64
  slices_S28x64_S1x64_3_0 : S28x64.Slices ![3, 0] S1x64
  slices_S28x64x64_S1x64x64_4_0_0 : S28x64x64.Slices ![4, 0, 0] S1x64x64
  slices_S28x64_S1x64_4_0 : S28x64.Slices ![4, 0] S1x64
  slices_S28x64x64_S1x64x64_5_0_0 : S28x64x64.Slices ![5, 0, 0] S1x64x64
  slices_S28x64_S1x64_5_0 : S28x64.Slices ![5, 0] S1x64
  slices_S28x64x64_S1x64x64_6_0_0 : S28x64x64.Slices ![6, 0, 0] S1x64x64
  slices_S28x64_S1x64_6_0 : S28x64.Slices ![6, 0] S1x64
  slices_S28x64x64_S1x64x64_7_0_0 : S28x64x64.Slices ![7, 0, 0] S1x64x64
  slices_S28x64_S1x64_7_0 : S28x64.Slices ![7, 0] S1x64
  slices_S28x64x64_S1x64x64_8_0_0 : S28x64x64.Slices ![8, 0, 0] S1x64x64
  slices_S28x64_S1x64_8_0 : S28x64.Slices ![8, 0] S1x64
  slices_S28x64x64_S1x64x64_9_0_0 : S28x64x64.Slices ![9, 0, 0] S1x64x64
  slices_S28x64_S1x64_9_0 : S28x64.Slices ![9, 0] S1x64
  slices_S28x64x64_S1x64x64_10_0_0 : S28x64x64.Slices ![10, 0, 0] S1x64x64
  slices_S28x64_S1x64_10_0 : S28x64.Slices ![10, 0] S1x64
  slices_S28x64x64_S1x64x64_11_0_0 : S28x64x64.Slices ![11, 0, 0] S1x64x64
  slices_S28x64_S1x64_11_0 : S28x64.Slices ![11, 0] S1x64
  slices_S28x64x64_S1x64x64_12_0_0 : S28x64x64.Slices ![12, 0, 0] S1x64x64
  slices_S28x64_S1x64_12_0 : S28x64.Slices ![12, 0] S1x64
  slices_S28x64x64_S1x64x64_13_0_0 : S28x64x64.Slices ![13, 0, 0] S1x64x64
  slices_S28x64_S1x64_13_0 : S28x64.Slices ![13, 0] S1x64
  slices_S28x64x64_S1x64x64_14_0_0 : S28x64x64.Slices ![14, 0, 0] S1x64x64
  slices_S28x64_S1x64_14_0 : S28x64.Slices ![14, 0] S1x64
  slices_S28x64x64_S1x64x64_15_0_0 : S28x64x64.Slices ![15, 0, 0] S1x64x64
  slices_S28x64_S1x64_15_0 : S28x64.Slices ![15, 0] S1x64
  slices_S28x64x64_S1x64x64_16_0_0 : S28x64x64.Slices ![16, 0, 0] S1x64x64
  slices_S28x64_S1x64_16_0 : S28x64.Slices ![16, 0] S1x64
  slices_S28x64x64_S1x64x64_17_0_0 : S28x64x64.Slices ![17, 0, 0] S1x64x64
  slices_S28x64_S1x64_17_0 : S28x64.Slices ![17, 0] S1x64
  slices_S28x64x64_S1x64x64_18_0_0 : S28x64x64.Slices ![18, 0, 0] S1x64x64
  slices_S28x64_S1x64_18_0 : S28x64.Slices ![18, 0] S1x64
  slices_S28x64x64_S1x64x64_19_0_0 : S28x64x64.Slices ![19, 0, 0] S1x64x64
  slices_S28x64_S1x64_19_0 : S28x64.Slices ![19, 0] S1x64
  slices_S28x64x64_S1x64x64_20_0_0 : S28x64x64.Slices ![20, 0, 0] S1x64x64
  slices_S28x64_S1x64_20_0 : S28x64.Slices ![20, 0] S1x64
  slices_S28x64x64_S1x64x64_21_0_0 : S28x64x64.Slices ![21, 0, 0] S1x64x64
  slices_S28x64_S1x64_21_0 : S28x64.Slices ![21, 0] S1x64
  slices_S28x64x64_S1x64x64_22_0_0 : S28x64x64.Slices ![22, 0, 0] S1x64x64
  slices_S28x64_S1x64_22_0 : S28x64.Slices ![22, 0] S1x64
  slices_S28x64x64_S1x64x64_23_0_0 : S28x64x64.Slices ![23, 0, 0] S1x64x64
  slices_S28x64_S1x64_23_0 : S28x64.Slices ![23, 0] S1x64
  slices_S28x64x64_S1x64x64_24_0_0 : S28x64x64.Slices ![24, 0, 0] S1x64x64
  slices_S28x64_S1x64_24_0 : S28x64.Slices ![24, 0] S1x64
  slices_S28x64x64_S1x64x64_25_0_0 : S28x64x64.Slices ![25, 0, 0] S1x64x64
  slices_S28x64_S1x64_25_0 : S28x64.Slices ![25, 0] S1x64
  slices_S28x64x64_S1x64x64_26_0_0 : S28x64x64.Slices ![26, 0, 0] S1x64x64
  slices_S28x64_S1x64_26_0 : S28x64.Slices ![26, 0] S1x64
  slices_S28x64x64_S1x64x64_27_0_0 : S28x64x64.Slices ![27, 0, 0] S1x64x64
  slices_S28x64_S1x64_27_0 : S28x64.Slices ![27, 0] S1x64
  dot_S262144x64_S64x64_S262144x64_1_0_0_1_n_n_wf : DotDims.WF S262144x64 S64x64 S262144x64 [1] [0] [0] [1] [] []

variable [Facts₀]

def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf

class Facts : Prop extends Facts₀ where

variable [Facts]
-- ==== Proof.KBlocks.lean ====
/-
  The kernel's windows, block by block.

  The batch of 262144 rows is cut in 64 blocks of 4096 rows: grid point `t` is handed rows `4096 t … 4096 t + 4095` of
  the input and writes the same rows of the result, while the packed weights and the packed bias row are handed whole
  at every point. Here: where each block's entries sit in its array, and that the result's blocks fill its array.
-/
import proofs.«164341_j31275951850011_2_alg».proof.Proof.Gen.KernelIdeal.Value
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps, decided over the 64 grid points: the input's and the result's row block at point `t` is
    block `t`, on the one column block; the packed weights and biases are the one block `(0, 0)`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- There are 64 grid points. -/
theorem point_lt (t : Fin cfg0.N) : t.val < 64 := lt_of_lt_of_eq t.isLt (show cfg0.N = 64 from N_0)

/-- Row `p` of block `t` is row `4096 t + p` of the batch. -/
def blockRow (t : Fin cfg0.N) (p : Fin 4096) : Fin 262144 :=
  ⟨t.val * 4096 + p.val, by have := point_lt t; have := p.isLt; omega⟩

/-- The input block at point `t` holds, at `(p, k)`, the input argument at `(4096 t + p, k)`. -/
theorem inBlock_apply (c : Dev nD) (t : Fin cfg0.N) (p : Fin 4096) (k : Fin 64) :
    (iblk m c 0 t : S4096x64.Idx → EReal) (ix2 p k)
      = (m ((c : Thread nD τ).loc main_arg0) : S262144x64.Idx → EReal) (ix2 (blockRow t p) k) := by
  obtain ⟨e0, e1, -⟩ := index_facts t
  unfold iblk
  rw [View.read_apply]
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 64 + 1 * k.val = k.val; rw [e1]; omega

/-- The packed weights' block at every point is the whole packed matrix as the region finds it. -/
theorem weightBlock_eq (c : Dev nD) (t : Fin cfg0.N) :
    (iblk m c 1 t : S64x1792.Idx → EReal) = (V m c main_v3 : S64x1792.Idx → EReal) := by
  obtain ⟨-, -, e0, e1, -⟩ := index_facts t
  funext y
  unfold iblk
  rw [View.read_apply]
  show V m c main_v3 (((cfg0.win 1).blk t).view.emb y) = V m c main_v3 y
  refine congrArg (V m c main_v3) (funext fun a => Fin.ext ?_)
  match a with
  | ⟨0, _⟩ => show win0_1.index t (0 : Fin 2) * 64 + 1 * (y 0).val = (y 0).val; rw [e0]; omega
  | ⟨1, _⟩ => show win0_1.index t (1 : Fin 2) * 1792 + 1 * (y 1).val = (y 1).val; rw [e1]; omega

/-- The packed biases' block at every point is the whole packed row as the region finds it. -/
theorem biasBlock_eq (c : Dev nD) (t : Fin cfg0.N) :
    (iblk m c 2 t : S1x1792.Idx → EReal) = (V m c main_v4 : S1x1792.Idx → EReal) := by
  obtain ⟨-, -, -, -, e0, e1, -⟩ := index_facts t
  funext y
  unfold iblk
  rw [View.read_apply]
  show V m c main_v4 (((cfg0.win 2).blk t).view.emb y) = V m c main_v4 y
  refine congrArg (V m c main_v4) (funext fun a => Fin.ext ?_)
  match a with
  | ⟨0, _⟩ => show win0_2.index t (0 : Fin 2) * 1 + 1 * (y 0).val = (y 0).val; rw [e0]; omega
  | ⟨1, _⟩ => show win0_2.index t (1 : Fin 2) * 1792 + 1 * (y 1).val = (y 1).val; rw [e1]; omega

/-- Entry `(p, e)` of the result's block at point `t` sits at `(4096 t + p, e)` of the result. -/
theorem outBlock_emb (t : Fin cfg0.N) (p : Fin 4096) (e : Fin 64) :
    ((cfg0.win 3).blk t).view.emb (ix2 p e) = (ix2 (blockRow t p) e : S262144x64.Idx) := by
  obtain ⟨-, -, -, -, -, -, e0, e1⟩ := index_facts t
  funext a
  apply Fin.ext
  match a with
  | ⟨0, _⟩ => show win0_3.index t (0 : Fin 2) * 4096 + 1 * p.val = t.val * 4096 + p.val; rw [e0]; omega
  | ⟨1, _⟩ => show win0_3.index t (1 : Fin 2) * 64 + 1 * e.val = e.val; rw [e1]; omega

/-- An index of the result is in point `t`'s block iff each coordinate is in the block's range on its axis. -/
theorem mem_outBlock (t : Fin cfg0.N) (i : S262144x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v5).slice (win0_3.rect t)).set ↔ _
  rw [View.set_slice_whole, Rect.mem_set_unit]
  exact Iff.rfl

/-- The result's blocks fill it: row `r` is in the block of point `r / 4096`, which writes back like every point. -/
theorem outBlocks_cover (i : S262144x64.Idx) :
    ∃ t : Fin cfg0.N, (cfg0.win 3).flush t = true ∧ i ∈ ((cfg0.win 3).blk t).view.set := by
  have hi0 : (i 0).val < 262144 := idx2_lt0 i
  have hi1 : (i 1).val < 64 := idx2_lt1 i
  obtain ⟨t, ht⟩ : ∃ t : Fin cfg0.N, t.val = (i 0).val / 4096 :=
    ⟨⟨(i 0).val / 4096, by rw [show cfg0.N = 64 from N_0]; omega⟩, rfl⟩
  obtain ⟨-, -, -, -, -, -, e0, e1⟩ := index_facts t
  refine ⟨t, flush0_3 t, ?_⟩
  rw [mem_outBlock]
  intro a
  match a with
  | ⟨0, _⟩ =>
    show win0_3.index t (0 : Fin 2) * 4096 ≤ (i 0).val ∧ (i 0).val < win0_3.index t (0 : Fin 2) * 4096 + 4096
    rw [e0, ht]; omega
  | ⟨1, _⟩ =>
    show win0_3.index t (1 : Fin 2) * 64 ≤ (i 1).val ∧ (i 1).val < win0_3.index t (1 : Fin 2) * 64 + 64
    rw [e1]; omega

end Cert.KernelIdeal.KValue

end
-- ==== Proof.Layers.lean ====
/-
  The layered network both programs compute, one batch row at a time.

  Eight layers of width 64, every earlier layer feeding every later one through its own affine map and a
  rectifier: connection `c` from layer `i` to layer `j > i` sends `v ↦ max (W c · v + b c) 0`, and layer `j` is the
  sum, started from zero and taken in the order of the sources `i = 0, 1, …, j - 1`, of the messages it receives.
  The connections are numbered source by source: source 0 owns 0…6 (targets 1…7), source 1 owns 7…12
  (targets 2…7), source 2 owns 13…17, source 3 owns 18…21, source 4 owns 22…24, source 5 owns 25, 26 and
  source 6 owns 27. Layer 0 is the input row; the result is layer 7.

  Everything is stated over the extended reals; only `+`, `*`, `max` and the literal zero occur, and the two
  programs are matched against these definitions term by term, so no algebraic law is needed.
-/
import Idealize.ShloMosaic.PureOps.Ideal
import Idealize.ShloMosaic.Lib.ValueIdx

noncomputable section

namespace Cert.Layers

open Idealize.ShloMosaic

/-- The zero every accumulator starts from and every rectifier compares with: the f32 word `0x00000000`, kept as a
    word so that neither side ever evaluates it. -/
abbrev Z : EReal := Ideal.ofBits .f32 0x00000000#32

variable (W : Fin 28 → Fin 64 → Fin 64 → EReal) (b : Fin 28 → Fin 64 → EReal)

/-- Connection `c` applied to a row `v`: output feature `e` is `max (∑ k, v k * W c e k + b c e) 0`. -/
def msg (c : Fin 28) (v : Fin 64 → EReal) (e : Fin 64) : EReal :=
  max ((∑ k : Fin 64, v k * W c e k) + b c e) Z

/-- Layer 1 of the row `x`. -/
def h1 (x : Fin 64 → EReal) : Fin 64 → EReal := fun e =>
  Z + msg W b 0 x e
/-- Layer 2. -/
def h2 (x : Fin 64 → EReal) : Fin 64 → EReal := fun e =>
  Z + msg W b 1 x e + msg W b 7 (h1 W b x) e
/-- Layer 3. -/
def h3 (x : Fin 64 → EReal) : Fin 64 → EReal := fun e =>
  Z + msg W b 2 x e + msg W b 8 (h1 W b x) e + msg W b 13 (h2 W b x) e
/-- Layer 4. -/
def h4 (x : Fin 64 → EReal) : Fin 64 → EReal := fun e =>
  Z + msg W b 3 x e + msg W b 9 (h1 W b x) e + msg W b 14 (h2 W b x) e + msg W b 18 (h3 W b x) e
/-- Layer 5. -/
def h5 (x : Fin 64 → EReal) : Fin 64 → EReal := fun e =>
  Z + msg W b 4 x e + msg W b 10 (h1 W b x) e + msg W b 15 (h2 W b x) e + msg W b 19 (h3 W b x) e
    + msg W b 22 (h4 W b x) e
/-- Layer 6. -/
def h6 (x : Fin 64 → EReal) : Fin 64 → EReal := fun e =>
  Z + msg W b 5 x e + msg W b 11 (h1 W b x) e + msg W b 16 (h2 W b x) e + msg W b 20 (h3 W b x) e
    + msg W b 23 (h4 W b x) e + msg W b 25 (h5 W b x) e
/-- Layer 7, the result. -/
def h7 (x : Fin 64 → EReal) : Fin 64 → EReal := fun e =>
  Z + msg W b 6 x e + msg W b 12 (h1 W b x) e + msg W b 17 (h2 W b x) e + msg W b 21 (h3 W b x) e
    + msg W b 24 (h4 W b x) e + msg W b 26 (h5 W b x) e + msg W b 27 (h6 W b x) e

/-! ## The two spellings of the weights -/

/-- The kernel receives the weights packed side by side: output feature `e` of connection `c` is column
    `64 c + e` of a `[64, 1792]` matrix whose rows are the input features (and of a `[1, 1792]` row of biases). -/
def col (c : Fin 28) (e : Fin 64) : Fin 1792 := ⟨64 * c.val + e.val, by have := c.isLt; have := e.isLt; omega⟩

/-- The weights as the kernel's body finds them: entry `(c, e, k)` is the packed matrix at row `k`, column `col c e`. -/
def packedW (P : (⟨2, ![64, 1792]⟩ : Shape).Idx → EReal) : Fin 28 → Fin 64 → Fin 64 → EReal :=
  fun c e k => P (ValueIdx.ix2 k (col c e))

/-- The biases as the kernel's body finds them. -/
def packedB (Q : (⟨2, ![1, 1792]⟩ : Shape).Idx → EReal) : Fin 28 → Fin 64 → EReal :=
  fun c e => Q (ValueIdx.ix2 (0 : Fin 1) (col c e))

/-- The weights as the arguments hold them: `[28, 64, 64]`, connection, output feature, input feature. -/
def argW (Ws : (⟨3, ![28, 64, 64]⟩ : Shape).Idx → EReal) : Fin 28 → Fin 64 → Fin 64 → EReal :=
  fun c e k => Ws (ValueIdx.ix3 c e k)

/-- The biases as the arguments hold them: `[28, 64]`. -/
def argB (bs : (⟨2, ![28, 64]⟩ : Shape).Idx → EReal) : Fin 28 → Fin 64 → EReal :=
  fun c e => bs (ValueIdx.ix2 c e)

/-- Row `r` of a `[n, 64]` array. -/
def row {n : Nat} (X : (⟨2, ![n, 64]⟩ : Shape).Idx → EReal) (r : Fin n) : Fin 64 → EReal :=
  fun k => X (ValueIdx.ix2 r k)

/-- THE RESULT, as one function of the three argument arrays: entry `(r, e)` is feature `e` of layer 7 of row `r`. -/
def G (x : (⟨2, ![262144, 64]⟩ : Shape).Idx → EReal) (Ws : (⟨3, ![28, 64, 64]⟩ : Shape).Idx → EReal)
    (bs : (⟨2, ![28, 64]⟩ : Shape).Idx → EReal) : (⟨2, ![262144, 64]⟩ : Shape).Idx → EReal :=
  fun i => h7 (argW Ws) (argB bs) (row x (i 0)) (i 1)

end Cert.Layers

end
-- ==== Proof.KHost.lean ====
/-
  The packed weights and biases the region finds, read back at the arguments.

  Before the region the weights `[28, 64, 64]` (connection, output feature, input feature) are transposed to
  (connection, input feature, output feature), then to (input feature, connection, output feature), then flattened to
  `[64, 1792]` and converted; the biases `[28, 64]` are flattened to `[1, 1792]`. Column `64 c + e` of row `k` of
  the flattened matrix is therefore entry `(c, e, k)` of the weights, and column `64 c + e` of the flattened row is
  entry `(c, e)` of the biases: the packed spelling of the body's weights is the arguments' own.
-/
import proofs.«164341_j31275951850011_2_alg».proof.Proof.Gen.KernelIdeal.Frame
import proofs.«164341_j31275951850011_2_alg».proof.Proof.Layers
import Idealize.ShloMosaic.Lib.Pipeline.Value
import Idealize.ShloMosaic.Lib.ValueLayout
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The layout operations at an index -/

/-- The `[64, 28, 64]` array flattened to `[64, 1792]` reads, at row `k` and column `64 c + e`, the operand at
    `(k, c, e)`: both sit at row-major position `(28 k + c) 64 + e`. -/
theorem flatten_apply (x : S64x28x64.Idx → EReal) (h : S64x28x64.ShapeCasts S64x1792) (k : Fin 64) (cc : Fin 28) (e : Fin 64) :
    shapeCast S64x1792 x h (ix2 k (Cert.Layers.col cc e)) = x (ix3 k cc e) :=
  shapeCast_apply x h _ _ (by
    rw [Shape.rowMajor_val_three, Shape.rowMajor_val_two]
    show (k.val * 28 + cc.val) * 64 + e.val = k.val * 1792 + (64 * cc.val + e.val)
    omega)

/-- The `[28, 64]` array flattened to `[1, 1792]` reads, at column `64 c + e`, the operand at `(c, e)`. -/
theorem flattenRow_apply (x : S28x64.Idx → EReal) (h : S28x64.ShapeCasts S1x1792) (cc : Fin 28) (e : Fin 64) :
    shapeCast S1x1792 x h (ix2 (0 : Fin 1) (Cert.Layers.col cc e)) = x (ix2 cc e) :=
  shapeCast_apply x h _ _ (by
    rw [Shape.rowMajor_val_two, Shape.rowMajor_val_two]
    show cc.val * 64 + e.val = 0 * 1792 + (64 * cc.val + e.val)
    omega)

/-- A `[28, 64, 64]` array with its first two axes exchanged reads, at `(k, c, e)`, the operand at `(c, k, e)`. -/
theorem swap01_apply (x : S28x64x64.Idx → EReal) (h : S28x64x64.Transposes [1, 0, 2] S64x28x64) (k : Fin 64) (cc : Fin 28) (e : Fin 64) :
    transpose S64x28x64 [1, 0, 2] x h (ix3 k cc e) = x (ix3 cc k e) :=
  transpose_apply _ x h _ _ fun b => match b with | ⟨0, _⟩ => rfl | ⟨1, _⟩ => rfl | ⟨2, _⟩ => rfl

/-! ## The region's packed operands -/

/-- The packed matrix the region finds, as the host operations' term of the weights argument. -/
theorem V_main_v3_eq (c : Dev nD) : (V m c main_v3 : S64x1792.Idx → EReal) =
    truncf (F := Ideal) .bf16 (shapeCast S64x1792 (transpose S64x28x64 [1, 0, 2]
      (transpose S28x64x64 [0, 2, 1] (m ((c : Thread nD τ).loc main_arg1)) transposes_S28x64x64_S28x64x64_0_2_1)
      transposes_S28x64x64_S64x28x64_1_0_2) shapeCasts_S64x28x64_S64x1792) bitsLt_bf16_f32 := by
  dsimp only [Gen.V, Gen.hostOps0]
  after_results
  rfl

/-- The packed bias row the region finds, as the host operation's term of the biases argument. -/
theorem V_main_v4_eq (c : Dev nD) : (V m c main_v4 : S1x1792.Idx → EReal) =
    shapeCast S1x1792 (m ((c : Thread nD τ).loc main_arg2)) shapeCasts_S28x64_S1x1792 := by
  dsimp only [Gen.V, Gen.hostOps0]
  after_results
  rfl

/-- Row `k`, column `64 c + e` of the packed matrix is entry `(c, e, k)` of the weights. -/
theorem V_main_v3_apply (c : Dev nD) (cc : Fin 28) (e k : Fin 64) :
    (V m c main_v3 : S64x1792.Idx → EReal) (ix2 k (Cert.Layers.col cc e))
      = (m ((c : Thread nD τ).loc main_arg1) : S28x64x64.Idx → EReal) (ix3 cc e k) := by
  rw [V_main_v3_eq]
  refine (truncf_apply (φ := .f32) (ψ := .bf16) _ bitsLt_bf16_f32 _).trans ?_
  refine (flatten_apply _ _ k cc e).trans ?_
  refine (swap01_apply _ _ k cc e).trans ?_
  exact transpose_ix3_021_apply _ _ cc k e

/-- Column `64 c + e` of the packed bias row is entry `(c, e)` of the biases. -/
theorem V_main_v4_apply (c : Dev nD) (cc : Fin 28) (e : Fin 64) :
    (V m c main_v4 : S1x1792.Idx → EReal) (ix2 (0 : Fin 1) (Cert.Layers.col cc e))
      = (m ((c : Thread nD τ).loc main_arg2) : S28x64.Idx → EReal) (ix2 cc e) := by
  rw [V_main_v4_eq]
  exact flattenRow_apply _ _ cc e

/-- The weights the body reads off the packed matrix are the weights argument's. -/
theorem packedW_V (c : Dev nD) :
    Cert.Layers.packedW (V m c main_v3 : S64x1792.Idx → EReal)
      = Cert.Layers.argW (m ((c : Thread nD τ).loc main_arg1) : S28x64x64.Idx → EReal) :=
  funext fun cc => funext fun e => funext fun k => V_main_v3_apply m c cc e k

/-- The biases the body reads off the packed row are the biases argument's. -/
theorem packedB_V (c : Dev nD) :
    Cert.Layers.packedB (V m c main_v4 : S1x1792.Idx → EReal)
      = Cert.Layers.argB (m ((c : Thread nD τ).loc main_arg2) : S28x64.Idx → EReal) :=
  funext fun cc => funext fun e => V_main_v4_apply m c cc e

end Cert.KernelIdeal.KValue

end
-- ==== Proof.KLib.lean ====
/-
  Pieces of the kernel's body read at an index, at the exact extended reals: a rectified affine map of a block
  ("group": one source layer against the slab of packed weights of all its targets), the slice of a group that
  belongs to one target, and the two ways a slice is added into an accumulator (a scratch slot, the output block).
-/
import proofs.«164341_j31275951850011_2_alg».proof.Proof.Gen.KernelIdeal
import proofs.«164341_j31275951850011_2_alg».proof.Proof.Layers
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Facts₀ Cert.KernelIdeal.Facts Idealize.ShloMosaic Idealize.ShloMosaic.ValueIdx

/-! ### Width 448 -/

theorem dot448_lhs0 (i : S4096x448.Idx) (q : dot_S4096x64_S64x448_S4096x448_1_0_0_1_n_n.contr.Idx) : (dot_S4096x64_S64x448_S4096x448_1_0_0_1_n_n.lhsIdx i q 0).val = (i 0).val := by
  unfold DotDims.lhsIdx
  rw [dif_neg (show ¬(0 : Fin S4096x64.rank) ∈ dot_S4096x64_S64x448_S4096x448_1_0_0_1_n_n.lhsBatch by decide),
    dif_pos (show (0 : Fin S4096x64.rank) ∈ dot_S4096x64_S64x448_S4096x448_1_0_0_1_n_n.lhsNonContracting by decide)]
  rfl

theorem dot448_rhs1 (i : S4096x448.Idx) (q : dot_S4096x64_S64x448_S4096x448_1_0_0_1_n_n.contr.Idx) : (dot_S4096x64_S64x448_S4096x448_1_0_0_1_n_n.rhsIdx i q 1).val = (i 1).val := by
  unfold DotDims.rhsIdx
  rw [dif_neg (show ¬(1 : Fin S64x448.rank) ∈ dot_S4096x64_S64x448_S4096x448_1_0_0_1_n_n.rhsBatch by decide),
    dif_pos (show (1 : Fin S64x448.rank) ∈ dot_S4096x64_S64x448_S4096x448_1_0_0_1_n_n.rhsNonContracting by decide)]
  rfl

/-- The product of a `[4096, 64]` block with a `[64, 448]` slab into a zero accumulator, at `(p, q)`: the sum over the 64
    input features. -/
theorem mm448_apply (src : FVec Ideal S4096x64 .bf16) (Wl : FVec Ideal S64x448 .bf16) (p : Fin 4096) (q : Fin 448) :
    matmul dot_S4096x64_S64x448_S4096x448_1_0_0_1_n_n none src Wl (constant S4096x448 .f32 0x00000000#32) (ix2 p q)
      = ∑ k : Fin 64, src (ix2 p k) * Wl (ix2 k q) := by
  refine (Ideal.matmul_constant_zero_apply dot_S4096x64_S64x448_S4096x448_1_0_0_1_n_n none src Wl (ix2 p q)).trans ?_
  rw [← Equiv.sum_comp (ValueIdx.contrEquiv1 dot_S4096x64_S64x448_S4096x448_1_0_0_1_n_n 64 rfl rfl).symm]
  refine Finset.sum_congr rfl fun k _ => ?_
  have hk := ValueIdx.contrEquiv1_symm_val dot_S4096x64_S64x448_S4096x448_1_0_0_1_n_n 64 rfl rfl k
  have el : dot_S4096x64_S64x448_S4096x448_1_0_0_1_n_n.lhsIdx (ix2 p q) ((ValueIdx.contrEquiv1 dot_S4096x64_S64x448_S4096x448_1_0_0_1_n_n 64 rfl rfl).symm k) = ix2 p k :=
    funext fun a => Fin.ext (by
      match a with
      | ⟨0, _⟩ => exact dot448_lhs0 _ _
      | ⟨1, _⟩ => exact (dot_S4096x64_S64x448_S4096x448_1_0_0_1_n_n.lhsIdx_val_of_single rfl _ _).trans hk)
  have er : dot_S4096x64_S64x448_S4096x448_1_0_0_1_n_n.rhsIdx (ix2 p q) ((ValueIdx.contrEquiv1 dot_S4096x64_S64x448_S4096x448_1_0_0_1_n_n 64 rfl rfl).symm k) = ix2 k q :=
    funext fun a => Fin.ext (by
      match a with
      | ⟨0, _⟩ => exact (dot_S4096x64_S64x448_S4096x448_1_0_0_1_n_n.rhsIdx_val_of_single rfl _ _).trans hk
      | ⟨1, _⟩ => exact dot448_rhs1 _ _)
  rw [el, er]

/-- A group of width 448: a block times a slab of the packed weights, plus the slab's bias row, rectified; at `(p, q)`
    it is `max (∑ k, src (p, k) * Wl (k, q) + bl (0, q)) 0`. -/
theorem grp448_apply (src : FVec Ideal S4096x64 .bf16) (Wl : Vec Ideal S64x448 .bf16) (bl : Vec Ideal S1x448 .f32)
    (p : Fin 4096) (q : Fin 448) :
    maximumf (addf (matmul dot_S4096x64_S64x448_S4096x448_1_0_0_1_n_n none src
        (shapeCast S64x448 Wl shapeCasts_S64x448_S64x448 : FVec Ideal S64x448 .bf16) (constant S4096x448 .f32 0x00000000#32))
      (broadcastTo S4096x448 (shapeCast S1x448 bl shapeCasts_S1x448_S1x448 : FVec Ideal S1x448 .f32) broadcasts_S1x448_S4096x448))
      (broadcast S4096x448 (Scalar.ofBits (F := Ideal) .f32 0x00000000#32)) (ix2 p q)
      = max ((∑ k : Fin 64, src (ix2 p k) * Wl (ix2 k q)) + bl (ix2 (0 : Fin 1) q)) Cert.Layers.Z := by
  rw [maximumf_apply, addf_apply, broadcast_apply, shapeCast_self, shapeCast_self, broadcastTo_1b_ab_apply, mm448_apply]
  rfl

/-! ### Width 384 -/

theorem dot384_lhs0 (i : S4096x384.Idx) (q : dot_S4096x64_S64x384_S4096x384_1_0_0_1_n_n.contr.Idx) : (dot_S4096x64_S64x384_S4096x384_1_0_0_1_n_n.lhsIdx i q 0).val = (i 0).val := by
  unfold DotDims.lhsIdx
  rw [dif_neg (show ¬(0 : Fin S4096x64.rank) ∈ dot_S4096x64_S64x384_S4096x384_1_0_0_1_n_n.lhsBatch by decide),
    dif_pos (show (0 : Fin S4096x64.rank) ∈ dot_S4096x64_S64x384_S4096x384_1_0_0_1_n_n.lhsNonContracting by decide)]
  rfl

theorem dot384_rhs1 (i : S4096x384.Idx) (q : dot_S4096x64_S64x384_S4096x384_1_0_0_1_n_n.contr.Idx) : (dot_S4096x64_S64x384_S4096x384_1_0_0_1_n_n.rhsIdx i q 1).val = (i 1).val := by
  unfold DotDims.rhsIdx
  rw [dif_neg (show ¬(1 : Fin S64x384.rank) ∈ dot_S4096x64_S64x384_S4096x384_1_0_0_1_n_n.rhsBatch by decide),
    dif_pos (show (1 : Fin S64x384.rank) ∈ dot_S4096x64_S64x384_S4096x384_1_0_0_1_n_n.rhsNonContracting by decide)]
  rfl

/-- The product of a `[4096, 64]` block with a `[64, 384]` slab into a zero accumulator, at `(p, q)`: the sum over the 64
    input features. -/
theorem mm384_apply (src : FVec Ideal S4096x64 .bf16) (Wl : FVec Ideal S64x384 .bf16) (p : Fin 4096) (q : Fin 384) :
    matmul dot_S4096x64_S64x384_S4096x384_1_0_0_1_n_n none src Wl (constant S4096x384 .f32 0x00000000#32) (ix2 p q)
      = ∑ k : Fin 64, src (ix2 p k) * Wl (ix2 k q) := by
  refine (Ideal.matmul_constant_zero_apply dot_S4096x64_S64x384_S4096x384_1_0_0_1_n_n none src Wl (ix2 p q)).trans ?_
  rw [← Equiv.sum_comp (ValueIdx.contrEquiv1 dot_S4096x64_S64x384_S4096x384_1_0_0_1_n_n 64 rfl rfl).symm]
  refine Finset.sum_congr rfl fun k _ => ?_
  have hk := ValueIdx.contrEquiv1_symm_val dot_S4096x64_S64x384_S4096x384_1_0_0_1_n_n 64 rfl rfl k
  have el : dot_S4096x64_S64x384_S4096x384_1_0_0_1_n_n.lhsIdx (ix2 p q) ((ValueIdx.contrEquiv1 dot_S4096x64_S64x384_S4096x384_1_0_0_1_n_n 64 rfl rfl).symm k) = ix2 p k :=
    funext fun a => Fin.ext (by
      match a with
      | ⟨0, _⟩ => exact dot384_lhs0 _ _
      | ⟨1, _⟩ => exact (dot_S4096x64_S64x384_S4096x384_1_0_0_1_n_n.lhsIdx_val_of_single rfl _ _).trans hk)
  have er : dot_S4096x64_S64x384_S4096x384_1_0_0_1_n_n.rhsIdx (ix2 p q) ((ValueIdx.contrEquiv1 dot_S4096x64_S64x384_S4096x384_1_0_0_1_n_n 64 rfl rfl).symm k) = ix2 k q :=
    funext fun a => Fin.ext (by
      match a with
      | ⟨0, _⟩ => exact (dot_S4096x64_S64x384_S4096x384_1_0_0_1_n_n.rhsIdx_val_of_single rfl _ _).trans hk
      | ⟨1, _⟩ => exact dot384_rhs1 _ _)
  rw [el, er]

/-- A group of width 384: a block times a slab of the packed weights, plus the slab's bias row, rectified; at `(p, q)`
    it is `max (∑ k, src (p, k) * Wl (k, q) + bl (0, q)) 0`. -/
theorem grp384_apply (src : FVec Ideal S4096x64 .bf16) (Wl : Vec Ideal S64x384 .bf16) (bl : Vec Ideal S1x384 .f32)
    (p : Fin 4096) (q : Fin 384) :
    maximumf (addf (matmul dot_S4096x64_S64x384_S4096x384_1_0_0_1_n_n none src
        (shapeCast S64x384 Wl shapeCasts_S64x384_S64x384 : FVec Ideal S64x384 .bf16) (constant S4096x384 .f32 0x00000000#32))
      (broadcastTo S4096x384 (shapeCast S1x384 bl shapeCasts_S1x384_S1x384 : FVec Ideal S1x384 .f32) broadcasts_S1x384_S4096x384))
      (broadcast S4096x384 (Scalar.ofBits (F := Ideal) .f32 0x00000000#32)) (ix2 p q)
      = max ((∑ k : Fin 64, src (ix2 p k) * Wl (ix2 k q)) + bl (ix2 (0 : Fin 1) q)) Cert.Layers.Z := by
  rw [maximumf_apply, addf_apply, broadcast_apply, shapeCast_self, shapeCast_self, broadcastTo_1b_ab_apply, mm384_apply]
  rfl

/-! ### Width 320 -/

theorem dot320_lhs0 (i : S4096x320.Idx) (q : dot_S4096x64_S64x320_S4096x320_1_0_0_1_n_n.contr.Idx) : (dot_S4096x64_S64x320_S4096x320_1_0_0_1_n_n.lhsIdx i q 0).val = (i 0).val := by
  unfold DotDims.lhsIdx
  rw [dif_neg (show ¬(0 : Fin S4096x64.rank) ∈ dot_S4096x64_S64x320_S4096x320_1_0_0_1_n_n.lhsBatch by decide),
    dif_pos (show (0 : Fin S4096x64.rank) ∈ dot_S4096x64_S64x320_S4096x320_1_0_0_1_n_n.lhsNonContracting by decide)]
  rfl

theorem dot320_rhs1 (i : S4096x320.Idx) (q : dot_S4096x64_S64x320_S4096x320_1_0_0_1_n_n.contr.Idx) : (dot_S4096x64_S64x320_S4096x320_1_0_0_1_n_n.rhsIdx i q 1).val = (i 1).val := by
  unfold DotDims.rhsIdx
  rw [dif_neg (show ¬(1 : Fin S64x320.rank) ∈ dot_S4096x64_S64x320_S4096x320_1_0_0_1_n_n.rhsBatch by decide),
    dif_pos (show (1 : Fin S64x320.rank) ∈ dot_S4096x64_S64x320_S4096x320_1_0_0_1_n_n.rhsNonContracting by decide)]
  rfl

/-- The product of a `[4096, 64]` block with a `[64, 320]` slab into a zero accumulator, at `(p, q)`: the sum over the 64
    input features. -/
theorem mm320_apply (src : FVec Ideal S4096x64 .bf16) (Wl : FVec Ideal S64x320 .bf16) (p : Fin 4096) (q : Fin 320) :
    matmul dot_S4096x64_S64x320_S4096x320_1_0_0_1_n_n none src Wl (constant S4096x320 .f32 0x00000000#32) (ix2 p q)
      = ∑ k : Fin 64, src (ix2 p k) * Wl (ix2 k q) := by
  refine (Ideal.matmul_constant_zero_apply dot_S4096x64_S64x320_S4096x320_1_0_0_1_n_n none src Wl (ix2 p q)).trans ?_
  rw [← Equiv.sum_comp (ValueIdx.contrEquiv1 dot_S4096x64_S64x320_S4096x320_1_0_0_1_n_n 64 rfl rfl).symm]
  refine Finset.sum_congr rfl fun k _ => ?_
  have hk := ValueIdx.contrEquiv1_symm_val dot_S4096x64_S64x320_S4096x320_1_0_0_1_n_n 64 rfl rfl k
  have el : dot_S4096x64_S64x320_S4096x320_1_0_0_1_n_n.lhsIdx (ix2 p q) ((ValueIdx.contrEquiv1 dot_S4096x64_S64x320_S4096x320_1_0_0_1_n_n 64 rfl rfl).symm k) = ix2 p k :=
    funext fun a => Fin.ext (by
      match a with
      | ⟨0, _⟩ => exact dot320_lhs0 _ _
      | ⟨1, _⟩ => exact (dot_S4096x64_S64x320_S4096x320_1_0_0_1_n_n.lhsIdx_val_of_single rfl _ _).trans hk)
  have er : dot_S4096x64_S64x320_S4096x320_1_0_0_1_n_n.rhsIdx (ix2 p q) ((ValueIdx.contrEquiv1 dot_S4096x64_S64x320_S4096x320_1_0_0_1_n_n 64 rfl rfl).symm k) = ix2 k q :=
    funext fun a => Fin.ext (by
      match a with
      | ⟨0, _⟩ => exact (dot_S4096x64_S64x320_S4096x320_1_0_0_1_n_n.rhsIdx_val_of_single rfl _ _).trans hk
      | ⟨1, _⟩ => exact dot320_rhs1 _ _)
  rw [el, er]

/-- A group of width 320: a block times a slab of the packed weights, plus the slab's bias row, rectified; at `(p, q)`
    it is `max (∑ k, src (p, k) * Wl (k, q) + bl (0, q)) 0`. -/
theorem grp320_apply (src : FVec Ideal S4096x64 .bf16) (Wl : Vec Ideal S64x320 .bf16) (bl : Vec Ideal S1x320 .f32)
    (p : Fin 4096) (q : Fin 320) :
    maximumf (addf (matmul dot_S4096x64_S64x320_S4096x320_1_0_0_1_n_n none src
        (shapeCast S64x320 Wl shapeCasts_S64x320_S64x320 : FVec Ideal S64x320 .bf16) (constant S4096x320 .f32 0x00000000#32))
      (broadcastTo S4096x320 (shapeCast S1x320 bl shapeCasts_S1x320_S1x320 : FVec Ideal S1x320 .f32) broadcasts_S1x320_S4096x320))
      (broadcast S4096x320 (Scalar.ofBits (F := Ideal) .f32 0x00000000#32)) (ix2 p q)
      = max ((∑ k : Fin 64, src (ix2 p k) * Wl (ix2 k q)) + bl (ix2 (0 : Fin 1) q)) Cert.Layers.Z := by
  rw [maximumf_apply, addf_apply, broadcast_apply, shapeCast_self, shapeCast_self, broadcastTo_1b_ab_apply, mm320_apply]
  rfl

/-! ### Width 256 -/

theorem dot256_lhs0 (i : S4096x256.Idx) (q : dot_S4096x64_S64x256_S4096x256_1_0_0_1_n_n.contr.Idx) : (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide),
    dif_pos (show (0 : Fin S4096x64.rank) ∈ dot_S4096x64_S64x256_S4096x256_1_0_0_1_n_n.lhsNonContracting by decide)]
  rfl

theorem dot256_rhs1 (i : S4096x256.Idx) (q : dot_S4096x64_S64x256_S4096x256_1_0_0_1_n_n.contr.Idx) : (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide),
    dif_pos (show (1 : Fin S64x256.rank) ∈ dot_S4096x64_S64x256_S4096x256_1_0_0_1_n_n.rhsNonContracting by decide)]
  rfl

/-- The product of a `[4096, 64]` block with a `[64, 256]` slab into a zero accumulator, at `(p, q)`: the sum over the 64
    input features. -/
theorem mm256_apply (src : FVec Ideal S4096x64 .bf16) (Wl : FVec Ideal S64x256 .bf16) (p : Fin 4096) (q : Fin 256) :
    matmul dot_S4096x64_S64x256_S4096x256_1_0_0_1_n_n none src Wl (constant S4096x256 .f32 0x00000000#32) (ix2 p q)
      = ∑ k : Fin 64, src (ix2 p k) * Wl (ix2 k q) := by
  refine (Ideal.matmul_constant_zero_apply dot_S4096x64_S64x256_S4096x256_1_0_0_1_n_n none src Wl (ix2 p q)).trans ?_
  rw [← Equiv.sum_comp (ValueIdx.contrEquiv1 dot_S4096x64_S64x256_S4096x256_1_0_0_1_n_n 64 rfl rfl).symm]
  refine Finset.sum_congr rfl fun k _ => ?_
  have hk := ValueIdx.contrEquiv1_symm_val dot_S4096x64_S64x256_S4096x256_1_0_0_1_n_n 64 rfl rfl k
  have el : dot_S4096x64_S64x256_S4096x256_1_0_0_1_n_n.lhsIdx (ix2 p q) ((ValueIdx.contrEquiv1 dot_S4096x64_S64x256_S4096x256_1_0_0_1_n_n 64 rfl rfl).symm k) = ix2 p k :=
    funext fun a => Fin.ext (by
      match a with
      | ⟨0, _⟩ => exact dot256_lhs0 _ _
      | ⟨1, _⟩ => exact (dot_S4096x64_S64x256_S4096x256_1_0_0_1_n_n.lhsIdx_val_of_single rfl _ _).trans hk)
  have er : dot_S4096x64_S64x256_S4096x256_1_0_0_1_n_n.rhsIdx (ix2 p q) ((ValueIdx.contrEquiv1 dot_S4096x64_S64x256_S4096x256_1_0_0_1_n_n 64 rfl rfl).symm k) = ix2 k q :=
    funext fun a => Fin.ext (by
      match a with
      | ⟨0, _⟩ => exact (dot_S4096x64_S64x256_S4096x256_1_0_0_1_n_n.rhsIdx_val_of_single rfl _ _).trans hk
      | ⟨1, _⟩ => exact dot256_rhs1 _ _)
  rw [el, er]

/-- A group of width 256: a block times a slab of the packed weights, plus the slab's bias row, rectified; at `(p, q)`
    it is `max (∑ k, src (p, k) * Wl (k, q) + bl (0, q)) 0`. -/
theorem grp256_apply (src : FVec Ideal S4096x64 .bf16) (Wl : Vec Ideal S64x256 .bf16) (bl : Vec Ideal S1x256 .f32)
    (p : Fin 4096) (q : Fin 256) :
    maximumf (addf (matmul dot_S4096x64_S64x256_S4096x256_1_0_0_1_n_n none src
        (shapeCast S64x256 Wl shapeCasts_S64x256_S64x256 : FVec Ideal S64x256 .bf16) (constant S4096x256 .f32 0x00000000#32))
      (broadcastTo S4096x256 (shapeCast S1x256 bl shapeCasts_S1x256_S1x256 : FVec Ideal S1x256 .f32) broadcasts_S1x256_S4096x256))
      (broadcast S4096x256 (Scalar.ofBits (F := Ideal) .f32 0x00000000#32)) (ix2 p q)
      = max ((∑ k : Fin 64, src (ix2 p k) * Wl (ix2 k q)) + bl (ix2 (0 : Fin 1) q)) Cert.Layers.Z := by
  rw [maximumf_apply, addf_apply, broadcast_apply, shapeCast_self, shapeCast_self, broadcastTo_1b_ab_apply, mm256_apply]
  rfl

/-! ### Width 192 -/

theorem dot192_lhs0 (i : S4096x192.Idx) (q : dot_S4096x64_S64x192_S4096x192_1_0_0_1_n_n.contr.Idx) : (dot_S4096x64_S64x192_S4096x192_1_0_0_1_n_n.lhsIdx i q 0).val = (i 0).val := by
  unfold DotDims.lhsIdx
  rw [dif_neg (show ¬(0 : Fin S4096x64.rank) ∈ dot_S4096x64_S64x192_S4096x192_1_0_0_1_n_n.lhsBatch by decide),
    dif_pos (show (0 : Fin S4096x64.rank) ∈ dot_S4096x64_S64x192_S4096x192_1_0_0_1_n_n.lhsNonContracting by decide)]
  rfl

theorem dot192_rhs1 (i : S4096x192.Idx) (q : dot_S4096x64_S64x192_S4096x192_1_0_0_1_n_n.contr.Idx) : (dot_S4096x64_S64x192_S4096x192_1_0_0_1_n_n.rhsIdx i q 1).val = (i 1).val := by
  unfold DotDims.rhsIdx
  rw [dif_neg (show ¬(1 : Fin S64x192.rank) ∈ dot_S4096x64_S64x192_S4096x192_1_0_0_1_n_n.rhsBatch by decide),
    dif_pos (show (1 : Fin S64x192.rank) ∈ dot_S4096x64_S64x192_S4096x192_1_0_0_1_n_n.rhsNonContracting by decide)]
  rfl

/-- The product of a `[4096, 64]` block with a `[64, 192]` slab into a zero accumulator, at `(p, q)`: the sum over the 64
    input features. -/
theorem mm192_apply (src : FVec Ideal S4096x64 .bf16) (Wl : FVec Ideal S64x192 .bf16) (p : Fin 4096) (q : Fin 192) :
    matmul dot_S4096x64_S64x192_S4096x192_1_0_0_1_n_n none src Wl (constant S4096x192 .f32 0x00000000#32) (ix2 p q)
      = ∑ k : Fin 64, src (ix2 p k) * Wl (ix2 k q) := by
  refine (Ideal.matmul_constant_zero_apply dot_S4096x64_S64x192_S4096x192_1_0_0_1_n_n none src Wl (ix2 p q)).trans ?_
  rw [← Equiv.sum_comp (ValueIdx.contrEquiv1 dot_S4096x64_S64x192_S4096x192_1_0_0_1_n_n 64 rfl rfl).symm]
  refine Finset.sum_congr rfl fun k _ => ?_
  have hk := ValueIdx.contrEquiv1_symm_val dot_S4096x64_S64x192_S4096x192_1_0_0_1_n_n 64 rfl rfl k
  have el : dot_S4096x64_S64x192_S4096x192_1_0_0_1_n_n.lhsIdx (ix2 p q) ((ValueIdx.contrEquiv1 dot_S4096x64_S64x192_S4096x192_1_0_0_1_n_n 64 rfl rfl).symm k) = ix2 p k :=
    funext fun a => Fin.ext (by
      match a with
      | ⟨0, _⟩ => exact dot192_lhs0 _ _
      | ⟨1, _⟩ => exact (dot_S4096x64_S64x192_S4096x192_1_0_0_1_n_n.lhsIdx_val_of_single rfl _ _).trans hk)
  have er : dot_S4096x64_S64x192_S4096x192_1_0_0_1_n_n.rhsIdx (ix2 p q) ((ValueIdx.contrEquiv1 dot_S4096x64_S64x192_S4096x192_1_0_0_1_n_n 64 rfl rfl).symm k) = ix2 k q :=
    funext fun a => Fin.ext (by
      match a with
      | ⟨0, _⟩ => exact (dot_S4096x64_S64x192_S4096x192_1_0_0_1_n_n.rhsIdx_val_of_single rfl _ _).trans hk
      | ⟨1, _⟩ => exact dot192_rhs1 _ _)
  rw [el, er]

/-- A group of width 192: a block times a slab of the packed weights, plus the slab's bias row, rectified; at `(p, q)`
    it is `max (∑ k, src (p, k) * Wl (k, q) + bl (0, q)) 0`. -/
theorem grp192_apply (src : FVec Ideal S4096x64 .bf16) (Wl : Vec Ideal S64x192 .bf16) (bl : Vec Ideal S1x192 .f32)
    (p : Fin 4096) (q : Fin 192) :
    maximumf (addf (matmul dot_S4096x64_S64x192_S4096x192_1_0_0_1_n_n none src
        (shapeCast S64x192 Wl shapeCasts_S64x192_S64x192 : FVec Ideal S64x192 .bf16) (constant S4096x192 .f32 0x00000000#32))
      (broadcastTo S4096x192 (shapeCast S1x192 bl shapeCasts_S1x192_S1x192 : FVec Ideal S1x192 .f32) broadcasts_S1x192_S4096x192))
      (broadcast S4096x192 (Scalar.ofBits (F := Ideal) .f32 0x00000000#32)) (ix2 p q)
      = max ((∑ k : Fin 64, src (ix2 p k) * Wl (ix2 k q)) + bl (ix2 (0 : Fin 1) q)) Cert.Layers.Z := by
  rw [maximumf_apply, addf_apply, broadcast_apply, shapeCast_self, shapeCast_self, broadcastTo_1b_ab_apply, mm192_apply]
  rfl

/-! ### Width 128 -/

theorem dot128_lhs0 (i : S4096x128.Idx) (q : dot_S4096x64_S64x128_S4096x128_1_0_0_1_n_n.contr.Idx) : (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide),
    dif_pos (show (0 : Fin S4096x64.rank) ∈ dot_S4096x64_S64x128_S4096x128_1_0_0_1_n_n.lhsNonContracting by decide)]
  rfl

theorem dot128_rhs1 (i : S4096x128.Idx) (q : dot_S4096x64_S64x128_S4096x128_1_0_0_1_n_n.contr.Idx) : (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide),
    dif_pos (show (1 : Fin S64x128.rank) ∈ dot_S4096x64_S64x128_S4096x128_1_0_0_1_n_n.rhsNonContracting by decide)]
  rfl

/-- The product of a `[4096, 64]` block with a `[64, 128]` slab into a zero accumulator, at `(p, q)`: the sum over the 64
    input features. -/
theorem mm128_apply (src : FVec Ideal S4096x64 .bf16) (Wl : FVec Ideal S64x128 .bf16) (p : Fin 4096) (q : Fin 128) :
    matmul dot_S4096x64_S64x128_S4096x128_1_0_0_1_n_n none src Wl (constant S4096x128 .f32 0x00000000#32) (ix2 p q)
      = ∑ k : Fin 64, src (ix2 p k) * Wl (ix2 k q) := by
  refine (Ideal.matmul_constant_zero_apply dot_S4096x64_S64x128_S4096x128_1_0_0_1_n_n none src Wl (ix2 p q)).trans ?_
  rw [← Equiv.sum_comp (ValueIdx.contrEquiv1 dot_S4096x64_S64x128_S4096x128_1_0_0_1_n_n 64 rfl rfl).symm]
  refine Finset.sum_congr rfl fun k _ => ?_
  have hk := ValueIdx.contrEquiv1_symm_val dot_S4096x64_S64x128_S4096x128_1_0_0_1_n_n 64 rfl rfl k
  have el : dot_S4096x64_S64x128_S4096x128_1_0_0_1_n_n.lhsIdx (ix2 p q) ((ValueIdx.contrEquiv1 dot_S4096x64_S64x128_S4096x128_1_0_0_1_n_n 64 rfl rfl).symm k) = ix2 p k :=
    funext fun a => Fin.ext (by
      match a with
      | ⟨0, _⟩ => exact dot128_lhs0 _ _
      | ⟨1, _⟩ => exact (dot_S4096x64_S64x128_S4096x128_1_0_0_1_n_n.lhsIdx_val_of_single rfl _ _).trans hk)
  have er : dot_S4096x64_S64x128_S4096x128_1_0_0_1_n_n.rhsIdx (ix2 p q) ((ValueIdx.contrEquiv1 dot_S4096x64_S64x128_S4096x128_1_0_0_1_n_n 64 rfl rfl).symm k) = ix2 k q :=
    funext fun a => Fin.ext (by
      match a with
      | ⟨0, _⟩ => exact (dot_S4096x64_S64x128_S4096x128_1_0_0_1_n_n.rhsIdx_val_of_single rfl _ _).trans hk
      | ⟨1, _⟩ => exact dot128_rhs1 _ _)
  rw [el, er]

/-- A group of width 128: a block times a slab of the packed weights, plus the slab's bias row, rectified; at `(p, q)`
    it is `max (∑ k, src (p, k) * Wl (k, q) + bl (0, q)) 0`. -/
theorem grp128_apply (src : FVec Ideal S4096x64 .bf16) (Wl : Vec Ideal S64x128 .bf16) (bl : Vec Ideal S1x128 .f32)
    (p : Fin 4096) (q : Fin 128) :
    maximumf (addf (matmul dot_S4096x64_S64x128_S4096x128_1_0_0_1_n_n none src
        (shapeCast S64x128 Wl shapeCasts_S64x128_S64x128 : FVec Ideal S64x128 .bf16) (constant S4096x128 .f32 0x00000000#32))
      (broadcastTo S4096x128 (shapeCast S1x128 bl shapeCasts_S1x128_S1x128 : FVec Ideal S1x128 .f32) broadcasts_S1x128_S4096x128))
      (broadcast S4096x128 (Scalar.ofBits (F := Ideal) .f32 0x00000000#32)) (ix2 p q)
      = max ((∑ k : Fin 64, src (ix2 p k) * Wl (ix2 k q)) + bl (ix2 (0 : Fin 1) q)) Cert.Layers.Z := by
  rw [maximumf_apply, addf_apply, broadcast_apply, shapeCast_self, shapeCast_self, broadcastTo_1b_ab_apply, mm128_apply]
  rfl

/-! ### Width 64 -/

theorem dot64_lhs0 (i : S4096x64.Idx) (q : dot_S4096x64_S64x64_S4096x64_1_0_0_1_n_n.contr.Idx) : (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl

theorem dot64_rhs1 (i : S4096x64.Idx) (q : dot_S4096x64_S64x64_S4096x64_1_0_0_1_n_n.contr.Idx) : (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- The product of a `[4096, 64]` block with a `[64, 64]` slab into a zero accumulator, at `(p, q)`: the sum over the 64
    input features. -/
theorem mm64_apply (src : FVec Ideal S4096x64 .bf16) (Wl : FVec Ideal S64x64 .bf16) (p : Fin 4096) (q : Fin 64) :
    matmul dot_S4096x64_S64x64_S4096x64_1_0_0_1_n_n none src Wl (constant S4096x64 .f32 0x00000000#32) (ix2 p q)
      = ∑ k : Fin 64, src (ix2 p k) * Wl (ix2 k q) := by
  refine (Ideal.matmul_constant_zero_apply dot_S4096x64_S64x64_S4096x64_1_0_0_1_n_n none src Wl (ix2 p q)).trans ?_
  rw [← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx (ix2 p q) ((ValueIdx.contrEquiv1 dot_S4096x64_S64x64_S4096x64_1_0_0_1_n_n 64 rfl rfl).symm k) = ix2 p k :=
    funext fun a => Fin.ext (by
      match a with
      | ⟨0, _⟩ => exact dot64_lhs0 _ _
      | ⟨1, _⟩ => exact (dot_S4096x64_S64x64_S4096x64_1_0_0_1_n_n.lhsIdx_val_of_single rfl _ _).trans hk)
  have er : dot_S4096x64_S64x64_S4096x64_1_0_0_1_n_n.rhsIdx (ix2 p q) ((ValueIdx.contrEquiv1 dot_S4096x64_S64x64_S4096x64_1_0_0_1_n_n 64 rfl rfl).symm k) = ix2 k q :=
    funext fun a => Fin.ext (by
      match a with
      | ⟨0, _⟩ => exact (dot_S4096x64_S64x64_S4096x64_1_0_0_1_n_n.rhsIdx_val_of_single rfl _ _).trans hk
      | ⟨1, _⟩ => exact dot64_rhs1 _ _)
  rw [el, er]

/-- A group of width 64: a block times a slab of the packed weights, plus the slab's bias row, rectified; at `(p, q)`
    it is `max (∑ k, src (p, k) * Wl (k, q) + bl (0, q)) 0`. -/
theorem grp64_apply (src : FVec Ideal S4096x64 .bf16) (Wl : Vec Ideal S64x64 .bf16) (bl : Vec Ideal S1x64 .f32)
    (p : Fin 4096) (q : Fin 64) :
    maximumf (addf (matmul dot_S4096x64_S64x64_S4096x64_1_0_0_1_n_n none src
        (shapeCast S64x64 Wl shapeCasts_S64x64_S64x64 : FVec Ideal S64x64 .bf16) (constant S4096x64 .f32 0x00000000#32))
      (broadcastTo S4096x64 (shapeCast S1x64 bl shapeCasts_S1x64_S1x64 : FVec Ideal S1x64 .f32) broadcasts_S1x64_S4096x64))
      (broadcast S4096x64 (Scalar.ofBits (F := Ideal) .f32 0x00000000#32)) (ix2 p q)
      = max ((∑ k : Fin 64, src (ix2 p k) * Wl (ix2 k q)) + bl (ix2 (0 : Fin 1) q)) Cert.Layers.Z := by
  rw [maximumf_apply, addf_apply, broadcast_apply, shapeCast_self, shapeCast_self, broadcastTo_1b_ab_apply, mm64_apply]
  rfl

/-! ## Casts between a `[4096, 64]` block and a `[1, 4096, 64]` scratch slot, and accumulation -/

/-- A block viewed as a slot. -/
theorem lift_apply (g : FVec Ideal S4096x64 .f32) (u : Fin 1) (p : Fin 4096) (e : Fin 64) :
    (shapeCast S1x4096x64 g shapeCasts_S4096x64_S1x4096x64 : FVec Ideal S1x4096x64 .f32) (ix3 u p e) = g (ix2 p e) :=
  shapeCast_ab_1ab_apply g _ u p e

/-- A slot viewed as a block. -/
theorem drop_apply (a : Vec Ideal S1x4096x64 .f32) (p : Fin 4096) (e : Fin 64) :
    (shapeCast S4096x64 a shapeCasts_S1x4096x64_S4096x64 : FVec Ideal S4096x64 .f32) (ix2 p e) = a (ix3 (0 : Fin 1) p e) :=
  shapeCast_1ab_ab_apply a _ p e

/-- A slot's contents plus a block, stored back as a slot. -/
theorem accS_apply (a : Vec Ideal S1x4096x64 .f32) (g : FVec Ideal S4096x64 .f32) (u : Fin 1) (p : Fin 4096) (e : Fin 64) :
    (shapeCast S1x4096x64 (addf (shapeCast S4096x64 a shapeCasts_S1x4096x64_S4096x64 : FVec Ideal S4096x64 .f32) g)
      shapeCasts_S4096x64_S1x4096x64 : FVec Ideal S1x4096x64 .f32) (ix3 u p e) = a (ix3 (0 : Fin 1) p e) + g (ix2 p e) := by
  rw [lift_apply, addf_apply, drop_apply]

/-- A slot's contents plus a block, kept as a block. -/
theorem accV_apply (a : Vec Ideal S1x4096x64 .f32) (g : FVec Ideal S4096x64 .f32) (p : Fin 4096) (e : Fin 64) :
    (addf (shapeCast S4096x64 a shapeCasts_S1x4096x64_S4096x64 : FVec Ideal S4096x64 .f32) g) (ix2 p e)
      = a (ix3 (0 : Fin 1) p e) + g (ix2 p e) := by
  rw [addf_apply, drop_apply]

/-- The output block's contents plus a block. -/
theorem accO_apply (a : Vec Ideal S4096x64 .f32) (g : FVec Ideal S4096x64 .f32) (p : Fin 4096) (e : Fin 64) :
    (addf (shapeCast S4096x64 a shapeCasts_S4096x64_S4096x64 : FVec Ideal S4096x64 .f32) g) (ix2 p e)
      = a (ix2 p e) + g (ix2 p e) := by
  rw [addf_apply, shapeCast_self]

/-- A zero block, and a zero block viewed as a slot. -/
theorem zeroV_apply (p : Fin 4096) (e : Fin 64) :
    (broadcast S4096x64 (Scalar.ofBits (F := Ideal) .f32 0x00000000#32) : FVec Ideal S4096x64 .f32) (ix2 p e) = Cert.Layers.Z := rfl

theorem zeroS_apply (u : Fin 1) (p : Fin 4096) (e : Fin 64) :
    (shapeCast S1x4096x64 (broadcast S4096x64 (Scalar.ofBits (F := Ideal) .f32 0x00000000#32) : FVec Ideal S4096x64 .f32)
      shapeCasts_S4096x64_S1x4096x64 : FVec Ideal S1x4096x64 .f32) (ix3 u p e) = Cert.Layers.Z := by
  rw [lift_apply]; rfl

/-! ## The body's loads of its three input blocks -/

/-- The whole input block, loaded. -/
theorem ldX_eq (arg1 : Memref sig .tc .vmem S4096x64 .f32) (harg1 : arg1.IsWhole) (x0 : Vec Ideal S4096x64 .f32)
    (inb : ∀ a, (![0, 0] : Fin 2 → Nat) a + S4096x64.size a ≤ S4096x64.size a) :
    View.readAt (Elt Ideal) arg1.view (Rect.unit (s := S4096x64) ![0, 0] S4096x64.size inb).toLoadRect (harg1.unread x0) = x0 := by
  rw [View.readAt_eq_ld, harg1.read_unread]
  exact View.ld_unit_zero (S := S4096x64) (funext fun a => by match a with | ⟨0, _⟩ => rfl | ⟨1, _⟩ => rfl) inb x0

/-- `n` columns of the packed weights from column `off`, loaded: entry `(k, q)` is the packed matrix at `(k, off + q)`. -/
theorem ldW_apply {n : Nat} (off : Nat) (arg2 : Memref sig .tc .vmem S64x1792 .bf16) (harg2 : arg2.IsWhole)
    (x1 : Vec Ideal S64x1792 .bf16) (inb : ∀ a, (![0, off] : Fin 2 → Nat) a + (![64, n] : Fin 2 → Nat) a ≤ S64x1792.size a)
    (k : Fin 64) (q : Fin n) (Q : Fin 1792) (hQ : Q.val = off + q.val) :
    View.readAt (Elt Ideal) arg2.view (Rect.unit (s := S64x1792) ![0, off] ![64, n] inb).toLoadRect (harg2.unread x1) (ix2 k q) = x1 (ix2 k Q) := by
  rw [View.readAt_eq_ld, harg2.read_unread]
  show x1 _ = x1 _
  refine congrArg x1 (funext fun a => Fin.ext ?_)
  match a with
  | ⟨0, _⟩ => show 0 + 1 * k.val = k.val; omega
  | ⟨1, _⟩ => show off + 1 * q.val = Q.val; omega

/-- The same columns of the packed bias row. -/
theorem ldB_apply {n : Nat} (off : Nat) (arg3 : Memref sig .tc .vmem S1x1792 .f32) (harg3 : arg3.IsWhole)
    (x2 : Vec Ideal S1x1792 .f32) (inb : ∀ a, (![0, off] : Fin 2 → Nat) a + (![1, n] : Fin 2 → Nat) a ≤ S1x1792.size a)
    (q : Fin n) (Q : Fin 1792) (hQ : Q.val = off + q.val) :
    View.readAt (Elt Ideal) arg3.view (Rect.unit (s := S1x1792) ![0, off] ![1, n] inb).toLoadRect (harg3.unread x2) (ix2 (0 : Fin 1) q)
      = x2 (ix2 (0 : Fin 1) Q) := by
  rw [View.readAt_eq_ld, harg3.read_unread]
  show x2 _ = x2 _
  refine congrArg x2 (funext fun a => Fin.ext ?_)
  match a with
  | ⟨0, _⟩ => show 0 + 1 * 0 = 0; omega
  | ⟨1, _⟩ => show off + 1 * q.val = Q.val; omega

/-! ## One connection's message, read off a group -/

/-- A rectified affine form over column `Q = 64 c + e` of the packed arrays is connection `c`'s message at feature `e`. -/
theorem close_msg (x1 : Vec Ideal S64x1792 .bf16) (x2 : Vec Ideal S1x1792 .f32) (c : Fin 28) (v : Fin 64 → EReal) (e : Fin 64)
    (Q : Fin 1792) (hQ : Q.val = 64 * c.val + e.val) :
    max ((∑ k : Fin 64, v k * x1 (ix2 k Q)) + x2 (ix2 (0 : Fin 1) Q)) Cert.Layers.Z
      = Cert.Layers.msg (Cert.Layers.packedW x1) (Cert.Layers.packedB x2) c v e := by
  have hq : Q = Cert.Layers.col c e := Fin.ext hQ
  subst hq
  rfl

/-! ## Loads of a scratch slot after a list of slot stores -/

/-- A load of slot `s` skips a later store to another slot `t`. -/
theorem slot_skip {sig' : RefSig} {κ : Kind} {sp : Space} (v : View sig' κ sp S6x4096x64 .f32) (t s : Nat) (hne : t ≠ s)
    (inbt : ∀ a, (![t, 0, 0] : Fin 3 → Nat) a + S1x4096x64.size a ≤ S6x4096x64.size a)
    (inbs : ∀ a, (![s, 0, 0] : Fin 3 → Nat) a + S1x4096x64.size a ≤ S6x4096x64.size a)
    (w : (Rect.unit (s := S6x4096x64) ![t, 0, 0] S1x4096x64.size inbt).shape.Idx → Elt Ideal .f32)
    (L : List (View.Piece (Elt Ideal) S6x4096x64 .f32)) :
    v.readCov (⟨Rect.unit (s := S6x4096x64) ![t, 0, 0] S1x4096x64.size inbt, w⟩ :: L) (Rect.unit (s := S6x4096x64) ![s, 0, 0] S1x4096x64.size inbs).toLoadRect
      = v.readCov L (Rect.unit (s := S6x4096x64) ![s, 0, 0] S1x4096x64.size inbs).toLoadRect :=
  View.readCov_cons_of_disjoint v _ L _ (Rect.unit_disjoint (inb := inbt) (inb' := inbs) (0 : Fin 3) (by
    show t + 1 ≤ s ∨ s + 1 ≤ t
    omega))

end Cert.KernelIdeal.Body

end
-- ==== Proof.KBody.lean ====
/-
  What the kernel's body leaves in its output block, entry by entry: feature `e` of layer 7 of row `p` of the input
  block, with the weights read from the packed matrix and the packed bias row the body is handed.

  The body keeps layers 1…6 in six scratch slots and layer 7 in the output block. It zeroes them, then for each
  source layer 0…6 in turn multiplies the source by the slab of packed weights of ALL its targets at once (a
  "group"), adds the slab's biases, rectifies, and adds each 64-column slice of the result into its target's
  accumulator. So by the time a layer is read as a source every message into it has been added, in the order of the
  sources — the order in which the specification sums them. Below: each group at an index; each slice of a group as
  one connection's message; every load of an accumulator as the partial sum it holds at that moment (a load of a
  slot skips the later stores to other slots and reads the last store to its own); and the last store to the output.
-/
import proofs.«164341_j31275951850011_2_alg».proof.Proof.Gen.KernelIdeal.Frame
import proofs.«164341_j31275951850011_2_alg».proof.Proof.KLib

noncomputable section

namespace Cert.KernelIdeal.Body

open Cert.KernelIdeal Cert.KernelIdeal.Gen Idealize.ShloMosaic Idealize.ShloMosaic.TcCoe Idealize.SL.Sem
open Idealize.ShloMosaic.ValueIdx Cert.Layers

variable (c : Dev nD) (arg1 : Memref sig .tc .vmem S4096x64 .f32) (harg1 : arg1.IsWhole)
  (arg2 : Memref sig .tc .vmem S64x1792 .bf16) (harg2 : arg2.IsWhole) (arg3 : Memref sig .tc .vmem S1x1792 .f32) (harg3 : arg3.IsWhole)
  (arg4 : Memref sig .tc .vmem S4096x64 .f32) (arg5 : Memref sig .tc .vmem S6x4096x64 .f32)
  (x0 : Vec Ideal S4096x64 .f32) (x1 : Vec Ideal S64x1792 .bf16) (x2 : Vec Ideal S1x1792 .f32)

/-! ## The accumulators as first read: zero -/

theorem v38_apply (u : Fin 1) (p : Fin 4096) (e : Fin 64) :
    (kernelRun0_A.sl.v38 (F := Ideal) c arg5) (ix3 u p e) = Z := by
  unfold kernelRun0_A.sl.v38
  unfold kernelRun0_A.sl.HS0_6
  rw [slot_skip _ 5 0 (by decide), slot_skip _ 4 0 (by decide), slot_skip _ 3 0 (by decide), slot_skip _ 2 0 (by decide), slot_skip _ 1 0 (by decide), View.readCov_cons_toLoadRect]
  exact zeroS_apply u p e

theorem v45_apply (u : Fin 1) (p : Fin 4096) (e : Fin 64) :
    (kernelRun0_A.sl.v45 (F := Ideal) c arg1 harg1 arg2 harg2 arg3 harg3 arg5 x0 x1 x2) (ix3 u p e) = Z := by
  unfold kernelRun0_A.sl.v45
  unfold kernelRun0_A.sl.HS0_7
  rw [slot_skip _ 0 1 (by decide)]
  unfold kernelRun0_A.sl.HS0_6
  rw [slot_skip _ 5 1 (by decide), slot_skip _ 4 1 (by decide), slot_skip _ 3 1 (by decide), slot_skip _ 2 1 (by decide), View.readCov_cons_toLoadRect]
  exact zeroS_apply u p e

theorem v52_apply (u : Fin 1) (p : Fin 4096) (e : Fin 64) :
    (kernelRun0_A.sl.v52 (F := Ideal) c arg1 harg1 arg2 harg2 arg3 harg3 arg5 x0 x1 x2) (ix3 u p e) = Z := by
  unfold kernelRun0_A.sl.v52
  unfold kernelRun0_A.sl.HS0_8
  rw [slot_skip _ 1 2 (by decide)]
  unfold kernelRun0_A.sl.HS0_7
  rw [slot_skip _ 0 2 (by decide)]
  unfold kernelRun0_A.sl.HS0_6
  rw [slot_skip _ 5 2 (by decide), slot_skip _ 4 2 (by decide), slot_skip _ 3 2 (by decide), View.readCov_cons_toLoadRect]
  exact zeroS_apply u p e

theorem v59_apply (u : Fin 1) (p : Fin 4096) (e : Fin 64) :
    (kernelRun0_A.sl.v59 (F := Ideal) c arg1 harg1 arg2 harg2 arg3 harg3 arg5 x0 x1 x2) (ix3 u p e) = Z := by
  unfold kernelRun0_A.sl.v59
  unfold kernelRun0_A.sl.HS0_9
  rw [slot_skip _ 2 3 (by decide)]
  unfold kernelRun0_A.sl.HS0_8
  rw [slot_skip _ 1 3 (by decide)]
  unfold kernelRun0_A.sl.HS0_7
  rw [slot_skip _ 0 3 (by decide)]
  unfold kernelRun0_A.sl.HS0_6
  rw [slot_skip _ 5 3 (by decide), slot_skip _ 4 3 (by decide), View.readCov_cons_toLoadRect]
  exact zeroS_apply u p e

theorem v66_apply (u : Fin 1) (p : Fin 4096) (e : Fin 64) :
    (kernelRun0_A.sl.v66 (F := Ideal) c arg1 harg1 arg2 harg2 arg3 harg3 arg5 x0 x1 x2) (ix3 u p e) = Z := by
  unfold kernelRun0_A.sl.v66
  unfold kernelRun0_A.sl.HS0_10
  rw [slot_skip _ 3 4 (by decide)]
  unfold kernelRun0_A.sl.HS0_9
  rw [slot_skip _ 2 4 (by decide)]
  unfold kernelRun0_A.sl.HS0_8
  rw [slot_skip _ 1 4 (by decide)]
  unfold kernelRun0_A.sl.HS0_7
  rw [slot_skip _ 0 4 (by decide)]
  unfold kernelRun0_A.sl.HS0_6
  rw [slot_skip _ 5 4 (by decide), View.readCov_cons_toLoadRect]
  exact zeroS_apply u p e

theorem v73_apply (u : Fin 1) (p : Fin 4096) (e : Fin 64) :
    (kernelRun0_A.sl.v73 (F := Ideal) c arg1 harg1 arg2 harg2 arg3 harg3 arg5 x0 x1 x2) (ix3 u p e) = Z := by
  unfold kernelRun0_A.sl.v73
  unfold kernelRun0_A.sl.HS0_11
  rw [slot_skip _ 4 5 (by decide)]
  unfold kernelRun0_A.sl.HS0_10
  rw [slot_skip _ 3 5 (by decide)]
  unfold kernelRun0_A.sl.HS0_9
  rw [slot_skip _ 2 5 (by decide)]
  unfold kernelRun0_A.sl.HS0_8
  rw [slot_skip _ 1 5 (by decide)]
  unfold kernelRun0_A.sl.HS0_7
  rw [slot_skip _ 0 5 (by decide)]
  unfold kernelRun0_A.sl.HS0_6
  rw [View.readCov_cons_toLoadRect]
  exact zeroS_apply u p e

theorem v80_apply (p : Fin 4096) (e : Fin 64) :
    (kernelRun0_A.sl.v80 (F := Ideal) c arg4) (ix2 p e) = Z := by
  unfold kernelRun0_A.sl.v80
  unfold kernelRun0_A.sl.H3_1
  rw [View.readCov_cons_toLoadRect]
  exact zeroV_apply p e

/-! ## Source layer 0 -/

/-- The group of source layer 0 at `(p, q)`: column `q` of its slab is column `0 + q` of the packed arrays. -/
theorem grp0_val (p : Fin 4096) (q : Fin 448) (Q : Fin 1792) (hQ : Q.val = 0 + q.val) :
    (k0_pay9 (F := Ideal) (View.readAt (Elt Ideal) arg1.view (Rect.unit (s := S4096x64) ![0, 0] S4096x64.size Gen.inb_S4096x64_S4096x64_0_0).toLoadRect (harg1.unread x0)) (View.readAt (Elt Ideal) arg2.view (Rect.unit (s := S64x1792) ![0, 0] S64x448.size Gen.inb_S64x1792_S64x448_0_0).toLoadRect (harg2.unread x1)) (View.readAt (Elt Ideal) arg3.view (Rect.unit (s := S1x1792) ![0, 0] S1x448.size Gen.inb_S1x1792_S1x448_0_0).toLoadRect (harg3.unread x2))) (ix2 p q)
      = max ((∑ k : Fin 64, row x0 p k * x1 (ix2 k Q)) + x2 (ix2 (0 : Fin 1) Q)) Z :=
  (grp448_apply _ _ _ p q).trans (congrArg₂ (fun s t => max (s + t) Z)
    (Finset.sum_congr rfl fun k _ => congrArg₂ (· * ·)
      (congrFun (ldX_eq arg1 harg1 x0 _) (ix2 p k)) (ldW_apply 0 arg2 harg2 x1 _ k q Q hQ))
    (ldB_apply 0 arg3 harg3 x2 _ q Q hQ))

/-- Columns 0…63 of group 0 are connection 0's message (layer 0 to layer 1). -/
theorem cm0 (h : S4096x448.Slices ![0, 0] S4096x64) (p : Fin 4096) (e : Fin 64) :
    extractStridedSlice S4096x64 ![0, 0] (k0_pay9 (F := Ideal) (View.readAt (Elt Ideal) arg1.view (Rect.unit (s := S4096x64) ![0, 0] S4096x64.size Gen.inb_S4096x64_S4096x64_0_0).toLoadRect (harg1.unread x0)) (View.readAt (Elt Ideal) arg2.view (Rect.unit (s := S64x1792) ![0, 0] S64x448.size Gen.inb_S64x1792_S64x448_0_0).toLoadRect (harg2.unread x1)) (View.readAt (Elt Ideal) arg3.view (Rect.unit (s := S1x1792) ![0, 0] S1x448.size Gen.inb_S1x1792_S1x448_0_0).toLoadRect (harg3.unread x2))) h (ix2 p e) = msg (packedW x1) (packedB x2) 0 (row x0 p) e :=
  (slice2_axis1_eq 0 _ h p e).trans ((grp0_val arg1 harg1 arg2 harg2 arg3 harg3 x0 x1 x2 p _ ⟨0 + (0 + e.val), by omega⟩ rfl).trans
    (close_msg x1 x2 0 (row x0 p) e _ (by show 0 + (0 + e.val) = 64 * 0 + e.val; omega)))

/-- Columns 64…127 of group 0 are connection 1's message (layer 0 to layer 2). -/
theorem cm1 (h : S4096x448.Slices ![0, 64] S4096x64) (p : Fin 4096) (e : Fin 64) :
    extractStridedSlice S4096x64 ![0, 64] (k0_pay9 (F := Ideal) (View.readAt (Elt Ideal) arg1.view (Rect.unit (s := S4096x64) ![0, 0] S4096x64.size Gen.inb_S4096x64_S4096x64_0_0).toLoadRect (harg1.unread x0)) (View.readAt (Elt Ideal) arg2.view (Rect.unit (s := S64x1792) ![0, 0] S64x448.size Gen.inb_S64x1792_S64x448_0_0).toLoadRect (harg2.unread x1)) (View.readAt (Elt Ideal) arg3.view (Rect.unit (s := S1x1792) ![0, 0] S1x448.size Gen.inb_S1x1792_S1x448_0_0).toLoadRect (harg3.unread x2))) h (ix2 p e) = msg (packedW x1) (packedB x2) 1 (row x0 p) e :=
  (slice2_axis1_eq 64 _ h p e).trans ((grp0_val arg1 harg1 arg2 harg2 arg3 harg3 x0 x1 x2 p _ ⟨0 + (64 + e.val), by omega⟩ rfl).trans
    (close_msg x1 x2 1 (row x0 p) e _ (by show 0 + (64 + e.val) = 64 * 1 + e.val; omega)))

/-- Columns 128…191 of group 0 are connection 2's message (layer 0 to layer 3). -/
theorem cm2 (h : S4096x448.Slices ![0, 128] S4096x64) (p : Fin 4096) (e : Fin 64) :
    extractStridedSlice S4096x64 ![0, 128] (k0_pay9 (F := Ideal) (View.readAt (Elt Ideal) arg1.view (Rect.unit (s := S4096x64) ![0, 0] S4096x64.size Gen.inb_S4096x64_S4096x64_0_0).toLoadRect (harg1.unread x0)) (View.readAt (Elt Ideal) arg2.view (Rect.unit (s := S64x1792) ![0, 0] S64x448.size Gen.inb_S64x1792_S64x448_0_0).toLoadRect (harg2.unread x1)) (View.readAt (Elt Ideal) arg3.view (Rect.unit (s := S1x1792) ![0, 0] S1x448.size Gen.inb_S1x1792_S1x448_0_0).toLoadRect (harg3.unread x2))) h (ix2 p e) = msg (packedW x1) (packedB x2) 2 (row x0 p) e :=
  (slice2_axis1_eq 128 _ h p e).trans ((grp0_val arg1 harg1 arg2 harg2 arg3 harg3 x0 x1 x2 p _ ⟨0 + (128 + e.val), by omega⟩ rfl).trans
    (close_msg x1 x2 2 (row x0 p) e _ (by show 0 + (128 + e.val) = 64 * 2 + e.val; omega)))

/-- Columns 192…255 of group 0 are connection 3's message (layer 0 to layer 4). -/
theorem cm3 (h : S4096x448.Slices ![0, 192] S4096x64) (p : Fin 4096) (e : Fin 64) :
    extractStridedSlice S4096x64 ![0, 192] (k0_pay9 (F := Ideal) (View.readAt (Elt Ideal) arg1.view (Rect.unit (s := S4096x64) ![0, 0] S4096x64.size Gen.inb_S4096x64_S4096x64_0_0).toLoadRect (harg1.unread x0)) (View.readAt (Elt Ideal) arg2.view (Rect.unit (s := S64x1792) ![0, 0] S64x448.size Gen.inb_S64x1792_S64x448_0_0).toLoadRect (harg2.unread x1)) (View.readAt (Elt Ideal) arg3.view (Rect.unit (s := S1x1792) ![0, 0] S1x448.size Gen.inb_S1x1792_S1x448_0_0).toLoadRect (harg3.unread x2))) h (ix2 p e) = msg (packedW x1) (packedB x2) 3 (row x0 p) e :=
  (slice2_axis1_eq 192 _ h p e).trans ((grp0_val arg1 harg1 arg2 harg2 arg3 harg3 x0 x1 x2 p _ ⟨0 + (192 + e.val), by omega⟩ rfl).trans
    (close_msg x1 x2 3 (row x0 p) e _ (by show 0 + (192 + e.val) = 64 * 3 + e.val; omega)))

/-- Columns 256…319 of group 0 are connection 4's message (layer 0 to layer 5). -/
theorem cm4 (h : S4096x448.Slices ![0, 256] S4096x64) (p : Fin 4096) (e : Fin 64) :
    extractStridedSlice S4096x64 ![0, 256] (k0_pay9 (F := Ideal) (View.readAt (Elt Ideal) arg1.view (Rect.unit (s := S4096x64) ![0, 0] S4096x64.size Gen.inb_S4096x64_S4096x64_0_0).toLoadRect (harg1.unread x0)) (View.readAt (Elt Ideal) arg2.view (Rect.unit (s := S64x1792) ![0, 0] S64x448.size Gen.inb_S64x1792_S64x448_0_0).toLoadRect (harg2.unread x1)) (View.readAt (Elt Ideal) arg3.view (Rect.unit (s := S1x1792) ![0, 0] S1x448.size Gen.inb_S1x1792_S1x448_0_0).toLoadRect (harg3.unread x2))) h (ix2 p e) = msg (packedW x1) (packedB x2) 4 (row x0 p) e :=
  (slice2_axis1_eq 256 _ h p e).trans ((grp0_val arg1 harg1 arg2 harg2 arg3 harg3 x0 x1 x2 p _ ⟨0 + (256 + e.val), by omega⟩ rfl).trans
    (close_msg x1 x2 4 (row x0 p) e _ (by show 0 + (256 + e.val) = 64 * 4 + e.val; omega)))

/-- Columns 320…383 of group 0 are connection 5's message (layer 0 to layer 6). -/
theorem cm5 (h : S4096x448.Slices ![0, 320] S4096x64) (p : Fin 4096) (e : Fin 64) :
    extractStridedSlice S4096x64 ![0, 320] (k0_pay9 (F := Ideal) (View.readAt (Elt Ideal) arg1.view (Rect.unit (s := S4096x64) ![0, 0] S4096x64.size Gen.inb_S4096x64_S4096x64_0_0).toLoadRect (harg1.unread x0)) (View.readAt (Elt Ideal) arg2.view (Rect.unit (s := S64x1792) ![0, 0] S64x448.size Gen.inb_S64x1792_S64x448_0_0).toLoadRect (harg2.unread x1)) (View.readAt (Elt Ideal) arg3.view (Rect.unit (s := S1x1792) ![0, 0] S1x448.size Gen.inb_S1x1792_S1x448_0_0).toLoadRect (harg3.unread x2))) h (ix2 p e) = msg (packedW x1) (packedB x2) 5 (row x0 p) e :=
  (slice2_axis1_eq 320 _ h p e).trans ((grp0_val arg1 harg1 arg2 harg2 arg3 harg3 x0 x1 x2 p _ ⟨0 + (320 + e.val), by omega⟩ rfl).trans
    (close_msg x1 x2 5 (row x0 p) e _ (by show 0 + (320 + e.val) = 64 * 5 + e.val; omega)))

/-- Columns 384…447 of group 0 are connection 6's message (layer 0 to layer 7). -/
theorem cm6 (h : S4096x448.Slices ![0, 384] S4096x64) (p : Fin 4096) (e : Fin 64) :
    extractStridedSlice S4096x64 ![0, 384] (k0_pay9 (F := Ideal) (View.readAt (Elt Ideal) arg1.view (Rect.unit (s := S4096x64) ![0, 0] S4096x64.size Gen.inb_S4096x64_S4096x64_0_0).toLoadRect (harg1.unread x0)) (View.readAt (Elt Ideal) arg2.view (Rect.unit (s := S64x1792) ![0, 0] S64x448.size Gen.inb_S64x1792_S64x448_0_0).toLoadRect (harg2.unread x1)) (View.readAt (Elt Ideal) arg3.view (Rect.unit (s := S1x1792) ![0, 0] S1x448.size Gen.inb_S1x1792_S1x448_0_0).toLoadRect (harg3.unread x2))) h (ix2 p e) = msg (packedW x1) (packedB x2) 6 (row x0 p) e :=
  (slice2_axis1_eq 384 _ h p e).trans ((grp0_val arg1 harg1 arg2 harg2 arg3 harg3 x0 x1 x2 p _ ⟨0 + (384 + e.val), by omega⟩ rfl).trans
    (close_msg x1 x2 6 (row x0 p) e _ (by show 0 + (384 + e.val) = 64 * 6 + e.val; omega)))

/-! ### The accumulators after source layer 0 -/

theorem v84_apply (u : Fin 1) (p : Fin 4096) (e : Fin 64) :
    (kernelRun0_A.sl.v84 (F := Ideal) c arg1 harg1 arg2 harg2 arg3 harg3 arg5 x0 x1 x2) (ix3 u p e) = h1 (packedW x1) (packedB x2) (row x0 p) e := by
  unfold kernelRun0_A.sl.v84
  unfold kernelRun0_A.sl.HS0_12
  rw [slot_skip _ 5 0 (by decide)]
  unfold kernelRun0_A.sl.HS0_11
  rw [slot_skip _ 4 0 (by decide)]
  unfold kernelRun0_A.sl.HS0_10
  rw [slot_skip _ 3 0 (by decide)]
  unfold kernelRun0_A.sl.HS0_9
  rw [slot_skip _ 2 0 (by decide)]
  unfold kernelRun0_A.sl.HS0_8
  rw [slot_skip _ 1 0 (by decide)]
  unfold kernelRun0_A.sl.HS0_7
  rw [View.readCov_cons_toLoadRect]
  unfold k0_pay10
  refine (accS_apply _ _ u p e).trans ?_
  exact congrArg₂ (· + ·) (v38_apply c arg5 0 p e) (cm0 arg1 harg1 arg2 harg2 arg3 harg3 x0 x1 x2 _ p e)

theorem v97_apply (u : Fin 1) (p : Fin 4096) (e : Fin 64) :
    (kernelRun0_A.sl.v97 (F := Ideal) c arg1 harg1 arg2 harg2 arg3 harg3 arg5 x0 x1 x2) (ix3 u p e) = Z + msg (packedW x1) (packedB x2) 1 (row x0 p) e := by
  unfold kernelRun0_A.sl.v97
  unfold kernelRun0_A.sl.HS0_12
  rw [slot_skip _ 5 1 (by decide)]
  unfold kernelRun0_A.sl.HS0_11
  rw [slot_skip _ 4 1 (by decide)]
  unfold kernelRun0_A.sl.HS0_10
  rw [slot_skip _ 3 1 (by decide)]
  unfold kernelRun0_A.sl.HS0_9
  rw [slot_skip _ 2 1 (by decide)]
  unfold kernelRun0_A.sl.HS0_8
  rw [View.readCov_cons_toLoadRect]
  unfold k0_pay11
  refine (accS_apply _ _ u p e).trans ?_
  exact congrArg₂ (· + ·) (v45_apply c arg1 harg1 arg2 harg2 arg3 harg3 arg5 x0 x1 x2 0 p e) (cm1 arg1 harg1 arg2 harg2 arg3 harg3 x0 x1 x2 _ p e)

theorem v104_apply (u : Fin 1) (p : Fin 4096) (e : Fin 64) :
    (kernelRun0_A.sl.v104 (F := Ideal) c arg1 harg1 arg2 harg2 arg3 harg3 arg5 x0 x1 x2) (ix3 u p e) = Z + msg (packedW x1) (packedB x2) 2 (row x0 p) e := by
  unfold kernelRun0_A.sl.v104
  unfold kernelRun0_A.sl.HS0_13
  rw [slot_skip _ 1 2 (by decide)]
  unfold kernelRun0_A.sl.HS0_12
  rw [slot_skip _ 5 2 (by decide)]
  unfold kernelRun0_A.sl.HS0_11
  rw [slot_skip _ 4 2 (by decide)]
  unfold kernelRun0_A.sl.HS0_10
  rw [slot_skip _ 3 2 (by decide)]
  unfold kernelRun0_A.sl.HS0_9
  rw [View.readCov_cons_toLoadRect]
  unfold k0_pay13
  refine (lift_apply _ u p e).trans ?_
  unfold kernelRun0_A.sl.r_1 k0_pay12
  refine (accV_apply _ _ p e).trans ?_
  exact congrArg₂ (· + ·) (v52_apply c arg1 harg1 arg2 harg2 arg3 harg3 arg5 x0 x1 x2 0 p e) (cm2 arg1 harg1 arg2 harg2 arg3 harg3 x0 x1 x2 _ p e)

theorem v111_apply (u : Fin 1) (p : Fin 4096) (e : Fin 64) :
    (kernelRun0_A.sl.v111 (F := Ideal) c arg1 harg1 arg2 harg2 arg3 harg3 arg5 x0 x1 x2) (ix3 u p e) = Z + msg (packedW x1) (packedB x2) 3 (row x0 p) e := by
  unfold kernelRun0_A.sl.v111
  unfold kernelRun0_A.sl.HS0_14
  rw [slot_skip _ 2 3 (by decide)]
  unfold kernelRun0_A.sl.HS0_13
  rw [slot_skip _ 1 3 (by decide)]
  unfold kernelRun0_A.sl.HS0_12
  rw [slot_skip _ 5 3 (by decide)]
  unfold kernelRun0_A.sl.HS0_11
  rw [slot_skip _ 4 3 (by decide)]
  unfold kernelRun0_A.sl.HS0_10
  rw [View.readCov_cons_toLoadRect]
  unfold k0_pay14
  refine (accS_apply _ _ u p e).trans ?_
  exact congrArg₂ (· + ·) (v59_apply c arg1 harg1 arg2 harg2 arg3 harg3 arg5 x0 x1 x2 0 p e) (cm3 arg1 harg1 arg2 harg2 arg3 harg3 x0 x1 x2 _ p e)

theorem v118_apply (u : Fin 1) (p : Fin 4096) (e : Fin 64) :
    (kernelRun0_A.sl.v118 (F := Ideal) c arg1 harg1 arg2 harg2 arg3 harg3 arg5 x0 x1 x2) (ix3 u p e) = Z + msg (packedW x1) (packedB x2) 4 (row x0 p) e := by
  unfold kernelRun0_A.sl.v118
  unfold kernelRun0_A.sl.HS0_15
  rw [slot_skip _ 3 4 (by decide)]
  unfold kernelRun0_A.sl.HS0_14
  rw [slot_skip _ 2 4 (by decide)]
  unfold kernelRun0_A.sl.HS0_13
  rw [slot_skip _ 1 4 (by decide)]
  unfold kernelRun0_A.sl.HS0_12
  rw [slot_skip _ 5 4 (by decide)]
  unfold kernelRun0_A.sl.HS0_11
  rw [View.readCov_cons_toLoadRect]
  unfold k0_pay15
  refine (accS_apply _ _ u p e).trans ?_
  exact congrArg₂ (· + ·) (v66_apply c arg1 harg1 arg2 harg2 arg3 harg3 arg5 x0 x1 x2 0 p e) (cm4 arg1 harg1 arg2 harg2 arg3 harg3 x0 x1 x2 _ p e)

theorem v125_apply (u : Fin 1) (p : Fin 4096) (e : Fin 64) :
    (kernelRun0_A.sl.v125 (F := Ideal) c arg1 harg1 arg2 harg2 arg3 harg3 arg5 x0 x1 x2) (ix3 u p e) = Z + msg (packedW x1) (packedB x2) 5 (row x0 p) e := by
  unfold kernelRun0_A.sl.v125
  unfold kernelRun0_A.sl.HS0_16
  rw [slot_skip _ 4 5 (by decide)]
  unfold kernelRun0_A.sl.HS0_15
  rw [slot_skip _ 3 5 (by decide)]
  unfold kernelRun0_A.sl.HS0_14
  rw [slot_skip _ 2 5 (by decide)]
  unfold kernelRun0_A.sl.HS0_13
  rw [slot_skip _ 1 5 (by decide)]
  unfold kernelRun0_A.sl.HS0_12
  rw [View.readCov_cons_toLoadRect]
  unfold k0_pay16
  refine (accS_apply _ _ u p e).trans ?_
  exact congrArg₂ (· + ·) (v73_apply c arg1 harg1 arg2 harg2 arg3 harg3 arg5 x0 x1 x2 0 p e) (cm5 arg1 harg1 arg2 harg2 arg3 harg3 x0 x1 x2 _ p e)

theorem v132_apply (p : Fin 4096) (e : Fin 64) :
    (kernelRun0_A.sl.v132 (F := Ideal) c arg1 harg1 arg2 harg2 arg3 harg3 arg4 x0 x1 x2) (ix2 p e) = Z + msg (packedW x1) (packedB x2) 6 (row x0 p) e := by
  unfold kernelRun0_A.sl.v132
  unfold kernelRun0_A.sl.H3_2
  rw [View.readCov_cons_toLoadRect]
  unfold k0_pay17
  refine (accO_apply _ _ p e).trans ?_
  exact congrArg₂ (· + ·) (v80_apply c arg4 p e) (cm6 arg1 harg1 arg2 harg2 arg3 harg3 x0 x1 x2 _ p e)

/-! ## Source layer 1 -/

/-- The group of source layer 1 at `(p, q)`: column `q` of its slab is column `448 + q` of the packed arrays. -/
theorem grp1_val (p : Fin 4096) (q : Fin 384) (Q : Fin 1792) (hQ : Q.val = 448 + q.val) :
    (k0_pay19 (F := Ideal) (kernelRun0_A.sl.r_2 (F := Ideal) c arg1 harg1 arg2 harg2 arg3 harg3 arg5 x0 x1 x2) (View.readAt (Elt Ideal) arg2.view (Rect.unit (s := S64x1792) ![0, 448] S64x384.size Gen.inb_S64x1792_S64x384_0_448).toLoadRect (harg2.unread x1)) (View.readAt (Elt Ideal) arg3.view (Rect.unit (s := S1x1792) ![0, 448] S1x384.size Gen.inb_S1x1792_S1x384_0_448).toLoadRect (harg3.unread x2))) (ix2 p q)
      = max ((∑ k : Fin 64, h1 (packedW x1) (packedB x2) (row x0 p) k * x1 (ix2 k Q)) + x2 (ix2 (0 : Fin 1) Q)) Z :=
  (grp384_apply _ _ _ p q).trans (congrArg₂ (fun s t => max (s + t) Z)
    (Finset.sum_congr rfl fun k _ => congrArg₂ (· * ·)
      ((drop_apply (kernelRun0_A.sl.v84 (F := Ideal) c arg1 harg1 arg2 harg2 arg3 harg3 arg5 x0 x1 x2) p k).trans (v84_apply c arg1 harg1 arg2 harg2 arg3 harg3 arg5 x0 x1 x2 0 p k)) (ldW_apply 448 arg2 harg2 x1 _ k q Q hQ))
    (ldB_apply 448 arg3 harg3 x2 _ q Q hQ))

/-- Columns 0…63 of group 1 are connection 7's message (layer 1 to layer 2). -/
theorem cm7 (h : S4096x384.Slices ![0, 0] S4096x64) (p : Fin 4096) (e : Fin 64) :
    extractStridedSlice S4096x64 ![0, 0] (k0_pay19 (F := Ideal) (kernelRun0_A.sl.r_2 (F := Ideal) c arg1 harg1 arg2 harg2 arg3 harg3 arg5 x0 x1 x2) (View.readAt (Elt Ideal) arg2.view (Rect.unit (s := S64x1792) ![0, 448] S64x384.size Gen.inb_S64x1792_S64x384_0_448).toLoadRect (harg2.unread x1)) (View.readAt (Elt Ideal) arg3.view (Rect.unit (s := S1x1792) ![0, 448] S1x384.size Gen.inb_S1x1792_S1x384_0_448).toLoadRect (harg3.unread x2))) h (ix2 p e) = msg (packedW x1) (packedB x2) 7 (h1 (packedW x1) (packedB x2) (row x0 p)) e :=
  (slice2_axis1_eq 0 _ h p e).trans ((grp1_val c arg1 harg1 arg2 harg2 arg3 harg3 arg5 x0 x1 x2 p _ ⟨448 + (0 + e.val), by omega⟩ rfl).trans
    (close_msg x1 x2 7 (h1 (packedW x1) (packedB x2) (row x0 p)) e _ (by show 448 + (0 + e.val) = 64 * 7 + e.val; omega)))

/-- Columns 64…127 of group 1 are connection 8's message (layer 1 to layer 3). -/
theorem cm8 (h : S4096x384.Slices ![0, 64] S4096x64) (p : Fin 4096) (e : Fin 64) :
    extractStridedSlice S4096x64 ![0, 64] (k0_pay19 (F := Ideal) (kernelRun0_A.sl.r_2 (F := Ideal) c arg1 harg1 arg2 harg2 arg3 harg3 arg5 x0 x1 x2) (View.readAt (Elt Ideal) arg2.view (Rect.unit (s := S64x1792) ![0, 448] S64x384.size Gen.inb_S64x1792_S64x384_0_448).toLoadRect (harg2.unread x1)) (View.readAt (Elt Ideal) arg3.view (Rect.unit (s := S1x1792) ![0, 448] S1x384.size Gen.inb_S1x1792_S1x384_0_448).toLoadRect (harg3.unread x2))) h (ix2 p e) = msg (packedW x1) (packedB x2) 8 (h1 (packedW x1) (packedB x2) (row x0 p)) e :=
  (slice2_axis1_eq 64 _ h p e).trans ((grp1_val c arg1 harg1 arg2 harg2 arg3 harg3 arg5 x0 x1 x2 p _ ⟨448 + (64 + e.val), by omega⟩ rfl).trans
    (close_msg x1 x2 8 (h1 (packedW x1) (packedB x2) (row x0 p)) e _ (by show 448 + (64 + e.val) = 64 * 8 + e.val; omega)))

/-- Columns 128…191 of group 1 are connection 9's message (layer 1 to layer 4). -/
theorem cm9 (h : S4096x384.Slices ![0, 128] S4096x64) (p : Fin 4096) (e : Fin 64) :
    extractStridedSlice S4096x64 ![0, 128] (k0_pay19 (F := Ideal) (kernelRun0_A.sl.r_2 (F := Ideal) c arg1 harg1 arg2 harg2 arg3 harg3 arg5 x0 x1 x2) (View.readAt (Elt Ideal) arg2.view (Rect.unit (s := S64x1792) ![0, 448] S64x384.size Gen.inb_S64x1792_S64x384_0_448).toLoadRect (harg2.unread x1)) (View.readAt (Elt Ideal) arg3.view (Rect.unit (s := S1x1792) ![0, 448] S1x384.size Gen.inb_S1x1792_S1x384_0_448).toLoadRect (harg3.unread x2))) h (ix2 p e) = msg (packedW x1) (packedB x2) 9 (h1 (packedW x1) (packedB x2) (row x0 p)) e :=
  (slice2_axis1_eq 128 _ h p e).trans ((grp1_val c arg1 harg1 arg2 harg2 arg3 harg3 arg5 x0 x1 x2 p _ ⟨448 + (128 + e.val), by omega⟩ rfl).trans
    (close_msg x1 x2 9 (h1 (packedW x1) (packedB x2) (row x0 p)) e _ (by show 448 + (128 + e.val) = 64 * 9 + e.val; omega)))

/-- Columns 192…255 of group 1 are connection 10's message (layer 1 to layer 5). -/
theorem cm10 (h : S4096x384.Slices ![0, 192] S4096x64) (p : Fin 4096) (e : Fin 64) :
    extractStridedSlice S4096x64 ![0, 192] (k0_pay19 (F := Ideal) (kernelRun0_A.sl.r_2 (F := Ideal) c arg1 harg1 arg2 harg2 arg3 harg3 arg5 x0 x1 x2) (View.readAt (Elt Ideal) arg2.view (Rect.unit (s := S64x1792) ![0, 448] S64x384.size Gen.inb_S64x1792_S64x384_0_448).toLoadRect (harg2.unread x1)) (View.readAt (Elt Ideal) arg3.view (Rect.unit (s := S1x1792) ![0, 448] S1x384.size Gen.inb_S1x1792_S1x384_0_448).toLoadRect (harg3.unread x2))) h (ix2 p e) = msg (packedW x1) (packedB x2) 10 (h1 (packedW x1) (packedB x2) (row x0 p)) e :=
  (slice2_axis1_eq 192 _ h p e).trans ((grp1_val c arg1 harg1 arg2 harg2 arg3 harg3 arg5 x0 x1 x2 p _ ⟨448 + (192 + e.val), by omega⟩ rfl).trans
    (close_msg x1 x2 10 (h1 (packedW x1) (packedB x2) (row x0 p)) e _ (by show 448 + (192 + e.val) = 64 * 10 + e.val; omega)))

/-- Columns 256…319 of group 1 are connection 11's message (layer 1 to layer 6). -/
theorem cm11 (h : S4096x384.Slices ![0, 256] S4096x64) (p : Fin 4096) (e : Fin 64) :
    extractStridedSlice S4096x64 ![0, 256] (k0_pay19 (F := Ideal) (kernelRun0_A.sl.r_2 (F := Ideal) c arg1 harg1 arg2 harg2 arg3 harg3 arg5 x0 x1 x2) (View.readAt (Elt Ideal) arg2.view (Rect.unit (s := S64x1792) ![0, 448] S64x384.size Gen.inb_S64x1792_S64x384_0_448).toLoadRect (harg2.unread x1)) (View.readAt (Elt Ideal) arg3.view (Rect.unit (s := S1x1792) ![0, 448] S1x384.size Gen.inb_S1x1792_S1x384_0_448).toLoadRect (harg3.unread x2))) h (ix2 p e) = msg (packedW x1) (packedB x2) 11 (h1 (packedW x1) (packedB x2) (row x0 p)) e :=
  (slice2_axis1_eq 256 _ h p e).trans ((grp1_val c arg1 harg1 arg2 harg2 arg3 harg3 arg5 x0 x1 x2 p _ ⟨448 + (256 + e.val), by omega⟩ rfl).trans
    (close_msg x1 x2 11 (h1 (packedW x1) (packedB x2) (row x0 p)) e _ (by show 448 + (256 + e.val) = 64 * 11 + e.val; omega)))

/-- Columns 320…383 of group 1 are connection 12's message (layer 1 to layer 7). -/
theorem cm12 (h : S4096x384.Slices ![0, 320] S4096x64) (p : Fin 4096) (e : Fin 64) :
    extractStridedSlice S4096x64 ![0, 320] (k0_pay19 (F := Ideal) (kernelRun0_A.sl.r_2 (F := Ideal) c arg1 harg1 arg2 harg2 arg3 harg3 arg5 x0 x1 x2) (View.readAt (Elt Ideal) arg2.view (Rect.unit (s := S64x1792) ![0, 448] S64x384.size Gen.inb_S64x1792_S64x384_0_448).toLoadRect (harg2.unread x1)) (View.readAt (Elt Ideal) arg3.view (Rect.unit (s := S1x1792) ![0, 448] S1x384.size Gen.inb_S1x1792_S1x384_0_448).toLoadRect (harg3.unread x2))) h (ix2 p e) = msg (packedW x1) (packedB x2) 12 (h1 (packedW x1) (packedB x2) (row x0 p)) e :=
  (slice2_axis1_eq 320 _ h p e).trans ((grp1_val c arg1 harg1 arg2 harg2 arg3 harg3 arg5 x0 x1 x2 p _ ⟨448 + (320 + e.val), by omega⟩ rfl).trans
    (close_msg x1 x2 12 (h1 (packedW x1) (packedB x2) (row x0 p)) e _ (by show 448 + (320 + e.val) = 64 * 12 + e.val; omega)))

/-! ### The accumulators after source layer 1 -/

theorem v136_apply (u : Fin 1) (p : Fin 4096) (e : Fin 64) :
    (kernelRun0_A.sl.v136 (F := Ideal) c arg1 harg1 arg2 harg2 arg3 harg3 arg5 x0 x1 x2) (ix3 u p e) = h2 (packedW x1) (packedB x2) (row x0 p) e := by
  unfold kernelRun0_A.sl.v136
  unfold kernelRun0_A.sl.HS0_17
  rw [slot_skip _ 5 1 (by decide)]
  unfold kernelRun0_A.sl.HS0_16
  rw [slot_skip _ 4 1 (by decide)]
  unfold kernelRun0_A.sl.HS0_15
  rw [slot_skip _ 3 1 (by decide)]
  unfold kernelRun0_A.sl.HS0_14
  rw [slot_skip _ 2 1 (by decide)]
  unfold kernelRun0_A.sl.HS0_13
  rw [View.readCov_cons_toLoadRect]
  unfold k0_pay20
  refine (accS_apply _ _ u p e).trans ?_
  exact congrArg₂ (· + ·) (v97_apply c arg1 harg1 arg2 harg2 arg3 harg3 arg5 x0 x1 x2 0 p e) (cm7 c arg1 harg1 arg2 harg2 arg3 harg3 arg5 x0 x1 x2 _ p e)

theorem v149_apply (u : Fin 1) (p : Fin 4096) (e : Fin 64) :
    (kernelRun0_A.sl.v149 (F := Ideal) c arg1 harg1 arg2 harg2 arg3 harg3 arg5 x0 x1 x2) (ix3 u p e) = Z + msg (packedW x1) (packedB x2) 2 (row x0 p) e + msg (packedW x1) (packedB x2) 8 (h1 (packedW x1) (packedB x2) (row x0 p)) e := by
  unfold kernelRun0_A.sl.v149
  unfold kernelRun0_A.sl.HS0_17
  rw [slot_skip _ 5 2 (by decide)]
  unfold kernelRun0_A.sl.HS0_16
  rw [slot_skip _ 4 2 (by decide)]
  unfold kernelRun0_A.sl.HS0_15
  rw [slot_skip _ 3 2 (by decide)]
  unfold kernelRun0_A.sl.HS0_14
  rw [View.readCov_cons_toLoadRect]
  unfold k0_pay21
  refine (accS_apply _ _ u p e).trans ?_
  exact congrArg₂ (· + ·) (v104_apply c arg1 harg1 arg2 harg2 arg3 harg3 arg5 x0 x1 x2 0 p e) (cm8 c arg1 harg1 arg2 harg2 arg3 harg3 arg5 x0 x1 x2 _ p e)

theorem v156_apply (u : Fin 1) (p : Fin 4096) (e : Fin 64) :
    (kernelRun0_A.sl.v156 (F := Ideal) c arg1 harg1 arg2 harg2 arg3 harg3 arg5 x0 x1 x2) (ix3 u p e) = Z + msg (packedW x1) (packedB x2) 3 (row x0 p) e + msg (packedW x1) (packedB x2) 9 (h1 (packedW x1) (packedB x2) (row x0 p)) e := by
  unfold kernelRun0_A.sl.v156
  unfold kernelRun0_A.sl.HS0_18
  rw [slot_skip _ 2 3 (by decide)]
  unfold kernelRun0_A.sl.HS0_17
  rw [slot_skip _ 5 3 (by decide)]
  unfold kernelRun0_A.sl.HS0_16
  rw [slot_skip _ 4 3 (by decide)]
  unfold kernelRun0_A.sl.HS0_15
  rw [View.readCov_cons_toLoadRect]
  unfold k0_pay22
  refine (accS_apply _ _ u p e).trans ?_
  exact congrArg₂ (· + ·) (v111_apply c arg1 harg1 arg2 harg2 arg3 harg3 arg5 x0 x1 x2 0 p e) (cm9 c arg1 harg1 arg2 harg2 arg3 harg3 arg5 x0 x1 x2 _ p e)

theorem v163_apply (u : Fin 1) (p : Fin 4096) (e : Fin 64) :
    (kernelRun0_A.sl.v163 (F := Ideal) c arg1 harg1 arg2 harg2 arg3 harg3 arg5 x0 x1 x2) (ix3 u p e) = Z + msg (packedW x1) (packedB x2) 4 (row x0 p) e + msg (packedW x1) (packedB x2) 10 (h1 (packedW x1) (packedB x2) (row x0 p)) e := by
  unfold kernelRun0_A.sl.v163
  unfold kernelRun0_A.sl.HS0_19
  rw [slot_skip _ 3 4 (by decide)]
  unfold kernelRun0_A.sl.HS0_18
  rw [slot_skip _ 2 4 (by decide)]
  unfold kernelRun0_A.sl.HS0_17
  rw [slot_skip _ 5 4 (by decide)]
  unfold kernelRun0_A.sl.HS0_16
  rw [View.readCov_cons_toLoadRect]
  unfold k0_pay24
  refine (accS_apply _ _ u p e).trans ?_
  unfold kernelRun0_A.sl.r_4 k0_pay23
  exact congrArg₂ (· + ·) (v118_apply c arg1 harg1 arg2 harg2 arg3 harg3 arg5 x0 x1 x2 0 p e) (cm10 c arg1 harg1 arg2 harg2 arg3 harg3 arg5 x0 x1 x2 _ p e)

theorem v170_apply (u : Fin 1) (p : Fin 4096) (e : Fin 64) :
    (kernelRun0_A.sl.v170 (F := Ideal) c arg1 harg1 arg2 harg2 arg3 harg3 arg5 x0 x1 x2) (ix3 u p e) = Z + msg (packedW x1) (packedB x2) 5 (row x0 p) e + msg (packedW x1) (packedB x2) 11 (h1 (packedW x1) (packedB x2) (row x0 p)) e := by
  unfold kernelRun0_A.sl.v170
  unfold kernelRun0_A.sl.HS0_20
  rw [slot_skip _ 4 5 (by decide)]
  unfold kernelRun0_A.sl.HS0_19
  rw [slot_skip _ 3 5 (by decide)]
  unfold kernelRun0_A.sl.HS0_18
  rw [slot_skip _ 2 5 (by decide)]
  unfold kernelRun0_A.sl.HS0_17
  rw [View.readCov_cons_toLoadRect]
  unfold k0_pay25
  refine (accS_apply _ _ u p e).trans ?_
  exact congrArg₂ (· + ·) (v125_apply c arg1 harg1 arg2 harg2 arg3 harg3 arg5 x0 x1 x2 0 p e) (cm11 c arg1 harg1 arg2 harg2 arg3 harg3 arg5 x0 x1 x2 _ p e)

theorem v177_apply (p : Fin 4096) (e : Fin 64) :
    (kernelRun0_A.sl.v177 (F := Ideal) c arg1 harg1 arg2 harg2 arg3 harg3 arg4 arg5 x0 x1 x2) (ix2 p e) = Z + msg (packedW x1) (packedB x2) 6 (row x0 p) e + msg (packedW x1) (packedB x2) 12 (h1 (packedW x1) (packedB x2) (row x0 p)) e := by
  unfold kernelRun0_A.sl.v177
  unfold kernelRun0_A.sl.H3_3
  rw [View.readCov_cons_toLoadRect]
  unfold k0_pay26
  refine (accO_apply _ _ p e).trans ?_
  exact congrArg₂ (· + ·) (v132_apply c arg1 harg1 arg2 harg2 arg3 harg3 arg4 x0 x1 x2 p e) (cm12 c arg1 harg1 arg2 harg2 arg3 harg3 arg5 x0 x1 x2 _ p e)

/-! ## Source layer 2 -/

/-- The group of source layer 2 at `(p, q)`: column `q` of its slab is column `832 + q` of the packed arrays. -/
theorem grp2_val (p : Fin 4096) (q : Fin 320) (Q : Fin 1792) (hQ : Q.val = 832 + q.val) :
    (k0_pay27 (F := Ideal) (kernelRun0_A.sl.v136 (F := Ideal) c arg1 harg1 arg2 harg2 arg3 harg3 arg5 x0 x1 x2) (View.readAt (Elt Ideal) arg2.view (Rect.unit (s := S64x1792) ![0, 832] S64x320.size Gen.inb_S64x1792_S64x320_0_832).toLoadRect (harg2.unread x1)) (View.readAt (Elt Ideal) arg3.view (Rect.unit (s := S1x1792) ![0, 832] S1x320.size Gen.inb_S1x1792_S1x320_0_832).toLoadRect (harg3.unread x2))) (ix2 p q)
      = max ((∑ k : Fin 64, h2 (packedW x1) (packedB x2) (row x0 p) k * x1 (ix2 k Q)) + x2 (ix2 (0 : Fin 1) Q)) Z :=
  (grp320_apply _ _ _ p q).trans (congrArg₂ (fun s t => max (s + t) Z)
    (Finset.sum_congr rfl fun k _ => congrArg₂ (· * ·)
      ((drop_apply (kernelRun0_A.sl.v136 (F := Ideal) c arg1 harg1 arg2 harg2 arg3 harg3 arg5 x0 x1 x2) p k).trans (v136_apply c arg1 harg1 arg2 harg2 arg3 harg3 arg5 x0 x1 x2 0 p k)) (ldW_apply 832 arg2 harg2 x1 _ k q Q hQ))
    (ldB_apply 832 arg3 harg3 x2 _ q Q hQ))

/-- Columns 0…63 of group 2 are connection 13's message (layer 2 to layer 3). -/
theorem cm13 (h : S4096x320.Slices ![0, 0] S4096x64) (p : Fin 4096) (e : Fin 64) :
    extractStridedSlice S4096x64 ![0, 0] (k0_pay27 (F := Ideal) (kernelRun0_A.sl.v136 (F := Ideal) c arg1 harg1 arg2 harg2 arg3 harg3 arg5 x0 x1 x2) (View.readAt (Elt Ideal) arg2.view (Rect.unit (s := S64x1792) ![0, 832] S64x320.size Gen.inb_S64x1792_S64x320_0_832).toLoadRect (harg2.unread x1)) (View.readAt (Elt Ideal) arg3.view (Rect.unit (s := S1x1792) ![0, 832] S1x320.size Gen.inb_S1x1792_S1x320_0_832).toLoadRect (harg3.unread x2))) h (ix2 p e) = msg (packedW x1) (packedB x2) 13 (h2 (packedW x1) (packedB x2) (row x0 p)) e :=
  (slice2_axis1_eq 0 _ h p e).trans ((grp2_val c arg1 harg1 arg2 harg2 arg3 harg3 arg5 x0 x1 x2 p _ ⟨832 + (0 + e.val), by omega⟩ rfl).trans
    (close_msg x1 x2 13 (h2 (packedW x1) (packedB x2) (row x0 p)) e _ (by show 832 + (0 + e.val) = 64 * 13 + e.val; omega)))

/-- Columns 64…127 of group 2 are connection 14's message (layer 2 to layer 4). -/
theorem cm14 (h : S4096x320.Slices ![0, 64] S4096x64) (p : Fin 4096) (e : Fin 64) :
    extractStridedSlice S4096x64 ![0, 64] (k0_pay27 (F := Ideal) (kernelRun0_A.sl.v136 (F := Ideal) c arg1 harg1 arg2 harg2 arg3 harg3 arg5 x0 x1 x2) (View.readAt (Elt Ideal) arg2.view (Rect.unit (s := S64x1792) ![0, 832] S64x320.size Gen.inb_S64x1792_S64x320_0_832).toLoadRect (harg2.unread x1)) (View.readAt (Elt Ideal) arg3.view (Rect.unit (s := S1x1792) ![0, 832] S1x320.size Gen.inb_S1x1792_S1x320_0_832).toLoadRect (harg3.unread x2))) h (ix2 p e) = msg (packedW x1) (packedB x2) 14 (h2 (packedW x1) (packedB x2) (row x0 p)) e :=
  (slice2_axis1_eq 64 _ h p e).trans ((grp2_val c arg1 harg1 arg2 harg2 arg3 harg3 arg5 x0 x1 x2 p _ ⟨832 + (64 + e.val), by omega⟩ rfl).trans
    (close_msg x1 x2 14 (h2 (packedW x1) (packedB x2) (row x0 p)) e _ (by show 832 + (64 + e.val) = 64 * 14 + e.val; omega)))

/-- Columns 128…191 of group 2 are connection 15's message (layer 2 to layer 5). -/
theorem cm15 (h : S4096x320.Slices ![0, 128] S4096x64) (p : Fin 4096) (e : Fin 64) :
    extractStridedSlice S4096x64 ![0, 128] (k0_pay27 (F := Ideal) (kernelRun0_A.sl.v136 (F := Ideal) c arg1 harg1 arg2 harg2 arg3 harg3 arg5 x0 x1 x2) (View.readAt (Elt Ideal) arg2.view (Rect.unit (s := S64x1792) ![0, 832] S64x320.size Gen.inb_S64x1792_S64x320_0_832).toLoadRect (harg2.unread x1)) (View.readAt (Elt Ideal) arg3.view (Rect.unit (s := S1x1792) ![0, 832] S1x320.size Gen.inb_S1x1792_S1x320_0_832).toLoadRect (harg3.unread x2))) h (ix2 p e) = msg (packedW x1) (packedB x2) 15 (h2 (packedW x1) (packedB x2) (row x0 p)) e :=
  (slice2_axis1_eq 128 _ h p e).trans ((grp2_val c arg1 harg1 arg2 harg2 arg3 harg3 arg5 x0 x1 x2 p _ ⟨832 + (128 + e.val), by omega⟩ rfl).trans
    (close_msg x1 x2 15 (h2 (packedW x1) (packedB x2) (row x0 p)) e _ (by show 832 + (128 + e.val) = 64 * 15 + e.val; omega)))

/-- Columns 192…255 of group 2 are connection 16's message (layer 2 to layer 6). -/
theorem cm16 (h : S4096x320.Slices ![0, 192] S4096x64) (p : Fin 4096) (e : Fin 64) :
    extractStridedSlice S4096x64 ![0, 192] (k0_pay27 (F := Ideal) (kernelRun0_A.sl.v136 (F := Ideal) c arg1 harg1 arg2 harg2 arg3 harg3 arg5 x0 x1 x2) (View.readAt (Elt Ideal) arg2.view (Rect.unit (s := S64x1792) ![0, 832] S64x320.size Gen.inb_S64x1792_S64x320_0_832).toLoadRect (harg2.unread x1)) (View.readAt (Elt Ideal) arg3.view (Rect.unit (s := S1x1792) ![0, 832] S1x320.size Gen.inb_S1x1792_S1x320_0_832).toLoadRect (harg3.unread x2))) h (ix2 p e) = msg (packedW x1) (packedB x2) 16 (h2 (packedW x1) (packedB x2) (row x0 p)) e :=
  (slice2_axis1_eq 192 _ h p e).trans ((grp2_val c arg1 harg1 arg2 harg2 arg3 harg3 arg5 x0 x1 x2 p _ ⟨832 + (192 + e.val), by omega⟩ rfl).trans
    (close_msg x1 x2 16 (h2 (packedW x1) (packedB x2) (row x0 p)) e _ (by show 832 + (192 + e.val) = 64 * 16 + e.val; omega)))

/-- Columns 256…319 of group 2 are connection 17's message (layer 2 to layer 7). -/
theorem cm17 (h : S4096x320.Slices ![0, 256] S4096x64) (p : Fin 4096) (e : Fin 64) :
    extractStridedSlice S4096x64 ![0, 256] (k0_pay27 (F := Ideal) (kernelRun0_A.sl.v136 (F := Ideal) c arg1 harg1 arg2 harg2 arg3 harg3 arg5 x0 x1 x2) (View.readAt (Elt Ideal) arg2.view (Rect.unit (s := S64x1792) ![0, 832] S64x320.size Gen.inb_S64x1792_S64x320_0_832).toLoadRect (harg2.unread x1)) (View.readAt (Elt Ideal) arg3.view (Rect.unit (s := S1x1792) ![0, 832] S1x320.size Gen.inb_S1x1792_S1x320_0_832).toLoadRect (harg3.unread x2))) h (ix2 p e) = msg (packedW x1) (packedB x2) 17 (h2 (packedW x1) (packedB x2) (row x0 p)) e :=
  (slice2_axis1_eq 256 _ h p e).trans ((grp2_val c arg1 harg1 arg2 harg2 arg3 harg3 arg5 x0 x1 x2 p _ ⟨832 + (256 + e.val), by omega⟩ rfl).trans
    (close_msg x1 x2 17 (h2 (packedW x1) (packedB x2) (row x0 p)) e _ (by show 832 + (256 + e.val) = 64 * 17 + e.val; omega)))

/-! ### The accumulators after source layer 2 -/

theorem v181_apply (u : Fin 1) (p : Fin 4096) (e : Fin 64) :
    (kernelRun0_A.sl.v181 (F := Ideal) c arg1 harg1 arg2 harg2 arg3 harg3 arg5 x0 x1 x2) (ix3 u p e) = h3 (packedW x1) (packedB x2) (row x0 p) e := by
  unfold kernelRun0_A.sl.v181
  unfold kernelRun0_A.sl.HS0_21
  rw [slot_skip _ 5 2 (by decide)]
  unfold kernelRun0_A.sl.HS0_20
  rw [slot_skip _ 4 2 (by decide)]
  unfold kernelRun0_A.sl.HS0_19
  rw [slot_skip _ 3 2 (by decide)]
  unfold kernelRun0_A.sl.HS0_18
  rw [View.readCov_cons_toLoadRect]
  unfold k0_pay29
  refine (accS_apply _ _ u p e).trans ?_
  unfold kernelRun0_A.sl.r_6 k0_pay28
  exact congrArg₂ (· + ·) (v149_apply c arg1 harg1 arg2 harg2 arg3 harg3 arg5 x0 x1 x2 0 p e) (cm13 c arg1 harg1 arg2 harg2 arg3 harg3 arg5 x0 x1 x2 _ p e)

theorem v194_apply (u : Fin 1) (p : Fin 4096) (e : Fin 64) :
    (kernelRun0_A.sl.v194 (F := Ideal) c arg1 harg1 arg2 harg2 arg3 harg3 arg5 x0 x1 x2) (ix3 u p e) = Z + msg (packedW x1) (packedB x2) 3 (row x0 p) e + msg (packedW x1) (packedB x2) 9 (h1 (packedW x1) (packedB x2) (row x0 p)) e + msg (packedW x1) (packedB x2) 14 (h2 (packedW x1) (packedB x2) (row x0 p)) e := by
  unfold kernelRun0_A.sl.v194
  unfold kernelRun0_A.sl.HS0_21
  rw [slot_skip _ 5 3 (by decide)]
  unfold kernelRun0_A.sl.HS0_20
  rw [slot_skip _ 4 3 (by decide)]
  unfold kernelRun0_A.sl.HS0_19
  rw [View.readCov_cons_toLoadRect]
  unfold k0_pay30
  refine (accS_apply _ _ u p e).trans ?_
  exact congrArg₂ (· + ·) (v156_apply c arg1 harg1 arg2 harg2 arg3 harg3 arg5 x0 x1 x2 0 p e) (cm14 c arg1 harg1 arg2 harg2 arg3 harg3 arg5 x0 x1 x2 _ p e)

theorem v201_apply (u : Fin 1) (p : Fin 4096) (e : Fin 64) :
    (kernelRun0_A.sl.v201 (F := Ideal) c arg1 harg1 arg2 harg2 arg3 harg3 arg5 x0 x1 x2) (ix3 u p e) = Z + msg (packedW x1) (packedB x2) 4 (row x0 p) e + msg (packedW x1) (packedB x2) 10 (h1 (packedW x1) (packedB x2) (row x0 p)) e + msg (packedW x1) (packedB x2) 15 (h2 (packedW x1) (packedB x2) (row x0 p)) e := by
  unfold kernelRun0_A.sl.v201
  unfold kernelRun0_A.sl.HS0_22
  rw [slot_skip _ 3 4 (by decide)]
  unfold kernelRun0_A.sl.HS0_21
  rw [slot_skip _ 5 4 (by decide)]
  unfold kernelRun0_A.sl.HS0_20
  rw [View.readCov_cons_toLoadRect]
  unfold k0_pay31
  refine (accS_apply _ _ u p e).trans ?_
  exact congrArg₂ (· + ·) (v163_apply c arg1 harg1 arg2 harg2 arg3 harg3 arg5 x0 x1 x2 0 p e) (cm15 c arg1 harg1 arg2 harg2 arg3 harg3 arg5 x0 x1 x2 _ p e)

theorem v208_apply (u : Fin 1) (p : Fin 4096) (e : Fin 64) :
    (kernelRun0_A.sl.v208 (F := Ideal) c arg1 harg1 arg2 harg2 arg3 harg3 arg5 x0 x1 x2) (ix3 u p e) = Z + msg (packedW x1) (packedB x2) 5 (row x0 p) e + msg (packedW x1) (packedB x2) 11 (h1 (packedW x1) (packedB x2) (row x0 p)) e + msg (packedW x1) (packedB x2) 16 (h2 (packedW x1) (packedB x2) (row x0 p)) e := by
  unfold kernelRun0_A.sl.v208
  unfold kernelRun0_A.sl.HS0_23
  rw [slot_skip _ 4 5 (by decide)]
  unfold kernelRun0_A.sl.HS0_22
  rw [slot_skip _ 3 5 (by decide)]
  unfold kernelRun0_A.sl.HS0_21
  rw [View.readCov_cons_toLoadRect]
  unfold k0_pay32
  refine (accS_apply _ _ u p e).trans ?_
  exact congrArg₂ (· + ·) (v170_apply c arg1 harg1 arg2 harg2 arg3 harg3 arg5 x0 x1 x2 0 p e) (cm16 c arg1 harg1 arg2 harg2 arg3 harg3 arg5 x0 x1 x2 _ p e)

theorem v215_apply (p : Fin 4096) (e : Fin 64) :
    (kernelRun0_A.sl.v215 (F := Ideal) c arg1 harg1 arg2 harg2 arg3 harg3 arg4 arg5 x0 x1 x2) (ix2 p e) = Z + msg (packedW x1) (packedB x2) 6 (row x0 p) e + msg (packedW x1) (packedB x2) 12 (h1 (packedW x1) (packedB x2) (row x0 p)) e + msg (packedW x1) (packedB x2) 17 (h2 (packedW x1) (packedB x2) (row x0 p)) e := by
  unfold kernelRun0_A.sl.v215
  unfold kernelRun0_A.sl.H3_4
  rw [View.readCov_cons_toLoadRect]
  unfold kernelRun0_A.sl.r_7 k0_pay33
  refine (accO_apply _ _ p e).trans ?_
  exact congrArg₂ (· + ·) (v177_apply c arg1 harg1 arg2 harg2 arg3 harg3 arg4 arg5 x0 x1 x2 p e) (cm17 c arg1 harg1 arg2 harg2 arg3 harg3 arg5 x0 x1 x2 _ p e)

/-! ## Source layer 3 -/

/-- The group of source layer 3 at `(p, q)`: column `q` of its slab is column `1152 + q` of the packed arrays. -/
theorem grp3_val (p : Fin 4096) (q : Fin 256) (Q : Fin 1792) (hQ : Q.val = 1152 + q.val) :
    (k0_pay34 (F := Ideal) (kernelRun0_A.sl.v181 (F := Ideal) c arg1 harg1 arg2 harg2 arg3 harg3 arg5 x0 x1 x2) (View.readAt (Elt Ideal) arg2.view (Rect.unit (s := S64x1792) ![0, 1152] S64x256.size Gen.inb_S64x1792_S64x256_0_1152).toLoadRect (harg2.unread x1)) (View.readAt (Elt Ideal) arg3.view (Rect.unit (s := S1x1792) ![0, 1152] S1x256.size Gen.inb_S1x1792_S1x256_0_1152).toLoadRect (harg3.unread x2))) (ix2 p q)
      = max ((∑ k : Fin 64, h3 (packedW x1) (packedB x2) (row x0 p) k * x1 (ix2 k Q)) + x2 (ix2 (0 : Fin 1) Q)) Z :=
  (grp256_apply _ _ _ p q).trans (congrArg₂ (fun s t => max (s + t) Z)
    (Finset.sum_congr rfl fun k _ => congrArg₂ (· * ·)
      ((drop_apply (kernelRun0_A.sl.v181 (F := Ideal) c arg1 harg1 arg2 harg2 arg3 harg3 arg5 x0 x1 x2) p k).trans (v181_apply c arg1 harg1 arg2 harg2 arg3 harg3 arg5 x0 x1 x2 0 p k)) (ldW_apply 1152 arg2 harg2 x1 _ k q Q hQ))
    (ldB_apply 1152 arg3 harg3 x2 _ q Q hQ))

/-- Columns 0…63 of group 3 are connection 18's message (layer 3 to layer 4). -/
theorem cm18 (h : S4096x256.Slices ![0, 0] S4096x64) (p : Fin 4096) (e : Fin 64) :
    extractStridedSlice S4096x64 ![0, 0] (k0_pay34 (F := Ideal) (kernelRun0_A.sl.v181 (F := Ideal) c arg1 harg1 arg2 harg2 arg3 harg3 arg5 x0 x1 x2) (View.readAt (Elt Ideal) arg2.view (Rect.unit (s := S64x1792) ![0, 1152] S64x256.size Gen.inb_S64x1792_S64x256_0_1152).toLoadRect (harg2.unread x1)) (View.readAt (Elt Ideal) arg3.view (Rect.unit (s := S1x1792) ![0, 1152] S1x256.size Gen.inb_S1x1792_S1x256_0_1152).toLoadRect (harg3.unread x2))) h (ix2 p e) = msg (packedW x1) (packedB x2) 18 (h3 (packedW x1) (packedB x2) (row x0 p)) e :=
  (slice2_axis1_eq 0 _ h p e).trans ((grp3_val c arg1 harg1 arg2 harg2 arg3 harg3 arg5 x0 x1 x2 p _ ⟨1152 + (0 + e.val), by omega⟩ rfl).trans
    (close_msg x1 x2 18 (h3 (packedW x1) (packedB x2) (row x0 p)) e _ (by show 1152 + (0 + e.val) = 64 * 18 + e.val; omega)))

/-- Columns 64…127 of group 3 are connection 19's message (layer 3 to layer 5). -/
theorem cm19 (h : S4096x256.Slices ![0, 64] S4096x64) (p : Fin 4096) (e : Fin 64) :
    extractStridedSlice S4096x64 ![0, 64] (k0_pay34 (F := Ideal) (kernelRun0_A.sl.v181 (F := Ideal) c arg1 harg1 arg2 harg2 arg3 harg3 arg5 x0 x1 x2) (View.readAt (Elt Ideal) arg2.view (Rect.unit (s := S64x1792) ![0, 1152] S64x256.size Gen.inb_S64x1792_S64x256_0_1152).toLoadRect (harg2.unread x1)) (View.readAt (Elt Ideal) arg3.view (Rect.unit (s := S1x1792) ![0, 1152] S1x256.size Gen.inb_S1x1792_S1x256_0_1152).toLoadRect (harg3.unread x2))) h (ix2 p e) = msg (packedW x1) (packedB x2) 19 (h3 (packedW x1) (packedB x2) (row x0 p)) e :=
  (slice2_axis1_eq 64 _ h p e).trans ((grp3_val c arg1 harg1 arg2 harg2 arg3 harg3 arg5 x0 x1 x2 p _ ⟨1152 + (64 + e.val), by omega⟩ rfl).trans
    (close_msg x1 x2 19 (h3 (packedW x1) (packedB x2) (row x0 p)) e _ (by show 1152 + (64 + e.val) = 64 * 19 + e.val; omega)))

/-- Columns 128…191 of group 3 are connection 20's message (layer 3 to layer 6). -/
theorem cm20 (h : S4096x256.Slices ![0, 128] S4096x64) (p : Fin 4096) (e : Fin 64) :
    extractStridedSlice S4096x64 ![0, 128] (k0_pay34 (F := Ideal) (kernelRun0_A.sl.v181 (F := Ideal) c arg1 harg1 arg2 harg2 arg3 harg3 arg5 x0 x1 x2) (View.readAt (Elt Ideal) arg2.view (Rect.unit (s := S64x1792) ![0, 1152] S64x256.size Gen.inb_S64x1792_S64x256_0_1152).toLoadRect (harg2.unread x1)) (View.readAt (Elt Ideal) arg3.view (Rect.unit (s := S1x1792) ![0, 1152] S1x256.size Gen.inb_S1x1792_S1x256_0_1152).toLoadRect (harg3.unread x2))) h (ix2 p e) = msg (packedW x1) (packedB x2) 20 (h3 (packedW x1) (packedB x2) (row x0 p)) e :=
  (slice2_axis1_eq 128 _ h p e).trans ((grp3_val c arg1 harg1 arg2 harg2 arg3 harg3 arg5 x0 x1 x2 p _ ⟨1152 + (128 + e.val), by omega⟩ rfl).trans
    (close_msg x1 x2 20 (h3 (packedW x1) (packedB x2) (row x0 p)) e _ (by show 1152 + (128 + e.val) = 64 * 20 + e.val; omega)))

/-- Columns 192…255 of group 3 are connection 21's message (layer 3 to layer 7). -/
theorem cm21 (h : S4096x256.Slices ![0, 192] S4096x64) (p : Fin 4096) (e : Fin 64) :
    extractStridedSlice S4096x64 ![0, 192] (k0_pay34 (F := Ideal) (kernelRun0_A.sl.v181 (F := Ideal) c arg1 harg1 arg2 harg2 arg3 harg3 arg5 x0 x1 x2) (View.readAt (Elt Ideal) arg2.view (Rect.unit (s := S64x1792) ![0, 1152] S64x256.size Gen.inb_S64x1792_S64x256_0_1152).toLoadRect (harg2.unread x1)) (View.readAt (Elt Ideal) arg3.view (Rect.unit (s := S1x1792) ![0, 1152] S1x256.size Gen.inb_S1x1792_S1x256_0_1152).toLoadRect (harg3.unread x2))) h (ix2 p e) = msg (packedW x1) (packedB x2) 21 (h3 (packedW x1) (packedB x2) (row x0 p)) e :=
  (slice2_axis1_eq 192 _ h p e).trans ((grp3_val c arg1 harg1 arg2 harg2 arg3 harg3 arg5 x0 x1 x2 p _ ⟨1152 + (192 + e.val), by omega⟩ rfl).trans
    (close_msg x1 x2 21 (h3 (packedW x1) (packedB x2) (row x0 p)) e _ (by show 1152 + (192 + e.val) = 64 * 21 + e.val; omega)))

/-! ### The accumulators after source layer 3 -/

theorem v219_apply (u : Fin 1) (p : Fin 4096) (e : Fin 64) :
    (kernelRun0_A.sl.v219 (F := Ideal) c arg1 harg1 arg2 harg2 arg3 harg3 arg5 x0 x1 x2) (ix3 u p e) = h4 (packedW x1) (packedB x2) (row x0 p) e := by
  unfold kernelRun0_A.sl.v219
  unfold kernelRun0_A.sl.HS0_24
  rw [slot_skip _ 5 3 (by decide)]
  unfold kernelRun0_A.sl.HS0_23
  rw [slot_skip _ 4 3 (by decide)]
  unfold kernelRun0_A.sl.HS0_22
  rw [View.readCov_cons_toLoadRect]
  unfold k0_pay35
  refine (accS_apply _ _ u p e).trans ?_
  exact congrArg₂ (· + ·) (v194_apply c arg1 harg1 arg2 harg2 arg3 harg3 arg5 x0 x1 x2 0 p e) (cm18 c arg1 harg1 arg2 harg2 arg3 harg3 arg5 x0 x1 x2 _ p e)

theorem v232_apply (u : Fin 1) (p : Fin 4096) (e : Fin 64) :
    (kernelRun0_A.sl.v232 (F := Ideal) c arg1 harg1 arg2 harg2 arg3 harg3 arg5 x0 x1 x2) (ix3 u p e) = Z + msg (packedW x1) (packedB x2) 4 (row x0 p) e + msg (packedW x1) (packedB x2) 10 (h1 (packedW x1) (packedB x2) (row x0 p)) e + msg (packedW x1) (packedB x2) 15 (h2 (packedW x1) (packedB x2) (row x0 p)) e + msg (packedW x1) (packedB x2) 19 (h3 (packedW x1) (packedB x2) (row x0 p)) e := by
  unfold kernelRun0_A.sl.v232
  unfold kernelRun0_A.sl.HS0_24
  rw [slot_skip _ 5 4 (by decide)]
  unfold kernelRun0_A.sl.HS0_23
  rw [View.readCov_cons_toLoadRect]
  unfold k0_pay36
  refine (accS_apply _ _ u p e).trans ?_
  exact congrArg₂ (· + ·) (v201_apply c arg1 harg1 arg2 harg2 arg3 harg3 arg5 x0 x1 x2 0 p e) (cm19 c arg1 harg1 arg2 harg2 arg3 harg3 arg5 x0 x1 x2 _ p e)

theorem v239_apply (u : Fin 1) (p : Fin 4096) (e : Fin 64) :
    (kernelRun0_A.sl.v239 (F := Ideal) c arg1 harg1 arg2 harg2 arg3 harg3 arg5 x0 x1 x2) (ix3 u p e) = Z + msg (packedW x1) (packedB x2) 5 (row x0 p) e + msg (packedW x1) (packedB x2) 11 (h1 (packedW x1) (packedB x2) (row x0 p)) e + msg (packedW x1) (packedB x2) 16 (h2 (packedW x1) (packedB x2) (row x0 p)) e + msg (packedW x1) (packedB x2) 20 (h3 (packedW x1) (packedB x2) (row x0 p)) e := by
  unfold kernelRun0_A.sl.v239
  unfold kernelRun0_A.sl.HS0_25
  rw [slot_skip _ 4 5 (by decide)]
  unfold kernelRun0_A.sl.HS0_24
  rw [View.readCov_cons_toLoadRect]
  unfold k0_pay38
  refine (lift_apply _ u p e).trans ?_
  unfold kernelRun0_A.sl.r_9 k0_pay37
  refine (accV_apply _ _ p e).trans ?_
  exact congrArg₂ (· + ·) (v208_apply c arg1 harg1 arg2 harg2 arg3 harg3 arg5 x0 x1 x2 0 p e) (cm20 c arg1 harg1 arg2 harg2 arg3 harg3 arg5 x0 x1 x2 _ p e)

theorem v246_apply (p : Fin 4096) (e : Fin 64) :
    (kernelRun0_A.sl.v246 (F := Ideal) c arg1 harg1 arg2 harg2 arg3 harg3 arg4 arg5 x0 x1 x2) (ix2 p e) = Z + msg (packedW x1) (packedB x2) 6 (row x0 p) e + msg (packedW x1) (packedB x2) 12 (h1 (packedW x1) (packedB x2) (row x0 p)) e + msg (packedW x1) (packedB x2) 17 (h2 (packedW x1) (packedB x2) (row x0 p)) e + msg (packedW x1) (packedB x2) 21 (h3 (packedW x1) (packedB x2) (row x0 p)) e := by
  unfold kernelRun0_A.sl.v246
  unfold kernelRun0_A.sl.H3_5
  rw [View.readCov_cons_toLoadRect]
  unfold k0_pay39
  refine (accO_apply _ _ p e).trans ?_
  exact congrArg₂ (· + ·) (v215_apply c arg1 harg1 arg2 harg2 arg3 harg3 arg4 arg5 x0 x1 x2 p e) (cm21 c arg1 harg1 arg2 harg2 arg3 harg3 arg5 x0 x1 x2 _ p e)

/-! ## Source layer 4 -/

/-- The group of source layer 4 at `(p, q)`: column `q` of its slab is column `1408 + q` of the packed arrays. -/
theorem grp4_val (p : Fin 4096) (q : Fin 192) (Q : Fin 1792) (hQ : Q.val = 1408 + q.val) :
    (k0_pay40 (F := Ideal) (kernelRun0_A.sl.v219 (F := Ideal) c arg1 harg1 arg2 harg2 arg3 harg3 arg5 x0 x1 x2) (View.readAt (Elt Ideal) arg2.view (Rect.unit (s := S64x1792) ![0, 1408] S64x192.size Gen.inb_S64x1792_S64x192_0_1408).toLoadRect (harg2.unread x1)) (View.readAt (Elt Ideal) arg3.view (Rect.unit (s := S1x1792) ![0, 1408] S1x192.size Gen.inb_S1x1792_S1x192_0_1408).toLoadRect (harg3.unread x2))) (ix2 p q)
      = max ((∑ k : Fin 64, h4 (packedW x1) (packedB x2) (row x0 p) k * x1 (ix2 k Q)) + x2 (ix2 (0 : Fin 1) Q)) Z :=
  (grp192_apply _ _ _ p q).trans (congrArg₂ (fun s t => max (s + t) Z)
    (Finset.sum_congr rfl fun k _ => congrArg₂ (· * ·)
      ((drop_apply (kernelRun0_A.sl.v219 (F := Ideal) c arg1 harg1 arg2 harg2 arg3 harg3 arg5 x0 x1 x2) p k).trans (v219_apply c arg1 harg1 arg2 harg2 arg3 harg3 arg5 x0 x1 x2 0 p k)) (ldW_apply 1408 arg2 harg2 x1 _ k q Q hQ))
    (ldB_apply 1408 arg3 harg3 x2 _ q Q hQ))

/-- Columns 0…63 of group 4 are connection 22's message (layer 4 to layer 5). -/
theorem cm22 (h : S4096x192.Slices ![0, 0] S4096x64) (p : Fin 4096) (e : Fin 64) :
    extractStridedSlice S4096x64 ![0, 0] (k0_pay40 (F := Ideal) (kernelRun0_A.sl.v219 (F := Ideal) c arg1 harg1 arg2 harg2 arg3 harg3 arg5 x0 x1 x2) (View.readAt (Elt Ideal) arg2.view (Rect.unit (s := S64x1792) ![0, 1408] S64x192.size Gen.inb_S64x1792_S64x192_0_1408).toLoadRect (harg2.unread x1)) (View.readAt (Elt Ideal) arg3.view (Rect.unit (s := S1x1792) ![0, 1408] S1x192.size Gen.inb_S1x1792_S1x192_0_1408).toLoadRect (harg3.unread x2))) h (ix2 p e) = msg (packedW x1) (packedB x2) 22 (h4 (packedW x1) (packedB x2) (row x0 p)) e :=
  (slice2_axis1_eq 0 _ h p e).trans ((grp4_val c arg1 harg1 arg2 harg2 arg3 harg3 arg5 x0 x1 x2 p _ ⟨1408 + (0 + e.val), by omega⟩ rfl).trans
    (close_msg x1 x2 22 (h4 (packedW x1) (packedB x2) (row x0 p)) e _ (by show 1408 + (0 + e.val) = 64 * 22 + e.val; omega)))

/-- Columns 64…127 of group 4 are connection 23's message (layer 4 to layer 6). -/
theorem cm23 (h : S4096x192.Slices ![0, 64] S4096x64) (p : Fin 4096) (e : Fin 64) :
    extractStridedSlice S4096x64 ![0, 64] (k0_pay40 (F := Ideal) (kernelRun0_A.sl.v219 (F := Ideal) c arg1 harg1 arg2 harg2 arg3 harg3 arg5 x0 x1 x2) (View.readAt (Elt Ideal) arg2.view (Rect.unit (s := S64x1792) ![0, 1408] S64x192.size Gen.inb_S64x1792_S64x192_0_1408).toLoadRect (harg2.unread x1)) (View.readAt (Elt Ideal) arg3.view (Rect.unit (s := S1x1792) ![0, 1408] S1x192.size Gen.inb_S1x1792_S1x192_0_1408).toLoadRect (harg3.unread x2))) h (ix2 p e) = msg (packedW x1) (packedB x2) 23 (h4 (packedW x1) (packedB x2) (row x0 p)) e :=
  (slice2_axis1_eq 64 _ h p e).trans ((grp4_val c arg1 harg1 arg2 harg2 arg3 harg3 arg5 x0 x1 x2 p _ ⟨1408 + (64 + e.val), by omega⟩ rfl).trans
    (close_msg x1 x2 23 (h4 (packedW x1) (packedB x2) (row x0 p)) e _ (by show 1408 + (64 + e.val) = 64 * 23 + e.val; omega)))

/-- Columns 128…191 of group 4 are connection 24's message (layer 4 to layer 7). -/
theorem cm24 (h : S4096x192.Slices ![0, 128] S4096x64) (p : Fin 4096) (e : Fin 64) :
    extractStridedSlice S4096x64 ![0, 128] (k0_pay40 (F := Ideal) (kernelRun0_A.sl.v219 (F := Ideal) c arg1 harg1 arg2 harg2 arg3 harg3 arg5 x0 x1 x2) (View.readAt (Elt Ideal) arg2.view (Rect.unit (s := S64x1792) ![0, 1408] S64x192.size Gen.inb_S64x1792_S64x192_0_1408).toLoadRect (harg2.unread x1)) (View.readAt (Elt Ideal) arg3.view (Rect.unit (s := S1x1792) ![0, 1408] S1x192.size Gen.inb_S1x1792_S1x192_0_1408).toLoadRect (harg3.unread x2))) h (ix2 p e) = msg (packedW x1) (packedB x2) 24 (h4 (packedW x1) (packedB x2) (row x0 p)) e :=
  (slice2_axis1_eq 128 _ h p e).trans ((grp4_val c arg1 harg1 arg2 harg2 arg3 harg3 arg5 x0 x1 x2 p _ ⟨1408 + (128 + e.val), by omega⟩ rfl).trans
    (close_msg x1 x2 24 (h4 (packedW x1) (packedB x2) (row x0 p)) e _ (by show 1408 + (128 + e.val) = 64 * 24 + e.val; omega)))

/-! ### The accumulators after source layer 4 -/

theorem v250_apply (u : Fin 1) (p : Fin 4096) (e : Fin 64) :
    (kernelRun0_A.sl.v250 (F := Ideal) c arg1 harg1 arg2 harg2 arg3 harg3 arg5 x0 x1 x2) (ix3 u p e) = h5 (packedW x1) (packedB x2) (row x0 p) e := by
  unfold kernelRun0_A.sl.v250
  unfold kernelRun0_A.sl.HS0_26
  rw [slot_skip _ 5 4 (by decide)]
  unfold kernelRun0_A.sl.HS0_25
  rw [View.readCov_cons_toLoadRect]
  unfold k0_pay41
  refine (accS_apply _ _ u p e).trans ?_
  exact congrArg₂ (· + ·) (v232_apply c arg1 harg1 arg2 harg2 arg3 harg3 arg5 x0 x1 x2 0 p e) (cm22 c arg1 harg1 arg2 harg2 arg3 harg3 arg5 x0 x1 x2 _ p e)

theorem v263_apply (u : Fin 1) (p : Fin 4096) (e : Fin 64) :
    (kernelRun0_A.sl.v263 (F := Ideal) c arg1 harg1 arg2 harg2 arg3 harg3 arg5 x0 x1 x2) (ix3 u p e) = Z + msg (packedW x1) (packedB x2) 5 (row x0 p) e + msg (packedW x1) (packedB x2) 11 (h1 (packedW x1) (packedB x2) (row x0 p)) e + msg (packedW x1) (packedB x2) 16 (h2 (packedW x1) (packedB x2) (row x0 p)) e + msg (packedW x1) (packedB x2) 20 (h3 (packedW x1) (packedB x2) (row x0 p)) e + msg (packedW x1) (packedB x2) 23 (h4 (packedW x1) (packedB x2) (row x0 p)) e := by
  unfold kernelRun0_A.sl.v263
  unfold kernelRun0_A.sl.HS0_26
  rw [View.readCov_cons_toLoadRect]
  unfold k0_pay43
  refine (lift_apply _ u p e).trans ?_
  unfold kernelRun0_A.sl.r_11 k0_pay42
  refine (accV_apply _ _ p e).trans ?_
  exact congrArg₂ (· + ·) (v239_apply c arg1 harg1 arg2 harg2 arg3 harg3 arg5 x0 x1 x2 0 p e) (cm23 c arg1 harg1 arg2 harg2 arg3 harg3 arg5 x0 x1 x2 _ p e)

theorem v270_apply (p : Fin 4096) (e : Fin 64) :
    (kernelRun0_A.sl.v270 (F := Ideal) c arg1 harg1 arg2 harg2 arg3 harg3 arg4 arg5 x0 x1 x2) (ix2 p e) = Z + msg (packedW x1) (packedB x2) 6 (row x0 p) e + msg (packedW x1) (packedB x2) 12 (h1 (packedW x1) (packedB x2) (row x0 p)) e + msg (packedW x1) (packedB x2) 17 (h2 (packedW x1) (packedB x2) (row x0 p)) e + msg (packedW x1) (packedB x2) 21 (h3 (packedW x1) (packedB x2) (row x0 p)) e + msg (packedW x1) (packedB x2) 24 (h4 (packedW x1) (packedB x2) (row x0 p)) e := by
  unfold kernelRun0_A.sl.v270
  unfold kernelRun0_A.sl.H3_6
  rw [View.readCov_cons_toLoadRect]
  unfold k0_pay44
  refine (accO_apply _ _ p e).trans ?_
  exact congrArg₂ (· + ·) (v246_apply c arg1 harg1 arg2 harg2 arg3 harg3 arg4 arg5 x0 x1 x2 p e) (cm24 c arg1 harg1 arg2 harg2 arg3 harg3 arg5 x0 x1 x2 _ p e)

/-! ## Source layer 5 -/

/-- The group of source layer 5 at `(p, q)`: column `q` of its slab is column `1600 + q` of the packed arrays. -/
theorem grp5_val (p : Fin 4096) (q : Fin 128) (Q : Fin 1792) (hQ : Q.val = 1600 + q.val) :
    (k0_pay45 (F := Ideal) (kernelRun0_A.sl.v250 (F := Ideal) c arg1 harg1 arg2 harg2 arg3 harg3 arg5 x0 x1 x2) (View.readAt (Elt Ideal) arg2.view (Rect.unit (s := S64x1792) ![0, 1600] S64x128.size Gen.inb_S64x1792_S64x128_0_1600).toLoadRect (harg2.unread x1)) (View.readAt (Elt Ideal) arg3.view (Rect.unit (s := S1x1792) ![0, 1600] S1x128.size Gen.inb_S1x1792_S1x128_0_1600).toLoadRect (harg3.unread x2))) (ix2 p q)
      = max ((∑ k : Fin 64, h5 (packedW x1) (packedB x2) (row x0 p) k * x1 (ix2 k Q)) + x2 (ix2 (0 : Fin 1) Q)) Z :=
  (grp128_apply _ _ _ p q).trans (congrArg₂ (fun s t => max (s + t) Z)
    (Finset.sum_congr rfl fun k _ => congrArg₂ (· * ·)
      ((drop_apply (kernelRun0_A.sl.v250 (F := Ideal) c arg1 harg1 arg2 harg2 arg3 harg3 arg5 x0 x1 x2) p k).trans (v250_apply c arg1 harg1 arg2 harg2 arg3 harg3 arg5 x0 x1 x2 0 p k)) (ldW_apply 1600 arg2 harg2 x1 _ k q Q hQ))
    (ldB_apply 1600 arg3 harg3 x2 _ q Q hQ))

/-- Columns 0…63 of group 5 are connection 25's message (layer 5 to layer 6). -/
theorem cm25 (h : S4096x128.Slices ![0, 0] S4096x64) (p : Fin 4096) (e : Fin 64) :
    extractStridedSlice S4096x64 ![0, 0] (k0_pay45 (F := Ideal) (kernelRun0_A.sl.v250 (F := Ideal) c arg1 harg1 arg2 harg2 arg3 harg3 arg5 x0 x1 x2) (View.readAt (Elt Ideal) arg2.view (Rect.unit (s := S64x1792) ![0, 1600] S64x128.size Gen.inb_S64x1792_S64x128_0_1600).toLoadRect (harg2.unread x1)) (View.readAt (Elt Ideal) arg3.view (Rect.unit (s := S1x1792) ![0, 1600] S1x128.size Gen.inb_S1x1792_S1x128_0_1600).toLoadRect (harg3.unread x2))) h (ix2 p e) = msg (packedW x1) (packedB x2) 25 (h5 (packedW x1) (packedB x2) (row x0 p)) e :=
  (slice2_axis1_eq 0 _ h p e).trans ((grp5_val c arg1 harg1 arg2 harg2 arg3 harg3 arg5 x0 x1 x2 p _ ⟨1600 + (0 + e.val), by omega⟩ rfl).trans
    (close_msg x1 x2 25 (h5 (packedW x1) (packedB x2) (row x0 p)) e _ (by show 1600 + (0 + e.val) = 64 * 25 + e.val; omega)))

/-- Columns 64…127 of group 5 are connection 26's message (layer 5 to layer 7). -/
theorem cm26 (h : S4096x128.Slices ![0, 64] S4096x64) (p : Fin 4096) (e : Fin 64) :
    extractStridedSlice S4096x64 ![0, 64] (k0_pay45 (F := Ideal) (kernelRun0_A.sl.v250 (F := Ideal) c arg1 harg1 arg2 harg2 arg3 harg3 arg5 x0 x1 x2) (View.readAt (Elt Ideal) arg2.view (Rect.unit (s := S64x1792) ![0, 1600] S64x128.size Gen.inb_S64x1792_S64x128_0_1600).toLoadRect (harg2.unread x1)) (View.readAt (Elt Ideal) arg3.view (Rect.unit (s := S1x1792) ![0, 1600] S1x128.size Gen.inb_S1x1792_S1x128_0_1600).toLoadRect (harg3.unread x2))) h (ix2 p e) = msg (packedW x1) (packedB x2) 26 (h5 (packedW x1) (packedB x2) (row x0 p)) e :=
  (slice2_axis1_eq 64 _ h p e).trans ((grp5_val c arg1 harg1 arg2 harg2 arg3 harg3 arg5 x0 x1 x2 p _ ⟨1600 + (64 + e.val), by omega⟩ rfl).trans
    (close_msg x1 x2 26 (h5 (packedW x1) (packedB x2) (row x0 p)) e _ (by show 1600 + (64 + e.val) = 64 * 26 + e.val; omega)))

/-! ### The accumulators after source layer 5 -/

theorem v274_apply (u : Fin 1) (p : Fin 4096) (e : Fin 64) :
    (kernelRun0_A.sl.v274 (F := Ideal) c arg1 harg1 arg2 harg2 arg3 harg3 arg5 x0 x1 x2) (ix3 u p e) = h6 (packedW x1) (packedB x2) (row x0 p) e := by
  unfold kernelRun0_A.sl.v274
  unfold kernelRun0_A.sl.HS0_27
  rw [View.readCov_cons_toLoadRect]
  unfold k0_pay46
  refine (accS_apply _ _ u p e).trans ?_
  exact congrArg₂ (· + ·) (v263_apply c arg1 harg1 arg2 harg2 arg3 harg3 arg5 x0 x1 x2 0 p e) (cm25 c arg1 harg1 arg2 harg2 arg3 harg3 arg5 x0 x1 x2 _ p e)

theorem v286_apply (p : Fin 4096) (e : Fin 64) :
    (kernelRun0_A.sl.v286 (F := Ideal) c arg1 harg1 arg2 harg2 arg3 harg3 arg4 arg5 x0 x1 x2) (ix2 p e) = Z + msg (packedW x1) (packedB x2) 6 (row x0 p) e + msg (packedW x1) (packedB x2) 12 (h1 (packedW x1) (packedB x2) (row x0 p)) e + msg (packedW x1) (packedB x2) 17 (h2 (packedW x1) (packedB x2) (row x0 p)) e + msg (packedW x1) (packedB x2) 21 (h3 (packedW x1) (packedB x2) (row x0 p)) e + msg (packedW x1) (packedB x2) 24 (h4 (packedW x1) (packedB x2) (row x0 p)) e + msg (packedW x1) (packedB x2) 26 (h5 (packedW x1) (packedB x2) (row x0 p)) e := by
  unfold kernelRun0_A.sl.v286
  unfold kernelRun0_A.sl.H3_7
  rw [View.readCov_cons_toLoadRect]
  unfold k0_pay47
  refine (accO_apply _ _ p e).trans ?_
  exact congrArg₂ (· + ·) (v270_apply c arg1 harg1 arg2 harg2 arg3 harg3 arg4 arg5 x0 x1 x2 p e) (cm26 c arg1 harg1 arg2 harg2 arg3 harg3 arg5 x0 x1 x2 _ p e)

/-! ## Source layer 6 and the last store -/

/-- The body's output block at `(p, e)`: the last store writes the whole block, the accumulated layer 7 so far plus the
    message of connection 27, computed from layer 6 (scratch slot 5) and the last 64 columns of the packed arrays. -/
theorem out_apply_aux (i : grid0.Coords) (harg4 : arg4.IsWhole) (harg5 : arg5.IsWhole) (p : Fin 4096) (e : Fin 64) :
    out0_A_3 (F := Ideal) c i arg1 harg1 arg2 harg2 arg3 harg3 arg4 harg4 arg5 harg5 x0 x1 x2 (ix2 p e)
      = h7 (packedW x1) (packedB x2) (row x0 p) e := by
  unfold out0_A_3
  rw [View.read_writes_junk_eq_canon]
  unfold kernelRun0_A
  dsimp only
  refine (congrFun (View.canon_cons_unit_zero (S := S4096x64)
    (funext fun a => by match a with | ⟨0, _⟩ => rfl | ⟨1, _⟩ => rfl) _ _ _) (ix2 p e)).trans ?_
  unfold k0_pay1
  refine (accO_apply _ _ p e).trans ?_
  refine congrArg₂ (· + ·) (v286_apply c arg1 harg1 arg2 harg2 arg3 harg3 arg4 arg5 x0 x1 x2 p e) ?_
  refine (grp64_apply _ _ _ p e).trans ((congrArg₂ (fun s t => max (s + t) Z)
    (Finset.sum_congr rfl fun k _ => congrArg₂ (· * ·)
      ((drop_apply (kernelRun0_A.sl.v274 (F := Ideal) c arg1 harg1 arg2 harg2 arg3 harg3 arg5 x0 x1 x2) p k).trans (v274_apply c arg1 harg1 arg2 harg2 arg3 harg3 arg5 x0 x1 x2 0 p k))
      (ldW_apply 1728 arg2 harg2 x1 _ k e ⟨1728 + e.val, by omega⟩ rfl))
    (ldB_apply 1728 arg3 harg3 x2 _ e ⟨1728 + e.val, by omega⟩ rfl)).trans
    (close_msg x1 x2 27 (h6 (packedW x1) (packedB x2) (row x0 p)) e _ (by show 1728 + e.val = 64 * 27 + e.val; omega)))

/-- The body's output block at `(p, e)`, with the arguments in the order the body takes them. -/
theorem out_apply (c : Dev nD) (i : grid0.Coords) (arg1 : Memref sig .tc .vmem S4096x64 .f32) (harg1 : arg1.IsWhole) (arg2 : Memref sig .tc .vmem S64x1792 .bf16) (harg2 : arg2.IsWhole) (arg3 : Memref sig .tc .vmem S1x1792 .f32) (harg3 : arg3.IsWhole) (arg4 : Memref sig .tc .vmem S4096x64 .f32) (harg4 : arg4.IsWhole) (arg5 : Memref sig .tc .vmem S6x4096x64 .f32) (harg5 : arg5.IsWhole) (x0 : Vec Ideal S4096x64 .f32) (x1 : Vec Ideal S64x1792 .bf16) (x2 : Vec Ideal S1x1792 .f32) (p : Fin 4096) (e : Fin 64) :
    out0_A_3 (F := Ideal) c i arg1 harg1 arg2 harg2 arg3 harg3 arg4 harg4 arg5 harg5 x0 x1 x2 (ix2 p e)
      = Cert.Layers.h7 (Cert.Layers.packedW x1) (Cert.Layers.packedB x2) (Cert.Layers.row x0 p) e :=
  out_apply_aux c arg1 harg1 arg2 harg2 arg3 harg3 arg4 arg5 x0 x1 x2 i harg4 harg5 p e

end Cert.KernelIdeal.Body

end
-- ==== Proof.KValue.lean ====
/-
  The kernel's result array, as one function of its three arguments.

  Grid point `t` writes back rows `4096 t … 4096 t + 4095` of the result; entry `(p, e)` of what it writes is feature
  `e` of layer 7 of row `p` of its input block, with the weights and biases read off the packed operands. The input
  block's row `p` is row `4096 t + p` of the batch, and the packed operands hold the arguments' weights and biases,
  so the block is rows `4096 t …` of `Cert.Layers.G` of the arguments; the 64 blocks fill the result.
-/
import proofs.«164341_j31275951850011_2_alg».proof.Proof.KBlocks
import proofs.«164341_j31275951850011_2_alg».proof.Proof.KHost
import proofs.«164341_j31275951850011_2_alg».proof.Proof.KBody

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- Row `p` of the input block at point `t` is row `4096 t + p` of the batch. -/
theorem inBlock_row (c : Dev nD) (t : Fin cfg0.N) (p : Fin 4096) :
    Cert.Layers.row (iblk m c 0 t : S4096x64.Idx → EReal) p
      = Cert.Layers.row (m ((c : Thread nD τ).loc main_arg0) : S262144x64.Idx → EReal) (blockRow t p) :=
  funext fun k => inBlock_apply m c t p k

/-- WHAT POINT `t` WRITES BACK is block `t` of the layered network's result on the arguments. -/
theorem flushed_eq (c : Dev nD) (t : Fin cfg0.N) :
    (dats m 0 c).flushed 3 t = ((cfg0.win 3).blk t).view.read (Elt Ideal)
      (Cert.Layers.G (m ((c : Thread nD τ).loc main_arg0)) (m ((c : Thread nD τ).loc main_arg1)) (m ((c : Thread nD τ).loc main_arg2))) := by
  funext y
  obtain ⟨p, e, rfl⟩ : ∃ (p : Fin 4096) (e : Fin 64), y = ix2 p e := ⟨y 0, y 1, eq_ix2 y⟩
  rw [Value.flushed3_A, View.read_apply, outBlock_emb]
  show out0_A_3 (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (ix2 p e)
    = Cert.Layers.h7 (Cert.Layers.argW (m ((c : Thread nD τ).loc main_arg1))) (Cert.Layers.argB (m ((c : Thread nD τ).loc main_arg2))) (Cert.Layers.row (m ((c : Thread nD τ).loc main_arg0)) (blockRow t p)) e
  refine (Body.out_apply c _ _ _ _ _ _ _ _ _ _ _ (iblk m c 0 t) (iblk m c 1 t) (iblk m c 2 t) p e).trans ?_
  rw [weightBlock_eq, biasBlock_eq, packedW_V, packedB_V, inBlock_row]

/-- THE RESULT ARRAY after the run: the layered network's result on the arguments. -/
theorem final (c : Dev nD) :
    (dats m 0 c).arrAt 3 cfg0.N = Cert.Layers.G (m ((c : Thread nD τ).loc main_arg0)) (m ((c : Thread nD τ).loc main_arg1)) (m ((c : Thread nD τ).loc main_arg2)) :=
  (dats m 0 c).arrAt_eq_of_cover 3 (Cert.Layers.G (m ((c : Thread nD τ).loc main_arg0)) (m ((c : Thread nD τ).loc main_arg1)) (m ((c : Thread nD τ).loc main_arg2)))
    (fun t _ => flushed_eq m c t) outBlocks_cover

/-- The kernel's run: the result array at the layered network's result on the arguments, the arguments unchanged. -/
theorem run : θ_run (defs (F := Ideal)) (onTc (τ := τ) (main (F := Ideal))) ⟨m, fun _ => 0, ρ⟩ fun r => ∀ c : Dev nD,
      r.2.mem ((c : Thread nD τ).loc main_v5) = Cert.Layers.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.KValue

end
-- ==== Proof.RefOps.lean ====
/-
  The reference program's operations, cut by meaning: the seven zero arrays the layers' sums start from, then
  one block of thirteen operations per connection, in the program's order. The whole program is the
  concatenation of these blocks.
-/
import proofs.«164341_j31275951850011_2_alg».proof.Proof.Gen.ReferenceIdeal
import Idealize.ShloMosaic.Lib.StableHlo.Run

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The seven zero arrays: for each layer 1 … 7 a scalar zero and its broadcast to the batch. -/
abbrev init : List (HloOp τ sig (Elt F)) :=
  [ nullary main_cst (constant S_ .f32 0x00000000#32),
    unary main_cst main_v0 (broadcastInDim S262144x64 ![] bcast_S_S262144x64 : (⟨S_, .f32⟩ : BufTy).Contents (Elt F) → (⟨S262144x64, .f32⟩ : BufTy).Contents (Elt F)),
    nullary main_cst_0 (constant S_ .f32 0x00000000#32),
    unary main_cst_0 main_v1 (broadcastInDim S262144x64 ![] bcast_S_S262144x64 : (⟨S_, .f32⟩ : BufTy).Contents (Elt F) → (⟨S262144x64, .f32⟩ : BufTy).Contents (Elt F)),
    nullary main_cst_1 (constant S_ .f32 0x00000000#32),
    unary main_cst_1 main_v2 (broadcastInDim S262144x64 ![] bcast_S_S262144x64 : (⟨S_, .f32⟩ : BufTy).Contents (Elt F) → (⟨S262144x64, .f32⟩ : BufTy).Contents (Elt F)),
    nullary main_cst_2 (constant S_ .f32 0x00000000#32),
    unary main_cst_2 main_v3 (broadcastInDim S262144x64 ![] bcast_S_S262144x64 : (⟨S_, .f32⟩ : BufTy).Contents (Elt F) → (⟨S262144x64, .f32⟩ : BufTy).Contents (Elt F)),
    nullary main_cst_3 (constant S_ .f32 0x00000000#32),
    unary main_cst_3 main_v4 (broadcastInDim S262144x64 ![] bcast_S_S262144x64 : (⟨S_, .f32⟩ : BufTy).Contents (Elt F) → (⟨S262144x64, .f32⟩ : BufTy).Contents (Elt F)),
    nullary main_cst_4 (constant S_ .f32 0x00000000#32),
    unary main_cst_4 main_v5 (broadcastInDim S262144x64 ![] bcast_S_S262144x64 : (⟨S_, .f32⟩ : BufTy).Contents (Elt F) → (⟨S262144x64, .f32⟩ : BufTy).Contents (Elt F)),
    nullary main_cst_5 (constant S_ .f32 0x00000000#32),
    unary main_cst_5 main_v6 (broadcastInDim S262144x64 ![] bcast_S_S262144x64 : (⟨S_, .f32⟩ : BufTy).Contents (Elt F) → (⟨S262144x64, .f32⟩ : BufTy).Contents (Elt F)) ]

/-- Connection 0: its weight slice transposed and multiplied into the source layer, its bias row added, the
    rectifier, and the sum into the target layer's accumulator. -/
abbrev conn0 : List (HloOp τ sig (Elt F)) :=
  [ unary main_arg1 main_v7 ((extractStridedSlice S1x64x64 ![0, 0, 0] · slices_S28x64x64_S1x64x64_0_0_0) : (⟨S28x64x64, .f32⟩ : BufTy).Contents (Elt F) → (⟨S1x64x64, .f32⟩ : BufTy).Contents (Elt F)),
    reshape main_v7 main_v8 rfl shapeCasts_S1x64x64_S64x64,
    unary main_v8 main_v9 ((transpose S64x64 [1, 0] · transposes_S64x64_S64x64_1_0) : (⟨S64x64, .f32⟩ : BufTy).Contents (Elt F) → (⟨S64x64, .f32⟩ : BufTy).Contents (Elt F)),
    binary main_arg0 main_v9 main_v10 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v11 ((extractStridedSlice S1x64 ![0, 0] · slices_S28x64_S1x64_0_0) : (⟨S28x64, .f32⟩ : BufTy).Contents (Elt F) → (⟨S1x64, .f32⟩ : BufTy).Contents (Elt F)),
    reshape main_v11 main_v12 rfl shapeCasts_S1x64_S64,
    unary main_v12 main_v13 (broadcastInDim S1x64 ![1] bcast_S64_S1x64_1 : (⟨S64, .f32⟩ : BufTy).Contents (Elt F) → (⟨S1x64, .f32⟩ : BufTy).Contents (Elt F)),
    unary main_v13 main_v14 (broadcastInDim S262144x64 ![0, 1] bcast_S1x64_S262144x64_0_1 : (⟨S1x64, .f32⟩ : BufTy).Contents (Elt F) → (⟨S262144x64, .f32⟩ : BufTy).Contents (Elt F)),
    binary main_v10 main_v14 main_v15 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S262144x64, .f32⟩) main_call0_v0) (broadcastInDim S262144x64 ![] bcast_S_S262144x64),
    TRef.binary (TRef.of (T := ⟨S262144x64, .f32⟩) main_v15) (TRef.of (T := ⟨S262144x64, .f32⟩) main_call0_v0) (TRef.of (T := ⟨S262144x64, .f32⟩) main_v16) maximumf,
    binary main_v0 main_v16 main_v17 (addf : (⟨S262144x64, .f32⟩ : BufTy).Contents (Elt F) → (⟨S262144x64, .f32⟩ : BufTy).Contents (Elt F) → (⟨S262144x64, .f32⟩ : BufTy).Contents (Elt F)) ]

/-- Connection 1: its weight slice transposed and multiplied into the source layer, its bias row added, the
    rectifier, and the sum into the target layer's accumulator. -/
abbrev conn1 : List (HloOp τ sig (Elt F)) :=
  [ unary main_arg1 main_v18 ((extractStridedSlice S1x64x64 ![1, 0, 0] · slices_S28x64x64_S1x64x64_1_0_0) : (⟨S28x64x64, .f32⟩ : BufTy).Contents (Elt F) → (⟨S1x64x64, .f32⟩ : BufTy).Contents (Elt F)),
    reshape main_v18 main_v19 rfl shapeCasts_S1x64x64_S64x64,
    unary main_v19 main_v20 ((transpose S64x64 [1, 0] · transposes_S64x64_S64x64_1_0) : (⟨S64x64, .f32⟩ : BufTy).Contents (Elt F) → (⟨S64x64, .f32⟩ : BufTy).Contents (Elt F)),
    binary main_arg0 main_v20 main_v21 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v22 ((extractStridedSlice S1x64 ![1, 0] · slices_S28x64_S1x64_1_0) : (⟨S28x64, .f32⟩ : BufTy).Contents (Elt F) → (⟨S1x64, .f32⟩ : BufTy).Contents (Elt F)),
    reshape main_v22 main_v23 rfl shapeCasts_S1x64_S64,
    unary main_v23 main_v24 (broadcastInDim S1x64 ![1] bcast_S64_S1x64_1 : (⟨S64, .f32⟩ : BufTy).Contents (Elt F) → (⟨S1x64, .f32⟩ : BufTy).Contents (Elt F)),
    unary main_v24 main_v25 (broadcastInDim S262144x64 ![0, 1] bcast_S1x64_S262144x64_0_1 : (⟨S1x64, .f32⟩ : BufTy).Contents (Elt F) → (⟨S262144x64, .f32⟩ : BufTy).Contents (Elt F)),
    binary main_v21 main_v25 main_v26 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S262144x64, .f32⟩) main_call1_v0) (broadcastInDim S262144x64 ![] bcast_S_S262144x64),
    TRef.binary (TRef.of (T := ⟨S262144x64, .f32⟩) main_v26) (TRef.of (T := ⟨S262144x64, .f32⟩) main_call1_v0) (TRef.of (T := ⟨S262144x64, .f32⟩) main_v27) maximumf,
    binary main_v1 main_v27 main_v28 (addf : (⟨S262144x64, .f32⟩ : BufTy).Contents (Elt F) → (⟨S262144x64, .f32⟩ : BufTy).Contents (Elt F) → (⟨S262144x64, .f32⟩ : BufTy).Contents (Elt F)) ]

/-- Connection 2: its weight slice transposed and multiplied into the source layer, its bias row added, the
    rectifier, and the sum into the target layer's accumulator. -/
abbrev conn2 : List (HloOp τ sig (Elt F)) :=
  [ unary main_arg1 main_v29 ((extractStridedSlice S1x64x64 ![2, 0, 0] · slices_S28x64x64_S1x64x64_2_0_0) : (⟨S28x64x64, .f32⟩ : BufTy).Contents (Elt F) → (⟨S1x64x64, .f32⟩ : BufTy).Contents (Elt F)),
    reshape main_v29 main_v30 rfl shapeCasts_S1x64x64_S64x64,
    unary main_v30 main_v31 ((transpose S64x64 [1, 0] · transposes_S64x64_S64x64_1_0) : (⟨S64x64, .f32⟩ : BufTy).Contents (Elt F) → (⟨S64x64, .f32⟩ : BufTy).Contents (Elt F)),
    binary main_arg0 main_v31 main_v32 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v33 ((extractStridedSlice S1x64 ![2, 0] · slices_S28x64_S1x64_2_0) : (⟨S28x64, .f32⟩ : BufTy).Contents (Elt F) → (⟨S1x64, .f32⟩ : BufTy).Contents (Elt F)),
    reshape main_v33 main_v34 rfl shapeCasts_S1x64_S64,
    unary main_v34 main_v35 (broadcastInDim S1x64 ![1] bcast_S64_S1x64_1 : (⟨S64, .f32⟩ : BufTy).Contents (Elt F) → (⟨S1x64, .f32⟩ : BufTy).Contents (Elt F)),
    unary main_v35 main_v36 (broadcastInDim S262144x64 ![0, 1] bcast_S1x64_S262144x64_0_1 : (⟨S1x64, .f32⟩ : BufTy).Contents (Elt F) → (⟨S262144x64, .f32⟩ : BufTy).Contents (Elt F)),
    binary main_v32 main_v36 main_v37 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S262144x64, .f32⟩) main_call2_v0) (broadcastInDim S262144x64 ![] bcast_S_S262144x64),
    TRef.binary (TRef.of (T := ⟨S262144x64, .f32⟩) main_v37) (TRef.of (T := ⟨S262144x64, .f32⟩) main_call2_v0) (TRef.of (T := ⟨S262144x64, .f32⟩) main_v38) maximumf,
    binary main_v2 main_v38 main_v39 (addf : (⟨S262144x64, .f32⟩ : BufTy).Contents (Elt F) → (⟨S262144x64, .f32⟩ : BufTy).Contents (Elt F) → (⟨S262144x64, .f32⟩ : BufTy).Contents (Elt F)) ]

/-- Connection 3: its weight slice transposed and multiplied into the source layer, its bias row added, the
    rectifier, and the sum into the target layer's accumulator. -/
abbrev conn3 : List (HloOp τ sig (Elt F)) :=
  [ unary main_arg1 main_v40 ((extractStridedSlice S1x64x64 ![3, 0, 0] · slices_S28x64x64_S1x64x64_3_0_0) : (⟨S28x64x64, .f32⟩ : BufTy).Contents (Elt F) → (⟨S1x64x64, .f32⟩ : BufTy).Contents (Elt F)),
    reshape main_v40 main_v41 rfl shapeCasts_S1x64x64_S64x64,
    unary main_v41 main_v42 ((transpose S64x64 [1, 0] · transposes_S64x64_S64x64_1_0) : (⟨S64x64, .f32⟩ : BufTy).Contents (Elt F) → (⟨S64x64, .f32⟩ : BufTy).Contents (Elt F)),
    binary main_arg0 main_v42 main_v43 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v44 ((extractStridedSlice S1x64 ![3, 0] · slices_S28x64_S1x64_3_0) : (⟨S28x64, .f32⟩ : BufTy).Contents (Elt F) → (⟨S1x64, .f32⟩ : BufTy).Contents (Elt F)),
    reshape main_v44 main_v45 rfl shapeCasts_S1x64_S64,
    unary main_v45 main_v46 (broadcastInDim S1x64 ![1] bcast_S64_S1x64_1 : (⟨S64, .f32⟩ : BufTy).Contents (Elt F) → (⟨S1x64, .f32⟩ : BufTy).Contents (Elt F)),
    unary main_v46 main_v47 (broadcastInDim S262144x64 ![0, 1] bcast_S1x64_S262144x64_0_1 : (⟨S1x64, .f32⟩ : BufTy).Contents (Elt F) → (⟨S262144x64, .f32⟩ : BufTy).Contents (Elt F)),
    binary main_v43 main_v47 main_v48 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S262144x64, .f32⟩) main_call3_v0) (broadcastInDim S262144x64 ![] bcast_S_S262144x64),
    TRef.binary (TRef.of (T := ⟨S262144x64, .f32⟩) main_v48) (TRef.of (T := ⟨S262144x64, .f32⟩) main_call3_v0) (TRef.of (T := ⟨S262144x64, .f32⟩) main_v49) maximumf,
    binary main_v3 main_v49 main_v50 (addf : (⟨S262144x64, .f32⟩ : BufTy).Contents (Elt F) → (⟨S262144x64, .f32⟩ : BufTy).Contents (Elt F) → (⟨S262144x64, .f32⟩ : BufTy).Contents (Elt F)) ]

/-- Connection 4: its weight slice transposed and multiplied into the source layer, its bias row added, the
    rectifier, and the sum into the target layer's accumulator. -/
abbrev conn4 : List (HloOp τ sig (Elt F)) :=
  [ unary main_arg1 main_v51 ((extractStridedSlice S1x64x64 ![4, 0, 0] · slices_S28x64x64_S1x64x64_4_0_0) : (⟨S28x64x64, .f32⟩ : BufTy).Contents (Elt F) → (⟨S1x64x64, .f32⟩ : BufTy).Contents (Elt F)),
    reshape main_v51 main_v52 rfl shapeCasts_S1x64x64_S64x64,
    unary main_v52 main_v53 ((transpose S64x64 [1, 0] · transposes_S64x64_S64x64_1_0) : (⟨S64x64, .f32⟩ : BufTy).Contents (Elt F) → (⟨S64x64, .f32⟩ : BufTy).Contents (Elt F)),
    binary main_arg0 main_v53 main_v54 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v55 ((extractStridedSlice S1x64 ![4, 0] · slices_S28x64_S1x64_4_0) : (⟨S28x64, .f32⟩ : BufTy).Contents (Elt F) → (⟨S1x64, .f32⟩ : BufTy).Contents (Elt F)),
    reshape main_v55 main_v56 rfl shapeCasts_S1x64_S64,
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S262144x64 ![0, 1] bcast_S1x64_S262144x64_0_1 : (⟨S1x64, .f32⟩ : BufTy).Contents (Elt F) → (⟨S262144x64, .f32⟩ : BufTy).Contents (Elt F)),
    binary main_v54 main_v58 main_v59 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S262144x64, .f32⟩) main_call4_v0) (broadcastInDim S262144x64 ![] bcast_S_S262144x64),
    TRef.binary (TRef.of (T := ⟨S262144x64, .f32⟩) main_v59) (TRef.of (T := ⟨S262144x64, .f32⟩) main_call4_v0) (TRef.of (T := ⟨S262144x64, .f32⟩) main_v60) maximumf,
    binary main_v4 main_v60 main_v61 (addf : (⟨S262144x64, .f32⟩ : BufTy).Contents (Elt F) → (⟨S262144x64, .f32⟩ : BufTy).Contents (Elt F) → (⟨S262144x64, .f32⟩ : BufTy).Contents (Elt F)) ]

/-- Connection 5: its weight slice transposed and multiplied into the source layer, its bias row added, the
    rectifier, and the sum into the target layer's accumulator. -/
abbrev conn5 : List (HloOp τ sig (Elt F)) :=
  [ unary main_arg1 main_v62 ((extractStridedSlice S1x64x64 ![5, 0, 0] · slices_S28x64x64_S1x64x64_5_0_0) : (⟨S28x64x64, .f32⟩ : BufTy).Contents (Elt F) → (⟨S1x64x64, .f32⟩ : BufTy).Contents (Elt F)),
    reshape main_v62 main_v63 rfl shapeCasts_S1x64x64_S64x64,
    unary main_v63 main_v64 ((transpose S64x64 [1, 0] · transposes_S64x64_S64x64_1_0) : (⟨S64x64, .f32⟩ : BufTy).Contents (Elt F) → (⟨S64x64, .f32⟩ : BufTy).Contents (Elt F)),
    binary main_arg0 main_v64 main_v65 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v66 ((extractStridedSlice S1x64 ![5, 0] · slices_S28x64_S1x64_5_0) : (⟨S28x64, .f32⟩ : BufTy).Contents (Elt F) → (⟨S1x64, .f32⟩ : BufTy).Contents (Elt F)),
    reshape main_v66 main_v67 rfl shapeCasts_S1x64_S64,
    unary main_v67 main_v68 (broadcastInDim S1x64 ![1] bcast_S64_S1x64_1 : (⟨S64, .f32⟩ : BufTy).Contents (Elt F) → (⟨S1x64, .f32⟩ : BufTy).Contents (Elt F)),
    unary main_v68 main_v69 (broadcastInDim S262144x64 ![0, 1] bcast_S1x64_S262144x64_0_1 : (⟨S1x64, .f32⟩ : BufTy).Contents (Elt F) → (⟨S262144x64, .f32⟩ : BufTy).Contents (Elt F)),
    binary main_v65 main_v69 main_v70 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S262144x64, .f32⟩) main_call5_v0) (broadcastInDim S262144x64 ![] bcast_S_S262144x64),
    TRef.binary (TRef.of (T := ⟨S262144x64, .f32⟩) main_v70) (TRef.of (T := ⟨S262144x64, .f32⟩) main_call5_v0) (TRef.of (T := ⟨S262144x64, .f32⟩) main_v71) maximumf,
    binary main_v5 main_v71 main_v72 (addf : (⟨S262144x64, .f32⟩ : BufTy).Contents (Elt F) → (⟨S262144x64, .f32⟩ : BufTy).Contents (Elt F) → (⟨S262144x64, .f32⟩ : BufTy).Contents (Elt F)) ]

/-- Connection 6: its weight slice transposed and multiplied into the source layer, its bias row added, the
    rectifier, and the sum into the target layer's accumulator. -/
abbrev conn6 : List (HloOp τ sig (Elt F)) :=
  [ unary main_arg1 main_v73 ((extractStridedSlice S1x64x64 ![6, 0, 0] · slices_S28x64x64_S1x64x64_6_0_0) : (⟨S28x64x64, .f32⟩ : BufTy).Contents (Elt F) → (⟨S1x64x64, .f32⟩ : BufTy).Contents (Elt F)),
    reshape main_v73 main_v74 rfl shapeCasts_S1x64x64_S64x64,
    unary main_v74 main_v75 ((transpose S64x64 [1, 0] · transposes_S64x64_S64x64_1_0) : (⟨S64x64, .f32⟩ : BufTy).Contents (Elt F) → (⟨S64x64, .f32⟩ : BufTy).Contents (Elt F)),
    binary main_arg0 main_v75 main_v76 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v77 ((extractStridedSlice S1x64 ![6, 0] · slices_S28x64_S1x64_6_0) : (⟨S28x64, .f32⟩ : BufTy).Contents (Elt F) → (⟨S1x64, .f32⟩ : BufTy).Contents (Elt F)),
    reshape main_v77 main_v78 rfl shapeCasts_S1x64_S64,
    unary main_v78 main_v79 (broadcastInDim S1x64 ![1] bcast_S64_S1x64_1 : (⟨S64, .f32⟩ : BufTy).Contents (Elt F) → (⟨S1x64, .f32⟩ : BufTy).Contents (Elt F)),
    unary main_v79 main_v80 (broadcastInDim S262144x64 ![0, 1] bcast_S1x64_S262144x64_0_1 : (⟨S1x64, .f32⟩ : BufTy).Contents (Elt F) → (⟨S262144x64, .f32⟩ : BufTy).Contents (Elt F)),
    binary main_v76 main_v80 main_v81 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S262144x64, .f32⟩) main_call6_v0) (broadcastInDim S262144x64 ![] bcast_S_S262144x64),
    TRef.binary (TRef.of (T := ⟨S262144x64, .f32⟩) main_v81) (TRef.of (T := ⟨S262144x64, .f32⟩) main_call6_v0) (TRef.of (T := ⟨S262144x64, .f32⟩) main_v82) maximumf,
    binary main_v6 main_v82 main_v83 (addf : (⟨S262144x64, .f32⟩ : BufTy).Contents (Elt F) → (⟨S262144x64, .f32⟩ : BufTy).Contents (Elt F) → (⟨S262144x64, .f32⟩ : BufTy).Contents (Elt F)) ]

/-- Connection 7: its weight slice transposed and multiplied into the source layer, its bias row added, the
    rectifier, and the sum into the target layer's accumulator. -/
abbrev conn7 : List (HloOp τ sig (Elt F)) :=
  [ unary main_arg1 main_v84 ((extractStridedSlice S1x64x64 ![7, 0, 0] · slices_S28x64x64_S1x64x64_7_0_0) : (⟨S28x64x64, .f32⟩ : BufTy).Contents (Elt F) → (⟨S1x64x64, .f32⟩ : BufTy).Contents (Elt F)),
    reshape main_v84 main_v85 rfl shapeCasts_S1x64x64_S64x64,
    unary main_v85 main_v86 ((transpose S64x64 [1, 0] · transposes_S64x64_S64x64_1_0) : (⟨S64x64, .f32⟩ : BufTy).Contents (Elt F) → (⟨S64x64, .f32⟩ : BufTy).Contents (Elt F)),
    binary main_v17 main_v86 main_v87 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v88 ((extractStridedSlice S1x64 ![7, 0] · slices_S28x64_S1x64_7_0) : (⟨S28x64, .f32⟩ : BufTy).Contents (Elt F) → (⟨S1x64, .f32⟩ : BufTy).Contents (Elt F)),
    reshape main_v88 main_v89 rfl shapeCasts_S1x64_S64,
    unary main_v89 main_v90 (broadcastInDim S1x64 ![1] bcast_S64_S1x64_1 : (⟨S64, .f32⟩ : BufTy).Contents (Elt F) → (⟨S1x64, .f32⟩ : BufTy).Contents (Elt F)),
    unary main_v90 main_v91 (broadcastInDim S262144x64 ![0, 1] bcast_S1x64_S262144x64_0_1 : (⟨S1x64, .f32⟩ : BufTy).Contents (Elt F) → (⟨S262144x64, .f32⟩ : BufTy).Contents (Elt F)),
    binary main_v87 main_v91 main_v92 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S262144x64, .f32⟩) main_call7_v0) (broadcastInDim S262144x64 ![] bcast_S_S262144x64),
    TRef.binary (TRef.of (T := ⟨S262144x64, .f32⟩) main_v92) (TRef.of (T := ⟨S262144x64, .f32⟩) main_call7_v0) (TRef.of (T := ⟨S262144x64, .f32⟩) main_v93) maximumf,
    binary main_v28 main_v93 main_v94 (addf : (⟨S262144x64, .f32⟩ : BufTy).Contents (Elt F) → (⟨S262144x64, .f32⟩ : BufTy).Contents (Elt F) → (⟨S262144x64, .f32⟩ : BufTy).Contents (Elt F)) ]

/-- Connection 8: its weight slice transposed and multiplied into the source layer, its bias row added, the
    rectifier, and the sum into the target layer's accumulator. -/
abbrev conn8 : List (HloOp τ sig (Elt F)) :=
  [ unary main_arg1 main_v95 ((extractStridedSlice S1x64x64 ![8, 0, 0] · slices_S28x64x64_S1x64x64_8_0_0) : (⟨S28x64x64, .f32⟩ : BufTy).Contents (Elt F) → (⟨S1x64x64, .f32⟩ : BufTy).Contents (Elt F)),
    reshape main_v95 main_v96 rfl shapeCasts_S1x64x64_S64x64,
    unary main_v96 main_v97 ((transpose S64x64 [1, 0] · transposes_S64x64_S64x64_1_0) : (⟨S64x64, .f32⟩ : BufTy).Contents (Elt F) → (⟨S64x64, .f32⟩ : BufTy).Contents (Elt F)),
    binary main_v17 main_v97 main_v98 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v99 ((extractStridedSlice S1x64 ![8, 0] · slices_S28x64_S1x64_8_0) : (⟨S28x64, .f32⟩ : BufTy).Contents (Elt F) → (⟨S1x64, .f32⟩ : BufTy).Contents (Elt F)),
    reshape main_v99 main_v100 rfl shapeCasts_S1x64_S64,
    unary main_v100 main_v101 (broadcastInDim S1x64 ![1] bcast_S64_S1x64_1 : (⟨S64, .f32⟩ : BufTy).Contents (Elt F) → (⟨S1x64, .f32⟩ : BufTy).Contents (Elt F)),
    unary main_v101 main_v102 (broadcastInDim S262144x64 ![0, 1] bcast_S1x64_S262144x64_0_1 : (⟨S1x64, .f32⟩ : BufTy).Contents (Elt F) → (⟨S262144x64, .f32⟩ : BufTy).Contents (Elt F)),
    binary main_v98 main_v102 main_v103 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S262144x64, .f32⟩) main_call8_v0) (broadcastInDim S262144x64 ![] bcast_S_S262144x64),
    TRef.binary (TRef.of (T := ⟨S262144x64, .f32⟩) main_v103) (TRef.of (T := ⟨S262144x64, .f32⟩) main_call8_v0) (TRef.of (T := ⟨S262144x64, .f32⟩) main_v104) maximumf,
    binary main_v39 main_v104 main_v105 (addf : (⟨S262144x64, .f32⟩ : BufTy).Contents (Elt F) → (⟨S262144x64, .f32⟩ : BufTy).Contents (Elt F) → (⟨S262144x64, .f32⟩ : BufTy).Contents (Elt F)) ]

/-- Connection 9: its weight slice transposed and multiplied into the source layer, its bias row added, the
    rectifier, and the sum into the target layer's accumulator. -/
abbrev conn9 : List (HloOp τ sig (Elt F)) :=
  [ unary main_arg1 main_v106 ((extractStridedSlice S1x64x64 ![9, 0, 0] · slices_S28x64x64_S1x64x64_9_0_0) : (⟨S28x64x64, .f32⟩ : BufTy).Contents (Elt F) → (⟨S1x64x64, .f32⟩ : BufTy).Contents (Elt F)),
    reshape main_v106 main_v107 rfl shapeCasts_S1x64x64_S64x64,
    unary main_v107 main_v108 ((transpose S64x64 [1, 0] · transposes_S64x64_S64x64_1_0) : (⟨S64x64, .f32⟩ : BufTy).Contents (Elt F) → (⟨S64x64, .f32⟩ : BufTy).Contents (Elt F)),
    binary main_v17 main_v108 main_v109 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v110 ((extractStridedSlice S1x64 ![9, 0] · slices_S28x64_S1x64_9_0) : (⟨S28x64, .f32⟩ : BufTy).Contents (Elt F) → (⟨S1x64, .f32⟩ : BufTy).Contents (Elt F)),
    reshape main_v110 main_v111 rfl shapeCasts_S1x64_S64,
    unary main_v111 main_v112 (broadcastInDim S1x64 ![1] bcast_S64_S1x64_1 : (⟨S64, .f32⟩ : BufTy).Contents (Elt F) → (⟨S1x64, .f32⟩ : BufTy).Contents (Elt F)),
    unary main_v112 main_v113 (broadcastInDim S262144x64 ![0, 1] bcast_S1x64_S262144x64_0_1 : (⟨S1x64, .f32⟩ : BufTy).Contents (Elt F) → (⟨S262144x64, .f32⟩ : BufTy).Contents (Elt F)),
    binary main_v109 main_v113 main_v114 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S262144x64, .f32⟩) main_call9_v0) (broadcastInDim S262144x64 ![] bcast_S_S262144x64),
    TRef.binary (TRef.of (T := ⟨S262144x64, .f32⟩) main_v114) (TRef.of (T := ⟨S262144x64, .f32⟩) main_call9_v0) (TRef.of (T := ⟨S262144x64, .f32⟩) main_v115) maximumf,
    binary main_v50 main_v115 main_v116 (addf : (⟨S262144x64, .f32⟩ : BufTy).Contents (Elt F) → (⟨S262144x64, .f32⟩ : BufTy).Contents (Elt F) → (⟨S262144x64, .f32⟩ : BufTy).Contents (Elt F)) ]

/-- Connection 10: its weight slice transposed and multiplied into the source layer, its bias row added, the
    rectifier, and the sum into the target layer's accumulator. -/
abbrev conn10 : List (HloOp τ sig (Elt F)) :=
  [ unary main_arg1 main_v117 ((extractStridedSlice S1x64x64 ![10, 0, 0] · slices_S28x64x64_S1x64x64_10_0_0) : (⟨S28x64x64, .f32⟩ : BufTy).Contents (Elt F) → (⟨S1x64x64, .f32⟩ : BufTy).Contents (Elt F)),
    reshape main_v117 main_v118 rfl shapeCasts_S1x64x64_S64x64,
    unary main_v118 main_v119 ((transpose S64x64 [1, 0] · transposes_S64x64_S64x64_1_0) : (⟨S64x64, .f32⟩ : BufTy).Contents (Elt F) → (⟨S64x64, .f32⟩ : BufTy).Contents (Elt F)),
    binary main_v17 main_v119 main_v120 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v121 ((extractStridedSlice S1x64 ![10, 0] · slices_S28x64_S1x64_10_0) : (⟨S28x64, .f32⟩ : BufTy).Contents (Elt F) → (⟨S1x64, .f32⟩ : BufTy).Contents (Elt F)),
    reshape main_v121 main_v122 rfl shapeCasts_S1x64_S64,
    unary main_v122 main_v123 (broadcastInDim S1x64 ![1] bcast_S64_S1x64_1 : (⟨S64, .f32⟩ : BufTy).Contents (Elt F) → (⟨S1x64, .f32⟩ : BufTy).Contents (Elt F)),
    unary main_v123 main_v124 (broadcastInDim S262144x64 ![0, 1] bcast_S1x64_S262144x64_0_1 : (⟨S1x64, .f32⟩ : BufTy).Contents (Elt F) → (⟨S262144x64, .f32⟩ : BufTy).Contents (Elt F)),
    binary main_v120 main_v124 main_v125 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S262144x64, .f32⟩) main_call10_v0) (broadcastInDim S262144x64 ![] bcast_S_S262144x64),
    TRef.binary (TRef.of (T := ⟨S262144x64, .f32⟩) main_v125) (TRef.of (T := ⟨S262144x64, .f32⟩) main_call10_v0) (TRef.of (T := ⟨S262144x64, .f32⟩) main_v126) maximumf,
    binary main_v61 main_v126 main_v127 (addf : (⟨S262144x64, .f32⟩ : BufTy).Contents (Elt F) → (⟨S262144x64, .f32⟩ : BufTy).Contents (Elt F) → (⟨S262144x64, .f32⟩ : BufTy).Contents (Elt F)) ]

/-- Connection 11: its weight slice transposed and multiplied into the source layer, its bias row added, the
    rectifier, and the sum into the target layer's accumulator. -/
abbrev conn11 : List (HloOp τ sig (Elt F)) :=
  [ unary main_arg1 main_v128 ((extractStridedSlice S1x64x64 ![11, 0, 0] · slices_S28x64x64_S1x64x64_11_0_0) : (⟨S28x64x64, .f32⟩ : BufTy).Contents (Elt F) → (⟨S1x64x64, .f32⟩ : BufTy).Contents (Elt F)),
    reshape main_v128 main_v129 rfl shapeCasts_S1x64x64_S64x64,
    unary main_v129 main_v130 ((transpose S64x64 [1, 0] · transposes_S64x64_S64x64_1_0) : (⟨S64x64, .f32⟩ : BufTy).Contents (Elt F) → (⟨S64x64, .f32⟩ : BufTy).Contents (Elt F)),
    binary main_v17 main_v130 main_v131 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v132 ((extractStridedSlice S1x64 ![11, 0] · slices_S28x64_S1x64_11_0) : (⟨S28x64, .f32⟩ : BufTy).Contents (Elt F) → (⟨S1x64, .f32⟩ : BufTy).Contents (Elt F)),
    reshape main_v132 main_v133 rfl shapeCasts_S1x64_S64,
    unary main_v133 main_v134 (broadcastInDim S1x64 ![1] bcast_S64_S1x64_1 : (⟨S64, .f32⟩ : BufTy).Contents (Elt F) → (⟨S1x64, .f32⟩ : BufTy).Contents (Elt F)),
    unary main_v134 main_v135 (broadcastInDim S262144x64 ![0, 1] bcast_S1x64_S262144x64_0_1 : (⟨S1x64, .f32⟩ : BufTy).Contents (Elt F) → (⟨S262144x64, .f32⟩ : BufTy).Contents (Elt F)),
    binary main_v131 main_v135 main_v136 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S262144x64, .f32⟩) main_call11_v0) (broadcastInDim S262144x64 ![] bcast_S_S262144x64),
    TRef.binary (TRef.of (T := ⟨S262144x64, .f32⟩) main_v136) (TRef.of (T := ⟨S262144x64, .f32⟩) main_call11_v0) (TRef.of (T := ⟨S262144x64, .f32⟩) main_v137) maximumf,
    binary main_v72 main_v137 main_v138 (addf : (⟨S262144x64, .f32⟩ : BufTy).Contents (Elt F) → (⟨S262144x64, .f32⟩ : BufTy).Contents (Elt F) → (⟨S262144x64, .f32⟩ : BufTy).Contents (Elt F)) ]

/-- Connection 12: its weight slice transposed and multiplied into the source layer, its bias row added, the
    rectifier, and the sum into the target layer's accumulator. -/
abbrev conn12 : List (HloOp τ sig (Elt F)) :=
  [ unary main_arg1 main_v139 ((extractStridedSlice S1x64x64 ![12, 0, 0] · slices_S28x64x64_S1x64x64_12_0_0) : (⟨S28x64x64, .f32⟩ : BufTy).Contents (Elt F) → (⟨S1x64x64, .f32⟩ : BufTy).Contents (Elt F)),
    reshape main_v139 main_v140 rfl shapeCasts_S1x64x64_S64x64,
    unary main_v140 main_v141 ((transpose S64x64 [1, 0] · transposes_S64x64_S64x64_1_0) : (⟨S64x64, .f32⟩ : BufTy).Contents (Elt F) → (⟨S64x64, .f32⟩ : BufTy).Contents (Elt F)),
    binary main_v17 main_v141 main_v142 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v143 ((extractStridedSlice S1x64 ![12, 0] · slices_S28x64_S1x64_12_0) : (⟨S28x64, .f32⟩ : BufTy).Contents (Elt F) → (⟨S1x64, .f32⟩ : BufTy).Contents (Elt F)),
    reshape main_v143 main_v144 rfl shapeCasts_S1x64_S64,
    unary main_v144 main_v145 (broadcastInDim S1x64 ![1] bcast_S64_S1x64_1 : (⟨S64, .f32⟩ : BufTy).Contents (Elt F) → (⟨S1x64, .f32⟩ : BufTy).Contents (Elt F)),
    unary main_v145 main_v146 (broadcastInDim S262144x64 ![0, 1] bcast_S1x64_S262144x64_0_1 : (⟨S1x64, .f32⟩ : BufTy).Contents (Elt F) → (⟨S262144x64, .f32⟩ : BufTy).Contents (Elt F)),
    binary main_v142 main_v146 main_v147 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S262144x64, .f32⟩) main_call12_v0) (broadcastInDim S262144x64 ![] bcast_S_S262144x64),
    TRef.binary (TRef.of (T := ⟨S262144x64, .f32⟩) main_v147) (TRef.of (T := ⟨S262144x64, .f32⟩) main_call12_v0) (TRef.of (T := ⟨S262144x64, .f32⟩) main_v148) maximumf,
    binary main_v83 main_v148 main_v149 (addf : (⟨S262144x64, .f32⟩ : BufTy).Contents (Elt F) → (⟨S262144x64, .f32⟩ : BufTy).Contents (Elt F) → (⟨S262144x64, .f32⟩ : BufTy).Contents (Elt F)) ]

/-- Connection 13: its weight slice transposed and multiplied into the source layer, its bias row added, the
    rectifier, and the sum into the target layer's accumulator. -/
abbrev conn13 : List (HloOp τ sig (Elt F)) :=
  [ unary main_arg1 main_v150 ((extractStridedSlice S1x64x64 ![13, 0, 0] · slices_S28x64x64_S1x64x64_13_0_0) : (⟨S28x64x64, .f32⟩ : BufTy).Contents (Elt F) → (⟨S1x64x64, .f32⟩ : BufTy).Contents (Elt F)),
    reshape main_v150 main_v151 rfl shapeCasts_S1x64x64_S64x64,
    unary main_v151 main_v152 ((transpose S64x64 [1, 0] · transposes_S64x64_S64x64_1_0) : (⟨S64x64, .f32⟩ : BufTy).Contents (Elt F) → (⟨S64x64, .f32⟩ : BufTy).Contents (Elt F)),
    binary main_v94 main_v152 main_v153 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v154 ((extractStridedSlice S1x64 ![13, 0] · slices_S28x64_S1x64_13_0) : (⟨S28x64, .f32⟩ : BufTy).Contents (Elt F) → (⟨S1x64, .f32⟩ : BufTy).Contents (Elt F)),
    reshape main_v154 main_v155 rfl shapeCasts_S1x64_S64,
    unary main_v155 main_v156 (broadcastInDim S1x64 ![1] bcast_S64_S1x64_1 : (⟨S64, .f32⟩ : BufTy).Contents (Elt F) → (⟨S1x64, .f32⟩ : BufTy).Contents (Elt F)),
    unary main_v156 main_v157 (broadcastInDim S262144x64 ![0, 1] bcast_S1x64_S262144x64_0_1 : (⟨S1x64, .f32⟩ : BufTy).Contents (Elt F) → (⟨S262144x64, .f32⟩ : BufTy).Contents (Elt F)),
    binary main_v153 main_v157 main_v158 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S262144x64, .f32⟩) main_call13_v0) (broadcastInDim S262144x64 ![] bcast_S_S262144x64),
    TRef.binary (TRef.of (T := ⟨S262144x64, .f32⟩) main_v158) (TRef.of (T := ⟨S262144x64, .f32⟩) main_call13_v0) (TRef.of (T := ⟨S262144x64, .f32⟩) main_v159) maximumf,
    binary main_v105 main_v159 main_v160 (addf : (⟨S262144x64, .f32⟩ : BufTy).Contents (Elt F) → (⟨S262144x64, .f32⟩ : BufTy).Contents (Elt F) → (⟨S262144x64, .f32⟩ : BufTy).Contents (Elt F)) ]

/-- Connection 14: its weight slice transposed and multiplied into the source layer, its bias row added, the
    rectifier, and the sum into the target layer's accumulator. -/
abbrev conn14 : List (HloOp τ sig (Elt F)) :=
  [ unary main_arg1 main_v161 ((extractStridedSlice S1x64x64 ![14, 0, 0] · slices_S28x64x64_S1x64x64_14_0_0) : (⟨S28x64x64, .f32⟩ : BufTy).Contents (Elt F) → (⟨S1x64x64, .f32⟩ : BufTy).Contents (Elt F)),
    reshape main_v161 main_v162 rfl shapeCasts_S1x64x64_S64x64,
    unary main_v162 main_v163 ((transpose S64x64 [1, 0] · transposes_S64x64_S64x64_1_0) : (⟨S64x64, .f32⟩ : BufTy).Contents (Elt F) → (⟨S64x64, .f32⟩ : BufTy).Contents (Elt F)),
    binary main_v94 main_v163 main_v164 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v165 ((extractStridedSlice S1x64 ![14, 0] · slices_S28x64_S1x64_14_0) : (⟨S28x64, .f32⟩ : BufTy).Contents (Elt F) → (⟨S1x64, .f32⟩ : BufTy).Contents (Elt F)),
    reshape main_v165 main_v166 rfl shapeCasts_S1x64_S64,
    unary main_v166 main_v167 (broadcastInDim S1x64 ![1] bcast_S64_S1x64_1 : (⟨S64, .f32⟩ : BufTy).Contents (Elt F) → (⟨S1x64, .f32⟩ : BufTy).Contents (Elt F)),
    unary main_v167 main_v168 (broadcastInDim S262144x64 ![0, 1] bcast_S1x64_S262144x64_0_1 : (⟨S1x64, .f32⟩ : BufTy).Contents (Elt F) → (⟨S262144x64, .f32⟩ : BufTy).Contents (Elt F)),
    binary main_v164 main_v168 main_v169 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S262144x64, .f32⟩) main_call14_v0) (broadcastInDim S262144x64 ![] bcast_S_S262144x64),
    TRef.binary (TRef.of (T := ⟨S262144x64, .f32⟩) main_v169) (TRef.of (T := ⟨S262144x64, .f32⟩) main_call14_v0) (TRef.of (T := ⟨S262144x64, .f32⟩) main_v170) maximumf,
    binary main_v116 main_v170 main_v171 (addf : (⟨S262144x64, .f32⟩ : BufTy).Contents (Elt F) → (⟨S262144x64, .f32⟩ : BufTy).Contents (Elt F) → (⟨S262144x64, .f32⟩ : BufTy).Contents (Elt F)) ]

/-- Connection 15: its weight slice transposed and multiplied into the source layer, its bias row added, the
    rectifier, and the sum into the target layer's accumulator. -/
abbrev conn15 : List (HloOp τ sig (Elt F)) :=
  [ unary main_arg1 main_v172 ((extractStridedSlice S1x64x64 ![15, 0, 0] · slices_S28x64x64_S1x64x64_15_0_0) : (⟨S28x64x64, .f32⟩ : BufTy).Contents (Elt F) → (⟨S1x64x64, .f32⟩ : BufTy).Contents (Elt F)),
    reshape main_v172 main_v173 rfl shapeCasts_S1x64x64_S64x64,
    unary main_v173 main_v174 ((transpose S64x64 [1, 0] · transposes_S64x64_S64x64_1_0) : (⟨S64x64, .f32⟩ : BufTy).Contents (Elt F) → (⟨S64x64, .f32⟩ : BufTy).Contents (Elt F)),
    binary main_v94 main_v174 main_v175 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v176 ((extractStridedSlice S1x64 ![15, 0] · slices_S28x64_S1x64_15_0) : (⟨S28x64, .f32⟩ : BufTy).Contents (Elt F) → (⟨S1x64, .f32⟩ : BufTy).Contents (Elt F)),
    reshape main_v176 main_v177 rfl shapeCasts_S1x64_S64,
    unary main_v177 main_v178 (broadcastInDim S1x64 ![1] bcast_S64_S1x64_1 : (⟨S64, .f32⟩ : BufTy).Contents (Elt F) → (⟨S1x64, .f32⟩ : BufTy).Contents (Elt F)),
    unary main_v178 main_v179 (broadcastInDim S262144x64 ![0, 1] bcast_S1x64_S262144x64_0_1 : (⟨S1x64, .f32⟩ : BufTy).Contents (Elt F) → (⟨S262144x64, .f32⟩ : BufTy).Contents (Elt F)),
    binary main_v175 main_v179 main_v180 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S262144x64, .f32⟩) main_call15_v0) (broadcastInDim S262144x64 ![] bcast_S_S262144x64),
    TRef.binary (TRef.of (T := ⟨S262144x64, .f32⟩) main_v180) (TRef.of (T := ⟨S262144x64, .f32⟩) main_call15_v0) (TRef.of (T := ⟨S262144x64, .f32⟩) main_v181) maximumf,
    binary main_v127 main_v181 main_v182 (addf : (⟨S262144x64, .f32⟩ : BufTy).Contents (Elt F) → (⟨S262144x64, .f32⟩ : BufTy).Contents (Elt F) → (⟨S262144x64, .f32⟩ : BufTy).Contents (Elt F)) ]

/-- Connection 16: its weight slice transposed and multiplied into the source layer, its bias row added, the
    rectifier, and the sum into the target layer's accumulator. -/
abbrev conn16 : List (HloOp τ sig (Elt F)) :=
  [ unary main_arg1 main_v183 ((extractStridedSlice S1x64x64 ![16, 0, 0] · slices_S28x64x64_S1x64x64_16_0_0) : (⟨S28x64x64, .f32⟩ : BufTy).Contents (Elt F) → (⟨S1x64x64, .f32⟩ : BufTy).Contents (Elt F)),
    reshape main_v183 main_v184 rfl shapeCasts_S1x64x64_S64x64,
    unary main_v184 main_v185 ((transpose S64x64 [1, 0] · transposes_S64x64_S64x64_1_0) : (⟨S64x64, .f32⟩ : BufTy).Contents (Elt F) → (⟨S64x64, .f32⟩ : BufTy).Contents (Elt F)),
    binary main_v94 main_v185 main_v186 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v187 ((extractStridedSlice S1x64 ![16, 0] · slices_S28x64_S1x64_16_0) : (⟨S28x64, .f32⟩ : BufTy).Contents (Elt F) → (⟨S1x64, .f32⟩ : BufTy).Contents (Elt F)),
    reshape main_v187 main_v188 rfl shapeCasts_S1x64_S64,
    unary main_v188 main_v189 (broadcastInDim S1x64 ![1] bcast_S64_S1x64_1 : (⟨S64, .f32⟩ : BufTy).Contents (Elt F) → (⟨S1x64, .f32⟩ : BufTy).Contents (Elt F)),
    unary main_v189 main_v190 (broadcastInDim S262144x64 ![0, 1] bcast_S1x64_S262144x64_0_1 : (⟨S1x64, .f32⟩ : BufTy).Contents (Elt F) → (⟨S262144x64, .f32⟩ : BufTy).Contents (Elt F)),
    binary main_v186 main_v190 main_v191 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S262144x64, .f32⟩) main_call16_v0) (broadcastInDim S262144x64 ![] bcast_S_S262144x64),
    TRef.binary (TRef.of (T := ⟨S262144x64, .f32⟩) main_v191) (TRef.of (T := ⟨S262144x64, .f32⟩) main_call16_v0) (TRef.of (T := ⟨S262144x64, .f32⟩) main_v192) maximumf,
    binary main_v138 main_v192 main_v193 (addf : (⟨S262144x64, .f32⟩ : BufTy).Contents (Elt F) → (⟨S262144x64, .f32⟩ : BufTy).Contents (Elt F) → (⟨S262144x64, .f32⟩ : BufTy).Contents (Elt F)) ]

/-- Connection 17: its weight slice transposed and multiplied into the source layer, its bias row added, the
    rectifier, and the sum into the target layer's accumulator. -/
abbrev conn17 : List (HloOp τ sig (Elt F)) :=
  [ unary main_arg1 main_v194 ((extractStridedSlice S1x64x64 ![17, 0, 0] · slices_S28x64x64_S1x64x64_17_0_0) : (⟨S28x64x64, .f32⟩ : BufTy).Contents (Elt F) → (⟨S1x64x64, .f32⟩ : BufTy).Contents (Elt F)),
    reshape main_v194 main_v195 rfl shapeCasts_S1x64x64_S64x64,
    unary main_v195 main_v196 ((transpose S64x64 [1, 0] · transposes_S64x64_S64x64_1_0) : (⟨S64x64, .f32⟩ : BufTy).Contents (Elt F) → (⟨S64x64, .f32⟩ : BufTy).Contents (Elt F)),
    binary main_v94 main_v196 main_v197 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v198 ((extractStridedSlice S1x64 ![17, 0] · slices_S28x64_S1x64_17_0) : (⟨S28x64, .f32⟩ : BufTy).Contents (Elt F) → (⟨S1x64, .f32⟩ : BufTy).Contents (Elt F)),
    reshape main_v198 main_v199 rfl shapeCasts_S1x64_S64,
    unary main_v199 main_v200 (broadcastInDim S1x64 ![1] bcast_S64_S1x64_1 : (⟨S64, .f32⟩ : BufTy).Contents (Elt F) → (⟨S1x64, .f32⟩ : BufTy).Contents (Elt F)),
    unary main_v200 main_v201 (broadcastInDim S262144x64 ![0, 1] bcast_S1x64_S262144x64_0_1 : (⟨S1x64, .f32⟩ : BufTy).Contents (Elt F) → (⟨S262144x64, .f32⟩ : BufTy).Contents (Elt F)),
    binary main_v197 main_v201 main_v202 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S262144x64, .f32⟩) main_call17_v0) (broadcastInDim S262144x64 ![] bcast_S_S262144x64),
    TRef.binary (TRef.of (T := ⟨S262144x64, .f32⟩) main_v202) (TRef.of (T := ⟨S262144x64, .f32⟩) main_call17_v0) (TRef.of (T := ⟨S262144x64, .f32⟩) main_v203) maximumf,
    binary main_v149 main_v203 main_v204 (addf : (⟨S262144x64, .f32⟩ : BufTy).Contents (Elt F) → (⟨S262144x64, .f32⟩ : BufTy).Contents (Elt F) → (⟨S262144x64, .f32⟩ : BufTy).Contents (Elt F)) ]

/-- Connection 18: its weight slice transposed and multiplied into the source layer, its bias row added, the
    rectifier, and the sum into the target layer's accumulator. -/
abbrev conn18 : List (HloOp τ sig (Elt F)) :=
  [ unary main_arg1 main_v205 ((extractStridedSlice S1x64x64 ![18, 0, 0] · slices_S28x64x64_S1x64x64_18_0_0) : (⟨S28x64x64, .f32⟩ : BufTy).Contents (Elt F) → (⟨S1x64x64, .f32⟩ : BufTy).Contents (Elt F)),
    reshape main_v205 main_v206 rfl shapeCasts_S1x64x64_S64x64,
    unary main_v206 main_v207 ((transpose S64x64 [1, 0] · transposes_S64x64_S64x64_1_0) : (⟨S64x64, .f32⟩ : BufTy).Contents (Elt F) → (⟨S64x64, .f32⟩ : BufTy).Contents (Elt F)),
    binary main_v160 main_v207 main_v208 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v209 ((extractStridedSlice S1x64 ![18, 0] · slices_S28x64_S1x64_18_0) : (⟨S28x64, .f32⟩ : BufTy).Contents (Elt F) → (⟨S1x64, .f32⟩ : BufTy).Contents (Elt F)),
    reshape main_v209 main_v210 rfl shapeCasts_S1x64_S64,
    unary main_v210 main_v211 (broadcastInDim S1x64 ![1] bcast_S64_S1x64_1 : (⟨S64, .f32⟩ : BufTy).Contents (Elt F) → (⟨S1x64, .f32⟩ : BufTy).Contents (Elt F)),
    unary main_v211 main_v212 (broadcastInDim S262144x64 ![0, 1] bcast_S1x64_S262144x64_0_1 : (⟨S1x64, .f32⟩ : BufTy).Contents (Elt F) → (⟨S262144x64, .f32⟩ : BufTy).Contents (Elt F)),
    binary main_v208 main_v212 main_v213 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S262144x64, .f32⟩) main_call18_v0) (broadcastInDim S262144x64 ![] bcast_S_S262144x64),
    TRef.binary (TRef.of (T := ⟨S262144x64, .f32⟩) main_v213) (TRef.of (T := ⟨S262144x64, .f32⟩) main_call18_v0) (TRef.of (T := ⟨S262144x64, .f32⟩) main_v214) maximumf,
    binary main_v171 main_v214 main_v215 (addf : (⟨S262144x64, .f32⟩ : BufTy).Contents (Elt F) → (⟨S262144x64, .f32⟩ : BufTy).Contents (Elt F) → (⟨S262144x64, .f32⟩ : BufTy).Contents (Elt F)) ]

/-- Connection 19: its weight slice transposed and multiplied into the source layer, its bias row added, the
    rectifier, and the sum into the target layer's accumulator. -/
abbrev conn19 : List (HloOp τ sig (Elt F)) :=
  [ unary main_arg1 main_v216 ((extractStridedSlice S1x64x64 ![19, 0, 0] · slices_S28x64x64_S1x64x64_19_0_0) : (⟨S28x64x64, .f32⟩ : BufTy).Contents (Elt F) → (⟨S1x64x64, .f32⟩ : BufTy).Contents (Elt F)),
    reshape main_v216 main_v217 rfl shapeCasts_S1x64x64_S64x64,
    unary main_v217 main_v218 ((transpose S64x64 [1, 0] · transposes_S64x64_S64x64_1_0) : (⟨S64x64, .f32⟩ : BufTy).Contents (Elt F) → (⟨S64x64, .f32⟩ : BufTy).Contents (Elt F)),
    binary main_v160 main_v218 main_v219 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v220 ((extractStridedSlice S1x64 ![19, 0] · slices_S28x64_S1x64_19_0) : (⟨S28x64, .f32⟩ : BufTy).Contents (Elt F) → (⟨S1x64, .f32⟩ : BufTy).Contents (Elt F)),
    reshape main_v220 main_v221 rfl shapeCasts_S1x64_S64,
    unary main_v221 main_v222 (broadcastInDim S1x64 ![1] bcast_S64_S1x64_1 : (⟨S64, .f32⟩ : BufTy).Contents (Elt F) → (⟨S1x64, .f32⟩ : BufTy).Contents (Elt F)),
    unary main_v222 main_v223 (broadcastInDim S262144x64 ![0, 1] bcast_S1x64_S262144x64_0_1 : (⟨S1x64, .f32⟩ : BufTy).Contents (Elt F) → (⟨S262144x64, .f32⟩ : BufTy).Contents (Elt F)),
    binary main_v219 main_v223 main_v224 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S262144x64, .f32⟩) main_call19_v0) (broadcastInDim S262144x64 ![] bcast_S_S262144x64),
    TRef.binary (TRef.of (T := ⟨S262144x64, .f32⟩) main_v224) (TRef.of (T := ⟨S262144x64, .f32⟩) main_call19_v0) (TRef.of (T := ⟨S262144x64, .f32⟩) main_v225) maximumf,
    binary main_v182 main_v225 main_v226 (addf : (⟨S262144x64, .f32⟩ : BufTy).Contents (Elt F) → (⟨S262144x64, .f32⟩ : BufTy).Contents (Elt F) → (⟨S262144x64, .f32⟩ : BufTy).Contents (Elt F)) ]

/-- Connection 20: its weight slice transposed and multiplied into the source layer, its bias row added, the
    rectifier, and the sum into the target layer's accumulator. -/
abbrev conn20 : List (HloOp τ sig (Elt F)) :=
  [ unary main_arg1 main_v227 ((extractStridedSlice S1x64x64 ![20, 0, 0] · slices_S28x64x64_S1x64x64_20_0_0) : (⟨S28x64x64, .f32⟩ : BufTy).Contents (Elt F) → (⟨S1x64x64, .f32⟩ : BufTy).Contents (Elt F)),
    reshape main_v227 main_v228 rfl shapeCasts_S1x64x64_S64x64,
    unary main_v228 main_v229 ((transpose S64x64 [1, 0] · transposes_S64x64_S64x64_1_0) : (⟨S64x64, .f32⟩ : BufTy).Contents (Elt F) → (⟨S64x64, .f32⟩ : BufTy).Contents (Elt F)),
    binary main_v160 main_v229 main_v230 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v231 ((extractStridedSlice S1x64 ![20, 0] · slices_S28x64_S1x64_20_0) : (⟨S28x64, .f32⟩ : BufTy).Contents (Elt F) → (⟨S1x64, .f32⟩ : BufTy).Contents (Elt F)),
    reshape main_v231 main_v232 rfl shapeCasts_S1x64_S64,
    unary main_v232 main_v233 (broadcastInDim S1x64 ![1] bcast_S64_S1x64_1 : (⟨S64, .f32⟩ : BufTy).Contents (Elt F) → (⟨S1x64, .f32⟩ : BufTy).Contents (Elt F)),
    unary main_v233 main_v234 (broadcastInDim S262144x64 ![0, 1] bcast_S1x64_S262144x64_0_1 : (⟨S1x64, .f32⟩ : BufTy).Contents (Elt F) → (⟨S262144x64, .f32⟩ : BufTy).Contents (Elt F)),
    binary main_v230 main_v234 main_v235 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S262144x64, .f32⟩) main_call20_v0) (broadcastInDim S262144x64 ![] bcast_S_S262144x64),
    TRef.binary (TRef.of (T := ⟨S262144x64, .f32⟩) main_v235) (TRef.of (T := ⟨S262144x64, .f32⟩) main_call20_v0) (TRef.of (T := ⟨S262144x64, .f32⟩) main_v236) maximumf,
    binary main_v193 main_v236 main_v237 (addf : (⟨S262144x64, .f32⟩ : BufTy).Contents (Elt F) → (⟨S262144x64, .f32⟩ : BufTy).Contents (Elt F) → (⟨S262144x64, .f32⟩ : BufTy).Contents (Elt F)) ]

/-- Connection 21: its weight slice transposed and multiplied into the source layer, its bias row added, the
    rectifier, and the sum into the target layer's accumulator. -/
abbrev conn21 : List (HloOp τ sig (Elt F)) :=
  [ unary main_arg1 main_v238 ((extractStridedSlice S1x64x64 ![21, 0, 0] · slices_S28x64x64_S1x64x64_21_0_0) : (⟨S28x64x64, .f32⟩ : BufTy).Contents (Elt F) → (⟨S1x64x64, .f32⟩ : BufTy).Contents (Elt F)),
    reshape main_v238 main_v239 rfl shapeCasts_S1x64x64_S64x64,
    unary main_v239 main_v240 ((transpose S64x64 [1, 0] · transposes_S64x64_S64x64_1_0) : (⟨S64x64, .f32⟩ : BufTy).Contents (Elt F) → (⟨S64x64, .f32⟩ : BufTy).Contents (Elt F)),
    binary main_v160 main_v240 main_v241 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v242 ((extractStridedSlice S1x64 ![21, 0] · slices_S28x64_S1x64_21_0) : (⟨S28x64, .f32⟩ : BufTy).Contents (Elt F) → (⟨S1x64, .f32⟩ : BufTy).Contents (Elt F)),
    reshape main_v242 main_v243 rfl shapeCasts_S1x64_S64,
    unary main_v243 main_v244 (broadcastInDim S1x64 ![1] bcast_S64_S1x64_1 : (⟨S64, .f32⟩ : BufTy).Contents (Elt F) → (⟨S1x64, .f32⟩ : BufTy).Contents (Elt F)),
    unary main_v244 main_v245 (broadcastInDim S262144x64 ![0, 1] bcast_S1x64_S262144x64_0_1 : (⟨S1x64, .f32⟩ : BufTy).Contents (Elt F) → (⟨S262144x64, .f32⟩ : BufTy).Contents (Elt F)),
    binary main_v241 main_v245 main_v246 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S262144x64, .f32⟩) main_call21_v0) (broadcastInDim S262144x64 ![] bcast_S_S262144x64),
    TRef.binary (TRef.of (T := ⟨S262144x64, .f32⟩) main_v246) (TRef.of (T := ⟨S262144x64, .f32⟩) main_call21_v0) (TRef.of (T := ⟨S262144x64, .f32⟩) main_v247) maximumf,
    binary main_v204 main_v247 main_v248 (addf : (⟨S262144x64, .f32⟩ : BufTy).Contents (Elt F) → (⟨S262144x64, .f32⟩ : BufTy).Contents (Elt F) → (⟨S262144x64, .f32⟩ : BufTy).Contents (Elt F)) ]

/-- Connection 22: its weight slice transposed and multiplied into the source layer, its bias row added, the
    rectifier, and the sum into the target layer's accumulator. -/
abbrev conn22 : List (HloOp τ sig (Elt F)) :=
  [ unary main_arg1 main_v249 ((extractStridedSlice S1x64x64 ![22, 0, 0] · slices_S28x64x64_S1x64x64_22_0_0) : (⟨S28x64x64, .f32⟩ : BufTy).Contents (Elt F) → (⟨S1x64x64, .f32⟩ : BufTy).Contents (Elt F)),
    reshape main_v249 main_v250 rfl shapeCasts_S1x64x64_S64x64,
    unary main_v250 main_v251 ((transpose S64x64 [1, 0] · transposes_S64x64_S64x64_1_0) : (⟨S64x64, .f32⟩ : BufTy).Contents (Elt F) → (⟨S64x64, .f32⟩ : BufTy).Contents (Elt F)),
    binary main_v215 main_v251 main_v252 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v253 ((extractStridedSlice S1x64 ![22, 0] · slices_S28x64_S1x64_22_0) : (⟨S28x64, .f32⟩ : BufTy).Contents (Elt F) → (⟨S1x64, .f32⟩ : BufTy).Contents (Elt F)),
    reshape main_v253 main_v254 rfl shapeCasts_S1x64_S64,
    unary main_v254 main_v255 (broadcastInDim S1x64 ![1] bcast_S64_S1x64_1 : (⟨S64, .f32⟩ : BufTy).Contents (Elt F) → (⟨S1x64, .f32⟩ : BufTy).Contents (Elt F)),
    unary main_v255 main_v256 (broadcastInDim S262144x64 ![0, 1] bcast_S1x64_S262144x64_0_1 : (⟨S1x64, .f32⟩ : BufTy).Contents (Elt F) → (⟨S262144x64, .f32⟩ : BufTy).Contents (Elt F)),
    binary main_v252 main_v256 main_v257 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S262144x64, .f32⟩) main_call22_v0) (broadcastInDim S262144x64 ![] bcast_S_S262144x64),
    TRef.binary (TRef.of (T := ⟨S262144x64, .f32⟩) main_v257) (TRef.of (T := ⟨S262144x64, .f32⟩) main_call22_v0) (TRef.of (T := ⟨S262144x64, .f32⟩) main_v258) maximumf,
    binary main_v226 main_v258 main_v259 (addf : (⟨S262144x64, .f32⟩ : BufTy).Contents (Elt F) → (⟨S262144x64, .f32⟩ : BufTy).Contents (Elt F) → (⟨S262144x64, .f32⟩ : BufTy).Contents (Elt F)) ]

/-- Connection 23: its weight slice transposed and multiplied into the source layer, its bias row added, the
    rectifier, and the sum into the target layer's accumulator. -/
abbrev conn23 : List (HloOp τ sig (Elt F)) :=
  [ unary main_arg1 main_v260 ((extractStridedSlice S1x64x64 ![23, 0, 0] · slices_S28x64x64_S1x64x64_23_0_0) : (⟨S28x64x64, .f32⟩ : BufTy).Contents (Elt F) → (⟨S1x64x64, .f32⟩ : BufTy).Contents (Elt F)),
    reshape main_v260 main_v261 rfl shapeCasts_S1x64x64_S64x64,
    unary main_v261 main_v262 ((transpose S64x64 [1, 0] · transposes_S64x64_S64x64_1_0) : (⟨S64x64, .f32⟩ : BufTy).Contents (Elt F) → (⟨S64x64, .f32⟩ : BufTy).Contents (Elt F)),
    binary main_v215 main_v262 main_v263 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v264 ((extractStridedSlice S1x64 ![23, 0] · slices_S28x64_S1x64_23_0) : (⟨S28x64, .f32⟩ : BufTy).Contents (Elt F) → (⟨S1x64, .f32⟩ : BufTy).Contents (Elt F)),
    reshape main_v264 main_v265 rfl shapeCasts_S1x64_S64,
    unary main_v265 main_v266 (broadcastInDim S1x64 ![1] bcast_S64_S1x64_1 : (⟨S64, .f32⟩ : BufTy).Contents (Elt F) → (⟨S1x64, .f32⟩ : BufTy).Contents (Elt F)),
    unary main_v266 main_v267 (broadcastInDim S262144x64 ![0, 1] bcast_S1x64_S262144x64_0_1 : (⟨S1x64, .f32⟩ : BufTy).Contents (Elt F) → (⟨S262144x64, .f32⟩ : BufTy).Contents (Elt F)),
    binary main_v263 main_v267 main_v268 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call23_cst) (constant S_ .f32 0x00000000#32),
    TRef.unary (TRef.of (T := ⟨S_, .f32⟩) main_call23_cst) (TRef.of (T := ⟨S262144x64, .f32⟩) main_call23_v0) (broadcastInDim S262144x64 ![] bcast_S_S262144x64),
    TRef.binary (TRef.of (T := ⟨S262144x64, .f32⟩) main_v268) (TRef.of (T := ⟨S262144x64, .f32⟩) main_call23_v0) (TRef.of (T := ⟨S262144x64, .f32⟩) main_v269) maximumf,
    binary main_v237 main_v269 main_v270 (addf : (⟨S262144x64, .f32⟩ : BufTy).Contents (Elt F) → (⟨S262144x64, .f32⟩ : BufTy).Contents (Elt F) → (⟨S262144x64, .f32⟩ : BufTy).Contents (Elt F)) ]

/-- Connection 24: its weight slice transposed and multiplied into the source layer, its bias row added, the
    rectifier, and the sum into the target layer's accumulator. -/
abbrev conn24 : List (HloOp τ sig (Elt F)) :=
  [ unary main_arg1 main_v271 ((extractStridedSlice S1x64x64 ![24, 0, 0] · slices_S28x64x64_S1x64x64_24_0_0) : (⟨S28x64x64, .f32⟩ : BufTy).Contents (Elt F) → (⟨S1x64x64, .f32⟩ : BufTy).Contents (Elt F)),
    reshape main_v271 main_v272 rfl shapeCasts_S1x64x64_S64x64,
    unary main_v272 main_v273 ((transpose S64x64 [1, 0] · transposes_S64x64_S64x64_1_0) : (⟨S64x64, .f32⟩ : BufTy).Contents (Elt F) → (⟨S64x64, .f32⟩ : BufTy).Contents (Elt F)),
    binary main_v215 main_v273 main_v274 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v275 ((extractStridedSlice S1x64 ![24, 0] · slices_S28x64_S1x64_24_0) : (⟨S28x64, .f32⟩ : BufTy).Contents (Elt F) → (⟨S1x64, .f32⟩ : BufTy).Contents (Elt F)),
    reshape main_v275 main_v276 rfl shapeCasts_S1x64_S64,
    unary main_v276 main_v277 (broadcastInDim S1x64 ![1] bcast_S64_S1x64_1 : (⟨S64, .f32⟩ : BufTy).Contents (Elt F) → (⟨S1x64, .f32⟩ : BufTy).Contents (Elt F)),
    unary main_v277 main_v278 (broadcastInDim S262144x64 ![0, 1] bcast_S1x64_S262144x64_0_1 : (⟨S1x64, .f32⟩ : BufTy).Contents (Elt F) → (⟨S262144x64, .f32⟩ : BufTy).Contents (Elt F)),
    binary main_v274 main_v278 main_v279 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call24_cst) (constant S_ .f32 0x00000000#32),
    TRef.unary (TRef.of (T := ⟨S_, .f32⟩) main_call24_cst) (TRef.of (T := ⟨S262144x64, .f32⟩) main_call24_v0) (broadcastInDim S262144x64 ![] bcast_S_S262144x64),
    TRef.binary (TRef.of (T := ⟨S262144x64, .f32⟩) main_v279) (TRef.of (T := ⟨S262144x64, .f32⟩) main_call24_v0) (TRef.of (T := ⟨S262144x64, .f32⟩) main_v280) maximumf,
    binary main_v248 main_v280 main_v281 (addf : (⟨S262144x64, .f32⟩ : BufTy).Contents (Elt F) → (⟨S262144x64, .f32⟩ : BufTy).Contents (Elt F) → (⟨S262144x64, .f32⟩ : BufTy).Contents (Elt F)) ]

/-- Connection 25: its weight slice transposed and multiplied into the source layer, its bias row added, the
    rectifier, and the sum into the target layer's accumulator. -/
abbrev conn25 : List (HloOp τ sig (Elt F)) :=
  [ unary main_arg1 main_v282 ((extractStridedSlice S1x64x64 ![25, 0, 0] · slices_S28x64x64_S1x64x64_25_0_0) : (⟨S28x64x64, .f32⟩ : BufTy).Contents (Elt F) → (⟨S1x64x64, .f32⟩ : BufTy).Contents (Elt F)),
    reshape main_v282 main_v283 rfl shapeCasts_S1x64x64_S64x64,
    unary main_v283 main_v284 ((transpose S64x64 [1, 0] · transposes_S64x64_S64x64_1_0) : (⟨S64x64, .f32⟩ : BufTy).Contents (Elt F) → (⟨S64x64, .f32⟩ : BufTy).Contents (Elt F)),
    binary main_v259 main_v284 main_v285 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v286 ((extractStridedSlice S1x64 ![25, 0] · slices_S28x64_S1x64_25_0) : (⟨S28x64, .f32⟩ : BufTy).Contents (Elt F) → (⟨S1x64, .f32⟩ : BufTy).Contents (Elt F)),
    reshape main_v286 main_v287 rfl shapeCasts_S1x64_S64,
    unary main_v287 main_v288 (broadcastInDim S1x64 ![1] bcast_S64_S1x64_1 : (⟨S64, .f32⟩ : BufTy).Contents (Elt F) → (⟨S1x64, .f32⟩ : BufTy).Contents (Elt F)),
    unary main_v288 main_v289 (broadcastInDim S262144x64 ![0, 1] bcast_S1x64_S262144x64_0_1 : (⟨S1x64, .f32⟩ : BufTy).Contents (Elt F) → (⟨S262144x64, .f32⟩ : BufTy).Contents (Elt F)),
    binary main_v285 main_v289 main_v290 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call25_cst) (constant S_ .f32 0x00000000#32),
    TRef.unary (TRef.of (T := ⟨S_, .f32⟩) main_call25_cst) (TRef.of (T := ⟨S262144x64, .f32⟩) main_call25_v0) (broadcastInDim S262144x64 ![] bcast_S_S262144x64),
    TRef.binary (TRef.of (T := ⟨S262144x64, .f32⟩) main_v290) (TRef.of (T := ⟨S262144x64, .f32⟩) main_call25_v0) (TRef.of (T := ⟨S262144x64, .f32⟩) main_v291) maximumf,
    binary main_v270 main_v291 main_v292 (addf : (⟨S262144x64, .f32⟩ : BufTy).Contents (Elt F) → (⟨S262144x64, .f32⟩ : BufTy).Contents (Elt F) → (⟨S262144x64, .f32⟩ : BufTy).Contents (Elt F)) ]

/-- Connection 26: its weight slice transposed and multiplied into the source layer, its bias row added, the
    rectifier, and the sum into the target layer's accumulator. -/
abbrev conn26 : List (HloOp τ sig (Elt F)) :=
  [ unary main_arg1 main_v293 ((extractStridedSlice S1x64x64 ![26, 0, 0] · slices_S28x64x64_S1x64x64_26_0_0) : (⟨S28x64x64, .f32⟩ : BufTy).Contents (Elt F) → (⟨S1x64x64, .f32⟩ : BufTy).Contents (Elt F)),
    reshape main_v293 main_v294 rfl shapeCasts_S1x64x64_S64x64,
    unary main_v294 main_v295 ((transpose S64x64 [1, 0] · transposes_S64x64_S64x64_1_0) : (⟨S64x64, .f32⟩ : BufTy).Contents (Elt F) → (⟨S64x64, .f32⟩ : BufTy).Contents (Elt F)),
    binary main_v259 main_v295 main_v296 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v297 ((extractStridedSlice S1x64 ![26, 0] · slices_S28x64_S1x64_26_0) : (⟨S28x64, .f32⟩ : BufTy).Contents (Elt F) → (⟨S1x64, .f32⟩ : BufTy).Contents (Elt F)),
    reshape main_v297 main_v298 rfl shapeCasts_S1x64_S64,
    unary main_v298 main_v299 (broadcastInDim S1x64 ![1] bcast_S64_S1x64_1 : (⟨S64, .f32⟩ : BufTy).Contents (Elt F) → (⟨S1x64, .f32⟩ : BufTy).Contents (Elt F)),
    unary main_v299 main_v300 (broadcastInDim S262144x64 ![0, 1] bcast_S1x64_S262144x64_0_1 : (⟨S1x64, .f32⟩ : BufTy).Contents (Elt F) → (⟨S262144x64, .f32⟩ : BufTy).Contents (Elt F)),
    binary main_v296 main_v300 main_v301 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call26_cst) (constant S_ .f32 0x00000000#32),
    TRef.unary (TRef.of (T := ⟨S_, .f32⟩) main_call26_cst) (TRef.of (T := ⟨S262144x64, .f32⟩) main_call26_v0) (broadcastInDim S262144x64 ![] bcast_S_S262144x64),
    TRef.binary (TRef.of (T := ⟨S262144x64, .f32⟩) main_v301) (TRef.of (T := ⟨S262144x64, .f32⟩) main_call26_v0) (TRef.of (T := ⟨S262144x64, .f32⟩) main_v302) maximumf,
    binary main_v281 main_v302 main_v303 (addf : (⟨S262144x64, .f32⟩ : BufTy).Contents (Elt F) → (⟨S262144x64, .f32⟩ : BufTy).Contents (Elt F) → (⟨S262144x64, .f32⟩ : BufTy).Contents (Elt F)) ]

/-- Connection 27: its weight slice transposed and multiplied into the source layer, its bias row added, the
    rectifier, and the sum into the target layer's accumulator. -/
abbrev conn27 : List (HloOp τ sig (Elt F)) :=
  [ unary main_arg1 main_v304 ((extractStridedSlice S1x64x64 ![27, 0, 0] · slices_S28x64x64_S1x64x64_27_0_0) : (⟨S28x64x64, .f32⟩ : BufTy).Contents (Elt F) → (⟨S1x64x64, .f32⟩ : BufTy).Contents (Elt F)),
    reshape main_v304 main_v305 rfl shapeCasts_S1x64x64_S64x64,
    unary main_v305 main_v306 ((transpose S64x64 [1, 0] · transposes_S64x64_S64x64_1_0) : (⟨S64x64, .f32⟩ : BufTy).Contents (Elt F) → (⟨S64x64, .f32⟩ : BufTy).Contents (Elt F)),
    binary main_v292 main_v306 main_v307 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg2 main_v308 ((extractStridedSlice S1x64 ![27, 0] · slices_S28x64_S1x64_27_0) : (⟨S28x64, .f32⟩ : BufTy).Contents (Elt F) → (⟨S1x64, .f32⟩ : BufTy).Contents (Elt F)),
    reshape main_v308 main_v309 rfl shapeCasts_S1x64_S64,
    unary main_v309 main_v310 (broadcastInDim S1x64 ![1] bcast_S64_S1x64_1 : (⟨S64, .f32⟩ : BufTy).Contents (Elt F) → (⟨S1x64, .f32⟩ : BufTy).Contents (Elt F)),
    unary main_v310 main_v311 (broadcastInDim S262144x64 ![0, 1] bcast_S1x64_S262144x64_0_1 : (⟨S1x64, .f32⟩ : BufTy).Contents (Elt F) → (⟨S262144x64, .f32⟩ : BufTy).Contents (Elt F)),
    binary main_v307 main_v311 main_v312 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call27_cst) (constant S_ .f32 0x00000000#32),
    TRef.unary (TRef.of (T := ⟨S_, .f32⟩) main_call27_cst) (TRef.of (T := ⟨S262144x64, .f32⟩) main_call27_v0) (broadcastInDim S262144x64 ![] bcast_S_S262144x64),
    TRef.binary (TRef.of (T := ⟨S262144x64, .f32⟩) main_v312) (TRef.of (T := ⟨S262144x64, .f32⟩) main_call27_v0) (TRef.of (T := ⟨S262144x64, .f32⟩) main_v313) maximumf,
    binary main_v303 main_v313 main_v314 (addf : (⟨S262144x64, .f32⟩ : BufTy).Contents (Elt F) → (⟨S262144x64, .f32⟩ : BufTy).Contents (Elt F) → (⟨S262144x64, .f32⟩ : BufTy).Contents (Elt F)) ]

/-- The whole program: the zero arrays, then the connections in order. -/
abbrev full : List (HloOp τ sig (Elt F)) :=
  init ++ (conn0 ++ (conn1 ++ (conn2 ++ (conn3 ++ (conn4 ++ (conn5 ++ (conn6 ++ (conn7 ++ (conn8 ++ (conn9 ++ (conn10 ++ (conn11 ++ (conn12 ++ (conn13 ++ (conn14 ++ (conn15 ++ (conn16 ++ (conn17 ++ (conn18 ++ (conn19 ++ (conn20 ++ (conn21 ++ (conn22 ++ (conn23 ++ (conn24 ++ (conn25 ++ (conn26 ++ (conn27))))))))))))))))))))))))))))

set_option maxRecDepth 8192 in
set_option maxHeartbeats 4000000 in
/-- The printed program is that line of operations: each called rectifier's three operations stand at its call. -/
theorem main_eq (c : Dev nD) : main (F := F) c = seq full := rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefValue

end
-- ==== Proof.RefMsg.lean ====
/-
  One connection of the reference as one function of arrays, and its value at an entry.

  A connection multiplies its source layer into the transposed weight slice, adds the bias row broadcast over the
  batch, and takes the maximum with the zero array. Read at batch row `r` and feature `e` this is
  `max (∑ k, y (r, k) * W (0, e, k) + b (0, e)) 0`: the transpose and the two reshapes only rename indices, the
  contraction runs over the source's features, and the zero is the literal word the program writes.
-/
import proofs.«164341_j31275951850011_2_alg».proof.Proof.Gen.ReferenceIdeal
import proofs.«164341_j31275951850011_2_alg».proof.Proof.Layers
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The zero array every layer's sum starts from. -/
def zeros : (⟨S262144x64, .f32⟩ : BufTy).Contents (Elt F) :=
  broadcastInDim S262144x64 ![] bcast_S_S262144x64 (constant S_ .f32 0x00000000#32)

/-- The message of one connection, as an array: source layer `y`, weight slice `W1` (`[1, 64, 64]`), bias slice `b1`
    (`[1, 64]`). -/
def refMsg (y : (⟨S262144x64, .f32⟩ : BufTy).Contents (Elt F)) (W1 : (⟨S1x64x64, .f32⟩ : BufTy).Contents (Elt F)) (b1 : (⟨S1x64, .f32⟩ : BufTy).Contents (Elt F)) : (⟨S262144x64, .f32⟩ : BufTy).Contents (Elt F) :=
  maximumf
    (addf
      (Host.dotGeneral dot_S262144x64_S64x64_S262144x64_1_0_0_1_n_n none y
        (transpose S64x64 [1, 0] (shapeCast _ W1 shapeCasts_S1x64x64_S64x64) transposes_S64x64_S64x64_1_0))
      (broadcastInDim S262144x64 ![0, 1] bcast_S1x64_S262144x64_0_1
        (broadcastInDim S1x64 ![1] bcast_S64_S1x64_1 (shapeCast _ b1 shapeCasts_S1x64_S64))))
    (broadcastInDim S262144x64 ![] bcast_S_S262144x64 (constant S_ .f32 0x00000000#32))

/-- The zero array at any entry is the zero word. -/
theorem zeros_apply (i : S262144x64.Idx) : zeros (F := Ideal) i = Cert.Layers.Z := by
  unfold zeros
  exact (broadcastInDim_apply ![] bcast_S_S262144x64 (constant (F := Ideal) S_ .f32 0x00000000#32) i (fun a => a.elim0)
    (fun a => a.elim0)).trans rfl

/-- The left operand of the contraction is read at (row, k). -/
theorem dot_lhs (r : Fin 262144) (e : Fin 64) (k : Fin 64) :
    dot_S262144x64_S64x64_S262144x64_1_0_0_1_n_n.lhsIdx (ValueIdx.ix2 r e) ((ValueIdx.contrEquiv1 dot_S262144x64_S64x64_S262144x64_1_0_0_1_n_n 64 rfl rfl).symm k) = ValueIdx.ix2 r k := by
  have hk := ValueIdx.contrEquiv1_symm_val dot_S262144x64_S64x64_S262144x64_1_0_0_1_n_n 64 rfl rfl k
  funext a
  refine Fin.ext ?_
  match a with
  | ⟨0, _⟩ =>
    show (dot_S262144x64_S64x64_S262144x64_1_0_0_1_n_n.lhsIdx (ValueIdx.ix2 r e) _ (0 : Fin S262144x64.rank)).val = r.val
    unfold DotDims.lhsIdx
    rw [dif_neg (show ¬(0 : Fin S262144x64.rank) ∈ dot_S262144x64_S64x64_S262144x64_1_0_0_1_n_n.lhsBatch by decide), dif_pos (show (0 : Fin S262144x64.rank) ∈ dot_S262144x64_S64x64_S262144x64_1_0_0_1_n_n.lhsNonContracting by decide)]
    rfl
  | ⟨1, _⟩ => exact (dot_S262144x64_S64x64_S262144x64_1_0_0_1_n_n.lhsIdx_val_of_single rfl _ _).trans hk

/-- The right operand of the contraction is read at (k, feature). -/
theorem dot_rhs (r : Fin 262144) (e : Fin 64) (k : Fin 64) :
    dot_S262144x64_S64x64_S262144x64_1_0_0_1_n_n.rhsIdx (ValueIdx.ix2 r e) ((ValueIdx.contrEquiv1 dot_S262144x64_S64x64_S262144x64_1_0_0_1_n_n 64 rfl rfl).symm k) = ValueIdx.ix2 k e := by
  have hk := ValueIdx.contrEquiv1_symm_val dot_S262144x64_S64x64_S262144x64_1_0_0_1_n_n 64 rfl rfl k
  funext a
  refine Fin.ext ?_
  match a with
  | ⟨0, _⟩ => exact (dot_S262144x64_S64x64_S262144x64_1_0_0_1_n_n.rhsIdx_val_of_single rfl _ _).trans hk
  | ⟨1, _⟩ =>
    show (dot_S262144x64_S64x64_S262144x64_1_0_0_1_n_n.rhsIdx (ValueIdx.ix2 r e) _ (1 : Fin S64x64.rank)).val = e.val
    unfold DotDims.rhsIdx
    rw [dif_neg (show ¬(1 : Fin S64x64.rank) ∈ dot_S262144x64_S64x64_S262144x64_1_0_0_1_n_n.rhsBatch by decide), dif_pos (show (1 : Fin S64x64.rank) ∈ dot_S262144x64_S64x64_S262144x64_1_0_0_1_n_n.rhsNonContracting by decide)]
    rfl

/-- The product of a `[262144, 64]` array with a `[64, 64]` matrix at an entry: the sum over the shared axis. -/
theorem dot_apply (y : (⟨S262144x64, .f32⟩ : BufTy).Contents (Elt Ideal)) (M : (⟨S64x64, .f32⟩ : BufTy).Contents (Elt Ideal))
    (r : Fin 262144) (e : Fin 64) :
    Host.dotGeneral (F := Ideal) (φ₁ := .f32) (φ₂ := .f32) dot_S262144x64_S64x64_S262144x64_1_0_0_1_n_n none y M (ValueIdx.ix2 r e) = ∑ k : Fin 64, y (ValueIdx.ix2 r k) * M (ValueIdx.ix2 k e) := by
  simp only [Host.dotGeneral]
  rw [Ideal.dotGeneral_apply, ← Equiv.sum_comp (ValueIdx.contrEquiv1 dot_S262144x64_S64x64_S262144x64_1_0_0_1_n_n 64 rfl rfl).symm]
  refine Finset.sum_congr rfl fun k _ => ?_
  rw [dot_lhs, dot_rhs]

/-- The bias row broadcast over the batch, at an entry. -/
theorem bias_apply (b1 : (⟨S1x64, .f32⟩ : BufTy).Contents (Elt Ideal)) (r : Fin 262144) (e : Fin 64) :
    broadcastInDim S262144x64 ![0, 1] bcast_S1x64_S262144x64_0_1
        (broadcastInDim S1x64 ![1] bcast_S64_S1x64_1 (shapeCast _ b1 shapeCasts_S1x64_S64)) (ValueIdx.ix2 r e)
      = b1 (ValueIdx.ix2 (0 : Fin 1) e) := by
  refine (broadcastInDim_apply ![0, 1] bcast_S1x64_S262144x64_0_1 _ (ValueIdx.ix2 r e) (ValueIdx.ix2 (0 : Fin 1) e)
    (fun a => match a with
      | ⟨0, _⟩ => rfl
      | ⟨1, _⟩ => rfl)).trans ?_
  refine (broadcastInDim_apply ![1] bcast_S64_S1x64_1 _ (ValueIdx.ix2 (0 : Fin 1) e) (ValueIdx.ix1 e)
    (fun a => match a with
      | ⟨0, _⟩ => rfl)).trans ?_
  exact ValueIdx.shapeCast_1a_a_apply b1 shapeCasts_S1x64_S64 e

/-- The transposed weight matrix at (k, feature) is the slice at (0, feature, k). -/
theorem weight_apply (W1 : (⟨S1x64x64, .f32⟩ : BufTy).Contents (Elt Ideal)) (k e : Fin 64) :
    transpose S64x64 [1, 0] (shapeCast _ W1 shapeCasts_S1x64x64_S64x64) transposes_S64x64_S64x64_1_0 (ValueIdx.ix2 k e)
      = W1 (ValueIdx.ix3 (0 : Fin 1) e k) :=
  (ValueIdx.transpose_ix2_apply _ transposes_S64x64_S64x64_1_0 k e).trans
    (ValueIdx.shapeCast_1ab_ab_apply W1 shapeCasts_S1x64x64_S64x64 e k)

/-- One connection's message at batch row `r`, feature `e`. -/
theorem refMsg_apply (y : (⟨S262144x64, .f32⟩ : BufTy).Contents (Elt Ideal)) (W1 : (⟨S1x64x64, .f32⟩ : BufTy).Contents (Elt Ideal))
    (b1 : (⟨S1x64, .f32⟩ : BufTy).Contents (Elt Ideal)) (r : Fin 262144) (e : Fin 64) :
    refMsg (F := Ideal) y W1 b1 (ValueIdx.ix2 r e)
      = max ((∑ k : Fin 64, y (ValueIdx.ix2 r k) * W1 (ValueIdx.ix3 (0 : Fin 1) e k)) + b1 (ValueIdx.ix2 (0 : Fin 1) e)) Cert.Layers.Z := by
  unfold refMsg
  rw [ValueIdx.maximumf_apply, ValueIdx.addf_apply, dot_apply, bias_apply]
  refine congrArg₂ max (congrArg₂ (· + ·) (Finset.sum_congr rfl fun k _ => ?_) rfl) (zeros_apply _)
  rw [weight_apply]

/-- The weight slice of connection `c` at (0, e, k) is the argument at (c, e, k). -/
theorem sliceW_apply (c : Nat) (hc : c < 28) (Ws : (⟨S28x64x64, .f32⟩ : BufTy).Contents (Elt Ideal))
    (h : S28x64x64.Slices ![c, 0, 0] S1x64x64) (e k : Fin 64) :
    extractStridedSlice S1x64x64 ![c, 0, 0] Ws h (ValueIdx.ix3 (0 : Fin 1) e k) = Ws (ValueIdx.ix3 (⟨c, hc⟩ : Fin 28) e k) :=
  extractStridedSlice_apply ![c, 0, 0] Ws h _ _ (fun a => match a with
    | ⟨0, _⟩ => rfl
    | ⟨1, _⟩ => (Nat.zero_add _).symm
    | ⟨2, _⟩ => (Nat.zero_add _).symm)

/-- The bias slice of connection `c` at (0, e) is the argument at (c, e). -/
theorem sliceB_apply (c : Nat) (hc : c < 28) (bs : (⟨S28x64, .f32⟩ : BufTy).Contents (Elt Ideal))
    (h : S28x64.Slices ![c, 0] S1x64) (e : Fin 64) :
    extractStridedSlice S1x64 ![c, 0] bs h (ValueIdx.ix2 (0 : Fin 1) e) = bs (ValueIdx.ix2 (⟨c, hc⟩ : Fin 28) e) :=
  extractStridedSlice_apply ![c, 0] bs h _ _ (fun a => match a with
    | ⟨0, _⟩ => rfl
    | ⟨1, _⟩ => (Nat.zero_add _).symm)

end Cert.ReferenceIdeal.RefValue

end
-- ==== Proof.RefConn0.lean ====
/-
  Connections 0 … 6. What one connection's thirteen operations do to the buffers, for any contents before them: the last buffer
  receives the accumulator read plus the connection's message, and every buffer outside the thirteen is kept.
-/
import proofs.«164341_j31275951850011_2_alg».proof.Proof.RefOps
import proofs.«164341_j31275951850011_2_alg».proof.Proof.RefMsg

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! ### Connection 0 -/

/-- The buffers connection 0 writes. -/
abbrev conn0_W : List (Ref sig .tc) := [main_v7, main_v8, main_v9, main_v10, main_v11, main_v12, main_v13, main_v14, main_v15, main_call0_cst, main_call0_v0, main_v16, main_v17]

theorem conn0_writes : (conn0 : List (HloOp τ sig (Elt F))).Forall fun op =>
    op.writes ⊆ (conn0_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 0 does not write keeps its contents through it. -/
theorem conn0_keep (V : Valuation τ sig (Elt F)) (r : Ref sig .tc) (h : r ∉ conn0_W) :
    after conn0 V (Proc.devRef .tc r) = V (Proc.devRef .tc r) :=
  after_of_writes_sub conn0 V conn0_writes h

/-- Connection 0 leaves in its last buffer the accumulator it read plus its message. -/
theorem conn0_out (V : Valuation τ sig (Elt F)) :
    after conn0 V (Proc.devRef (τ := τ) .tc main_v17)
      = addf (V (Proc.devRef (τ := τ) .tc main_v0)) (refMsg (V (Proc.devRef (τ := τ) .tc main_arg0))
          (extractStridedSlice S1x64x64 ![0, 0, 0] (V (Proc.devRef (τ := τ) .tc main_arg1)) slices_S28x64x64_S1x64x64_0_0_0)
          (extractStridedSlice S1x64 ![0, 0] (V (Proc.devRef (τ := τ) .tc main_arg2)) slices_S28x64_S1x64_0_0)) := by
  after_results_simp <;> rfl

theorem conn0_sub : (conn0 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn0_fresh : ∀ op ∈ (conn0 : List (HloOp τ sig (Elt F))), op.fresh = ∅ := by
  intro _ h; (repeat (cases h with | head => rfl | tail _ h => ?_)); exact nomatch h

/-! ### Connection 1 -/

/-- The buffers connection 1 writes. -/
abbrev conn1_W : List (Ref sig .tc) := [main_v18, main_v19, main_v20, main_v21, main_v22, main_v23, main_v24, main_v25, main_v26, main_call1_cst, main_call1_v0, main_v27, main_v28]

theorem conn1_writes : (conn1 : List (HloOp τ sig (Elt F))).Forall fun op =>
    op.writes ⊆ (conn1_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 1 does not write keeps its contents through it. -/
theorem conn1_keep (V : Valuation τ sig (Elt F)) (r : Ref sig .tc) (h : r ∉ conn1_W) :
    after conn1 V (Proc.devRef .tc r) = V (Proc.devRef .tc r) :=
  after_of_writes_sub conn1 V conn1_writes h

/-- Connection 1 leaves in its last buffer the accumulator it read plus its message. -/
theorem conn1_out (V : Valuation τ sig (Elt F)) :
    after conn1 V (Proc.devRef (τ := τ) .tc main_v28)
      = addf (V (Proc.devRef (τ := τ) .tc main_v1)) (refMsg (V (Proc.devRef (τ := τ) .tc main_arg0))
          (extractStridedSlice S1x64x64 ![1, 0, 0] (V (Proc.devRef (τ := τ) .tc main_arg1)) slices_S28x64x64_S1x64x64_1_0_0)
          (extractStridedSlice S1x64 ![1, 0] (V (Proc.devRef (τ := τ) .tc main_arg2)) slices_S28x64_S1x64_1_0)) := by
  after_results_simp <;> rfl

theorem conn1_sub : (conn1 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn1_fresh : ∀ op ∈ (conn1 : List (HloOp τ sig (Elt F))), op.fresh = ∅ := by
  intro _ h; (repeat (cases h with | head => rfl | tail _ h => ?_)); exact nomatch h

/-! ### Connection 2 -/

/-- The buffers connection 2 writes. -/
abbrev conn2_W : List (Ref sig .tc) := [main_v29, main_v30, main_v31, main_v32, main_v33, main_v34, main_v35, main_v36, main_v37, main_call2_cst, main_call2_v0, main_v38, main_v39]

theorem conn2_writes : (conn2 : List (HloOp τ sig (Elt F))).Forall fun op =>
    op.writes ⊆ (conn2_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 2 does not write keeps its contents through it. -/
theorem conn2_keep (V : Valuation τ sig (Elt F)) (r : Ref sig .tc) (h : r ∉ conn2_W) :
    after conn2 V (Proc.devRef .tc r) = V (Proc.devRef .tc r) :=
  after_of_writes_sub conn2 V conn2_writes h

/-- Connection 2 leaves in its last buffer the accumulator it read plus its message. -/
theorem conn2_out (V : Valuation τ sig (Elt F)) :
    after conn2 V (Proc.devRef (τ := τ) .tc main_v39)
      = addf (V (Proc.devRef (τ := τ) .tc main_v2)) (refMsg (V (Proc.devRef (τ := τ) .tc main_arg0))
          (extractStridedSlice S1x64x64 ![2, 0, 0] (V (Proc.devRef (τ := τ) .tc main_arg1)) slices_S28x64x64_S1x64x64_2_0_0)
          (extractStridedSlice S1x64 ![2, 0] (V (Proc.devRef (τ := τ) .tc main_arg2)) slices_S28x64_S1x64_2_0)) := by
  after_results_simp <;> rfl

theorem conn2_sub : (conn2 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn2_fresh : ∀ op ∈ (conn2 : List (HloOp τ sig (Elt F))), op.fresh = ∅ := by
  intro _ h; (repeat (cases h with | head => rfl | tail _ h => ?_)); exact nomatch h

/-! ### Connection 3 -/

/-- The buffers connection 3 writes. -/
abbrev conn3_W : List (Ref sig .tc) := [main_v40, main_v41, main_v42, main_v43, main_v44, main_v45, main_v46, main_v47, main_v48, main_call3_cst, main_call3_v0, main_v49, main_v50]

theorem conn3_writes : (conn3 : List (HloOp τ sig (Elt F))).Forall fun op =>
    op.writes ⊆ (conn3_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 3 does not write keeps its contents through it. -/
theorem conn3_keep (V : Valuation τ sig (Elt F)) (r : Ref sig .tc) (h : r ∉ conn3_W) :
    after conn3 V (Proc.devRef .tc r) = V (Proc.devRef .tc r) :=
  after_of_writes_sub conn3 V conn3_writes h

/-- Connection 3 leaves in its last buffer the accumulator it read plus its message. -/
theorem conn3_out (V : Valuation τ sig (Elt F)) :
    after conn3 V (Proc.devRef (τ := τ) .tc main_v50)
      = addf (V (Proc.devRef (τ := τ) .tc main_v3)) (refMsg (V (Proc.devRef (τ := τ) .tc main_arg0))
          (extractStridedSlice S1x64x64 ![3, 0, 0] (V (Proc.devRef (τ := τ) .tc main_arg1)) slices_S28x64x64_S1x64x64_3_0_0)
          (extractStridedSlice S1x64 ![3, 0] (V (Proc.devRef (τ := τ) .tc main_arg2)) slices_S28x64_S1x64_3_0)) := by
  after_results_simp <;> rfl

theorem conn3_sub : (conn3 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn3_fresh : ∀ op ∈ (conn3 : List (HloOp τ sig (Elt F))), op.fresh = ∅ := by
  intro _ h; (repeat (cases h with | head => rfl | tail _ h => ?_)); exact nomatch h

/-! ### Connection 4 -/

/-- The buffers connection 4 writes. -/
abbrev conn4_W : List (Ref sig .tc) := [main_v51, main_v52, main_v53, main_v54, main_v55, main_v56, main_v57, main_v58, main_v59, main_call4_cst, main_call4_v0, main_v60, main_v61]

theorem conn4_writes : (conn4 : List (HloOp τ sig (Elt F))).Forall fun op =>
    op.writes ⊆ (conn4_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 4 does not write keeps its contents through it. -/
theorem conn4_keep (V : Valuation τ sig (Elt F)) (r : Ref sig .tc) (h : r ∉ conn4_W) :
    after conn4 V (Proc.devRef .tc r) = V (Proc.devRef .tc r) :=
  after_of_writes_sub conn4 V conn4_writes h

/-- Connection 4 leaves in its last buffer the accumulator it read plus its message. -/
theorem conn4_out (V : Valuation τ sig (Elt F)) :
    after conn4 V (Proc.devRef (τ := τ) .tc main_v61)
      = addf (V (Proc.devRef (τ := τ) .tc main_v4)) (refMsg (V (Proc.devRef (τ := τ) .tc main_arg0))
          (extractStridedSlice S1x64x64 ![4, 0, 0] (V (Proc.devRef (τ := τ) .tc main_arg1)) slices_S28x64x64_S1x64x64_4_0_0)
          (extractStridedSlice S1x64 ![4, 0] (V (Proc.devRef (τ := τ) .tc main_arg2)) slices_S28x64_S1x64_4_0)) := by
  after_results_simp <;> rfl

theorem conn4_sub : (conn4 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn4_fresh : ∀ op ∈ (conn4 : List (HloOp τ sig (Elt F))), op.fresh = ∅ := by
  intro _ h; (repeat (cases h with | head => rfl | tail _ h => ?_)); exact nomatch h

/-! ### Connection 5 -/

/-- The buffers connection 5 writes. -/
abbrev conn5_W : List (Ref sig .tc) := [main_v62, main_v63, main_v64, main_v65, main_v66, main_v67, main_v68, main_v69, main_v70, main_call5_cst, main_call5_v0, main_v71, main_v72]

theorem conn5_writes : (conn5 : List (HloOp τ sig (Elt F))).Forall fun op =>
    op.writes ⊆ (conn5_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 5 does not write keeps its contents through it. -/
theorem conn5_keep (V : Valuation τ sig (Elt F)) (r : Ref sig .tc) (h : r ∉ conn5_W) :
    after conn5 V (Proc.devRef .tc r) = V (Proc.devRef .tc r) :=
  after_of_writes_sub conn5 V conn5_writes h

/-- Connection 5 leaves in its last buffer the accumulator it read plus its message. -/
theorem conn5_out (V : Valuation τ sig (Elt F)) :
    after conn5 V (Proc.devRef (τ := τ) .tc main_v72)
      = addf (V (Proc.devRef (τ := τ) .tc main_v5)) (refMsg (V (Proc.devRef (τ := τ) .tc main_arg0))
          (extractStridedSlice S1x64x64 ![5, 0, 0] (V (Proc.devRef (τ := τ) .tc main_arg1)) slices_S28x64x64_S1x64x64_5_0_0)
          (extractStridedSlice S1x64 ![5, 0] (V (Proc.devRef (τ := τ) .tc main_arg2)) slices_S28x64_S1x64_5_0)) := by
  after_results_simp <;> rfl

theorem conn5_sub : (conn5 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn5_fresh : ∀ op ∈ (conn5 : List (HloOp τ sig (Elt F))), op.fresh = ∅ := by
  intro _ h; (repeat (cases h with | head => rfl | tail _ h => ?_)); exact nomatch h

/-! ### Connection 6 -/

/-- The buffers connection 6 writes. -/
abbrev conn6_W : List (Ref sig .tc) := [main_v73, main_v74, main_v75, main_v76, main_v77, main_v78, main_v79, main_v80, main_v81, main_call6_cst, main_call6_v0, main_v82, main_v83]

theorem conn6_writes : (conn6 : List (HloOp τ sig (Elt F))).Forall fun op =>
    op.writes ⊆ (conn6_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 6 does not write keeps its contents through it. -/
theorem conn6_keep (V : Valuation τ sig (Elt F)) (r : Ref sig .tc) (h : r ∉ conn6_W) :
    after conn6 V (Proc.devRef .tc r) = V (Proc.devRef .tc r) :=
  after_of_writes_sub conn6 V conn6_writes h

/-- Connection 6 leaves in its last buffer the accumulator it read plus its message. -/
theorem conn6_out (V : Valuation τ sig (Elt F)) :
    after conn6 V (Proc.devRef (τ := τ) .tc main_v83)
      = addf (V (Proc.devRef (τ := τ) .tc main_v6)) (refMsg (V (Proc.devRef (τ := τ) .tc main_arg0))
          (extractStridedSlice S1x64x64 ![6, 0, 0] (V (Proc.devRef (τ := τ) .tc main_arg1)) slices_S28x64x64_S1x64x64_6_0_0)
          (extractStridedSlice S1x64 ![6, 0] (V (Proc.devRef (τ := τ) .tc main_arg2)) slices_S28x64_S1x64_6_0)) := by
  after_results_simp <;> rfl

theorem conn6_sub : (conn6 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn6_fresh : ∀ op ∈ (conn6 : List (HloOp τ sig (Elt F))), op.fresh = ∅ := by
  intro _ h; (repeat (cases h with | head => rfl | tail _ h => ?_)); exact nomatch h

end Cert.ReferenceIdeal.RefValue

end
-- ==== Proof.RefConn1.lean ====
/-
  Connections 7 … 13. What one connection's thirteen operations do to the buffers, for any contents before them: the last buffer
  receives the accumulator read plus the connection's message, and every buffer outside the thirteen is kept.
-/
import proofs.«164341_j31275951850011_2_alg».proof.Proof.RefOps
import proofs.«164341_j31275951850011_2_alg».proof.Proof.RefMsg

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! ### Connection 7 -/

/-- The buffers connection 7 writes. -/
abbrev conn7_W : List (Ref sig .tc) := [main_v84, main_v85, main_v86, main_v87, main_v88, main_v89, main_v90, main_v91, main_v92, main_call7_cst, main_call7_v0, main_v93, main_v94]

theorem conn7_writes : (conn7 : List (HloOp τ sig (Elt F))).Forall fun op =>
    op.writes ⊆ (conn7_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 7 does not write keeps its contents through it. -/
theorem conn7_keep (V : Valuation τ sig (Elt F)) (r : Ref sig .tc) (h : r ∉ conn7_W) :
    after conn7 V (Proc.devRef .tc r) = V (Proc.devRef .tc r) :=
  after_of_writes_sub conn7 V conn7_writes h

/-- Connection 7 leaves in its last buffer the accumulator it read plus its message. -/
theorem conn7_out (V : Valuation τ sig (Elt F)) :
    after conn7 V (Proc.devRef (τ := τ) .tc main_v94)
      = addf (V (Proc.devRef (τ := τ) .tc main_v28)) (refMsg (V (Proc.devRef (τ := τ) .tc main_v17))
          (extractStridedSlice S1x64x64 ![7, 0, 0] (V (Proc.devRef (τ := τ) .tc main_arg1)) slices_S28x64x64_S1x64x64_7_0_0)
          (extractStridedSlice S1x64 ![7, 0] (V (Proc.devRef (τ := τ) .tc main_arg2)) slices_S28x64_S1x64_7_0)) := by
  after_results_simp <;> rfl

theorem conn7_sub : (conn7 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn7_fresh : ∀ op ∈ (conn7 : List (HloOp τ sig (Elt F))), op.fresh = ∅ := by
  intro _ h; (repeat (cases h with | head => rfl | tail _ h => ?_)); exact nomatch h

/-! ### Connection 8 -/

/-- The buffers connection 8 writes. -/
abbrev conn8_W : List (Ref sig .tc) := [main_v95, main_v96, main_v97, main_v98, main_v99, main_v100, main_v101, main_v102, main_v103, main_call8_cst, main_call8_v0, main_v104, main_v105]

theorem conn8_writes : (conn8 : List (HloOp τ sig (Elt F))).Forall fun op =>
    op.writes ⊆ (conn8_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 8 does not write keeps its contents through it. -/
theorem conn8_keep (V : Valuation τ sig (Elt F)) (r : Ref sig .tc) (h : r ∉ conn8_W) :
    after conn8 V (Proc.devRef .tc r) = V (Proc.devRef .tc r) :=
  after_of_writes_sub conn8 V conn8_writes h

/-- Connection 8 leaves in its last buffer the accumulator it read plus its message. -/
theorem conn8_out (V : Valuation τ sig (Elt F)) :
    after conn8 V (Proc.devRef (τ := τ) .tc main_v105)
      = addf (V (Proc.devRef (τ := τ) .tc main_v39)) (refMsg (V (Proc.devRef (τ := τ) .tc main_v17))
          (extractStridedSlice S1x64x64 ![8, 0, 0] (V (Proc.devRef (τ := τ) .tc main_arg1)) slices_S28x64x64_S1x64x64_8_0_0)
          (extractStridedSlice S1x64 ![8, 0] (V (Proc.devRef (τ := τ) .tc main_arg2)) slices_S28x64_S1x64_8_0)) := by
  after_results_simp <;> rfl

theorem conn8_sub : (conn8 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn8_fresh : ∀ op ∈ (conn8 : List (HloOp τ sig (Elt F))), op.fresh = ∅ := by
  intro _ h; (repeat (cases h with | head => rfl | tail _ h => ?_)); exact nomatch h

/-! ### Connection 9 -/

/-- The buffers connection 9 writes. -/
abbrev conn9_W : List (Ref sig .tc) := [main_v106, main_v107, main_v108, main_v109, main_v110, main_v111, main_v112, main_v113, main_v114, main_call9_cst, main_call9_v0, main_v115, main_v116]

theorem conn9_writes : (conn9 : List (HloOp τ sig (Elt F))).Forall fun op =>
    op.writes ⊆ (conn9_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 9 does not write keeps its contents through it. -/
theorem conn9_keep (V : Valuation τ sig (Elt F)) (r : Ref sig .tc) (h : r ∉ conn9_W) :
    after conn9 V (Proc.devRef .tc r) = V (Proc.devRef .tc r) :=
  after_of_writes_sub conn9 V conn9_writes h

/-- Connection 9 leaves in its last buffer the accumulator it read plus its message. -/
theorem conn9_out (V : Valuation τ sig (Elt F)) :
    after conn9 V (Proc.devRef (τ := τ) .tc main_v116)
      = addf (V (Proc.devRef (τ := τ) .tc main_v50)) (refMsg (V (Proc.devRef (τ := τ) .tc main_v17))
          (extractStridedSlice S1x64x64 ![9, 0, 0] (V (Proc.devRef (τ := τ) .tc main_arg1)) slices_S28x64x64_S1x64x64_9_0_0)
          (extractStridedSlice S1x64 ![9, 0] (V (Proc.devRef (τ := τ) .tc main_arg2)) slices_S28x64_S1x64_9_0)) := by
  after_results_simp <;> rfl

theorem conn9_sub : (conn9 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn9_fresh : ∀ op ∈ (conn9 : List (HloOp τ sig (Elt F))), op.fresh = ∅ := by
  intro _ h; (repeat (cases h with | head => rfl | tail _ h => ?_)); exact nomatch h

/-! ### Connection 10 -/

/-- The buffers connection 10 writes. -/
abbrev conn10_W : List (Ref sig .tc) := [main_v117, main_v118, main_v119, main_v120, main_v121, main_v122, main_v123, main_v124, main_v125, main_call10_cst, main_call10_v0, main_v126, main_v127]

theorem conn10_writes : (conn10 : List (HloOp τ sig (Elt F))).Forall fun op =>
    op.writes ⊆ (conn10_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 10 does not write keeps its contents through it. -/
theorem conn10_keep (V : Valuation τ sig (Elt F)) (r : Ref sig .tc) (h : r ∉ conn10_W) :
    after conn10 V (Proc.devRef .tc r) = V (Proc.devRef .tc r) :=
  after_of_writes_sub conn10 V conn10_writes h

/-- Connection 10 leaves in its last buffer the accumulator it read plus its message. -/
theorem conn10_out (V : Valuation τ sig (Elt F)) :
    after conn10 V (Proc.devRef (τ := τ) .tc main_v127)
      = addf (V (Proc.devRef (τ := τ) .tc main_v61)) (refMsg (V (Proc.devRef (τ := τ) .tc main_v17))
          (extractStridedSlice S1x64x64 ![10, 0, 0] (V (Proc.devRef (τ := τ) .tc main_arg1)) slices_S28x64x64_S1x64x64_10_0_0)
          (extractStridedSlice S1x64 ![10, 0] (V (Proc.devRef (τ := τ) .tc main_arg2)) slices_S28x64_S1x64_10_0)) := by
  after_results_simp <;> rfl

theorem conn10_sub : (conn10 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn10_fresh : ∀ op ∈ (conn10 : List (HloOp τ sig (Elt F))), op.fresh = ∅ := by
  intro _ h; (repeat (cases h with | head => rfl | tail _ h => ?_)); exact nomatch h

/-! ### Connection 11 -/

/-- The buffers connection 11 writes. -/
abbrev conn11_W : List (Ref sig .tc) := [main_v128, main_v129, main_v130, main_v131, main_v132, main_v133, main_v134, main_v135, main_v136, main_call11_cst, main_call11_v0, main_v137, main_v138]

theorem conn11_writes : (conn11 : List (HloOp τ sig (Elt F))).Forall fun op =>
    op.writes ⊆ (conn11_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 11 does not write keeps its contents through it. -/
theorem conn11_keep (V : Valuation τ sig (Elt F)) (r : Ref sig .tc) (h : r ∉ conn11_W) :
    after conn11 V (Proc.devRef .tc r) = V (Proc.devRef .tc r) :=
  after_of_writes_sub conn11 V conn11_writes h

/-- Connection 11 leaves in its last buffer the accumulator it read plus its message. -/
theorem conn11_out (V : Valuation τ sig (Elt F)) :
    after conn11 V (Proc.devRef (τ := τ) .tc main_v138)
      = addf (V (Proc.devRef (τ := τ) .tc main_v72)) (refMsg (V (Proc.devRef (τ := τ) .tc main_v17))
          (extractStridedSlice S1x64x64 ![11, 0, 0] (V (Proc.devRef (τ := τ) .tc main_arg1)) slices_S28x64x64_S1x64x64_11_0_0)
          (extractStridedSlice S1x64 ![11, 0] (V (Proc.devRef (τ := τ) .tc main_arg2)) slices_S28x64_S1x64_11_0)) := by
  after_results_simp <;> rfl

theorem conn11_sub : (conn11 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn11_fresh : ∀ op ∈ (conn11 : List (HloOp τ sig (Elt F))), op.fresh = ∅ := by
  intro _ h; (repeat (cases h with | head => rfl | tail _ h => ?_)); exact nomatch h

/-! ### Connection 12 -/

/-- The buffers connection 12 writes. -/
abbrev conn12_W : List (Ref sig .tc) := [main_v139, main_v140, main_v141, main_v142, main_v143, main_v144, main_v145, main_v146, main_v147, main_call12_cst, main_call12_v0, main_v148, main_v149]

theorem conn12_writes : (conn12 : List (HloOp τ sig (Elt F))).Forall fun op =>
    op.writes ⊆ (conn12_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 12 does not write keeps its contents through it. -/
theorem conn12_keep (V : Valuation τ sig (Elt F)) (r : Ref sig .tc) (h : r ∉ conn12_W) :
    after conn12 V (Proc.devRef .tc r) = V (Proc.devRef .tc r) :=
  after_of_writes_sub conn12 V conn12_writes h

/-- Connection 12 leaves in its last buffer the accumulator it read plus its message. -/
theorem conn12_out (V : Valuation τ sig (Elt F)) :
    after conn12 V (Proc.devRef (τ := τ) .tc main_v149)
      = addf (V (Proc.devRef (τ := τ) .tc main_v83)) (refMsg (V (Proc.devRef (τ := τ) .tc main_v17))
          (extractStridedSlice S1x64x64 ![12, 0, 0] (V (Proc.devRef (τ := τ) .tc main_arg1)) slices_S28x64x64_S1x64x64_12_0_0)
          (extractStridedSlice S1x64 ![12, 0] (V (Proc.devRef (τ := τ) .tc main_arg2)) slices_S28x64_S1x64_12_0)) := by
  after_results_simp <;> rfl

theorem conn12_sub : (conn12 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn12_fresh : ∀ op ∈ (conn12 : List (HloOp τ sig (Elt F))), op.fresh = ∅ := by
  intro _ h; (repeat (cases h with | head => rfl | tail _ h => ?_)); exact nomatch h

/-! ### Connection 13 -/

/-- The buffers connection 13 writes. -/
abbrev conn13_W : List (Ref sig .tc) := [main_v150, main_v151, main_v152, main_v153, main_v154, main_v155, main_v156, main_v157, main_v158, main_call13_cst, main_call13_v0, main_v159, main_v160]

theorem conn13_writes : (conn13 : List (HloOp τ sig (Elt F))).Forall fun op =>
    op.writes ⊆ (conn13_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 13 does not write keeps its contents through it. -/
theorem conn13_keep (V : Valuation τ sig (Elt F)) (r : Ref sig .tc) (h : r ∉ conn13_W) :
    after conn13 V (Proc.devRef .tc r) = V (Proc.devRef .tc r) :=
  after_of_writes_sub conn13 V conn13_writes h

/-- Connection 13 leaves in its last buffer the accumulator it read plus its message. -/
theorem conn13_out (V : Valuation τ sig (Elt F)) :
    after conn13 V (Proc.devRef (τ := τ) .tc main_v160)
      = addf (V (Proc.devRef (τ := τ) .tc main_v105)) (refMsg (V (Proc.devRef (τ := τ) .tc main_v94))
          (extractStridedSlice S1x64x64 ![13, 0, 0] (V (Proc.devRef (τ := τ) .tc main_arg1)) slices_S28x64x64_S1x64x64_13_0_0)
          (extractStridedSlice S1x64 ![13, 0] (V (Proc.devRef (τ := τ) .tc main_arg2)) slices_S28x64_S1x64_13_0)) := by
  after_results_simp <;> rfl

theorem conn13_sub : (conn13 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn13_fresh : ∀ op ∈ (conn13 : List (HloOp τ sig (Elt F))), op.fresh = ∅ := by
  intro _ h; (repeat (cases h with | head => rfl | tail _ h => ?_)); exact nomatch h

end Cert.ReferenceIdeal.RefValue

end
-- ==== Proof.RefConn2.lean ====
/-
  Connections 14 … 20. What one connection's thirteen operations do to the buffers, for any contents before them: the last buffer
  receives the accumulator read plus the connection's message, and every buffer outside the thirteen is kept.
-/
import proofs.«164341_j31275951850011_2_alg».proof.Proof.RefOps
import proofs.«164341_j31275951850011_2_alg».proof.Proof.RefMsg

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! ### Connection 14 -/

/-- The buffers connection 14 writes. -/
abbrev conn14_W : List (Ref sig .tc) := [main_v161, main_v162, main_v163, main_v164, main_v165, main_v166, main_v167, main_v168, main_v169, main_call14_cst, main_call14_v0, main_v170, main_v171]

theorem conn14_writes : (conn14 : List (HloOp τ sig (Elt F))).Forall fun op =>
    op.writes ⊆ (conn14_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 14 does not write keeps its contents through it. -/
theorem conn14_keep (V : Valuation τ sig (Elt F)) (r : Ref sig .tc) (h : r ∉ conn14_W) :
    after conn14 V (Proc.devRef .tc r) = V (Proc.devRef .tc r) :=
  after_of_writes_sub conn14 V conn14_writes h

/-- Connection 14 leaves in its last buffer the accumulator it read plus its message. -/
theorem conn14_out (V : Valuation τ sig (Elt F)) :
    after conn14 V (Proc.devRef (τ := τ) .tc main_v171)
      = addf (V (Proc.devRef (τ := τ) .tc main_v116)) (refMsg (V (Proc.devRef (τ := τ) .tc main_v94))
          (extractStridedSlice S1x64x64 ![14, 0, 0] (V (Proc.devRef (τ := τ) .tc main_arg1)) slices_S28x64x64_S1x64x64_14_0_0)
          (extractStridedSlice S1x64 ![14, 0] (V (Proc.devRef (τ := τ) .tc main_arg2)) slices_S28x64_S1x64_14_0)) := by
  after_results_simp <;> rfl

theorem conn14_sub : (conn14 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn14_fresh : ∀ op ∈ (conn14 : List (HloOp τ sig (Elt F))), op.fresh = ∅ := by
  intro _ h; (repeat (cases h with | head => rfl | tail _ h => ?_)); exact nomatch h

/-! ### Connection 15 -/

/-- The buffers connection 15 writes. -/
abbrev conn15_W : List (Ref sig .tc) := [main_v172, main_v173, main_v174, main_v175, main_v176, main_v177, main_v178, main_v179, main_v180, main_call15_cst, main_call15_v0, main_v181, main_v182]

theorem conn15_writes : (conn15 : List (HloOp τ sig (Elt F))).Forall fun op =>
    op.writes ⊆ (conn15_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 15 does not write keeps its contents through it. -/
theorem conn15_keep (V : Valuation τ sig (Elt F)) (r : Ref sig .tc) (h : r ∉ conn15_W) :
    after conn15 V (Proc.devRef .tc r) = V (Proc.devRef .tc r) :=
  after_of_writes_sub conn15 V conn15_writes h

/-- Connection 15 leaves in its last buffer the accumulator it read plus its message. -/
theorem conn15_out (V : Valuation τ sig (Elt F)) :
    after conn15 V (Proc.devRef (τ := τ) .tc main_v182)
      = addf (V (Proc.devRef (τ := τ) .tc main_v127)) (refMsg (V (Proc.devRef (τ := τ) .tc main_v94))
          (extractStridedSlice S1x64x64 ![15, 0, 0] (V (Proc.devRef (τ := τ) .tc main_arg1)) slices_S28x64x64_S1x64x64_15_0_0)
          (extractStridedSlice S1x64 ![15, 0] (V (Proc.devRef (τ := τ) .tc main_arg2)) slices_S28x64_S1x64_15_0)) := by
  after_results_simp <;> rfl

theorem conn15_sub : (conn15 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn15_fresh : ∀ op ∈ (conn15 : List (HloOp τ sig (Elt F))), op.fresh = ∅ := by
  intro _ h; (repeat (cases h with | head => rfl | tail _ h => ?_)); exact nomatch h

/-! ### Connection 16 -/

/-- The buffers connection 16 writes. -/
abbrev conn16_W : List (Ref sig .tc) := [main_v183, main_v184, main_v185, main_v186, main_v187, main_v188, main_v189, main_v190, main_v191, main_call16_cst, main_call16_v0, main_v192, main_v193]

theorem conn16_writes : (conn16 : List (HloOp τ sig (Elt F))).Forall fun op =>
    op.writes ⊆ (conn16_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 16 does not write keeps its contents through it. -/
theorem conn16_keep (V : Valuation τ sig (Elt F)) (r : Ref sig .tc) (h : r ∉ conn16_W) :
    after conn16 V (Proc.devRef .tc r) = V (Proc.devRef .tc r) :=
  after_of_writes_sub conn16 V conn16_writes h

/-- Connection 16 leaves in its last buffer the accumulator it read plus its message. -/
theorem conn16_out (V : Valuation τ sig (Elt F)) :
    after conn16 V (Proc.devRef (τ := τ) .tc main_v193)
      = addf (V (Proc.devRef (τ := τ) .tc main_v138)) (refMsg (V (Proc.devRef (τ := τ) .tc main_v94))
          (extractStridedSlice S1x64x64 ![16, 0, 0] (V (Proc.devRef (τ := τ) .tc main_arg1)) slices_S28x64x64_S1x64x64_16_0_0)
          (extractStridedSlice S1x64 ![16, 0] (V (Proc.devRef (τ := τ) .tc main_arg2)) slices_S28x64_S1x64_16_0)) := by
  after_results_simp <;> rfl

theorem conn16_sub : (conn16 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn16_fresh : ∀ op ∈ (conn16 : List (HloOp τ sig (Elt F))), op.fresh = ∅ := by
  intro _ h; (repeat (cases h with | head => rfl | tail _ h => ?_)); exact nomatch h

/-! ### Connection 17 -/

/-- The buffers connection 17 writes. -/
abbrev conn17_W : List (Ref sig .tc) := [main_v194, main_v195, main_v196, main_v197, main_v198, main_v199, main_v200, main_v201, main_v202, main_call17_cst, main_call17_v0, main_v203, main_v204]

theorem conn17_writes : (conn17 : List (HloOp τ sig (Elt F))).Forall fun op =>
    op.writes ⊆ (conn17_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 17 does not write keeps its contents through it. -/
theorem conn17_keep (V : Valuation τ sig (Elt F)) (r : Ref sig .tc) (h : r ∉ conn17_W) :
    after conn17 V (Proc.devRef .tc r) = V (Proc.devRef .tc r) :=
  after_of_writes_sub conn17 V conn17_writes h

/-- Connection 17 leaves in its last buffer the accumulator it read plus its message. -/
theorem conn17_out (V : Valuation τ sig (Elt F)) :
    after conn17 V (Proc.devRef (τ := τ) .tc main_v204)
      = addf (V (Proc.devRef (τ := τ) .tc main_v149)) (refMsg (V (Proc.devRef (τ := τ) .tc main_v94))
          (extractStridedSlice S1x64x64 ![17, 0, 0] (V (Proc.devRef (τ := τ) .tc main_arg1)) slices_S28x64x64_S1x64x64_17_0_0)
          (extractStridedSlice S1x64 ![17, 0] (V (Proc.devRef (τ := τ) .tc main_arg2)) slices_S28x64_S1x64_17_0)) := by
  after_results_simp <;> rfl

theorem conn17_sub : (conn17 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn17_fresh : ∀ op ∈ (conn17 : List (HloOp τ sig (Elt F))), op.fresh = ∅ := by
  intro _ h; (repeat (cases h with | head => rfl | tail _ h => ?_)); exact nomatch h

/-! ### Connection 18 -/

/-- The buffers connection 18 writes. -/
abbrev conn18_W : List (Ref sig .tc) := [main_v205, main_v206, main_v207, main_v208, main_v209, main_v210, main_v211, main_v212, main_v213, main_call18_cst, main_call18_v0, main_v214, main_v215]

theorem conn18_writes : (conn18 : List (HloOp τ sig (Elt F))).Forall fun op =>
    op.writes ⊆ (conn18_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 18 does not write keeps its contents through it. -/
theorem conn18_keep (V : Valuation τ sig (Elt F)) (r : Ref sig .tc) (h : r ∉ conn18_W) :
    after conn18 V (Proc.devRef .tc r) = V (Proc.devRef .tc r) :=
  after_of_writes_sub conn18 V conn18_writes h

/-- Connection 18 leaves in its last buffer the accumulator it read plus its message. -/
theorem conn18_out (V : Valuation τ sig (Elt F)) :
    after conn18 V (Proc.devRef (τ := τ) .tc main_v215)
      = addf (V (Proc.devRef (τ := τ) .tc main_v171)) (refMsg (V (Proc.devRef (τ := τ) .tc main_v160))
          (extractStridedSlice S1x64x64 ![18, 0, 0] (V (Proc.devRef (τ := τ) .tc main_arg1)) slices_S28x64x64_S1x64x64_18_0_0)
          (extractStridedSlice S1x64 ![18, 0] (V (Proc.devRef (τ := τ) .tc main_arg2)) slices_S28x64_S1x64_18_0)) := by
  after_results_simp <;> rfl

theorem conn18_sub : (conn18 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn18_fresh : ∀ op ∈ (conn18 : List (HloOp τ sig (Elt F))), op.fresh = ∅ := by
  intro _ h; (repeat (cases h with | head => rfl | tail _ h => ?_)); exact nomatch h

/-! ### Connection 19 -/

/-- The buffers connection 19 writes. -/
abbrev conn19_W : List (Ref sig .tc) := [main_v216, main_v217, main_v218, main_v219, main_v220, main_v221, main_v222, main_v223, main_v224, main_call19_cst, main_call19_v0, main_v225, main_v226]

theorem conn19_writes : (conn19 : List (HloOp τ sig (Elt F))).Forall fun op =>
    op.writes ⊆ (conn19_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 19 does not write keeps its contents through it. -/
theorem conn19_keep (V : Valuation τ sig (Elt F)) (r : Ref sig .tc) (h : r ∉ conn19_W) :
    after conn19 V (Proc.devRef .tc r) = V (Proc.devRef .tc r) :=
  after_of_writes_sub conn19 V conn19_writes h

/-- Connection 19 leaves in its last buffer the accumulator it read plus its message. -/
theorem conn19_out (V : Valuation τ sig (Elt F)) :
    after conn19 V (Proc.devRef (τ := τ) .tc main_v226)
      = addf (V (Proc.devRef (τ := τ) .tc main_v182)) (refMsg (V (Proc.devRef (τ := τ) .tc main_v160))
          (extractStridedSlice S1x64x64 ![19, 0, 0] (V (Proc.devRef (τ := τ) .tc main_arg1)) slices_S28x64x64_S1x64x64_19_0_0)
          (extractStridedSlice S1x64 ![19, 0] (V (Proc.devRef (τ := τ) .tc main_arg2)) slices_S28x64_S1x64_19_0)) := by
  after_results_simp <;> rfl

theorem conn19_sub : (conn19 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn19_fresh : ∀ op ∈ (conn19 : List (HloOp τ sig (Elt F))), op.fresh = ∅ := by
  intro _ h; (repeat (cases h with | head => rfl | tail _ h => ?_)); exact nomatch h

/-! ### Connection 20 -/

/-- The buffers connection 20 writes. -/
abbrev conn20_W : List (Ref sig .tc) := [main_v227, main_v228, main_v229, main_v230, main_v231, main_v232, main_v233, main_v234, main_v235, main_call20_cst, main_call20_v0, main_v236, main_v237]

theorem conn20_writes : (conn20 : List (HloOp τ sig (Elt F))).Forall fun op =>
    op.writes ⊆ (conn20_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 20 does not write keeps its contents through it. -/
theorem conn20_keep (V : Valuation τ sig (Elt F)) (r : Ref sig .tc) (h : r ∉ conn20_W) :
    after conn20 V (Proc.devRef .tc r) = V (Proc.devRef .tc r) :=
  after_of_writes_sub conn20 V conn20_writes h

/-- Connection 20 leaves in its last buffer the accumulator it read plus its message. -/
theorem conn20_out (V : Valuation τ sig (Elt F)) :
    after conn20 V (Proc.devRef (τ := τ) .tc main_v237)
      = addf (V (Proc.devRef (τ := τ) .tc main_v193)) (refMsg (V (Proc.devRef (τ := τ) .tc main_v160))
          (extractStridedSlice S1x64x64 ![20, 0, 0] (V (Proc.devRef (τ := τ) .tc main_arg1)) slices_S28x64x64_S1x64x64_20_0_0)
          (extractStridedSlice S1x64 ![20, 0] (V (Proc.devRef (τ := τ) .tc main_arg2)) slices_S28x64_S1x64_20_0)) := by
  after_results_simp <;> rfl

theorem conn20_sub : (conn20 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn20_fresh : ∀ op ∈ (conn20 : List (HloOp τ sig (Elt F))), op.fresh = ∅ := by
  intro _ h; (repeat (cases h with | head => rfl | tail _ h => ?_)); exact nomatch h

end Cert.ReferenceIdeal.RefValue

end
-- ==== Proof.RefConn3.lean ====
/-
  Connections 21 … 27. What one connection's thirteen operations do to the buffers, for any contents before them: the last buffer
  receives the accumulator read plus the connection's message, and every buffer outside the thirteen is kept.
-/
import proofs.«164341_j31275951850011_2_alg».proof.Proof.RefOps
import proofs.«164341_j31275951850011_2_alg».proof.Proof.RefMsg

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! ### Connection 21 -/

/-- The buffers connection 21 writes. -/
abbrev conn21_W : List (Ref sig .tc) := [main_v238, main_v239, main_v240, main_v241, main_v242, main_v243, main_v244, main_v245, main_v246, main_call21_cst, main_call21_v0, main_v247, main_v248]

theorem conn21_writes : (conn21 : List (HloOp τ sig (Elt F))).Forall fun op =>
    op.writes ⊆ (conn21_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 21 does not write keeps its contents through it. -/
theorem conn21_keep (V : Valuation τ sig (Elt F)) (r : Ref sig .tc) (h : r ∉ conn21_W) :
    after conn21 V (Proc.devRef .tc r) = V (Proc.devRef .tc r) :=
  after_of_writes_sub conn21 V conn21_writes h

/-- Connection 21 leaves in its last buffer the accumulator it read plus its message. -/
theorem conn21_out (V : Valuation τ sig (Elt F)) :
    after conn21 V (Proc.devRef (τ := τ) .tc main_v248)
      = addf (V (Proc.devRef (τ := τ) .tc main_v204)) (refMsg (V (Proc.devRef (τ := τ) .tc main_v160))
          (extractStridedSlice S1x64x64 ![21, 0, 0] (V (Proc.devRef (τ := τ) .tc main_arg1)) slices_S28x64x64_S1x64x64_21_0_0)
          (extractStridedSlice S1x64 ![21, 0] (V (Proc.devRef (τ := τ) .tc main_arg2)) slices_S28x64_S1x64_21_0)) := by
  after_results_simp <;> rfl

theorem conn21_sub : (conn21 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn21_fresh : ∀ op ∈ (conn21 : List (HloOp τ sig (Elt F))), op.fresh = ∅ := by
  intro _ h; (repeat (cases h with | head => rfl | tail _ h => ?_)); exact nomatch h

/-! ### Connection 22 -/

/-- The buffers connection 22 writes. -/
abbrev conn22_W : List (Ref sig .tc) := [main_v249, main_v250, main_v251, main_v252, main_v253, main_v254, main_v255, main_v256, main_v257, main_call22_cst, main_call22_v0, main_v258, main_v259]

theorem conn22_writes : (conn22 : List (HloOp τ sig (Elt F))).Forall fun op =>
    op.writes ⊆ (conn22_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 22 does not write keeps its contents through it. -/
theorem conn22_keep (V : Valuation τ sig (Elt F)) (r : Ref sig .tc) (h : r ∉ conn22_W) :
    after conn22 V (Proc.devRef .tc r) = V (Proc.devRef .tc r) :=
  after_of_writes_sub conn22 V conn22_writes h

/-- Connection 22 leaves in its last buffer the accumulator it read plus its message. -/
theorem conn22_out (V : Valuation τ sig (Elt F)) :
    after conn22 V (Proc.devRef (τ := τ) .tc main_v259)
      = addf (V (Proc.devRef (τ := τ) .tc main_v226)) (refMsg (V (Proc.devRef (τ := τ) .tc main_v215))
          (extractStridedSlice S1x64x64 ![22, 0, 0] (V (Proc.devRef (τ := τ) .tc main_arg1)) slices_S28x64x64_S1x64x64_22_0_0)
          (extractStridedSlice S1x64 ![22, 0] (V (Proc.devRef (τ := τ) .tc main_arg2)) slices_S28x64_S1x64_22_0)) := by
  after_results_simp <;> rfl

theorem conn22_sub : (conn22 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn22_fresh : ∀ op ∈ (conn22 : List (HloOp τ sig (Elt F))), op.fresh = ∅ := by
  intro _ h; (repeat (cases h with | head => rfl | tail _ h => ?_)); exact nomatch h

/-! ### Connection 23 -/

/-- The buffers connection 23 writes. -/
abbrev conn23_W : List (Ref sig .tc) := [main_v260, main_v261, main_v262, main_v263, main_v264, main_v265, main_v266, main_v267, main_v268, main_call23_cst, main_call23_v0, main_v269, main_v270]

theorem conn23_writes : (conn23 : List (HloOp τ sig (Elt F))).Forall fun op =>
    op.writes ⊆ (conn23_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 23 does not write keeps its contents through it. -/
theorem conn23_keep (V : Valuation τ sig (Elt F)) (r : Ref sig .tc) (h : r ∉ conn23_W) :
    after conn23 V (Proc.devRef .tc r) = V (Proc.devRef .tc r) :=
  after_of_writes_sub conn23 V conn23_writes h

/-- Connection 23 leaves in its last buffer the accumulator it read plus its message. -/
theorem conn23_out (V : Valuation τ sig (Elt F)) :
    after conn23 V (Proc.devRef (τ := τ) .tc main_v270)
      = addf (V (Proc.devRef (τ := τ) .tc main_v237)) (refMsg (V (Proc.devRef (τ := τ) .tc main_v215))
          (extractStridedSlice S1x64x64 ![23, 0, 0] (V (Proc.devRef (τ := τ) .tc main_arg1)) slices_S28x64x64_S1x64x64_23_0_0)
          (extractStridedSlice S1x64 ![23, 0] (V (Proc.devRef (τ := τ) .tc main_arg2)) slices_S28x64_S1x64_23_0)) := by
  after_results_simp <;> rfl

theorem conn23_sub : (conn23 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn23_fresh : ∀ op ∈ (conn23 : List (HloOp τ sig (Elt F))), op.fresh = ∅ := by
  intro _ h; (repeat (cases h with | head => rfl | tail _ h => ?_)); exact nomatch h

/-! ### Connection 24 -/

/-- The buffers connection 24 writes. -/
abbrev conn24_W : List (Ref sig .tc) := [main_v271, main_v272, main_v273, main_v274, main_v275, main_v276, main_v277, main_v278, main_v279, main_call24_cst, main_call24_v0, main_v280, main_v281]

theorem conn24_writes : (conn24 : List (HloOp τ sig (Elt F))).Forall fun op =>
    op.writes ⊆ (conn24_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 24 does not write keeps its contents through it. -/
theorem conn24_keep (V : Valuation τ sig (Elt F)) (r : Ref sig .tc) (h : r ∉ conn24_W) :
    after conn24 V (Proc.devRef .tc r) = V (Proc.devRef .tc r) :=
  after_of_writes_sub conn24 V conn24_writes h

/-- Connection 24 leaves in its last buffer the accumulator it read plus its message. -/
theorem conn24_out (V : Valuation τ sig (Elt F)) :
    after conn24 V (Proc.devRef (τ := τ) .tc main_v281)
      = addf (V (Proc.devRef (τ := τ) .tc main_v248)) (refMsg (V (Proc.devRef (τ := τ) .tc main_v215))
          (extractStridedSlice S1x64x64 ![24, 0, 0] (V (Proc.devRef (τ := τ) .tc main_arg1)) slices_S28x64x64_S1x64x64_24_0_0)
          (extractStridedSlice S1x64 ![24, 0] (V (Proc.devRef (τ := τ) .tc main_arg2)) slices_S28x64_S1x64_24_0)) := by
  after_results_simp <;> rfl

theorem conn24_sub : (conn24 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn24_fresh : ∀ op ∈ (conn24 : List (HloOp τ sig (Elt F))), op.fresh = ∅ := by
  intro _ h; (repeat (cases h with | head => rfl | tail _ h => ?_)); exact nomatch h

/-! ### Connection 25 -/

/-- The buffers connection 25 writes. -/
abbrev conn25_W : List (Ref sig .tc) := [main_v282, main_v283, main_v284, main_v285, main_v286, main_v287, main_v288, main_v289, main_v290, main_call25_cst, main_call25_v0, main_v291, main_v292]

theorem conn25_writes : (conn25 : List (HloOp τ sig (Elt F))).Forall fun op =>
    op.writes ⊆ (conn25_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 25 does not write keeps its contents through it. -/
theorem conn25_keep (V : Valuation τ sig (Elt F)) (r : Ref sig .tc) (h : r ∉ conn25_W) :
    after conn25 V (Proc.devRef .tc r) = V (Proc.devRef .tc r) :=
  after_of_writes_sub conn25 V conn25_writes h

/-- Connection 25 leaves in its last buffer the accumulator it read plus its message. -/
theorem conn25_out (V : Valuation τ sig (Elt F)) :
    after conn25 V (Proc.devRef (τ := τ) .tc main_v292)
      = addf (V (Proc.devRef (τ := τ) .tc main_v270)) (refMsg (V (Proc.devRef (τ := τ) .tc main_v259))
          (extractStridedSlice S1x64x64 ![25, 0, 0] (V (Proc.devRef (τ := τ) .tc main_arg1)) slices_S28x64x64_S1x64x64_25_0_0)
          (extractStridedSlice S1x64 ![25, 0] (V (Proc.devRef (τ := τ) .tc main_arg2)) slices_S28x64_S1x64_25_0)) := by
  after_results_simp <;> rfl

theorem conn25_sub : (conn25 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn25_fresh : ∀ op ∈ (conn25 : List (HloOp τ sig (Elt F))), op.fresh = ∅ := by
  intro _ h; (repeat (cases h with | head => rfl | tail _ h => ?_)); exact nomatch h

/-! ### Connection 26 -/

/-- The buffers connection 26 writes. -/
abbrev conn26_W : List (Ref sig .tc) := [main_v293, main_v294, main_v295, main_v296, main_v297, main_v298, main_v299, main_v300, main_v301, main_call26_cst, main_call26_v0, main_v302, main_v303]

theorem conn26_writes : (conn26 : List (HloOp τ sig (Elt F))).Forall fun op =>
    op.writes ⊆ (conn26_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 26 does not write keeps its contents through it. -/
theorem conn26_keep (V : Valuation τ sig (Elt F)) (r : Ref sig .tc) (h : r ∉ conn26_W) :
    after conn26 V (Proc.devRef .tc r) = V (Proc.devRef .tc r) :=
  after_of_writes_sub conn26 V conn26_writes h

/-- Connection 26 leaves in its last buffer the accumulator it read plus its message. -/
theorem conn26_out (V : Valuation τ sig (Elt F)) :
    after conn26 V (Proc.devRef (τ := τ) .tc main_v303)
      = addf (V (Proc.devRef (τ := τ) .tc main_v281)) (refMsg (V (Proc.devRef (τ := τ) .tc main_v259))
          (extractStridedSlice S1x64x64 ![26, 0, 0] (V (Proc.devRef (τ := τ) .tc main_arg1)) slices_S28x64x64_S1x64x64_26_0_0)
          (extractStridedSlice S1x64 ![26, 0] (V (Proc.devRef (τ := τ) .tc main_arg2)) slices_S28x64_S1x64_26_0)) := by
  after_results_simp <;> rfl

theorem conn26_sub : (conn26 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn26_fresh : ∀ op ∈ (conn26 : List (HloOp τ sig (Elt F))), op.fresh = ∅ := by
  intro _ h; (repeat (cases h with | head => rfl | tail _ h => ?_)); exact nomatch h

/-! ### Connection 27 -/

/-- The buffers connection 27 writes. -/
abbrev conn27_W : List (Ref sig .tc) := [main_v304, main_v305, main_v306, main_v307, main_v308, main_v309, main_v310, main_v311, main_v312, main_call27_cst, main_call27_v0, main_v313, main_v314]

theorem conn27_writes : (conn27 : List (HloOp τ sig (Elt F))).Forall fun op =>
    op.writes ⊆ (conn27_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer connection 27 does not write keeps its contents through it. -/
theorem conn27_keep (V : Valuation τ sig (Elt F)) (r : Ref sig .tc) (h : r ∉ conn27_W) :
    after conn27 V (Proc.devRef .tc r) = V (Proc.devRef .tc r) :=
  after_of_writes_sub conn27 V conn27_writes h

/-- Connection 27 leaves in its last buffer the accumulator it read plus its message. -/
theorem conn27_out (V : Valuation τ sig (Elt F)) :
    after conn27 V (Proc.devRef (τ := τ) .tc main_v314)
      = addf (V (Proc.devRef (τ := τ) .tc main_v303)) (refMsg (V (Proc.devRef (τ := τ) .tc main_v292))
          (extractStridedSlice S1x64x64 ![27, 0, 0] (V (Proc.devRef (τ := τ) .tc main_arg1)) slices_S28x64x64_S1x64x64_27_0_0)
          (extractStridedSlice S1x64 ![27, 0] (V (Proc.devRef (τ := τ) .tc main_arg2)) slices_S28x64_S1x64_27_0)) := by
  after_results_simp <;> rfl

theorem conn27_sub : (conn27 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem conn27_fresh : ∀ op ∈ (conn27 : List (HloOp τ sig (Elt F))), op.fresh = ∅ := by
  intro _ h; (repeat (cases h with | head => rfl | tail _ h => ?_)); exact nomatch h

end Cert.ReferenceIdeal.RefValue

end
-- ==== Proof.RefConn.lean ====
/-
  The connections' lemmas gathered, and the same two side facts for the zero arrays' operations.
-/
import proofs.«164341_j31275951850011_2_alg».proof.Proof.RefConn0
import proofs.«164341_j31275951850011_2_alg».proof.Proof.RefConn1
import proofs.«164341_j31275951850011_2_alg».proof.Proof.RefConn2
import proofs.«164341_j31275951850011_2_alg».proof.Proof.RefConn3

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

theorem init_sub : (init : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub ..⟩

theorem init_fresh : ∀ op ∈ (init : List (HloOp τ sig (Elt F))), op.fresh = ∅ := by
  intro _ h; (repeat (cases h with | head => rfl | tail _ h => ?_)); exact nomatch h

end Cert.ReferenceIdeal.RefValue

end
-- ==== Proof.RefLayers.lean ====
/-
  The layers of the reference as arrays, each named once, and the program stepped through its connections.

  `A_j_i` is layer `j`'s sum after the messages from sources `0 … i`: the previous partial sum (the zero array for
  `i = 0`) plus the message of the connection from layer `i`, whose source is layer `i` complete (`A_i_(i-1)`, or
  the input for `i = 0`). The invariant `Inv k` says, for buffer contents `V`, that after the first `k` connections the
  three arguments are untouched and each layer's current buffer holds its named partial sum; each connection moves
  it one step, so after all twenty-eight the result buffer holds `A_7_6`.
-/
import proofs.«164341_j31275951850011_2_alg».proof.Proof.RefConn

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The fold over two lines in a row is the fold over the second of the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

section Arrays
variable (x : (⟨S262144x64, .f32⟩ : BufTy).Contents (Elt F)) (W : (⟨S28x64x64, .f32⟩ : BufTy).Contents (Elt F)) (B : (⟨S28x64, .f32⟩ : BufTy).Contents (Elt F))

/-- Layer 1 after the messages from sources 0 … 0. -/
def A_1_0 : (⟨S262144x64, .f32⟩ : BufTy).Contents (Elt F) :=
  addf zeros (refMsg x (extractStridedSlice S1x64x64 ![0, 0, 0] W slices_S28x64x64_S1x64x64_0_0_0) (extractStridedSlice S1x64 ![0, 0] B slices_S28x64_S1x64_0_0))

/-- Layer 2 after the messages from sources 0 … 0. -/
def A_2_0 : (⟨S262144x64, .f32⟩ : BufTy).Contents (Elt F) :=
  addf zeros (refMsg x (extractStridedSlice S1x64x64 ![1, 0, 0] W slices_S28x64x64_S1x64x64_1_0_0) (extractStridedSlice S1x64 ![1, 0] B slices_S28x64_S1x64_1_0))

/-- Layer 3 after the messages from sources 0 … 0. -/
def A_3_0 : (⟨S262144x64, .f32⟩ : BufTy).Contents (Elt F) :=
  addf zeros (refMsg x (extractStridedSlice S1x64x64 ![2, 0, 0] W slices_S28x64x64_S1x64x64_2_0_0) (extractStridedSlice S1x64 ![2, 0] B slices_S28x64_S1x64_2_0))

/-- Layer 4 after the messages from sources 0 … 0. -/
def A_4_0 : (⟨S262144x64, .f32⟩ : BufTy).Contents (Elt F) :=
  addf zeros (refMsg x (extractStridedSlice S1x64x64 ![3, 0, 0] W slices_S28x64x64_S1x64x64_3_0_0) (extractStridedSlice S1x64 ![3, 0] B slices_S28x64_S1x64_3_0))

/-- Layer 5 after the messages from sources 0 … 0. -/
def A_5_0 : (⟨S262144x64, .f32⟩ : BufTy).Contents (Elt F) :=
  addf zeros (refMsg x (extractStridedSlice S1x64x64 ![4, 0, 0] W slices_S28x64x64_S1x64x64_4_0_0) (extractStridedSlice S1x64 ![4, 0] B slices_S28x64_S1x64_4_0))

/-- Layer 6 after the messages from sources 0 … 0. -/
def A_6_0 : (⟨S262144x64, .f32⟩ : BufTy).Contents (Elt F) :=
  addf zeros (refMsg x (extractStridedSlice S1x64x64 ![5, 0, 0] W slices_S28x64x64_S1x64x64_5_0_0) (extractStridedSlice S1x64 ![5, 0] B slices_S28x64_S1x64_5_0))

/-- Layer 7 after the messages from sources 0 … 0. -/
def A_7_0 : (⟨S262144x64, .f32⟩ : BufTy).Contents (Elt F) :=
  addf zeros (refMsg x (extractStridedSlice S1x64x64 ![6, 0, 0] W slices_S28x64x64_S1x64x64_6_0_0) (extractStridedSlice S1x64 ![6, 0] B slices_S28x64_S1x64_6_0))

/-- Layer 2 after the messages from sources 0 … 1. -/
def A_2_1 : (⟨S262144x64, .f32⟩ : BufTy).Contents (Elt F) :=
  addf (A_2_0 x W B) (refMsg (A_1_0 x W B) (extractStridedSlice S1x64x64 ![7, 0, 0] W slices_S28x64x64_S1x64x64_7_0_0) (extractStridedSlice S1x64 ![7, 0] B slices_S28x64_S1x64_7_0))

/-- Layer 3 after the messages from sources 0 … 1. -/
def A_3_1 : (⟨S262144x64, .f32⟩ : BufTy).Contents (Elt F) :=
  addf (A_3_0 x W B) (refMsg (A_1_0 x W B) (extractStridedSlice S1x64x64 ![8, 0, 0] W slices_S28x64x64_S1x64x64_8_0_0) (extractStridedSlice S1x64 ![8, 0] B slices_S28x64_S1x64_8_0))

/-- Layer 4 after the messages from sources 0 … 1. -/
def A_4_1 : (⟨S262144x64, .f32⟩ : BufTy).Contents (Elt F) :=
  addf (A_4_0 x W B) (refMsg (A_1_0 x W B) (extractStridedSlice S1x64x64 ![9, 0, 0] W slices_S28x64x64_S1x64x64_9_0_0) (extractStridedSlice S1x64 ![9, 0] B slices_S28x64_S1x64_9_0))

/-- Layer 5 after the messages from sources 0 … 1. -/
def A_5_1 : (⟨S262144x64, .f32⟩ : BufTy).Contents (Elt F) :=
  addf (A_5_0 x W B) (refMsg (A_1_0 x W B) (extractStridedSlice S1x64x64 ![10, 0, 0] W slices_S28x64x64_S1x64x64_10_0_0) (extractStridedSlice S1x64 ![10, 0] B slices_S28x64_S1x64_10_0))

/-- Layer 6 after the messages from sources 0 … 1. -/
def A_6_1 : (⟨S262144x64, .f32⟩ : BufTy).Contents (Elt F) :=
  addf (A_6_0 x W B) (refMsg (A_1_0 x W B) (extractStridedSlice S1x64x64 ![11, 0, 0] W slices_S28x64x64_S1x64x64_11_0_0) (extractStridedSlice S1x64 ![11, 0] B slices_S28x64_S1x64_11_0))

/-- Layer 7 after the messages from sources 0 … 1. -/
def A_7_1 : (⟨S262144x64, .f32⟩ : BufTy).Contents (Elt F) :=
  addf (A_7_0 x W B) (refMsg (A_1_0 x W B) (extractStridedSlice S1x64x64 ![12, 0, 0] W slices_S28x64x64_S1x64x64_12_0_0) (extractStridedSlice S1x64 ![12, 0] B slices_S28x64_S1x64_12_0))

/-- Layer 3 after the messages from sources 0 … 2. -/
def A_3_2 : (⟨S262144x64, .f32⟩ : BufTy).Contents (Elt F) :=
  addf (A_3_1 x W B) (refMsg (A_2_1 x W B) (extractStridedSlice S1x64x64 ![13, 0, 0] W slices_S28x64x64_S1x64x64_13_0_0) (extractStridedSlice S1x64 ![13, 0] B slices_S28x64_S1x64_13_0))

/-- Layer 4 after the messages from sources 0 … 2. -/
def A_4_2 : (⟨S262144x64, .f32⟩ : BufTy).Contents (Elt F) :=
  addf (A_4_1 x W B) (refMsg (A_2_1 x W B) (extractStridedSlice S1x64x64 ![14, 0, 0] W slices_S28x64x64_S1x64x64_14_0_0) (extractStridedSlice S1x64 ![14, 0] B slices_S28x64_S1x64_14_0))

/-- Layer 5 after the messages from sources 0 … 2. -/
def A_5_2 : (⟨S262144x64, .f32⟩ : BufTy).Contents (Elt F) :=
  addf (A_5_1 x W B) (refMsg (A_2_1 x W B) (extractStridedSlice S1x64x64 ![15, 0, 0] W slices_S28x64x64_S1x64x64_15_0_0) (extractStridedSlice S1x64 ![15, 0] B slices_S28x64_S1x64_15_0))

/-- Layer 6 after the messages from sources 0 … 2. -/
def A_6_2 : (⟨S262144x64, .f32⟩ : BufTy).Contents (Elt F) :=
  addf (A_6_1 x W B) (refMsg (A_2_1 x W B) (extractStridedSlice S1x64x64 ![16, 0, 0] W slices_S28x64x64_S1x64x64_16_0_0) (extractStridedSlice S1x64 ![16, 0] B slices_S28x64_S1x64_16_0))

/-- Layer 7 after the messages from sources 0 … 2. -/
def A_7_2 : (⟨S262144x64, .f32⟩ : BufTy).Contents (Elt F) :=
  addf (A_7_1 x W B) (refMsg (A_2_1 x W B) (extractStridedSlice S1x64x64 ![17, 0, 0] W slices_S28x64x64_S1x64x64_17_0_0) (extractStridedSlice S1x64 ![17, 0] B slices_S28x64_S1x64_17_0))

/-- Layer 4 after the messages from sources 0 … 3. -/
def A_4_3 : (⟨S262144x64, .f32⟩ : BufTy).Contents (Elt F) :=
  addf (A_4_2 x W B) (refMsg (A_3_2 x W B) (extractStridedSlice S1x64x64 ![18, 0, 0] W slices_S28x64x64_S1x64x64_18_0_0) (extractStridedSlice S1x64 ![18, 0] B slices_S28x64_S1x64_18_0))

/-- Layer 5 after the messages from sources 0 … 3. -/
def A_5_3 : (⟨S262144x64, .f32⟩ : BufTy).Contents (Elt F) :=
  addf (A_5_2 x W B) (refMsg (A_3_2 x W B) (extractStridedSlice S1x64x64 ![19, 0, 0] W slices_S28x64x64_S1x64x64_19_0_0) (extractStridedSlice S1x64 ![19, 0] B slices_S28x64_S1x64_19_0))

/-- Layer 6 after the messages from sources 0 … 3. -/
def A_6_3 : (⟨S262144x64, .f32⟩ : BufTy).Contents (Elt F) :=
  addf (A_6_2 x W B) (refMsg (A_3_2 x W B) (extractStridedSlice S1x64x64 ![20, 0, 0] W slices_S28x64x64_S1x64x64_20_0_0) (extractStridedSlice S1x64 ![20, 0] B slices_S28x64_S1x64_20_0))

/-- Layer 7 after the messages from sources 0 … 3. -/
def A_7_3 : (⟨S262144x64, .f32⟩ : BufTy).Contents (Elt F) :=
  addf (A_7_2 x W B) (refMsg (A_3_2 x W B) (extractStridedSlice S1x64x64 ![21, 0, 0] W slices_S28x64x64_S1x64x64_21_0_0) (extractStridedSlice S1x64 ![21, 0] B slices_S28x64_S1x64_21_0))

/-- Layer 5 after the messages from sources 0 … 4. -/
def A_5_4 : (⟨S262144x64, .f32⟩ : BufTy).Contents (Elt F) :=
  addf (A_5_3 x W B) (refMsg (A_4_3 x W B) (extractStridedSlice S1x64x64 ![22, 0, 0] W slices_S28x64x64_S1x64x64_22_0_0) (extractStridedSlice S1x64 ![22, 0] B slices_S28x64_S1x64_22_0))

/-- Layer 6 after the messages from sources 0 … 4. -/
def A_6_4 : (⟨S262144x64, .f32⟩ : BufTy).Contents (Elt F) :=
  addf (A_6_3 x W B) (refMsg (A_4_3 x W B) (extractStridedSlice S1x64x64 ![23, 0, 0] W slices_S28x64x64_S1x64x64_23_0_0) (extractStridedSlice S1x64 ![23, 0] B slices_S28x64_S1x64_23_0))

/-- Layer 7 after the messages from sources 0 … 4. -/
def A_7_4 : (⟨S262144x64, .f32⟩ : BufTy).Contents (Elt F) :=
  addf (A_7_3 x W B) (refMsg (A_4_3 x W B) (extractStridedSlice S1x64x64 ![24, 0, 0] W slices_S28x64x64_S1x64x64_24_0_0) (extractStridedSlice S1x64 ![24, 0] B slices_S28x64_S1x64_24_0))

/-- Layer 6 after the messages from sources 0 … 5. -/
def A_6_5 : (⟨S262144x64, .f32⟩ : BufTy).Contents (Elt F) :=
  addf (A_6_4 x W B) (refMsg (A_5_4 x W B) (extractStridedSlice S1x64x64 ![25, 0, 0] W slices_S28x64x64_S1x64x64_25_0_0) (extractStridedSlice S1x64 ![25, 0] B slices_S28x64_S1x64_25_0))

/-- Layer 7 after the messages from sources 0 … 5. -/
def A_7_5 : (⟨S262144x64, .f32⟩ : BufTy).Contents (Elt F) :=
  addf (A_7_4 x W B) (refMsg (A_5_4 x W B) (extractStridedSlice S1x64x64 ![26, 0, 0] W slices_S28x64x64_S1x64x64_26_0_0) (extractStridedSlice S1x64 ![26, 0] B slices_S28x64_S1x64_26_0))

/-- Layer 7 after the messages from sources 0 … 6. -/
def A_7_6 : (⟨S262144x64, .f32⟩ : BufTy).Contents (Elt F) :=
  addf (A_7_5 x W B) (refMsg (A_6_5 x W B) (extractStridedSlice S1x64x64 ![27, 0, 0] W slices_S28x64x64_S1x64x64_27_0_0) (extractStridedSlice S1x64 ![27, 0] B slices_S28x64_S1x64_27_0))

end Arrays

/-- After 0 connections: the arguments untouched, each layer's current buffer at its partial sum. -/
def Inv0 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v0) = zeros
    ∧ V (Proc.devRef (τ := τ) .tc main_v1) = zeros
    ∧ V (Proc.devRef (τ := τ) .tc main_v2) = zeros
    ∧ V (Proc.devRef (τ := τ) .tc main_v3) = zeros
    ∧ V (Proc.devRef (τ := τ) .tc main_v4) = zeros
    ∧ V (Proc.devRef (τ := τ) .tc main_v5) = zeros
    ∧ V (Proc.devRef (τ := τ) .tc main_v6) = zeros

/-- After 1 connection: the arguments untouched, each layer's current buffer at its partial sum. -/
def Inv1 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v1) = zeros
    ∧ V (Proc.devRef (τ := τ) .tc main_v2) = zeros
    ∧ V (Proc.devRef (τ := τ) .tc main_v3) = zeros
    ∧ V (Proc.devRef (τ := τ) .tc main_v4) = zeros
    ∧ V (Proc.devRef (τ := τ) .tc main_v5) = zeros
    ∧ V (Proc.devRef (τ := τ) .tc main_v6) = zeros

/-- After 2 connections: the arguments untouched, each layer's current buffer at its partial sum. -/
def Inv2 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v28) = (A_2_0 x W B)
    ∧ V (Proc.devRef (τ := τ) .tc main_v2) = zeros
    ∧ V (Proc.devRef (τ := τ) .tc main_v3) = zeros
    ∧ V (Proc.devRef (τ := τ) .tc main_v4) = zeros
    ∧ V (Proc.devRef (τ := τ) .tc main_v5) = zeros
    ∧ V (Proc.devRef (τ := τ) .tc main_v6) = zeros

/-- After 3 connections: the arguments untouched, each layer's current buffer at its partial sum. -/
def Inv3 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v28) = (A_2_0 x W B)
    ∧ V (Proc.devRef (τ := τ) .tc main_v39) = (A_3_0 x W B)
    ∧ V (Proc.devRef (τ := τ) .tc main_v3) = zeros
    ∧ V (Proc.devRef (τ := τ) .tc main_v4) = zeros
    ∧ V (Proc.devRef (τ := τ) .tc main_v5) = zeros
    ∧ V (Proc.devRef (τ := τ) .tc main_v6) = zeros

/-- After 4 connections: the arguments untouched, each layer's current buffer at its partial sum. -/
def Inv4 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v28) = (A_2_0 x W B)
    ∧ V (Proc.devRef (τ := τ) .tc main_v39) = (A_3_0 x W B)
    ∧ V (Proc.devRef (τ := τ) .tc main_v50) = (A_4_0 x W B)
    ∧ V (Proc.devRef (τ := τ) .tc main_v4) = zeros
    ∧ V (Proc.devRef (τ := τ) .tc main_v5) = zeros
    ∧ V (Proc.devRef (τ := τ) .tc main_v6) = zeros

/-- After 5 connections: the arguments untouched, each layer's current buffer at its partial sum. -/
def Inv5 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v28) = (A_2_0 x W B)
    ∧ V (Proc.devRef (τ := τ) .tc main_v39) = (A_3_0 x W B)
    ∧ V (Proc.devRef (τ := τ) .tc main_v50) = (A_4_0 x W B)
    ∧ V (Proc.devRef (τ := τ) .tc main_v61) = (A_5_0 x W B)
    ∧ V (Proc.devRef (τ := τ) .tc main_v5) = zeros
    ∧ V (Proc.devRef (τ := τ) .tc main_v6) = zeros

/-- After 6 connections: the arguments untouched, each layer's current buffer at its partial sum. -/
def Inv6 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v28) = (A_2_0 x W B)
    ∧ V (Proc.devRef (τ := τ) .tc main_v39) = (A_3_0 x W B)
    ∧ V (Proc.devRef (τ := τ) .tc main_v50) = (A_4_0 x W B)
    ∧ V (Proc.devRef (τ := τ) .tc main_v61) = (A_5_0 x W B)
    ∧ V (Proc.devRef (τ := τ) .tc main_v72) = (A_6_0 x W B)
    ∧ V (Proc.devRef (τ := τ) .tc main_v6) = zeros

/-- After 7 connections: the arguments untouched, each layer's current buffer at its partial sum. -/
def Inv7 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v28) = (A_2_0 x W B)
    ∧ V (Proc.devRef (τ := τ) .tc main_v39) = (A_3_0 x W B)
    ∧ V (Proc.devRef (τ := τ) .tc main_v50) = (A_4_0 x W B)
    ∧ V (Proc.devRef (τ := τ) .tc main_v61) = (A_5_0 x W B)
    ∧ V (Proc.devRef (τ := τ) .tc main_v72) = (A_6_0 x W B)
    ∧ V (Proc.devRef (τ := τ) .tc main_v83) = (A_7_0 x W B)

/-- After 8 connections: the arguments untouched, each layer's current buffer at its partial sum. -/
def Inv8 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v39) = (A_3_0 x W B)
    ∧ V (Proc.devRef (τ := τ) .tc main_v50) = (A_4_0 x W B)
    ∧ V (Proc.devRef (τ := τ) .tc main_v61) = (A_5_0 x W B)
    ∧ V (Proc.devRef (τ := τ) .tc main_v72) = (A_6_0 x W B)
    ∧ V (Proc.devRef (τ := τ) .tc main_v83) = (A_7_0 x W B)

/-- After 9 connections: the arguments untouched, each layer's current buffer at its partial sum. -/
def Inv9 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v105) = (A_3_1 x W B)
    ∧ V (Proc.devRef (τ := τ) .tc main_v50) = (A_4_0 x W B)
    ∧ V (Proc.devRef (τ := τ) .tc main_v61) = (A_5_0 x W B)
    ∧ V (Proc.devRef (τ := τ) .tc main_v72) = (A_6_0 x W B)
    ∧ V (Proc.devRef (τ := τ) .tc main_v83) = (A_7_0 x W B)

/-- After 10 connections: the arguments untouched, each layer's current buffer at its partial sum. -/
def Inv10 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v105) = (A_3_1 x W B)
    ∧ V (Proc.devRef (τ := τ) .tc main_v116) = (A_4_1 x W B)
    ∧ V (Proc.devRef (τ := τ) .tc main_v61) = (A_5_0 x W B)
    ∧ V (Proc.devRef (τ := τ) .tc main_v72) = (A_6_0 x W B)
    ∧ V (Proc.devRef (τ := τ) .tc main_v83) = (A_7_0 x W B)

/-- After 11 connections: the arguments untouched, each layer's current buffer at its partial sum. -/
def Inv11 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v105) = (A_3_1 x W B)
    ∧ V (Proc.devRef (τ := τ) .tc main_v116) = (A_4_1 x W B)
    ∧ V (Proc.devRef (τ := τ) .tc main_v127) = (A_5_1 x W B)
    ∧ V (Proc.devRef (τ := τ) .tc main_v72) = (A_6_0 x W B)
    ∧ V (Proc.devRef (τ := τ) .tc main_v83) = (A_7_0 x W B)

/-- After 12 connections: the arguments untouched, each layer's current buffer at its partial sum. -/
def Inv12 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v105) = (A_3_1 x W B)
    ∧ V (Proc.devRef (τ := τ) .tc main_v116) = (A_4_1 x W B)
    ∧ V (Proc.devRef (τ := τ) .tc main_v127) = (A_5_1 x W B)
    ∧ V (Proc.devRef (τ := τ) .tc main_v138) = (A_6_1 x W B)
    ∧ V (Proc.devRef (τ := τ) .tc main_v83) = (A_7_0 x W B)

/-- After 13 connections: the arguments untouched, each layer's current buffer at its partial sum. -/
def Inv13 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v105) = (A_3_1 x W B)
    ∧ V (Proc.devRef (τ := τ) .tc main_v116) = (A_4_1 x W B)
    ∧ V (Proc.devRef (τ := τ) .tc main_v127) = (A_5_1 x W B)
    ∧ V (Proc.devRef (τ := τ) .tc main_v138) = (A_6_1 x W B)
    ∧ V (Proc.devRef (τ := τ) .tc main_v149) = (A_7_1 x W B)

/-- After 14 connections: the arguments untouched, each layer's current buffer at its partial sum. -/
def Inv14 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v116) = (A_4_1 x W B)
    ∧ V (Proc.devRef (τ := τ) .tc main_v127) = (A_5_1 x W B)
    ∧ V (Proc.devRef (τ := τ) .tc main_v138) = (A_6_1 x W B)
    ∧ V (Proc.devRef (τ := τ) .tc main_v149) = (A_7_1 x W B)

/-- After 15 connections: the arguments untouched, each layer's current buffer at its partial sum. -/
def Inv15 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v171) = (A_4_2 x W B)
    ∧ V (Proc.devRef (τ := τ) .tc main_v127) = (A_5_1 x W B)
    ∧ V (Proc.devRef (τ := τ) .tc main_v138) = (A_6_1 x W B)
    ∧ V (Proc.devRef (τ := τ) .tc main_v149) = (A_7_1 x W B)

/-- After 16 connections: the arguments untouched, each layer's current buffer at its partial sum. -/
def Inv16 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v171) = (A_4_2 x W B)
    ∧ V (Proc.devRef (τ := τ) .tc main_v182) = (A_5_2 x W B)
    ∧ V (Proc.devRef (τ := τ) .tc main_v138) = (A_6_1 x W B)
    ∧ V (Proc.devRef (τ := τ) .tc main_v149) = (A_7_1 x W B)

/-- After 17 connections: the arguments untouched, each layer's current buffer at its partial sum. -/
def Inv17 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v171) = (A_4_2 x W B)
    ∧ V (Proc.devRef (τ := τ) .tc main_v182) = (A_5_2 x W B)
    ∧ V (Proc.devRef (τ := τ) .tc main_v193) = (A_6_2 x W B)
    ∧ V (Proc.devRef (τ := τ) .tc main_v149) = (A_7_1 x W B)

/-- After 18 connections: the arguments untouched, each layer's current buffer at its partial sum. -/
def Inv18 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v171) = (A_4_2 x W B)
    ∧ V (Proc.devRef (τ := τ) .tc main_v182) = (A_5_2 x W B)
    ∧ V (Proc.devRef (τ := τ) .tc main_v193) = (A_6_2 x W B)
    ∧ V (Proc.devRef (τ := τ) .tc main_v204) = (A_7_2 x W B)

/-- After 19 connections: the arguments untouched, each layer's current buffer at its partial sum. -/
def Inv19 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v215) = (A_4_3 x W B)
    ∧ V (Proc.devRef (τ := τ) .tc main_v182) = (A_5_2 x W B)
    ∧ V (Proc.devRef (τ := τ) .tc main_v193) = (A_6_2 x W B)
    ∧ V (Proc.devRef (τ := τ) .tc main_v204) = (A_7_2 x W B)

/-- After 20 connections: the arguments untouched, each layer's current buffer at its partial sum. -/
def Inv20 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v215) = (A_4_3 x W B)
    ∧ V (Proc.devRef (τ := τ) .tc main_v226) = (A_5_3 x W B)
    ∧ V (Proc.devRef (τ := τ) .tc main_v193) = (A_6_2 x W B)
    ∧ V (Proc.devRef (τ := τ) .tc main_v204) = (A_7_2 x W B)

/-- After 21 connections: the arguments untouched, each layer's current buffer at its partial sum. -/
def Inv21 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v215) = (A_4_3 x W B)
    ∧ V (Proc.devRef (τ := τ) .tc main_v226) = (A_5_3 x W B)
    ∧ V (Proc.devRef (τ := τ) .tc main_v237) = (A_6_3 x W B)
    ∧ V (Proc.devRef (τ := τ) .tc main_v204) = (A_7_2 x W B)

/-- After 22 connections: the arguments untouched, each layer's current buffer at its partial sum. -/
def Inv22 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v215) = (A_4_3 x W B)
    ∧ V (Proc.devRef (τ := τ) .tc main_v226) = (A_5_3 x W B)
    ∧ V (Proc.devRef (τ := τ) .tc main_v237) = (A_6_3 x W B)
    ∧ V (Proc.devRef (τ := τ) .tc main_v248) = (A_7_3 x W B)

/-- After 23 connections: the arguments untouched, each layer's current buffer at its partial sum. -/
def Inv23 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v215) = (A_4_3 x W B)
    ∧ V (Proc.devRef (τ := τ) .tc main_v259) = (A_5_4 x W B)
    ∧ V (Proc.devRef (τ := τ) .tc main_v237) = (A_6_3 x W B)
    ∧ V (Proc.devRef (τ := τ) .tc main_v248) = (A_7_3 x W B)

/-- After 24 connections: the arguments untouched, each layer's current buffer at its partial sum. -/
def Inv24 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v215) = (A_4_3 x W B)
    ∧ V (Proc.devRef (τ := τ) .tc main_v259) = (A_5_4 x W B)
    ∧ V (Proc.devRef (τ := τ) .tc main_v270) = (A_6_4 x W B)
    ∧ V (Proc.devRef (τ := τ) .tc main_v248) = (A_7_3 x W B)

/-- After 25 connections: the arguments untouched, each layer's current buffer at its partial sum. -/
def Inv25 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v215) = (A_4_3 x W B)
    ∧ V (Proc.devRef (τ := τ) .tc main_v259) = (A_5_4 x W B)
    ∧ V (Proc.devRef (τ := τ) .tc main_v270) = (A_6_4 x W B)
    ∧ V (Proc.devRef (τ := τ) .tc main_v281) = (A_7_4 x W B)

/-- After 26 connections: the arguments untouched, each layer's current buffer at its partial sum. -/
def Inv26 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v215) = (A_4_3 x W B)
    ∧ V (Proc.devRef (τ := τ) .tc main_v259) = (A_5_4 x W B)
    ∧ V (Proc.devRef (τ := τ) .tc main_v292) = (A_6_5 x W B)
    ∧ V (Proc.devRef (τ := τ) .tc main_v281) = (A_7_4 x W B)

/-- After 27 connections: the arguments untouched, each layer's current buffer at its partial sum. -/
def Inv27 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v215) = (A_4_3 x W B)
    ∧ V (Proc.devRef (τ := τ) .tc main_v259) = (A_5_4 x W B)
    ∧ V (Proc.devRef (τ := τ) .tc main_v292) = (A_6_5 x W B)
    ∧ V (Proc.devRef (τ := τ) .tc main_v303) = (A_7_5 x W B)

/-- After 28 connections: the arguments untouched, each layer's current buffer at its partial sum. -/
def Inv28 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F)) : Prop :=
  V (Proc.devRef (τ := τ) .tc main_arg0) = x ∧ V (Proc.devRef (τ := τ) .tc main_arg1) = W ∧ V (Proc.devRef (τ := τ) .tc main_arg2) = B
    ∧ V (Proc.devRef (τ := τ) .tc main_v17) = (A_1_0 x W B)
    ∧ V (Proc.devRef (τ := τ) .tc main_v94) = (A_2_1 x W B)
    ∧ V (Proc.devRef (τ := τ) .tc main_v160) = (A_3_2 x W B)
    ∧ V (Proc.devRef (τ := τ) .tc main_v215) = (A_4_3 x W B)
    ∧ V (Proc.devRef (τ := τ) .tc main_v259) = (A_5_4 x W B)
    ∧ V (Proc.devRef (τ := τ) .tc main_v292) = (A_6_5 x W B)
    ∧ V (Proc.devRef (τ := τ) .tc main_v314) = (A_7_6 x W B)

/-- The zero arrays: after the first fourteen operations every layer's buffer holds the zero array. -/
theorem inv0 (V : Valuation τ sig (Elt F)) :
    Inv0 (after init V) (V (Proc.devRef (τ := τ) .tc main_arg0)) (V (Proc.devRef (τ := τ) .tc main_arg1)) (V (Proc.devRef (τ := τ) .tc main_arg2)) := by
  refine ⟨?_, ?_, ?_, ?_, ?_, ?_, ?_, ?_, ?_, ?_⟩ <;> (after_results_simp <;> rfl)

/-- Connection 0 (layer 0 into layer 1). -/
theorem step0 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv0 V x W B) : Inv1 (after conn0 V) x W B := by
  obtain ⟨h0, h1, h2, a1, a2, a3, a4, a5, a6, a7⟩ := h
  refine ⟨(conn0_keep V main_arg0 (by decide)).trans h0,
    (conn0_keep V main_arg1 (by decide)).trans h1,
    (conn0_keep V main_arg2 (by decide)).trans h2,
    ?_,
    (conn0_keep V main_v1 (by decide)).trans a2,
    (conn0_keep V main_v2 (by decide)).trans a3,
    (conn0_keep V main_v3 (by decide)).trans a4,
    (conn0_keep V main_v4 (by decide)).trans a5,
    (conn0_keep V main_v5 (by decide)).trans a6,
    (conn0_keep V main_v6 (by decide)).trans a7⟩
  rw [conn0_out V, a1, h0, h1, h2]
  rfl

/-- Connection 1 (layer 0 into layer 2). -/
theorem step1 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv1 V x W B) : Inv2 (after conn1 V) x W B := by
  obtain ⟨h0, h1, h2, a1, a2, a3, a4, a5, a6, a7⟩ := h
  refine ⟨(conn1_keep V main_arg0 (by decide)).trans h0,
    (conn1_keep V main_arg1 (by decide)).trans h1,
    (conn1_keep V main_arg2 (by decide)).trans h2,
    (conn1_keep V main_v17 (by decide)).trans a1,
    ?_,
    (conn1_keep V main_v2 (by decide)).trans a3,
    (conn1_keep V main_v3 (by decide)).trans a4,
    (conn1_keep V main_v4 (by decide)).trans a5,
    (conn1_keep V main_v5 (by decide)).trans a6,
    (conn1_keep V main_v6 (by decide)).trans a7⟩
  rw [conn1_out V, a2, h0, h1, h2]
  rfl

/-- Connection 2 (layer 0 into layer 3). -/
theorem step2 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv2 V x W B) : Inv3 (after conn2 V) x W B := by
  obtain ⟨h0, h1, h2, a1, a2, a3, a4, a5, a6, a7⟩ := h
  refine ⟨(conn2_keep V main_arg0 (by decide)).trans h0,
    (conn2_keep V main_arg1 (by decide)).trans h1,
    (conn2_keep V main_arg2 (by decide)).trans h2,
    (conn2_keep V main_v17 (by decide)).trans a1,
    (conn2_keep V main_v28 (by decide)).trans a2,
    ?_,
    (conn2_keep V main_v3 (by decide)).trans a4,
    (conn2_keep V main_v4 (by decide)).trans a5,
    (conn2_keep V main_v5 (by decide)).trans a6,
    (conn2_keep V main_v6 (by decide)).trans a7⟩
  rw [conn2_out V, a3, h0, h1, h2]
  rfl

/-- Connection 3 (layer 0 into layer 4). -/
theorem step3 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv3 V x W B) : Inv4 (after conn3 V) x W B := by
  obtain ⟨h0, h1, h2, a1, a2, a3, a4, a5, a6, a7⟩ := h
  refine ⟨(conn3_keep V main_arg0 (by decide)).trans h0,
    (conn3_keep V main_arg1 (by decide)).trans h1,
    (conn3_keep V main_arg2 (by decide)).trans h2,
    (conn3_keep V main_v17 (by decide)).trans a1,
    (conn3_keep V main_v28 (by decide)).trans a2,
    (conn3_keep V main_v39 (by decide)).trans a3,
    ?_,
    (conn3_keep V main_v4 (by decide)).trans a5,
    (conn3_keep V main_v5 (by decide)).trans a6,
    (conn3_keep V main_v6 (by decide)).trans a7⟩
  rw [conn3_out V, a4, h0, h1, h2]
  rfl

/-- Connection 4 (layer 0 into layer 5). -/
theorem step4 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv4 V x W B) : Inv5 (after conn4 V) x W B := by
  obtain ⟨h0, h1, h2, a1, a2, a3, a4, a5, a6, a7⟩ := h
  refine ⟨(conn4_keep V main_arg0 (by decide)).trans h0,
    (conn4_keep V main_arg1 (by decide)).trans h1,
    (conn4_keep V main_arg2 (by decide)).trans h2,
    (conn4_keep V main_v17 (by decide)).trans a1,
    (conn4_keep V main_v28 (by decide)).trans a2,
    (conn4_keep V main_v39 (by decide)).trans a3,
    (conn4_keep V main_v50 (by decide)).trans a4,
    ?_,
    (conn4_keep V main_v5 (by decide)).trans a6,
    (conn4_keep V main_v6 (by decide)).trans a7⟩
  rw [conn4_out V, a5, h0, h1, h2]
  rfl

/-- Connection 5 (layer 0 into layer 6). -/
theorem step5 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv5 V x W B) : Inv6 (after conn5 V) x W B := by
  obtain ⟨h0, h1, h2, a1, a2, a3, a4, a5, a6, a7⟩ := h
  refine ⟨(conn5_keep V main_arg0 (by decide)).trans h0,
    (conn5_keep V main_arg1 (by decide)).trans h1,
    (conn5_keep V main_arg2 (by decide)).trans h2,
    (conn5_keep V main_v17 (by decide)).trans a1,
    (conn5_keep V main_v28 (by decide)).trans a2,
    (conn5_keep V main_v39 (by decide)).trans a3,
    (conn5_keep V main_v50 (by decide)).trans a4,
    (conn5_keep V main_v61 (by decide)).trans a5,
    ?_,
    (conn5_keep V main_v6 (by decide)).trans a7⟩
  rw [conn5_out V, a6, h0, h1, h2]
  rfl

/-- Connection 6 (layer 0 into layer 7). -/
theorem step6 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv6 V x W B) : Inv7 (after conn6 V) x W B := by
  obtain ⟨h0, h1, h2, a1, a2, a3, a4, a5, a6, a7⟩ := h
  refine ⟨(conn6_keep V main_arg0 (by decide)).trans h0,
    (conn6_keep V main_arg1 (by decide)).trans h1,
    (conn6_keep V main_arg2 (by decide)).trans h2,
    (conn6_keep V main_v17 (by decide)).trans a1,
    (conn6_keep V main_v28 (by decide)).trans a2,
    (conn6_keep V main_v39 (by decide)).trans a3,
    (conn6_keep V main_v50 (by decide)).trans a4,
    (conn6_keep V main_v61 (by decide)).trans a5,
    (conn6_keep V main_v72 (by decide)).trans a6,
    ?_⟩
  rw [conn6_out V, a7, h0, h1, h2]
  rfl

/-- Connection 7 (layer 1 into layer 2). -/
theorem step7 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv7 V x W B) : Inv8 (after conn7 V) x W B := by
  obtain ⟨h0, h1, h2, a1, a2, a3, a4, a5, a6, a7⟩ := h
  refine ⟨(conn7_keep V main_arg0 (by decide)).trans h0,
    (conn7_keep V main_arg1 (by decide)).trans h1,
    (conn7_keep V main_arg2 (by decide)).trans h2,
    (conn7_keep V main_v17 (by decide)).trans a1,
    ?_,
    (conn7_keep V main_v39 (by decide)).trans a3,
    (conn7_keep V main_v50 (by decide)).trans a4,
    (conn7_keep V main_v61 (by decide)).trans a5,
    (conn7_keep V main_v72 (by decide)).trans a6,
    (conn7_keep V main_v83 (by decide)).trans a7⟩
  rw [conn7_out V, a2, a1, h1, h2]
  rfl

/-- Connection 8 (layer 1 into layer 3). -/
theorem step8 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv8 V x W B) : Inv9 (after conn8 V) x W B := by
  obtain ⟨h0, h1, h2, a1, a2, a3, a4, a5, a6, a7⟩ := h
  refine ⟨(conn8_keep V main_arg0 (by decide)).trans h0,
    (conn8_keep V main_arg1 (by decide)).trans h1,
    (conn8_keep V main_arg2 (by decide)).trans h2,
    (conn8_keep V main_v17 (by decide)).trans a1,
    (conn8_keep V main_v94 (by decide)).trans a2,
    ?_,
    (conn8_keep V main_v50 (by decide)).trans a4,
    (conn8_keep V main_v61 (by decide)).trans a5,
    (conn8_keep V main_v72 (by decide)).trans a6,
    (conn8_keep V main_v83 (by decide)).trans a7⟩
  rw [conn8_out V, a3, a1, h1, h2]
  rfl

/-- Connection 9 (layer 1 into layer 4). -/
theorem step9 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv9 V x W B) : Inv10 (after conn9 V) x W B := by
  obtain ⟨h0, h1, h2, a1, a2, a3, a4, a5, a6, a7⟩ := h
  refine ⟨(conn9_keep V main_arg0 (by decide)).trans h0,
    (conn9_keep V main_arg1 (by decide)).trans h1,
    (conn9_keep V main_arg2 (by decide)).trans h2,
    (conn9_keep V main_v17 (by decide)).trans a1,
    (conn9_keep V main_v94 (by decide)).trans a2,
    (conn9_keep V main_v105 (by decide)).trans a3,
    ?_,
    (conn9_keep V main_v61 (by decide)).trans a5,
    (conn9_keep V main_v72 (by decide)).trans a6,
    (conn9_keep V main_v83 (by decide)).trans a7⟩
  rw [conn9_out V, a4, a1, h1, h2]
  rfl

/-- Connection 10 (layer 1 into layer 5). -/
theorem step10 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv10 V x W B) : Inv11 (after conn10 V) x W B := by
  obtain ⟨h0, h1, h2, a1, a2, a3, a4, a5, a6, a7⟩ := h
  refine ⟨(conn10_keep V main_arg0 (by decide)).trans h0,
    (conn10_keep V main_arg1 (by decide)).trans h1,
    (conn10_keep V main_arg2 (by decide)).trans h2,
    (conn10_keep V main_v17 (by decide)).trans a1,
    (conn10_keep V main_v94 (by decide)).trans a2,
    (conn10_keep V main_v105 (by decide)).trans a3,
    (conn10_keep V main_v116 (by decide)).trans a4,
    ?_,
    (conn10_keep V main_v72 (by decide)).trans a6,
    (conn10_keep V main_v83 (by decide)).trans a7⟩
  rw [conn10_out V, a5, a1, h1, h2]
  rfl

/-- Connection 11 (layer 1 into layer 6). -/
theorem step11 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv11 V x W B) : Inv12 (after conn11 V) x W B := by
  obtain ⟨h0, h1, h2, a1, a2, a3, a4, a5, a6, a7⟩ := h
  refine ⟨(conn11_keep V main_arg0 (by decide)).trans h0,
    (conn11_keep V main_arg1 (by decide)).trans h1,
    (conn11_keep V main_arg2 (by decide)).trans h2,
    (conn11_keep V main_v17 (by decide)).trans a1,
    (conn11_keep V main_v94 (by decide)).trans a2,
    (conn11_keep V main_v105 (by decide)).trans a3,
    (conn11_keep V main_v116 (by decide)).trans a4,
    (conn11_keep V main_v127 (by decide)).trans a5,
    ?_,
    (conn11_keep V main_v83 (by decide)).trans a7⟩
  rw [conn11_out V, a6, a1, h1, h2]
  rfl

/-- Connection 12 (layer 1 into layer 7). -/
theorem step12 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv12 V x W B) : Inv13 (after conn12 V) x W B := by
  obtain ⟨h0, h1, h2, a1, a2, a3, a4, a5, a6, a7⟩ := h
  refine ⟨(conn12_keep V main_arg0 (by decide)).trans h0,
    (conn12_keep V main_arg1 (by decide)).trans h1,
    (conn12_keep V main_arg2 (by decide)).trans h2,
    (conn12_keep V main_v17 (by decide)).trans a1,
    (conn12_keep V main_v94 (by decide)).trans a2,
    (conn12_keep V main_v105 (by decide)).trans a3,
    (conn12_keep V main_v116 (by decide)).trans a4,
    (conn12_keep V main_v127 (by decide)).trans a5,
    (conn12_keep V main_v138 (by decide)).trans a6,
    ?_⟩
  rw [conn12_out V, a7, a1, h1, h2]
  rfl

/-- Connection 13 (layer 2 into layer 3). -/
theorem step13 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv13 V x W B) : Inv14 (after conn13 V) x W B := by
  obtain ⟨h0, h1, h2, a1, a2, a3, a4, a5, a6, a7⟩ := h
  refine ⟨(conn13_keep V main_arg0 (by decide)).trans h0,
    (conn13_keep V main_arg1 (by decide)).trans h1,
    (conn13_keep V main_arg2 (by decide)).trans h2,
    (conn13_keep V main_v17 (by decide)).trans a1,
    (conn13_keep V main_v94 (by decide)).trans a2,
    ?_,
    (conn13_keep V main_v116 (by decide)).trans a4,
    (conn13_keep V main_v127 (by decide)).trans a5,
    (conn13_keep V main_v138 (by decide)).trans a6,
    (conn13_keep V main_v149 (by decide)).trans a7⟩
  rw [conn13_out V, a3, a2, h1, h2]
  rfl

/-- Connection 14 (layer 2 into layer 4). -/
theorem step14 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv14 V x W B) : Inv15 (after conn14 V) x W B := by
  obtain ⟨h0, h1, h2, a1, a2, a3, a4, a5, a6, a7⟩ := h
  refine ⟨(conn14_keep V main_arg0 (by decide)).trans h0,
    (conn14_keep V main_arg1 (by decide)).trans h1,
    (conn14_keep V main_arg2 (by decide)).trans h2,
    (conn14_keep V main_v17 (by decide)).trans a1,
    (conn14_keep V main_v94 (by decide)).trans a2,
    (conn14_keep V main_v160 (by decide)).trans a3,
    ?_,
    (conn14_keep V main_v127 (by decide)).trans a5,
    (conn14_keep V main_v138 (by decide)).trans a6,
    (conn14_keep V main_v149 (by decide)).trans a7⟩
  rw [conn14_out V, a4, a2, h1, h2]
  rfl

/-- Connection 15 (layer 2 into layer 5). -/
theorem step15 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv15 V x W B) : Inv16 (after conn15 V) x W B := by
  obtain ⟨h0, h1, h2, a1, a2, a3, a4, a5, a6, a7⟩ := h
  refine ⟨(conn15_keep V main_arg0 (by decide)).trans h0,
    (conn15_keep V main_arg1 (by decide)).trans h1,
    (conn15_keep V main_arg2 (by decide)).trans h2,
    (conn15_keep V main_v17 (by decide)).trans a1,
    (conn15_keep V main_v94 (by decide)).trans a2,
    (conn15_keep V main_v160 (by decide)).trans a3,
    (conn15_keep V main_v171 (by decide)).trans a4,
    ?_,
    (conn15_keep V main_v138 (by decide)).trans a6,
    (conn15_keep V main_v149 (by decide)).trans a7⟩
  rw [conn15_out V, a5, a2, h1, h2]
  rfl

/-- Connection 16 (layer 2 into layer 6). -/
theorem step16 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv16 V x W B) : Inv17 (after conn16 V) x W B := by
  obtain ⟨h0, h1, h2, a1, a2, a3, a4, a5, a6, a7⟩ := h
  refine ⟨(conn16_keep V main_arg0 (by decide)).trans h0,
    (conn16_keep V main_arg1 (by decide)).trans h1,
    (conn16_keep V main_arg2 (by decide)).trans h2,
    (conn16_keep V main_v17 (by decide)).trans a1,
    (conn16_keep V main_v94 (by decide)).trans a2,
    (conn16_keep V main_v160 (by decide)).trans a3,
    (conn16_keep V main_v171 (by decide)).trans a4,
    (conn16_keep V main_v182 (by decide)).trans a5,
    ?_,
    (conn16_keep V main_v149 (by decide)).trans a7⟩
  rw [conn16_out V, a6, a2, h1, h2]
  rfl

/-- Connection 17 (layer 2 into layer 7). -/
theorem step17 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv17 V x W B) : Inv18 (after conn17 V) x W B := by
  obtain ⟨h0, h1, h2, a1, a2, a3, a4, a5, a6, a7⟩ := h
  refine ⟨(conn17_keep V main_arg0 (by decide)).trans h0,
    (conn17_keep V main_arg1 (by decide)).trans h1,
    (conn17_keep V main_arg2 (by decide)).trans h2,
    (conn17_keep V main_v17 (by decide)).trans a1,
    (conn17_keep V main_v94 (by decide)).trans a2,
    (conn17_keep V main_v160 (by decide)).trans a3,
    (conn17_keep V main_v171 (by decide)).trans a4,
    (conn17_keep V main_v182 (by decide)).trans a5,
    (conn17_keep V main_v193 (by decide)).trans a6,
    ?_⟩
  rw [conn17_out V, a7, a2, h1, h2]
  rfl

/-- Connection 18 (layer 3 into layer 4). -/
theorem step18 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv18 V x W B) : Inv19 (after conn18 V) x W B := by
  obtain ⟨h0, h1, h2, a1, a2, a3, a4, a5, a6, a7⟩ := h
  refine ⟨(conn18_keep V main_arg0 (by decide)).trans h0,
    (conn18_keep V main_arg1 (by decide)).trans h1,
    (conn18_keep V main_arg2 (by decide)).trans h2,
    (conn18_keep V main_v17 (by decide)).trans a1,
    (conn18_keep V main_v94 (by decide)).trans a2,
    (conn18_keep V main_v160 (by decide)).trans a3,
    ?_,
    (conn18_keep V main_v182 (by decide)).trans a5,
    (conn18_keep V main_v193 (by decide)).trans a6,
    (conn18_keep V main_v204 (by decide)).trans a7⟩
  rw [conn18_out V, a4, a3, h1, h2]
  rfl

/-- Connection 19 (layer 3 into layer 5). -/
theorem step19 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv19 V x W B) : Inv20 (after conn19 V) x W B := by
  obtain ⟨h0, h1, h2, a1, a2, a3, a4, a5, a6, a7⟩ := h
  refine ⟨(conn19_keep V main_arg0 (by decide)).trans h0,
    (conn19_keep V main_arg1 (by decide)).trans h1,
    (conn19_keep V main_arg2 (by decide)).trans h2,
    (conn19_keep V main_v17 (by decide)).trans a1,
    (conn19_keep V main_v94 (by decide)).trans a2,
    (conn19_keep V main_v160 (by decide)).trans a3,
    (conn19_keep V main_v215 (by decide)).trans a4,
    ?_,
    (conn19_keep V main_v193 (by decide)).trans a6,
    (conn19_keep V main_v204 (by decide)).trans a7⟩
  rw [conn19_out V, a5, a3, h1, h2]
  rfl

/-- Connection 20 (layer 3 into layer 6). -/
theorem step20 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv20 V x W B) : Inv21 (after conn20 V) x W B := by
  obtain ⟨h0, h1, h2, a1, a2, a3, a4, a5, a6, a7⟩ := h
  refine ⟨(conn20_keep V main_arg0 (by decide)).trans h0,
    (conn20_keep V main_arg1 (by decide)).trans h1,
    (conn20_keep V main_arg2 (by decide)).trans h2,
    (conn20_keep V main_v17 (by decide)).trans a1,
    (conn20_keep V main_v94 (by decide)).trans a2,
    (conn20_keep V main_v160 (by decide)).trans a3,
    (conn20_keep V main_v215 (by decide)).trans a4,
    (conn20_keep V main_v226 (by decide)).trans a5,
    ?_,
    (conn20_keep V main_v204 (by decide)).trans a7⟩
  rw [conn20_out V, a6, a3, h1, h2]
  rfl

/-- Connection 21 (layer 3 into layer 7). -/
theorem step21 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv21 V x W B) : Inv22 (after conn21 V) x W B := by
  obtain ⟨h0, h1, h2, a1, a2, a3, a4, a5, a6, a7⟩ := h
  refine ⟨(conn21_keep V main_arg0 (by decide)).trans h0,
    (conn21_keep V main_arg1 (by decide)).trans h1,
    (conn21_keep V main_arg2 (by decide)).trans h2,
    (conn21_keep V main_v17 (by decide)).trans a1,
    (conn21_keep V main_v94 (by decide)).trans a2,
    (conn21_keep V main_v160 (by decide)).trans a3,
    (conn21_keep V main_v215 (by decide)).trans a4,
    (conn21_keep V main_v226 (by decide)).trans a5,
    (conn21_keep V main_v237 (by decide)).trans a6,
    ?_⟩
  rw [conn21_out V, a7, a3, h1, h2]
  rfl

/-- Connection 22 (layer 4 into layer 5). -/
theorem step22 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv22 V x W B) : Inv23 (after conn22 V) x W B := by
  obtain ⟨h0, h1, h2, a1, a2, a3, a4, a5, a6, a7⟩ := h
  refine ⟨(conn22_keep V main_arg0 (by decide)).trans h0,
    (conn22_keep V main_arg1 (by decide)).trans h1,
    (conn22_keep V main_arg2 (by decide)).trans h2,
    (conn22_keep V main_v17 (by decide)).trans a1,
    (conn22_keep V main_v94 (by decide)).trans a2,
    (conn22_keep V main_v160 (by decide)).trans a3,
    (conn22_keep V main_v215 (by decide)).trans a4,
    ?_,
    (conn22_keep V main_v237 (by decide)).trans a6,
    (conn22_keep V main_v248 (by decide)).trans a7⟩
  rw [conn22_out V, a5, a4, h1, h2]
  rfl

/-- Connection 23 (layer 4 into layer 6). -/
theorem step23 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv23 V x W B) : Inv24 (after conn23 V) x W B := by
  obtain ⟨h0, h1, h2, a1, a2, a3, a4, a5, a6, a7⟩ := h
  refine ⟨(conn23_keep V main_arg0 (by decide)).trans h0,
    (conn23_keep V main_arg1 (by decide)).trans h1,
    (conn23_keep V main_arg2 (by decide)).trans h2,
    (conn23_keep V main_v17 (by decide)).trans a1,
    (conn23_keep V main_v94 (by decide)).trans a2,
    (conn23_keep V main_v160 (by decide)).trans a3,
    (conn23_keep V main_v215 (by decide)).trans a4,
    (conn23_keep V main_v259 (by decide)).trans a5,
    ?_,
    (conn23_keep V main_v248 (by decide)).trans a7⟩
  rw [conn23_out V, a6, a4, h1, h2]
  rfl

/-- Connection 24 (layer 4 into layer 7). -/
theorem step24 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv24 V x W B) : Inv25 (after conn24 V) x W B := by
  obtain ⟨h0, h1, h2, a1, a2, a3, a4, a5, a6, a7⟩ := h
  refine ⟨(conn24_keep V main_arg0 (by decide)).trans h0,
    (conn24_keep V main_arg1 (by decide)).trans h1,
    (conn24_keep V main_arg2 (by decide)).trans h2,
    (conn24_keep V main_v17 (by decide)).trans a1,
    (conn24_keep V main_v94 (by decide)).trans a2,
    (conn24_keep V main_v160 (by decide)).trans a3,
    (conn24_keep V main_v215 (by decide)).trans a4,
    (conn24_keep V main_v259 (by decide)).trans a5,
    (conn24_keep V main_v270 (by decide)).trans a6,
    ?_⟩
  rw [conn24_out V, a7, a4, h1, h2]
  rfl

/-- Connection 25 (layer 5 into layer 6). -/
theorem step25 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv25 V x W B) : Inv26 (after conn25 V) x W B := by
  obtain ⟨h0, h1, h2, a1, a2, a3, a4, a5, a6, a7⟩ := h
  refine ⟨(conn25_keep V main_arg0 (by decide)).trans h0,
    (conn25_keep V main_arg1 (by decide)).trans h1,
    (conn25_keep V main_arg2 (by decide)).trans h2,
    (conn25_keep V main_v17 (by decide)).trans a1,
    (conn25_keep V main_v94 (by decide)).trans a2,
    (conn25_keep V main_v160 (by decide)).trans a3,
    (conn25_keep V main_v215 (by decide)).trans a4,
    (conn25_keep V main_v259 (by decide)).trans a5,
    ?_,
    (conn25_keep V main_v281 (by decide)).trans a7⟩
  rw [conn25_out V, a6, a5, h1, h2]
  rfl

/-- Connection 26 (layer 5 into layer 7). -/
theorem step26 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv26 V x W B) : Inv27 (after conn26 V) x W B := by
  obtain ⟨h0, h1, h2, a1, a2, a3, a4, a5, a6, a7⟩ := h
  refine ⟨(conn26_keep V main_arg0 (by decide)).trans h0,
    (conn26_keep V main_arg1 (by decide)).trans h1,
    (conn26_keep V main_arg2 (by decide)).trans h2,
    (conn26_keep V main_v17 (by decide)).trans a1,
    (conn26_keep V main_v94 (by decide)).trans a2,
    (conn26_keep V main_v160 (by decide)).trans a3,
    (conn26_keep V main_v215 (by decide)).trans a4,
    (conn26_keep V main_v259 (by decide)).trans a5,
    (conn26_keep V main_v292 (by decide)).trans a6,
    ?_⟩
  rw [conn26_out V, a7, a5, h1, h2]
  rfl

/-- Connection 27 (layer 6 into layer 7). -/
theorem step27 (V : Valuation τ sig (Elt F)) (x : (⟨S262144x64, .f32⟩ : BufTy).Contents (Elt F)) (W : (⟨S28x64x64, .f32⟩ : BufTy).Contents (Elt F)) (B : (⟨S28x64, .f32⟩ : BufTy).Contents (Elt F))
    (h : Inv27 V x W B) : Inv28 (after conn27 V) x W B := by
  obtain ⟨h0, h1, h2, a1, a2, a3, a4, a5, a6, a7⟩ := h
  refine ⟨(conn27_keep V main_arg0 (by decide)).trans h0,
    (conn27_keep V main_arg1 (by decide)).trans h1,
    (conn27_keep V main_arg2 (by decide)).trans h2,
    (conn27_keep V main_v17 (by decide)).trans a1,
    (conn27_keep V main_v94 (by decide)).trans a2,
    (conn27_keep V main_v160 (by decide)).trans a3,
    (conn27_keep V main_v215 (by decide)).trans a4,
    (conn27_keep V main_v259 (by decide)).trans a5,
    (conn27_keep V main_v292 (by decide)).trans a6,
    ?_⟩
  rw [conn27_out V, a7, a6, h1, h2]
  rfl

/-- The whole program's fold, connection by connection. -/
theorem after_full (V : Valuation τ sig (Elt F)) :
    after full V = (after conn27 (after conn26 (after conn25 (after conn24 (after conn23 (after conn22 (after conn21 (after conn20 (after conn19 (after conn18 (after conn17 (after conn16 (after conn15 (after conn14 (after conn13 (after conn12 (after conn11 (after conn10 (after conn9 (after conn8 (after conn7 (after conn6 (after conn5 (after conn4 (after conn3 (after conn2 (after conn1 (after conn0 (after init V))))))))))))))))))))))))))))) := by
  unfold full
  simp only [after_append]

/-- After the whole program: the arguments untouched and every layer's last buffer at the layer. -/
theorem inv_full (V : Valuation τ sig (Elt F)) :
    Inv28 (after full V) (V (Proc.devRef (τ := τ) .tc main_arg0)) (V (Proc.devRef (τ := τ) .tc main_arg1)) (V (Proc.devRef (τ := τ) .tc main_arg2)) := by
  rw [after_full]
  exact (step27 _ _ _ _ (step26 _ _ _ _ (step25 _ _ _ _ (step24 _ _ _ _ (step23 _ _ _ _ (step22 _ _ _ _ (step21 _ _ _ _ (step20 _ _ _ _ (step19 _ _ _ _ (step18 _ _ _ _ (step17 _ _ _ _ (step16 _ _ _ _ (step15 _ _ _ _ (step14 _ _ _ _ (step13 _ _ _ _ (step12 _ _ _ _ (step11 _ _ _ _ (step10 _ _ _ _ (step9 _ _ _ _ (step8 _ _ _ _ (step7 _ _ _ _ (step6 _ _ _ _ (step5 _ _ _ _ (step4 _ _ _ _ (step3 _ _ _ _ (step2 _ _ _ _ (step1 _ _ _ _ (step0 _ _ _ _ (inv0 V)))))))))))))))))))))))))))))

theorem full_sub : (full : List (HloOp τ sig (Elt F))).Forall fun op => op.bufs ⊆ tcRefs τ sig := by
  unfold full
  simp only [List.forall_append]
  exact ⟨init_sub, conn0_sub, conn1_sub, conn2_sub, conn3_sub, conn4_sub, conn5_sub, conn6_sub, conn7_sub, conn8_sub, conn9_sub, conn10_sub, conn11_sub, conn12_sub, conn13_sub, conn14_sub, conn15_sub, conn16_sub, conn17_sub, conn18_sub, conn19_sub, conn20_sub, conn21_sub, conn22_sub, conn23_sub, conn24_sub, conn25_sub, conn26_sub, conn27_sub⟩

theorem full_fresh : ∀ op ∈ (full : List (HloOp τ sig (Elt F))), op.fresh = ∅ := by
  intro op h
  unfold full at h
  simp only [List.mem_append] at h
  rcases h with h | h | h | h | h | h | h | h | h | h | h | h | h | h | h | h | h | h | h | h | h | h | h | h | h | h | h | h | h
  · exact init_fresh op h
  · exact conn0_fresh op h
  · exact conn1_fresh op h
  · exact conn2_fresh op h
  · exact conn3_fresh op h
  · exact conn4_fresh op h
  · exact conn5_fresh op h
  · exact conn6_fresh op h
  · exact conn7_fresh op h
  · exact conn8_fresh op h
  · exact conn9_fresh op h
  · exact conn10_fresh op h
  · exact conn11_fresh op h
  · exact conn12_fresh op h
  · exact conn13_fresh op h
  · exact conn14_fresh op h
  · exact conn15_fresh op h
  · exact conn16_fresh op h
  · exact conn17_fresh op h
  · exact conn18_fresh op h
  · exact conn19_fresh op h
  · exact conn20_fresh op h
  · exact conn21_fresh op h
  · exact conn22_fresh op h
  · exact conn23_fresh op h
  · exact conn24_fresh op h
  · exact conn25_fresh op h
  · exact conn26_fresh op h
  · exact conn27_fresh op h

end Cert.ReferenceIdeal.RefValue

end
-- ==== Proof.RefIndex.lean ====
/-
  The reference's layers read at an entry: each named partial sum `A_j_i` at batch row `r`, feature `e` is the
  corresponding prefix of the specification's sum for layer `j` of row `r`. Each step adds one message, whose
  source row is an earlier layer already read; nothing is rearranged, so every step closes by unfolding.
-/
import proofs.«164341_j31275951850011_2_alg».proof.Proof.RefLayers
import proofs.«164341_j31275951850011_2_alg».proof.Proof.Layers

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable (x : (⟨S262144x64, .f32⟩ : BufTy).Contents (Elt Ideal)) (W : (⟨S28x64x64, .f32⟩ : BufTy).Contents (Elt Ideal)) (B : (⟨S28x64, .f32⟩ : BufTy).Contents (Elt Ideal))

/-- Layer 1 after sources 0 … 0, at an entry. -/
theorem A_1_0_apply (r : Fin 262144) (e : Fin 64) :
    A_1_0 (F := Ideal) x W B (ValueIdx.ix2 r e)
      = Cert.Layers.Z + Cert.Layers.msg (Cert.Layers.argW W) (Cert.Layers.argB B) 0 (Cert.Layers.row x r) e := by
  unfold A_1_0
  rw [ValueIdx.addf_apply, zeros_apply, refMsg_apply]
  refine congrArg₂ (· + ·) rfl ?_
  refine congrArg₂ max (congrArg₂ (· + ·) (Finset.sum_congr rfl fun k _ => ?_) ?_) rfl
  · rw [sliceW_apply 0 (by decide)]; rfl
  · exact (sliceB_apply 0 (by decide) B _ e).trans rfl

/-- Layer 2 after sources 0 … 0, at an entry. -/
theorem A_2_0_apply (r : Fin 262144) (e : Fin 64) :
    A_2_0 (F := Ideal) x W B (ValueIdx.ix2 r e)
      = Cert.Layers.Z + Cert.Layers.msg (Cert.Layers.argW W) (Cert.Layers.argB B) 1 (Cert.Layers.row x r) e := by
  unfold A_2_0
  rw [ValueIdx.addf_apply, zeros_apply, refMsg_apply]
  refine congrArg₂ (· + ·) rfl ?_
  refine congrArg₂ max (congrArg₂ (· + ·) (Finset.sum_congr rfl fun k _ => ?_) ?_) rfl
  · rw [sliceW_apply 1 (by decide)]; rfl
  · exact (sliceB_apply 1 (by decide) B _ e).trans rfl

/-- Layer 3 after sources 0 … 0, at an entry. -/
theorem A_3_0_apply (r : Fin 262144) (e : Fin 64) :
    A_3_0 (F := Ideal) x W B (ValueIdx.ix2 r e)
      = Cert.Layers.Z + Cert.Layers.msg (Cert.Layers.argW W) (Cert.Layers.argB B) 2 (Cert.Layers.row x r) e := by
  unfold A_3_0
  rw [ValueIdx.addf_apply, zeros_apply, refMsg_apply]
  refine congrArg₂ (· + ·) rfl ?_
  refine congrArg₂ max (congrArg₂ (· + ·) (Finset.sum_congr rfl fun k _ => ?_) ?_) rfl
  · rw [sliceW_apply 2 (by decide)]; rfl
  · exact (sliceB_apply 2 (by decide) B _ e).trans rfl

/-- Layer 4 after sources 0 … 0, at an entry. -/
theorem A_4_0_apply (r : Fin 262144) (e : Fin 64) :
    A_4_0 (F := Ideal) x W B (ValueIdx.ix2 r e)
      = Cert.Layers.Z + Cert.Layers.msg (Cert.Layers.argW W) (Cert.Layers.argB B) 3 (Cert.Layers.row x r) e := by
  unfold A_4_0
  rw [ValueIdx.addf_apply, zeros_apply, refMsg_apply]
  refine congrArg₂ (· + ·) rfl ?_
  refine congrArg₂ max (congrArg₂ (· + ·) (Finset.sum_congr rfl fun k _ => ?_) ?_) rfl
  · rw [sliceW_apply 3 (by decide)]; rfl
  · exact (sliceB_apply 3 (by decide) B _ e).trans rfl

/-- Layer 5 after sources 0 … 0, at an entry. -/
theorem A_5_0_apply (r : Fin 262144) (e : Fin 64) :
    A_5_0 (F := Ideal) x W B (ValueIdx.ix2 r e)
      = Cert.Layers.Z + Cert.Layers.msg (Cert.Layers.argW W) (Cert.Layers.argB B) 4 (Cert.Layers.row x r) e := by
  unfold A_5_0
  rw [ValueIdx.addf_apply, zeros_apply, refMsg_apply]
  refine congrArg₂ (· + ·) rfl ?_
  refine congrArg₂ max (congrArg₂ (· + ·) (Finset.sum_congr rfl fun k _ => ?_) ?_) rfl
  · rw [sliceW_apply 4 (by decide)]; rfl
  · exact (sliceB_apply 4 (by decide) B _ e).trans rfl

/-- Layer 6 after sources 0 … 0, at an entry. -/
theorem A_6_0_apply (r : Fin 262144) (e : Fin 64) :
    A_6_0 (F := Ideal) x W B (ValueIdx.ix2 r e)
      = Cert.Layers.Z + Cert.Layers.msg (Cert.Layers.argW W) (Cert.Layers.argB B) 5 (Cert.Layers.row x r) e := by
  unfold A_6_0
  rw [ValueIdx.addf_apply, zeros_apply, refMsg_apply]
  refine congrArg₂ (· + ·) rfl ?_
  refine congrArg₂ max (congrArg₂ (· + ·) (Finset.sum_congr rfl fun k _ => ?_) ?_) rfl
  · rw [sliceW_apply 5 (by decide)]; rfl
  · exact (sliceB_apply 5 (by decide) B _ e).trans rfl

/-- Layer 7 after sources 0 … 0, at an entry. -/
theorem A_7_0_apply (r : Fin 262144) (e : Fin 64) :
    A_7_0 (F := Ideal) x W B (ValueIdx.ix2 r e)
      = Cert.Layers.Z + Cert.Layers.msg (Cert.Layers.argW W) (Cert.Layers.argB B) 6 (Cert.Layers.row x r) e := by
  unfold A_7_0
  rw [ValueIdx.addf_apply, zeros_apply, refMsg_apply]
  refine congrArg₂ (· + ·) rfl ?_
  refine congrArg₂ max (congrArg₂ (· + ·) (Finset.sum_congr rfl fun k _ => ?_) ?_) rfl
  · rw [sliceW_apply 6 (by decide)]; rfl
  · exact (sliceB_apply 6 (by decide) B _ e).trans rfl

/-- Layer 2 after sources 0 … 1, at an entry. -/
theorem A_2_1_apply (r : Fin 262144) (e : Fin 64) :
    A_2_1 (F := Ideal) x W B (ValueIdx.ix2 r e)
      = Cert.Layers.Z + Cert.Layers.msg (Cert.Layers.argW W) (Cert.Layers.argB B) 1 (Cert.Layers.row x r) e + Cert.Layers.msg (Cert.Layers.argW W) (Cert.Layers.argB B) 7 (Cert.Layers.h1 (Cert.Layers.argW W) (Cert.Layers.argB B) (Cert.Layers.row x r)) e := by
  unfold A_2_1
  rw [ValueIdx.addf_apply, A_2_0_apply, refMsg_apply]
  refine congrArg₂ (· + ·) rfl ?_
  refine congrArg₂ max (congrArg₂ (· + ·) (Finset.sum_congr rfl fun k _ => ?_) ?_) rfl
  · rw [A_1_0_apply, sliceW_apply 7 (by decide)]; rfl
  · exact (sliceB_apply 7 (by decide) B _ e).trans rfl

/-- Layer 3 after sources 0 … 1, at an entry. -/
theorem A_3_1_apply (r : Fin 262144) (e : Fin 64) :
    A_3_1 (F := Ideal) x W B (ValueIdx.ix2 r e)
      = Cert.Layers.Z + Cert.Layers.msg (Cert.Layers.argW W) (Cert.Layers.argB B) 2 (Cert.Layers.row x r) e + Cert.Layers.msg (Cert.Layers.argW W) (Cert.Layers.argB B) 8 (Cert.Layers.h1 (Cert.Layers.argW W) (Cert.Layers.argB B) (Cert.Layers.row x r)) e := by
  unfold A_3_1
  rw [ValueIdx.addf_apply, A_3_0_apply, refMsg_apply]
  refine congrArg₂ (· + ·) rfl ?_
  refine congrArg₂ max (congrArg₂ (· + ·) (Finset.sum_congr rfl fun k _ => ?_) ?_) rfl
  · rw [A_1_0_apply, sliceW_apply 8 (by decide)]; rfl
  · exact (sliceB_apply 8 (by decide) B _ e).trans rfl

/-- Layer 4 after sources 0 … 1, at an entry. -/
theorem A_4_1_apply (r : Fin 262144) (e : Fin 64) :
    A_4_1 (F := Ideal) x W B (ValueIdx.ix2 r e)
      = Cert.Layers.Z + Cert.Layers.msg (Cert.Layers.argW W) (Cert.Layers.argB B) 3 (Cert.Layers.row x r) e + Cert.Layers.msg (Cert.Layers.argW W) (Cert.Layers.argB B) 9 (Cert.Layers.h1 (Cert.Layers.argW W) (Cert.Layers.argB B) (Cert.Layers.row x r)) e := by
  unfold A_4_1
  rw [ValueIdx.addf_apply, A_4_0_apply, refMsg_apply]
  refine congrArg₂ (· + ·) rfl ?_
  refine congrArg₂ max (congrArg₂ (· + ·) (Finset.sum_congr rfl fun k _ => ?_) ?_) rfl
  · rw [A_1_0_apply, sliceW_apply 9 (by decide)]; rfl
  · exact (sliceB_apply 9 (by decide) B _ e).trans rfl

/-- Layer 5 after sources 0 … 1, at an entry. -/
theorem A_5_1_apply (r : Fin 262144) (e : Fin 64) :
    A_5_1 (F := Ideal) x W B (ValueIdx.ix2 r e)
      = Cert.Layers.Z + Cert.Layers.msg (Cert.Layers.argW W) (Cert.Layers.argB B) 4 (Cert.Layers.row x r) e + Cert.Layers.msg (Cert.Layers.argW W) (Cert.Layers.argB B) 10 (Cert.Layers.h1 (Cert.Layers.argW W) (Cert.Layers.argB B) (Cert.Layers.row x r)) e := by
  unfold A_5_1
  rw [ValueIdx.addf_apply, A_5_0_apply, refMsg_apply]
  refine congrArg₂ (· + ·) rfl ?_
  refine congrArg₂ max (congrArg₂ (· + ·) (Finset.sum_congr rfl fun k _ => ?_) ?_) rfl
  · rw [A_1_0_apply, sliceW_apply 10 (by decide)]; rfl
  · exact (sliceB_apply 10 (by decide) B _ e).trans rfl

/-- Layer 6 after sources 0 … 1, at an entry. -/
theorem A_6_1_apply (r : Fin 262144) (e : Fin 64) :
    A_6_1 (F := Ideal) x W B (ValueIdx.ix2 r e)
      = Cert.Layers.Z + Cert.Layers.msg (Cert.Layers.argW W) (Cert.Layers.argB B) 5 (Cert.Layers.row x r) e + Cert.Layers.msg (Cert.Layers.argW W) (Cert.Layers.argB B) 11 (Cert.Layers.h1 (Cert.Layers.argW W) (Cert.Layers.argB B) (Cert.Layers.row x r)) e := by
  unfold A_6_1
  rw [ValueIdx.addf_apply, A_6_0_apply, refMsg_apply]
  refine congrArg₂ (· + ·) rfl ?_
  refine congrArg₂ max (congrArg₂ (· + ·) (Finset.sum_congr rfl fun k _ => ?_) ?_) rfl
  · rw [A_1_0_apply, sliceW_apply 11 (by decide)]; rfl
  · exact (sliceB_apply 11 (by decide) B _ e).trans rfl

/-- Layer 7 after sources 0 … 1, at an entry. -/
theorem A_7_1_apply (r : Fin 262144) (e : Fin 64) :
    A_7_1 (F := Ideal) x W B (ValueIdx.ix2 r e)
      = Cert.Layers.Z + Cert.Layers.msg (Cert.Layers.argW W) (Cert.Layers.argB B) 6 (Cert.Layers.row x r) e + Cert.Layers.msg (Cert.Layers.argW W) (Cert.Layers.argB B) 12 (Cert.Layers.h1 (Cert.Layers.argW W) (Cert.Layers.argB B) (Cert.Layers.row x r)) e := by
  unfold A_7_1
  rw [ValueIdx.addf_apply, A_7_0_apply, refMsg_apply]
  refine congrArg₂ (· + ·) rfl ?_
  refine congrArg₂ max (congrArg₂ (· + ·) (Finset.sum_congr rfl fun k _ => ?_) ?_) rfl
  · rw [A_1_0_apply, sliceW_apply 12 (by decide)]; rfl
  · exact (sliceB_apply 12 (by decide) B _ e).trans rfl

/-- Layer 3 after sources 0 … 2, at an entry. -/
theorem A_3_2_apply (r : Fin 262144) (e : Fin 64) :
    A_3_2 (F := Ideal) x W B (ValueIdx.ix2 r e)
      = Cert.Layers.Z + Cert.Layers.msg (Cert.Layers.argW W) (Cert.Layers.argB B) 2 (Cert.Layers.row x r) e + Cert.Layers.msg (Cert.Layers.argW W) (Cert.Layers.argB B) 8 (Cert.Layers.h1 (Cert.Layers.argW W) (Cert.Layers.argB B) (Cert.Layers.row x r)) e + Cert.Layers.msg (Cert.Layers.argW W) (Cert.Layers.argB B) 13 (Cert.Layers.h2 (Cert.Layers.argW W) (Cert.Layers.argB B) (Cert.Layers.row x r)) e := by
  unfold A_3_2
  rw [ValueIdx.addf_apply, A_3_1_apply, refMsg_apply]
  refine congrArg₂ (· + ·) rfl ?_
  refine congrArg₂ max (congrArg₂ (· + ·) (Finset.sum_congr rfl fun k _ => ?_) ?_) rfl
  · rw [A_2_1_apply, sliceW_apply 13 (by decide)]; rfl
  · exact (sliceB_apply 13 (by decide) B _ e).trans rfl

/-- Layer 4 after sources 0 … 2, at an entry. -/
theorem A_4_2_apply (r : Fin 262144) (e : Fin 64) :
    A_4_2 (F := Ideal) x W B (ValueIdx.ix2 r e)
      = Cert.Layers.Z + Cert.Layers.msg (Cert.Layers.argW W) (Cert.Layers.argB B) 3 (Cert.Layers.row x r) e + Cert.Layers.msg (Cert.Layers.argW W) (Cert.Layers.argB B) 9 (Cert.Layers.h1 (Cert.Layers.argW W) (Cert.Layers.argB B) (Cert.Layers.row x r)) e + Cert.Layers.msg (Cert.Layers.argW W) (Cert.Layers.argB B) 14 (Cert.Layers.h2 (Cert.Layers.argW W) (Cert.Layers.argB B) (Cert.Layers.row x r)) e := by
  unfold A_4_2
  rw [ValueIdx.addf_apply, A_4_1_apply, refMsg_apply]
  refine congrArg₂ (· + ·) rfl ?_
  refine congrArg₂ max (congrArg₂ (· + ·) (Finset.sum_congr rfl fun k _ => ?_) ?_) rfl
  · rw [A_2_1_apply, sliceW_apply 14 (by decide)]; rfl
  · exact (sliceB_apply 14 (by decide) B _ e).trans rfl

/-- Layer 5 after sources 0 … 2, at an entry. -/
theorem A_5_2_apply (r : Fin 262144) (e : Fin 64) :
    A_5_2 (F := Ideal) x W B (ValueIdx.ix2 r e)
      = Cert.Layers.Z + Cert.Layers.msg (Cert.Layers.argW W) (Cert.Layers.argB B) 4 (Cert.Layers.row x r) e + Cert.Layers.msg (Cert.Layers.argW W) (Cert.Layers.argB B) 10 (Cert.Layers.h1 (Cert.Layers.argW W) (Cert.Layers.argB B) (Cert.Layers.row x r)) e + Cert.Layers.msg (Cert.Layers.argW W) (Cert.Layers.argB B) 15 (Cert.Layers.h2 (Cert.Layers.argW W) (Cert.Layers.argB B) (Cert.Layers.row x r)) e := by
  unfold A_5_2
  rw [ValueIdx.addf_apply, A_5_1_apply, refMsg_apply]
  refine congrArg₂ (· + ·) rfl ?_
  refine congrArg₂ max (congrArg₂ (· + ·) (Finset.sum_congr rfl fun k _ => ?_) ?_) rfl
  · rw [A_2_1_apply, sliceW_apply 15 (by decide)]; rfl
  · exact (sliceB_apply 15 (by decide) B _ e).trans rfl

/-- Layer 6 after sources 0 … 2, at an entry. -/
theorem A_6_2_apply (r : Fin 262144) (e : Fin 64) :
    A_6_2 (F := Ideal) x W B (ValueIdx.ix2 r e)
      = Cert.Layers.Z + Cert.Layers.msg (Cert.Layers.argW W) (Cert.Layers.argB B) 5 (Cert.Layers.row x r) e + Cert.Layers.msg (Cert.Layers.argW W) (Cert.Layers.argB B) 11 (Cert.Layers.h1 (Cert.Layers.argW W) (Cert.Layers.argB B) (Cert.Layers.row x r)) e + Cert.Layers.msg (Cert.Layers.argW W) (Cert.Layers.argB B) 16 (Cert.Layers.h2 (Cert.Layers.argW W) (Cert.Layers.argB B) (Cert.Layers.row x r)) e := by
  unfold A_6_2
  rw [ValueIdx.addf_apply, A_6_1_apply, refMsg_apply]
  refine congrArg₂ (· + ·) rfl ?_
  refine congrArg₂ max (congrArg₂ (· + ·) (Finset.sum_congr rfl fun k _ => ?_) ?_) rfl
  · rw [A_2_1_apply, sliceW_apply 16 (by decide)]; rfl
  · exact (sliceB_apply 16 (by decide) B _ e).trans rfl

/-- Layer 7 after sources 0 … 2, at an entry. -/
theorem A_7_2_apply (r : Fin 262144) (e : Fin 64) :
    A_7_2 (F := Ideal) x W B (ValueIdx.ix2 r e)
      = Cert.Layers.Z + Cert.Layers.msg (Cert.Layers.argW W) (Cert.Layers.argB B) 6 (Cert.Layers.row x r) e + Cert.Layers.msg (Cert.Layers.argW W) (Cert.Layers.argB B) 12 (Cert.Layers.h1 (Cert.Layers.argW W) (Cert.Layers.argB B) (Cert.Layers.row x r)) e + Cert.Layers.msg (Cert.Layers.argW W) (Cert.Layers.argB B) 17 (Cert.Layers.h2 (Cert.Layers.argW W) (Cert.Layers.argB B) (Cert.Layers.row x r)) e := by
  unfold A_7_2
  rw [ValueIdx.addf_apply, A_7_1_apply, refMsg_apply]
  refine congrArg₂ (· + ·) rfl ?_
  refine congrArg₂ max (congrArg₂ (· + ·) (Finset.sum_congr rfl fun k _ => ?_) ?_) rfl
  · rw [A_2_1_apply, sliceW_apply 17 (by decide)]; rfl
  · exact (sliceB_apply 17 (by decide) B _ e).trans rfl

/-- Layer 4 after sources 0 … 3, at an entry. -/
theorem A_4_3_apply (r : Fin 262144) (e : Fin 64) :
    A_4_3 (F := Ideal) x W B (ValueIdx.ix2 r e)
      = Cert.Layers.Z + Cert.Layers.msg (Cert.Layers.argW W) (Cert.Layers.argB B) 3 (Cert.Layers.row x r) e + Cert.Layers.msg (Cert.Layers.argW W) (Cert.Layers.argB B) 9 (Cert.Layers.h1 (Cert.Layers.argW W) (Cert.Layers.argB B) (Cert.Layers.row x r)) e + Cert.Layers.msg (Cert.Layers.argW W) (Cert.Layers.argB B) 14 (Cert.Layers.h2 (Cert.Layers.argW W) (Cert.Layers.argB B) (Cert.Layers.row x r)) e + Cert.Layers.msg (Cert.Layers.argW W) (Cert.Layers.argB B) 18 (Cert.Layers.h3 (Cert.Layers.argW W) (Cert.Layers.argB B) (Cert.Layers.row x r)) e := by
  unfold A_4_3
  rw [ValueIdx.addf_apply, A_4_2_apply, refMsg_apply]
  refine congrArg₂ (· + ·) rfl ?_
  refine congrArg₂ max (congrArg₂ (· + ·) (Finset.sum_congr rfl fun k _ => ?_) ?_) rfl
  · rw [A_3_2_apply, sliceW_apply 18 (by decide)]; rfl
  · exact (sliceB_apply 18 (by decide) B _ e).trans rfl

/-- Layer 5 after sources 0 … 3, at an entry. -/
theorem A_5_3_apply (r : Fin 262144) (e : Fin 64) :
    A_5_3 (F := Ideal) x W B (ValueIdx.ix2 r e)
      = Cert.Layers.Z + Cert.Layers.msg (Cert.Layers.argW W) (Cert.Layers.argB B) 4 (Cert.Layers.row x r) e + Cert.Layers.msg (Cert.Layers.argW W) (Cert.Layers.argB B) 10 (Cert.Layers.h1 (Cert.Layers.argW W) (Cert.Layers.argB B) (Cert.Layers.row x r)) e + Cert.Layers.msg (Cert.Layers.argW W) (Cert.Layers.argB B) 15 (Cert.Layers.h2 (Cert.Layers.argW W) (Cert.Layers.argB B) (Cert.Layers.row x r)) e + Cert.Layers.msg (Cert.Layers.argW W) (Cert.Layers.argB B) 19 (Cert.Layers.h3 (Cert.Layers.argW W) (Cert.Layers.argB B) (Cert.Layers.row x r)) e := by
  unfold A_5_3
  rw [ValueIdx.addf_apply, A_5_2_apply, refMsg_apply]
  refine congrArg₂ (· + ·) rfl ?_
  refine congrArg₂ max (congrArg₂ (· + ·) (Finset.sum_congr rfl fun k _ => ?_) ?_) rfl
  · rw [A_3_2_apply, sliceW_apply 19 (by decide)]; rfl
  · exact (sliceB_apply 19 (by decide) B _ e).trans rfl

/-- Layer 6 after sources 0 … 3, at an entry. -/
theorem A_6_3_apply (r : Fin 262144) (e : Fin 64) :
    A_6_3 (F := Ideal) x W B (ValueIdx.ix2 r e)
      = Cert.Layers.Z + Cert.Layers.msg (Cert.Layers.argW W) (Cert.Layers.argB B) 5 (Cert.Layers.row x r) e + Cert.Layers.msg (Cert.Layers.argW W) (Cert.Layers.argB B) 11 (Cert.Layers.h1 (Cert.Layers.argW W) (Cert.Layers.argB B) (Cert.Layers.row x r)) e + Cert.Layers.msg (Cert.Layers.argW W) (Cert.Layers.argB B) 16 (Cert.Layers.h2 (Cert.Layers.argW W) (Cert.Layers.argB B) (Cert.Layers.row x r)) e + Cert.Layers.msg (Cert.Layers.argW W) (Cert.Layers.argB B) 20 (Cert.Layers.h3 (Cert.Layers.argW W) (Cert.Layers.argB B) (Cert.Layers.row x r)) e := by
  unfold A_6_3
  rw [ValueIdx.addf_apply, A_6_2_apply, refMsg_apply]
  refine congrArg₂ (· + ·) rfl ?_
  refine congrArg₂ max (congrArg₂ (· + ·) (Finset.sum_congr rfl fun k _ => ?_) ?_) rfl
  · rw [A_3_2_apply, sliceW_apply 20 (by decide)]; rfl
  · exact (sliceB_apply 20 (by decide) B _ e).trans rfl

/-- Layer 7 after sources 0 … 3, at an entry. -/
theorem A_7_3_apply (r : Fin 262144) (e : Fin 64) :
    A_7_3 (F := Ideal) x W B (ValueIdx.ix2 r e)
      = Cert.Layers.Z + Cert.Layers.msg (Cert.Layers.argW W) (Cert.Layers.argB B) 6 (Cert.Layers.row x r) e + Cert.Layers.msg (Cert.Layers.argW W) (Cert.Layers.argB B) 12 (Cert.Layers.h1 (Cert.Layers.argW W) (Cert.Layers.argB B) (Cert.Layers.row x r)) e + Cert.Layers.msg (Cert.Layers.argW W) (Cert.Layers.argB B) 17 (Cert.Layers.h2 (Cert.Layers.argW W) (Cert.Layers.argB B) (Cert.Layers.row x r)) e + Cert.Layers.msg (Cert.Layers.argW W) (Cert.Layers.argB B) 21 (Cert.Layers.h3 (Cert.Layers.argW W) (Cert.Layers.argB B) (Cert.Layers.row x r)) e := by
  unfold A_7_3
  rw [ValueIdx.addf_apply, A_7_2_apply, refMsg_apply]
  refine congrArg₂ (· + ·) rfl ?_
  refine congrArg₂ max (congrArg₂ (· + ·) (Finset.sum_congr rfl fun k _ => ?_) ?_) rfl
  · rw [A_3_2_apply, sliceW_apply 21 (by decide)]; rfl
  · exact (sliceB_apply 21 (by decide) B _ e).trans rfl

/-- Layer 5 after sources 0 … 4, at an entry. -/
theorem A_5_4_apply (r : Fin 262144) (e : Fin 64) :
    A_5_4 (F := Ideal) x W B (ValueIdx.ix2 r e)
      = Cert.Layers.Z + Cert.Layers.msg (Cert.Layers.argW W) (Cert.Layers.argB B) 4 (Cert.Layers.row x r) e + Cert.Layers.msg (Cert.Layers.argW W) (Cert.Layers.argB B) 10 (Cert.Layers.h1 (Cert.Layers.argW W) (Cert.Layers.argB B) (Cert.Layers.row x r)) e + Cert.Layers.msg (Cert.Layers.argW W) (Cert.Layers.argB B) 15 (Cert.Layers.h2 (Cert.Layers.argW W) (Cert.Layers.argB B) (Cert.Layers.row x r)) e + Cert.Layers.msg (Cert.Layers.argW W) (Cert.Layers.argB B) 19 (Cert.Layers.h3 (Cert.Layers.argW W) (Cert.Layers.argB B) (Cert.Layers.row x r)) e + Cert.Layers.msg (Cert.Layers.argW W) (Cert.Layers.argB B) 22 (Cert.Layers.h4 (Cert.Layers.argW W) (Cert.Layers.argB B) (Cert.Layers.row x r)) e := by
  unfold A_5_4
  rw [ValueIdx.addf_apply, A_5_3_apply, refMsg_apply]
  refine congrArg₂ (· + ·) rfl ?_
  refine congrArg₂ max (congrArg₂ (· + ·) (Finset.sum_congr rfl fun k _ => ?_) ?_) rfl
  · rw [A_4_3_apply, sliceW_apply 22 (by decide)]; rfl
  · exact (sliceB_apply 22 (by decide) B _ e).trans rfl

/-- Layer 6 after sources 0 … 4, at an entry. -/
theorem A_6_4_apply (r : Fin 262144) (e : Fin 64) :
    A_6_4 (F := Ideal) x W B (ValueIdx.ix2 r e)
      = Cert.Layers.Z + Cert.Layers.msg (Cert.Layers.argW W) (Cert.Layers.argB B) 5 (Cert.Layers.row x r) e + Cert.Layers.msg (Cert.Layers.argW W) (Cert.Layers.argB B) 11 (Cert.Layers.h1 (Cert.Layers.argW W) (Cert.Layers.argB B) (Cert.Layers.row x r)) e + Cert.Layers.msg (Cert.Layers.argW W) (Cert.Layers.argB B) 16 (Cert.Layers.h2 (Cert.Layers.argW W) (Cert.Layers.argB B) (Cert.Layers.row x r)) e + Cert.Layers.msg (Cert.Layers.argW W) (Cert.Layers.argB B) 20 (Cert.Layers.h3 (Cert.Layers.argW W) (Cert.Layers.argB B) (Cert.Layers.row x r)) e + Cert.Layers.msg (Cert.Layers.argW W) (Cert.Layers.argB B) 23 (Cert.Layers.h4 (Cert.Layers.argW W) (Cert.Layers.argB B) (Cert.Layers.row x r)) e := by
  unfold A_6_4
  rw [ValueIdx.addf_apply, A_6_3_apply, refMsg_apply]
  refine congrArg₂ (· + ·) rfl ?_
  refine congrArg₂ max (congrArg₂ (· + ·) (Finset.sum_congr rfl fun k _ => ?_) ?_) rfl
  · rw [A_4_3_apply, sliceW_apply 23 (by decide)]; rfl
  · exact (sliceB_apply 23 (by decide) B _ e).trans rfl

/-- Layer 7 after sources 0 … 4, at an entry. -/
theorem A_7_4_apply (r : Fin 262144) (e : Fin 64) :
    A_7_4 (F := Ideal) x W B (ValueIdx.ix2 r e)
      = Cert.Layers.Z + Cert.Layers.msg (Cert.Layers.argW W) (Cert.Layers.argB B) 6 (Cert.Layers.row x r) e + Cert.Layers.msg (Cert.Layers.argW W) (Cert.Layers.argB B) 12 (Cert.Layers.h1 (Cert.Layers.argW W) (Cert.Layers.argB B) (Cert.Layers.row x r)) e + Cert.Layers.msg (Cert.Layers.argW W) (Cert.Layers.argB B) 17 (Cert.Layers.h2 (Cert.Layers.argW W) (Cert.Layers.argB B) (Cert.Layers.row x r)) e + Cert.Layers.msg (Cert.Layers.argW W) (Cert.Layers.argB B) 21 (Cert.Layers.h3 (Cert.Layers.argW W) (Cert.Layers.argB B) (Cert.Layers.row x r)) e + Cert.Layers.msg (Cert.Layers.argW W) (Cert.Layers.argB B) 24 (Cert.Layers.h4 (Cert.Layers.argW W) (Cert.Layers.argB B) (Cert.Layers.row x r)) e := by
  unfold A_7_4
  rw [ValueIdx.addf_apply, A_7_3_apply, refMsg_apply]
  refine congrArg₂ (· + ·) rfl ?_
  refine congrArg₂ max (congrArg₂ (· + ·) (Finset.sum_congr rfl fun k _ => ?_) ?_) rfl
  · rw [A_4_3_apply, sliceW_apply 24 (by decide)]; rfl
  · exact (sliceB_apply 24 (by decide) B _ e).trans rfl

/-- Layer 6 after sources 0 … 5, at an entry. -/
theorem A_6_5_apply (r : Fin 262144) (e : Fin 64) :
    A_6_5 (F := Ideal) x W B (ValueIdx.ix2 r e)
      = Cert.Layers.Z + Cert.Layers.msg (Cert.Layers.argW W) (Cert.Layers.argB B) 5 (Cert.Layers.row x r) e + Cert.Layers.msg (Cert.Layers.argW W) (Cert.Layers.argB B) 11 (Cert.Layers.h1 (Cert.Layers.argW W) (Cert.Layers.argB B) (Cert.Layers.row x r)) e + Cert.Layers.msg (Cert.Layers.argW W) (Cert.Layers.argB B) 16 (Cert.Layers.h2 (Cert.Layers.argW W) (Cert.Layers.argB B) (Cert.Layers.row x r)) e + Cert.Layers.msg (Cert.Layers.argW W) (Cert.Layers.argB B) 20 (Cert.Layers.h3 (Cert.Layers.argW W) (Cert.Layers.argB B) (Cert.Layers.row x r)) e + Cert.Layers.msg (Cert.Layers.argW W) (Cert.Layers.argB B) 23 (Cert.Layers.h4 (Cert.Layers.argW W) (Cert.Layers.argB B) (Cert.Layers.row x r)) e + Cert.Layers.msg (Cert.Layers.argW W) (Cert.Layers.argB B) 25 (Cert.Layers.h5 (Cert.Layers.argW W) (Cert.Layers.argB B) (Cert.Layers.row x r)) e := by
  unfold A_6_5
  rw [ValueIdx.addf_apply, A_6_4_apply, refMsg_apply]
  refine congrArg₂ (· + ·) rfl ?_
  refine congrArg₂ max (congrArg₂ (· + ·) (Finset.sum_congr rfl fun k _ => ?_) ?_) rfl
  · rw [A_5_4_apply, sliceW_apply 25 (by decide)]; rfl
  · exact (sliceB_apply 25 (by decide) B _ e).trans rfl

/-- Layer 7 after sources 0 … 5, at an entry. -/
theorem A_7_5_apply (r : Fin 262144) (e : Fin 64) :
    A_7_5 (F := Ideal) x W B (ValueIdx.ix2 r e)
      = Cert.Layers.Z + Cert.Layers.msg (Cert.Layers.argW W) (Cert.Layers.argB B) 6 (Cert.Layers.row x r) e + Cert.Layers.msg (Cert.Layers.argW W) (Cert.Layers.argB B) 12 (Cert.Layers.h1 (Cert.Layers.argW W) (Cert.Layers.argB B) (Cert.Layers.row x r)) e + Cert.Layers.msg (Cert.Layers.argW W) (Cert.Layers.argB B) 17 (Cert.Layers.h2 (Cert.Layers.argW W) (Cert.Layers.argB B) (Cert.Layers.row x r)) e + Cert.Layers.msg (Cert.Layers.argW W) (Cert.Layers.argB B) 21 (Cert.Layers.h3 (Cert.Layers.argW W) (Cert.Layers.argB B) (Cert.Layers.row x r)) e + Cert.Layers.msg (Cert.Layers.argW W) (Cert.Layers.argB B) 24 (Cert.Layers.h4 (Cert.Layers.argW W) (Cert.Layers.argB B) (Cert.Layers.row x r)) e + Cert.Layers.msg (Cert.Layers.argW W) (Cert.Layers.argB B) 26 (Cert.Layers.h5 (Cert.Layers.argW W) (Cert.Layers.argB B) (Cert.Layers.row x r)) e := by
  unfold A_7_5
  rw [ValueIdx.addf_apply, A_7_4_apply, refMsg_apply]
  refine congrArg₂ (· + ·) rfl ?_
  refine congrArg₂ max (congrArg₂ (· + ·) (Finset.sum_congr rfl fun k _ => ?_) ?_) rfl
  · rw [A_5_4_apply, sliceW_apply 26 (by decide)]; rfl
  · exact (sliceB_apply 26 (by decide) B _ e).trans rfl

/-- Layer 7 after sources 0 … 6, at an entry. -/
theorem A_7_6_apply (r : Fin 262144) (e : Fin 64) :
    A_7_6 (F := Ideal) x W B (ValueIdx.ix2 r e)
      = Cert.Layers.Z + Cert.Layers.msg (Cert.Layers.argW W) (Cert.Layers.argB B) 6 (Cert.Layers.row x r) e + Cert.Layers.msg (Cert.Layers.argW W) (Cert.Layers.argB B) 12 (Cert.Layers.h1 (Cert.Layers.argW W) (Cert.Layers.argB B) (Cert.Layers.row x r)) e + Cert.Layers.msg (Cert.Layers.argW W) (Cert.Layers.argB B) 17 (Cert.Layers.h2 (Cert.Layers.argW W) (Cert.Layers.argB B) (Cert.Layers.row x r)) e + Cert.Layers.msg (Cert.Layers.argW W) (Cert.Layers.argB B) 21 (Cert.Layers.h3 (Cert.Layers.argW W) (Cert.Layers.argB B) (Cert.Layers.row x r)) e + Cert.Layers.msg (Cert.Layers.argW W) (Cert.Layers.argB B) 24 (Cert.Layers.h4 (Cert.Layers.argW W) (Cert.Layers.argB B) (Cert.Layers.row x r)) e + Cert.Layers.msg (Cert.Layers.argW W) (Cert.Layers.argB B) 26 (Cert.Layers.h5 (Cert.Layers.argW W) (Cert.Layers.argB B) (Cert.Layers.row x r)) e + Cert.Layers.msg (Cert.Layers.argW W) (Cert.Layers.argB B) 27 (Cert.Layers.h6 (Cert.Layers.argW W) (Cert.Layers.argB B) (Cert.Layers.row x r)) e := by
  unfold A_7_6
  rw [ValueIdx.addf_apply, A_7_5_apply, refMsg_apply]
  refine congrArg₂ (· + ·) rfl ?_
  refine congrArg₂ max (congrArg₂ (· + ·) (Finset.sum_congr rfl fun k _ => ?_) ?_) rfl
  · rw [A_6_5_apply, sliceW_apply 27 (by decide)]; rfl
  · exact (sliceB_apply 27 (by decide) B _ e).trans rfl

/-- The last layer is the specification's result. -/
theorem A_7_6_eq_G : A_7_6 (F := Ideal) x W B = Cert.Layers.G x W B := by
  funext i
  obtain ⟨r, e, rfl⟩ : ∃ (r : Fin 262144) (e : Fin 64), i = ValueIdx.ix2 r e := ⟨i 0, i 1, ValueIdx.eq_ix2 i⟩
  exact (A_7_6_apply x W B r e).trans rfl

end Cert.ReferenceIdeal.RefValue

end
-- ==== Proof.RefRun.lean ====
/-
  The reference's run: every weakly fair execution terminates, the result buffer holds the specification's
  result of the launch arguments, and the arguments are unchanged.

  The program is a straight line of operations, so its run is the fold of their results over the launch contents;
  the fold was stepped connection by connection to the named layer arrays, and the last of them was read entry by
  entry as the specification's layer 7.
-/
import proofs.«164341_j31275951850011_2_alg».proof.Proof.RefIndex

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

/-- Every weakly fair execution of the reference terminates with the result at `G` of the launch arguments, the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v314) = Cert.Layers.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨h0, h1, h2, -, -, -, -, -, -, a7⟩ := inv_full (F := Ideal) (launchContents m c)
      exact ⟨(h c main_v314).trans (a7.trans (A_7_6_eq_G _ _ _)), (h c main_arg0).trans h0,
        (h c main_arg1).trans h1, (h c main_arg2).trans h2⟩)
    (run_seq scopedRefs_eq scopedSems_eq defs main (fun _ => full) main_eq (fun _ => full_sub) m ρ
      (fun _ => full_fresh))

end Cert.ReferenceIdeal.RefValue

end
-- ==== Proof.lean ====
/-
  The certificate of an eight-layer feed-forward network in which every layer feeds every later layer
  (28 connections, each `v ↦ max (W c · v + b c) 0`, layer `j` the sum of the messages it receives, layer 0 the input
  row, the result layer 7), computed two ways: the kernel multiplies each source layer ONCE by the side-by-side
  packing of the weights of all its targets and adds each 64-column slice of the product into its target's
  accumulator; the reference multiplies connection by connection. At the exact extended reals a change of float
  format is the identity, so both programs compute, entry by entry, the very same expression — the same products,
  summed in the same order (source by source) from the same zero — and no algebraic law, hence no finiteness of the
  inputs, is needed: `Cert.Layers.G` (Proof/Layers.lean) is that expression as one function of the three argument
  arrays, the kernel's run ends at it (Proof/KValue.lean, over the body's value in Proof/KBody.lean) and so does the
  reference's (Proof/RefRun.lean).

  The three frames: the kernel's two are the generated frame certificates; the reference's is its run with the result
  dropped. The idealization rewrote no operation of the kernel, so `preserves` is `True`.
-/
import proofs.«164341_j31275951850011_2_alg».proof.Defs
import proofs.«164341_j31275951850011_2_alg».proof.Proof.Gen.Kernel
import proofs.«164341_j31275951850011_2_alg».proof.Proof.Gen.Kernel.Frame
import proofs.«164341_j31275951850011_2_alg».proof.Proof.Gen.KernelIdeal
import proofs.«164341_j31275951850011_2_alg».proof.Proof.Gen.KernelIdeal.Frame
import proofs.«164341_j31275951850011_2_alg».proof.Proof.Gen.KernelIdeal.Value
import proofs.«164341_j31275951850011_2_alg».proof.Proof.Gen.ReferenceIdeal
import proofs.«164341_j31275951850011_2_alg».proof.Proof.Gen.Pre_finite_inputs
import proofs.«164341_j31275951850011_2_alg».proof.Proof.KValue
import proofs.«164341_j31275951850011_2_alg».proof.Proof.RefRun

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame is its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefValue.run m ρ)

/-- Both runs end at the layered network's result on the arguments, and the arguments agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
